-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S64x128 : Shape := ⟨2, ![64, 128]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S64x128 .f32) : IVec S_ 1 :=
  let main_v0 : FVec F S64x128 .f32 := Host.absf main_arg1
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 63#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S64x128 : Shape := ⟨2, ![64, 128]⟩
abbrev S819200 : Shape := ⟨1, ![819200]⟩
abbrev S819200x128 : Shape := ⟨2, ![819200, 128]⟩
abbrev S25600 : Shape := ⟨1, ![25600]⟩
abbrev S128x128 : Shape := ⟨2, ![128, 128]⟩
abbrev S_ : Shape := ⟨0, ![]⟩
abbrev S128 : Shape := ⟨1, ![128]⟩
abbrev S4096x200x128 : Shape := ⟨3, ![4096, 200, 128]⟩

abbrev nBuf : Table → Nat
  | .hbm => 5
  | .shared => 1
  | .local .scVector .vmem => 6
  | _ => 0

abbrev bufTy : (tb : Table) → Fin (nBuf tb) → BufTy
  | .hbm, ⟨0, _⟩ => ⟨S4096x200, .i32⟩
  | .hbm, ⟨1, _⟩ => ⟨S64x128, .f32⟩
  | .hbm, ⟨2, _⟩ => ⟨S819200, .i32⟩
  | .hbm, ⟨3, _⟩ => ⟨S819200x128, .f32⟩
  | .hbm, ⟨4, _⟩ => ⟨S4096x200x128, .f32⟩
  | .shared, ⟨0, _⟩ => ⟨S64x128, .f32⟩
  | .local .scVector .vmem, ⟨0, _⟩ => ⟨S25600, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S4096x200, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 5 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch1 : Ref sig .scVector := ⟨.shared, 0, rfl⟩
abbrev cc0_scratch0 : Ref sig .scVector := ⟨.vmem, 0, rfl⟩
abbrev cc0_scratch2 : Ref sig .scVector := ⟨.vmem, 1, rfl⟩
abbrev cc0_scratch3 : Ref sig .scVector := ⟨.vmem, 2, rfl⟩
abbrev cc0_scratch4 : Ref sig .scVector := ⟨.vmem, 3, rfl⟩
abbrev cc0_scratch5 : Ref sig .scVector := ⟨.vmem, 4, rfl⟩
abbrev cc0_scratch6 : Ref sig .scVector := ⟨.vmem, 5, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k0_t1_loop : Scf.Loop 32 :=
  let c0_i32_2 : BitVec 32 := 0#32
  let c40_i32 : BitVec 32 := 40#32
  let v6 : BitVec 32 := Scalar.addi c0_i32_2 c40_i32
  let c1_i32 : BitVec 32 := 1#32
  ⟨c0_i32_2, v6, c1_i32⟩
def k0_cond2 (k0_t1 : Fin k0_t1_loop.trips) : BitVec 1 :=
  let c0_i32_2 : BitVec 32 := 0#32
  let c1_i32 : BitVec 32 := 1#32
  let arg22 : BitVec 32 := Scf.iv c0_i32_2 c1_i32 k0_t1
  let c0_i32_25 : BitVec 32 := 0#32
  let v29 : BitVec 1 := Scalar.cmpi .sgt arg22 c0_i32_25
  let v30 : BitVec 32 := Scalar.extui v29
  let c0_i32_26 : BitVec 32 := 0#32
  let v31 : BitVec 1 := Scalar.cmpi .ne v30 c0_i32_26
  v31

def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_66 : BitVec 32 := 0#32
  ![v2.toNat, 0]
def k0_off3 (k0_t1 : Fin k0_t1_loop.trips) (c0_i32_24 : BitVec 32) : Fin 1 → Nat :=
  let c0_i32_2 : BitVec 32 := 0#32
  let c1_i32 : BitVec 32 := 1#32
  let arg22 : BitVec 32 := Scf.iv c0_i32_2 c1_i32 k0_t1
  let c5_i32 : BitVec 32 := 5#32
  let v27 : BitVec 32 := Scalar.muli arg22 c5_i32
  let v28 : BitVec 32 := Scalar.addi v27 c0_i32_24
  let c128_i32 : BitVec 32 := 128#32
  let v32 : BitVec 32 := Scalar.muli v28 c128_i32
  ![v32.toNat]
def k0_cond3 (k0_t1 : Fin k0_t1_loop.trips) : BitVec 1 :=
  let c0_i32_2 : BitVec 32 := 0#32
  let c1_i32 : BitVec 32 := 1#32
  let arg22 : BitVec 32 := Scf.iv c0_i32_2 c1_i32 k0_t1
  let c5_i32 : BitVec 32 := 5#32
  let v27 : BitVec 32 := Scalar.muli arg22 c5_i32
  let c0_i32_24 : BitVec 32 := 0#32
  let v28 : BitVec 32 := Scalar.addi v27 c0_i32_24
  let c2_i32_29 : BitVec 32 := 2#32
  let v35 : BitVec 32 := Scalar.subi v28 c2_i32_29
  let c0_i32_30 : BitVec 32 := 0#32
  let v36 : BitVec 1 := Scalar.cmpi .sge v35 c0_i32_30
  let v37 : BitVec 32 := Scalar.extui v36
  let c0_i32_31 : BitVec 32 := 0#32
  let v38 : BitVec 1 := Scalar.cmpi .ne v37 c0_i32_31
  v38

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_2 : BitVec 32 := 0#32
  let c1_i32 : BitVec 32 := 1#32
  let arg22 : BitVec 32 := Scf.iv c0_i32_2 c1_i32 k0_t1
  let c5_i32 : BitVec 32 := 5#32
  let v27 : BitVec 32 := Scalar.muli arg22 c5_i32
  let c0_i32_24 : BitVec 32 := 0#32
  let v28 : BitVec 32 := Scalar.addi v27 c0_i32_24
  let c2_i32_29 : BitVec 32 := 2#32
  let v35 : BitVec 32 := Scalar.subi v28 c2_i32_29
  let c128_i32_69 : BitVec 32 := 128#32
  let v85 : BitVec 32 := Scalar.muli v35 c128_i32_69
  let v86 : BitVec 32 := Scalar.addi v2 v85
  let c0_i32_70 : BitVec 32 := 0#32
  ![v86.toNat, 0]
def k0_cond4 (k0_t1 : Fin k0_t1_loop.trips) : BitVec 1 :=
  let c0_i32_2 : BitVec 32 := 0#32
  let c1_i32 : BitVec 32 := 1#32
  let arg22 : BitVec 32 := Scf.iv c0_i32_2 c1_i32 k0_t1
  let c0_i32_33 : BitVec 32 := 0#32
  let v40 : BitVec 1 := Scalar.cmpi .sgt arg22 c0_i32_33
  let v41 : BitVec 32 := Scalar.extui v40
  let c0_i32_34 : BitVec 32 := 0#32
  let v42 : BitVec 1 := Scalar.cmpi .ne v41 c0_i32_34
  v42

def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_66 : BitVec 32 := 0#32
  ![v2.toNat, 0]
def k0_cond5 (k0_t1 : Fin k0_t1_loop.trips) : BitVec 1 :=
  let c0_i32_2 : BitVec 32 := 0#32
  let c1_i32 : BitVec 32 := 1#32
  let arg22 : BitVec 32 := Scf.iv c0_i32_2 c1_i32 k0_t1
  let c5_i32 : BitVec 32 := 5#32
  let v27 : BitVec 32 := Scalar.muli arg22 c5_i32
  let c1_i32_32 : BitVec 32 := 1#32
  let v39 : BitVec 32 := Scalar.addi v27 c1_i32_32
  let c2_i32_38 : BitVec 32 := 2#32
  let v46 : BitVec 32 := Scalar.subi v39 c2_i32_38
  let c0_i32_39 : BitVec 32 := 0#32
  let v47 : BitVec 1 := Scalar.cmpi .sge v46 c0_i32_39
  let v48 : BitVec 32 := Scalar.extui v47
  let c0_i32_40 : BitVec 32 := 0#32
  let v49 : BitVec 1 := Scalar.cmpi .ne v48 c0_i32_40
  v49

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_2 : BitVec 32 := 0#32
  let c1_i32 : BitVec 32 := 1#32
  let arg22 : BitVec 32 := Scf.iv c0_i32_2 c1_i32 k0_t1
  let c5_i32 : BitVec 32 := 5#32
  let v27 : BitVec 32 := Scalar.muli arg22 c5_i32
  let c1_i32_32 : BitVec 32 := 1#32
  let v39 : BitVec 32 := Scalar.addi v27 c1_i32_32
  let c2_i32_38 : BitVec 32 := 2#32
  let v46 : BitVec 32 := Scalar.subi v39 c2_i32_38
  let c128_i32_69 : BitVec 32 := 128#32
  let v85 : BitVec 32 := Scalar.muli v46 c128_i32_69
  let v86 : BitVec 32 := Scalar.addi v2 v85
  let c0_i32_70 : BitVec 32 := 0#32
  ![v86.toNat, 0]
def k0_cond6 (k0_t1 : Fin k0_t1_loop.trips) : BitVec 1 :=
  let c0_i32_2 : BitVec 32 := 0#32
  let c1_i32 : BitVec 32 := 1#32
  let arg22 : BitVec 32 := Scf.iv c0_i32_2 c1_i32 k0_t1
  let c0_i32_42 : BitVec 32 := 0#32
  let v51 : BitVec 1 := Scalar.cmpi .sgt arg22 c0_i32_42
  let v52 : BitVec 32 := Scalar.extui v51
  let c0_i32_43 : BitVec 32 := 0#32
  let v53 : BitVec 1 := Scalar.cmpi .ne v52 c0_i32_43
  v53

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_66 : BitVec 32 := 0#32
  ![v2.toNat, 0]
def k0_cond7 (k0_t1 : Fin k0_t1_loop.trips) : BitVec 1 :=
  let c0_i32_2 : BitVec 32 := 0#32
  let c1_i32 : BitVec 32 := 1#32
  let arg22 : BitVec 32 := Scf.iv c0_i32_2 c1_i32 k0_t1
  let c5_i32 : BitVec 32 := 5#32
  let v27 : BitVec 32 := Scalar.muli arg22 c5_i32
  let c2_i32_41 : BitVec 32 := 2#32
  let v50 : BitVec 32 := Scalar.addi v27 c2_i32_41
  let c2_i32_47 : BitVec 32 := 2#32
  let v57 : BitVec 32 := Scalar.subi v50 c2_i32_47
  let c0_i32_48 : BitVec 32 := 0#32
  let v58 : BitVec 1 := Scalar.cmpi .sge v57 c0_i32_48
  let v59 : BitVec 32 := Scalar.extui v58
  let c0_i32_49 : BitVec 32 := 0#32
  let v60 : BitVec 1 := Scalar.cmpi .ne v59 c0_i32_49
  v60

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_2 : BitVec 32 := 0#32
  let c1_i32 : BitVec 32 := 1#32
  let arg22 : BitVec 32 := Scf.iv c0_i32_2 c1_i32 k0_t1
  let c5_i32 : BitVec 32 := 5#32
  let v27 : BitVec 32 := Scalar.muli arg22 c5_i32
  let c2_i32_41 : BitVec 32 := 2#32
  let v50 : BitVec 32 := Scalar.addi v27 c2_i32_41
  let c2_i32_47 : BitVec 32 := 2#32
  let v57 : BitVec 32 := Scalar.subi v50 c2_i32_47
  let c128_i32_69 : BitVec 32 := 128#32
  let v85 : BitVec 32 := Scalar.muli v57 c128_i32_69
  let v86 : BitVec 32 := Scalar.addi v2 v85
  let c0_i32_70 : BitVec 32 := 0#32
  ![v86.toNat, 0]
def k0_cond8 (k0_t1 : Fin k0_t1_loop.trips) : BitVec 1 :=
  let c0_i32_2 : BitVec 32 := 0#32
  let c1_i32 : BitVec 32 := 1#32
  let arg22 : BitVec 32 := Scf.iv c0_i32_2 c1_i32 k0_t1
  let c0_i32_50 : BitVec 32 := 0#32
  let v62 : BitVec 1 := Scalar.cmpi .sgt arg22 c0_i32_50
  let v63 : BitVec 32 := Scalar.extui v62
  let c0_i32_51 : BitVec 32 := 0#32
  let v64 : BitVec 1 := Scalar.cmpi .ne v63 c0_i32_51
  v64

def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_66 : BitVec 32 := 0#32
  ![v2.toNat, 0]
def k0_cond9 (k0_t1 : Fin k0_t1_loop.trips) : BitVec 1 :=
  let c0_i32_2 : BitVec 32 := 0#32
  let c1_i32 : BitVec 32 := 1#32
  let arg22 : BitVec 32 := Scf.iv c0_i32_2 c1_i32 k0_t1
  let c5_i32 : BitVec 32 := 5#32
  let v27 : BitVec 32 := Scalar.muli arg22 c5_i32
  let c3_i32 : BitVec 32 := 3#32
  let v61 : BitVec 32 := Scalar.addi v27 c3_i32
  let c2_i32_55 : BitVec 32 := 2#32
  let v68 : BitVec 32 := Scalar.subi v61 c2_i32_55
  let c0_i32_56 : BitVec 32 := 0#32
  let v69 : BitVec 1 := Scalar.cmpi .sge v68 c0_i32_56
  let v70 : BitVec 32 := Scalar.extui v69
  let c0_i32_57 : BitVec 32 := 0#32
  let v71 : BitVec 1 := Scalar.cmpi .ne v70 c0_i32_57
  v71

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_2 : BitVec 32 := 0#32
  let c1_i32 : BitVec 32 := 1#32
  let arg22 : BitVec 32 := Scf.iv c0_i32_2 c1_i32 k0_t1
  let c5_i32 : BitVec 32 := 5#32
  let v27 : BitVec 32 := Scalar.muli arg22 c5_i32
  let c3_i32 : BitVec 32 := 3#32
  let v61 : BitVec 32 := Scalar.addi v27 c3_i32
  let c2_i32_55 : BitVec 32 := 2#32
  let v68 : BitVec 32 := Scalar.subi v61 c2_i32_55
  let c128_i32_69 : BitVec 32 := 128#32
  let v85 : BitVec 32 := Scalar.muli v68 c128_i32_69
  let v86 : BitVec 32 := Scalar.addi v2 v85
  let c0_i32_70 : BitVec 32 := 0#32
  ![v86.toNat, 0]
def k0_cond10 (k0_t1 : Fin k0_t1_loop.trips) : BitVec 1 :=
  let c0_i32_2 : BitVec 32 := 0#32
  let c1_i32 : BitVec 32 := 1#32
  let arg22 : BitVec 32 := Scf.iv c0_i32_2 c1_i32 k0_t1
  let c0_i32_58 : BitVec 32 := 0#32
  let v73 : BitVec 1 := Scalar.cmpi .sgt arg22 c0_i32_58
  let v74 : BitVec 32 := Scalar.extui v73
  let c0_i32_59 : BitVec 32 := 0#32
  let v75 : BitVec 1 := Scalar.cmpi .ne v74 c0_i32_59
  v75

def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_66 : BitVec 32 := 0#32
  ![v2.toNat, 0]
def k0_cond11 (k0_t1 : Fin k0_t1_loop.trips) : BitVec 1 :=
  let c0_i32_2 : BitVec 32 := 0#32
  let c1_i32 : BitVec 32 := 1#32
  let arg22 : BitVec 32 := Scf.iv c0_i32_2 c1_i32 k0_t1
  let c5_i32 : BitVec 32 := 5#32
  let v27 : BitVec 32 := Scalar.muli arg22 c5_i32
  let c4_i32 : BitVec 32 := 4#32
  let v72 : BitVec 32 := Scalar.addi v27 c4_i32
  let c2_i32_63 : BitVec 32 := 2#32
  let v79 : BitVec 32 := Scalar.subi v72 c2_i32_63
  let c0_i32_64 : BitVec 32 := 0#32
  let v80 : BitVec 1 := Scalar.cmpi .sge v79 c0_i32_64
  let v81 : BitVec 32 := Scalar.extui v80
  let c0_i32_65 : BitVec 32 := 0#32
  let v82 : BitVec 1 := Scalar.cmpi .ne v81 c0_i32_65
  v82

def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_2 : BitVec 32 := 0#32
  let c1_i32 : BitVec 32 := 1#32
  let arg22 : BitVec 32 := Scf.iv c0_i32_2 c1_i32 k0_t1
  let c5_i32 : BitVec 32 := 5#32
  let v27 : BitVec 32 := Scalar.muli arg22 c5_i32
  let c4_i32 : BitVec 32 := 4#32
  let v72 : BitVec 32 := Scalar.addi v27 c4_i32
  let c2_i32_63 : BitVec 32 := 2#32
  let v79 : BitVec 32 := Scalar.subi v72 c2_i32_63
  let c128_i32_69 : BitVec 32 := 128#32
  let v85 : BitVec 32 := Scalar.muli v79 c128_i32_69
  let v86 : BitVec 32 := Scalar.addi v2 v85
  let c0_i32_70 : BitVec 32 := 0#32
  ![v86.toNat, 0]
def k0_off13 (i : grid0.Coords) (c25344_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v9 : BitVec 32 := Scalar.addi v2 c25344_i32
  let c0_i32_7 : BitVec 32 := 0#32
  ![v9.toNat, 0]
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_14 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S819200 : S4096x200.ShapeCasts S819200
  inb_S64x128_S64x128_0_0 : ∀ a, (![0, 0] : Fin 2 → Nat) a + S64x128.size a ≤ S64x128.size a
  gathers_S64x128_S128x128 : S64x128.Gathers 0 S128x128
  inb_S25600_S128_0 : ∀ a, (![0] : Fin 1 → Nat) a + S128.size a ≤ S25600.size a
  shapeCasts_S819200x128_S4096x200x128 : S819200x128.ShapeCasts S4096x200x128
  hcc0_scratch7 : 0 + S_.numel ≤ 12
  hcc0_scratch8 : 1 + S_.numel ≤ 12
  hcc0_scratch9 : 2 + S_.numel ≤ 12
  hcc0_scratch10 : 3 + S_.numel ≤ 12
  hcc0_scratch11 : 4 + S_.numel ≤ 12
  hcc0_scratch12 : 5 + S_.numel ≤ 12
  hcc0_scratch13 : 6 + S_.numel ≤ 12
  hcc0_scratch14 : 7 + S_.numel ≤ 12
  hcc0_scratch15 : 8 + S_.numel ≤ 12
  hcc0_scratch16 : 9 + S_.numel ≤ 12
  hcc0_scoped0 : 10 + S_.numel ≤ 12
  hcc0_scoped1 : 11 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S25600.size a ≤ S819200.size a
  k0_t1_ok : k0_t1_loop.OK
  k0_off2_inb : ∀ (i : grid0.Coords) (k0_t1 : Fin k0_t1_loop.trips), ∀ (k0_h2 : k0_cond2 k0_t1 = 1#1), ∀ a, (k0_off2 i) a + S128x128.size a ≤ S819200x128.size a
  k0_off3_inb : ∀ k0_t1 : Fin k0_t1_loop.trips, ∀ (r : Fin 5), ∀ a, (k0_off3 k0_t1 (BitVec.ofNat 32 r.val)) a + S128.size a ≤ S25600.size a
  k0_off4_inb : ∀ (i : grid0.Coords) (k0_t1 : Fin k0_t1_loop.trips), ∀ (k0_h3 : k0_cond3 k0_t1 = 1#1), ∀ a, (k0_off4 i k0_t1) a + S128x128.size a ≤ S819200x128.size a
  k0_off5_inb : ∀ (i : grid0.Coords) (k0_t1 : Fin k0_t1_loop.trips), ∀ (k0_h4 : k0_cond4 k0_t1 = 1#1), ∀ a, (k0_off5 i) a + S128x128.size a ≤ S819200x128.size a
  k0_off6_inb : ∀ (i : grid0.Coords) (k0_t1 : Fin k0_t1_loop.trips), ∀ (k0_h5 : k0_cond5 k0_t1 = 1#1), ∀ a, (k0_off6 i k0_t1) a + S128x128.size a ≤ S819200x128.size a
  k0_off7_inb : ∀ (i : grid0.Coords) (k0_t1 : Fin k0_t1_loop.trips), ∀ (k0_h6 : k0_cond6 k0_t1 = 1#1), ∀ a, (k0_off7 i) a + S128x128.size a ≤ S819200x128.size a
  k0_off8_inb : ∀ (i : grid0.Coords) (k0_t1 : Fin k0_t1_loop.trips), ∀ (k0_h7 : k0_cond7 k0_t1 = 1#1), ∀ a, (k0_off8 i k0_t1) a + S128x128.size a ≤ S819200x128.size a
  k0_off9_inb : ∀ (i : grid0.Coords) (k0_t1 : Fin k0_t1_loop.trips), ∀ (k0_h8 : k0_cond8 k0_t1 = 1#1), ∀ a, (k0_off9 i) a + S128x128.size a ≤ S819200x128.size a
  k0_off10_inb : ∀ (i : grid0.Coords) (k0_t1 : Fin k0_t1_loop.trips), ∀ (k0_h9 : k0_cond9 k0_t1 = 1#1), ∀ a, (k0_off10 i k0_t1) a + S128x128.size a ≤ S819200x128.size a
  k0_off11_inb : ∀ (i : grid0.Coords) (k0_t1 : Fin k0_t1_loop.trips), ∀ (k0_h10 : k0_cond10 k0_t1 = 1#1), ∀ a, (k0_off11 i) a + S128x128.size a ≤ S819200x128.size a
  k0_off12_inb : ∀ (i : grid0.Coords) (k0_t1 : Fin k0_t1_loop.trips), ∀ (k0_h11 : k0_cond11 k0_t1 = 1#1), ∀ a, (k0_off12 i k0_t1) a + S128x128.size a ≤ S819200x128.size a
  k0_off13_inb : ∀ i : grid0.Coords, ∀ (r : Fin 2), ∀ a, (k0_off13 i (BitVec.ofNat 32 (25344 + 128 * r.val))) a + S128x128.size a ≤ S819200x128.size a
  k0_off14_inb : ∀ i : grid0.Coords, ∀ a, (k0_off14 i) a + S128x128.size a ≤ S819200x128.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
abbrev cc0_scratch13 : DmaSems sig S_ := SemArray.consecutive 6 S_ hcc0_scratch13
abbrev cc0_scratch14 : DmaSems sig S_ := SemArray.consecutive 7 S_ hcc0_scratch14
abbrev cc0_scratch15 : DmaSems sig S_ := SemArray.consecutive 8 S_ hcc0_scratch15
abbrev cc0_scratch16 : DmaSems sig S_ := SemArray.consecutive 9 S_ hcc0_scratch16
abbrev cc0_scoped0 : DmaSems sig S_ := SemArray.consecutive 10 S_ hcc0_scoped0
abbrev cc0_scoped1 : DmaSems sig S_ := SemArray.consecutive 11 S_ hcc0_scoped1

class Facts : Prop extends Facts₀ where

variable [Facts]
-- ==== ReferenceIdeal.lean ====
abbrev S4096x200 : Shape := ⟨2, ![4096, 200]⟩
abbrev S64x128 : Shape := ⟨2, ![64, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S64x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S64x128_S4096x200x1_S4096x200x128_2_0_n_n_0_2_1128_wf : GatherDims.WF S64x128 S4096x200x1 S4096x200x128 [2] [0] [] [0] [] 2 ![1, 128]

variable [Facts₀]

def gather_S64x128_S4096x200x1_S4096x200x128_2_0_n_n_0_2_1128 : GatherDims S64x128 S4096x200x1 S4096x200x128 where
  offsetDims := [2]
  collapsedSliceDims := [0]
  operandBatchingDims := []
  startIndicesBatchingDims := []
  startIndexMap := [0]
  indexVectorDim := 2
  sliceSizes := ![1, 128]
  wf := gather_S64x128_S4096x200x1_S4096x200x128_2_0_n_n_0_2_1128_wf

class Facts : Prop extends Facts₀ where

variable [Facts]
-- ==== Proof.Spec.lean ====
/-
  The embedding lookup as one function of the two argument arrays.

  An index array `idx` of shape [4096, 200] holds 32-bit words; a table `tab` of shape [64, 128] holds
  the rows. Entry (b, s, d) of the result is entry (idx[b, s], d) of the table. A word is read as a row
  number modulo 64, so that the function is total; where every word is below 64 (the claim's domain)
  the reduction is the identity. The same lookup over the flattened index array, [819200], gives the
  row-major array [819200, 128]: row r of it is row idx[r] of the table.
-/
import Idealize.ShloMosaic.Lib.ValueIdx

noncomputable section

namespace Cert.Lookup

open Idealize.ShloMosaic Idealize.ShloMosaic.ValueIdx

abbrev SIdx : Shape := ⟨2, ![4096, 200]⟩
abbrev STab : Shape := ⟨2, ![64, 128]⟩
abbrev SOut : Shape := ⟨3, ![4096, 200, 128]⟩
abbrev SFlat : Shape := ⟨1, ![819200]⟩
abbrev SRows : Shape := ⟨2, ![819200, 128]⟩

/-- The table row a word names: its value as a natural number, reduced modulo the 64 rows. -/
def rowOf (w : BitVec 32) : Fin 64 := ⟨w.toNat % 64, Nat.mod_lt _ (by decide)⟩

theorem rowOf_val_of_lt {w : BitVec 32} (h : w.toNat < 64) : (rowOf w).val = w.toNat := Nat.mod_eq_of_lt h

/-- The lookup: entry (b, s, d) is the table's entry (idx[b, s], d). -/
def G {α : Type} (idx : SIdx.Idx → BitVec 32) (tab : STab.Idx → α) : SOut.Idx → α :=
  fun i => tab (ix2 (n0 := 64) (n1 := 128) (rowOf (idx (ix2 (n0 := 4096) (n1 := 200) (i 0) (i 1)))) (i 2))

/-- The lookup over the flattened indices: entry (r, d) is the table's entry (idx[r], d). -/
def Gflat {α : Type} (idx : SFlat.Idx → BitVec 32) (tab : STab.Idx → α) : SRows.Idx → α :=
  fun i => tab (ix2 (n0 := 64) (n1 := 128) (rowOf (idx (ix1 (n := 819200) (i 0)))) (i 1))

end Cert.Lookup

end
-- ==== Proof.RefRange.lean ====
/-
  The index range, read out of the precondition.

  The precondition's value is the conjunction of two conjunctions over all entries: every table entry is
  finite, and every index word w satisfies 0 ≤ w and w ≤ 63 as a signed number. From its being 1 the second
  conjunction is 1, so each of its entries is 1, and a word in [0, 63] signed is below 64 unsigned.
-/
import proofs.«203224_g2765958938866_cont_9to1_225_22_alg».proof.Proof.Gen.Pre_input_domain
import Idealize.ShloMosaic.Lib.ReduceAll

noncomputable section

namespace Cert.RefSide

open Idealize.ShloMosaic

/-- The rank-0 shape has one index. -/
instance subsingleton_S_ : Subsingleton Cert.Pre_input_domain.S_.Idx := ⟨fun a b => funext fun d => d.elim0⟩

/-- A word between 0 and 63, read signed, is between 0 and 63 read unsigned. -/
theorem toNat_lt_of_signed {w : BitVec 32} (h0 : (0#32 : BitVec 32).toInt ≤ w.toInt) (h1 : w.toInt ≤ (63#32 : BitVec 32).toInt) :
    w.toNat < 64 := by
  have e0 : (0#32 : BitVec 32).toInt = 0 := by decide
  have e1 : (63#32 : BitVec 32).toInt = 63 := by decide
  rw [e0] at h0
  rw [e1] at h1
  have h32 := w.isLt
  rw [BitVec.toInt_eq_toNat_cond] at h0 h1
  split at h0 <;> omega

/-- Under the precondition every index word is between 0 and 63 as a signed number. -/
theorem signed_range_of_pre {F : FTy → Type} [FloatOps F] (a0 : IVec Cert.Pre_input_domain.S4096x200 32)
    (a1 : FVec F Cert.Pre_input_domain.S64x128 .f32) (h : Cert.Pre_input_domain.fn (F := F) a0 a1 = fun _ => 1#1) :
    ∀ i, 0 ≤ (a0 i).toInt ∧ (a0 i).toInt ≤ 63 := by
  intro i
  have e := congrFun h (fun a => a.elim0)
  dsimp only [Cert.Pre_input_domain.fn] at e
  obtain ⟨-, e2⟩ := IntOp.andi_eq_one.1 e
  have e3 := Host.reduce_andi_all _ _ _ _ _ e2 i
  obtain ⟨h0, h1⟩ := IntOp.andi_eq_one.1 e3
  have h0' := IntOp.cmpi_sge.1 h0
  have h1' := IntOp.cmpi_sle.1 h1
  have e0 : (0#32 : BitVec 32).toInt = 0 := by decide
  have e1 : (63#32 : BitVec 32).toInt = 63 := by decide
  exact ⟨e0 ▸ h0', e1 ▸ h1'⟩

/-- Under the precondition every index word is below 64. -/
theorem range_of_pre {F : FTy → Type} [FloatOps F] (a0 : IVec Cert.Pre_input_domain.S4096x200 32)
    (a1 : FVec F Cert.Pre_input_domain.S64x128 .f32) (h : Cert.Pre_input_domain.fn (F := F) a0 a1 = fun _ => 1#1) :
    ∀ i, (a0 i).toNat < 64 := by
  intro i
  obtain ⟨h0, h1⟩ := signed_range_of_pre a0 a1 h i
  have h32 := (a0 i).isLt
  rw [BitVec.toInt_eq_toNat_cond] at h0 h1
  split at h0 <;> omega

end Cert.RefSide

end
-- ==== Proof.RefTerm.lean ====
/-
  The reference's result as one function of the two argument arrays, and that function read at an index.

  The lookup in fill mode moves a negative index up by 64, reads the table row the index names (the gather
  clamps the index into the table), and replaces by a constant every entry whose index is outside [0, 63].
  Where every index word w satisfies 0 ≤ w ≤ 63 as a signed number, no index is moved, no entry is replaced,
  the clamp is the identity, and entry (b, s, d) is the table's entry (idx[b, s], d).
-/
import proofs.«203224_g2765958938866_cont_9to1_225_22_alg».proof.Proof.Gen.ReferenceIdeal
import proofs.«203224_g2765958938866_cont_9to1_225_22_alg».proof.Proof.Spec
import Idealize.ShloMosaic.Lib.ValueIdx
import Idealize.ShloMosaic.Lib.ReduceAll

noncomputable section

namespace Cert.RefSide

open Cert.ReferenceIdeal Idealize.ShloMosaic Idealize.ShloMosaic.ValueIdx
open Cert.ReferenceIdeal.Facts₀

variable {F : FTy → Type} [FloatOps F]

/-! ## The function -/

/-- The indices as the gather reads them: a negative one moved up by 64, then one trailing axis of size 1. -/
def starts (idx : IVec S4096x200 32) : IVec S4096x200x1 32 :=
  let c : IVec S_ 32 := constantI S_ 32 0#32
  let v0 : IVec S4096x200 32 := broadcastInDim S4096x200 ![] bcast_S_S4096x200 c
  let v1 : IVec S4096x200 1 := cmpi .slt idx v0
  let c_0 : IVec S_ 32 := constantI S_ 32 64#32
  let v2 : IVec S4096x200 32 := broadcastInDim S4096x200 ![] bcast_S_S4096x200 c_0
  let v3 : IVec S4096x200 32 := addi idx v2
  let v4 : IVec S4096x200 32 := select v1 v3 idx
  broadcastInDim S4096x200x1 ![0, 1] bcast_S4096x200_S4096x200x1_0_1 v4

/-- Which entries keep their gathered value: those whose index lies in [0, 63]. -/
def inRange (v5 : IVec S4096x200x1 32) : IVec S4096x200 1 :=
  let c_1 : IVec S1 32 := constantI S1 32 63#32
  let c_2 : IVec S_ 32 := constantI S_ 32 0#32
  let v6 : IVec S4096x200x1 32 := broadcastInDim S4096x200x1 ![] bcast_S_S4096x200x1 c_2
  let v7 : IVec S4096x200x1 1 := cmpi .sge v5 v6
  let v8 : IVec S1x1x1 32 := broadcastInDim S1x1x1 ![2] bcast_S1_S1x1x1_2 c_1
  let v9 : IVec S4096x200x1 32 := broadcastInDim S4096x200x1 ![0, 1, 2] bcast_S1x1x1_S4096x200x1_0_1_2 v8
  let v10 : IVec S4096x200x1 1 := cmpi .sle v5 v9
  let v11 : IVec S4096x200x1 1 := andi v7 v10
  let c_3 : IVec S_ 1 := constantI S_ 1 1#1
  Host.reduce IntOp.andi v11 c_3 reducesTo_S4096x200x1_S4096x200_d2 h_S_

/-- The lookup in fill mode, as one function of the index array and the table. -/
def term (idx : IVec S4096x200 32) (tab : FVec F S64x128 .f32) : FVec F S4096x200x128 .f32 :=
  let v5 : IVec S4096x200x1 32 := starts idx
  let v12 : IVec S4096x200 1 := inRange v5
  let v13 : FVec F S4096x200x128 .f32 := Host.gather gather_S64x128_S4096x200x1_S4096x200x128_2_0_n_n_0_2_1128 tab v5
  let v14 : IVec S4096x200x128 1 := broadcastInDim S4096x200x128 ![0, 1] bcast_S4096x200_S4096x200x128_0_1 v12
  let cst : FVec F S_ .f32 := constant S_ .f32 0x7FC00000#32
  let v15 : FVec F S4096x200x128 .f32 := broadcastInDim S4096x200x128 ![] bcast_S_S4096x200x128 cst
  select v14 v13 v15

/-! ## Words -/

theorem slt_zero_of_nonneg {w : BitVec 32} (h : 0 ≤ w.toInt) : IntOp.cmpi .slt w 0#32 = 0#1 :=
  eq_zero_of_ne_one fun e => by
    have := IntOp.cmpi_slt.1 e
    rw [show (0#32 : BitVec 32).toInt = 0 from by decide] at this
    omega

theorem sge_zero_of_nonneg {w : BitVec 32} (h : 0 ≤ w.toInt) : IntOp.cmpi .sge w 0#32 = 1#1 :=
  IntOp.cmpi_sge.2 (by rw [show (0#32 : BitVec 32).toInt = 0 from by decide]; exact h)

theorem sle_63_of_le {w : BitVec 32} (h : w.toInt ≤ 63) : IntOp.cmpi .sle w 63#32 = 1#1 :=
  IntOp.cmpi_sle.2 (by rw [show (63#32 : BitVec 32).toInt = 63 from by decide]; exact h)

/-- A word in [0, 63] signed, read signed and clamped into [0, 63], is its value as a natural number. -/
theorem clamp_eq {w : BitVec 32} (h0 : 0 ≤ w.toInt) (h1 : w.toInt ≤ 63) : min w.toInt.toNat 63 = w.toNat := by
  have h32 := w.isLt
  rw [BitVec.toInt_eq_toNat_cond] at h0 h1 ⊢
  split at h0 <;> split <;> omega

/-! ## A conjunction over entries that are all 1 -/

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from 1 over entries that are all 1 is 1 everywhere. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

/-! ## The stages at an index -/

/-- Where no index is negative, the gather's start index at (b, s, 0) is idx[b, s]. -/
theorem starts_apply (idx : IVec S4096x200 32) (h0 : ∀ j, 0 ≤ (idx j).toInt) (k : S4096x200x1.Idx) :
    starts idx k = idx (ix2 (n0 := 4096) (n1 := 200) (k 0) (k 1)) := by
  show Scalar.select (IntOp.cmpi .slt (idx _) 0#32) _ (idx _) = _
  rw [slt_zero_of_nonneg (h0 _), select_zero]
  congr 1
  funext a
  match a with
  | ⟨0, _⟩ => rfl
  | ⟨1, _⟩ => rfl

/-- Where every index lies in [0, 63], every entry keeps its gathered value. -/
theorem inRange_apply (v5 : IVec S4096x200x1 32) (h : ∀ k, 0 ≤ (v5 k).toInt ∧ (v5 k).toInt ≤ 63) (j : S4096x200.Idx) :
    inRange v5 j = 1#1 := by
  unfold inRange
  refine reduce_andi_one _ _ _ _ (fun k => ?_) (fun _ => rfl) j
  show IntOp.andi (IntOp.cmpi .sge (v5 k) 0#32) (IntOp.cmpi .sle (v5 k) 63#32) = 1#1
  rw [sge_zero_of_nonneg (h k).1, sle_63_of_le (h k).2]
  decide

/-- THE GATHER READ AT (b, s, d): the table at the row the start index at (b, s, 0) names, read signed and
    clamped into [0, 63], and at column d. -/
theorem gather_apply {α : Type} (tab : S64x128.Idx → α) (v5 : IVec S4096x200x1 32) (i : S4096x200x128.Idx) :
    Host.gather gather_S64x128_S4096x200x1_S4096x200x128_2_0_n_n_0_2_1128 tab v5 i
      = tab (ix2 (n0 := 64) (n1 := 128)
          ⟨min (v5 (ix3 (n0 := 4096) (n1 := 200) (n2 := 1) (i 0) (i 1) ⟨0, Nat.one_pos⟩)).toInt.toNat 63, by omega⟩ (i 2)) := by
  unfold Host.gather
  congr 1
  funext a
  refine Fin.ext ?_
  show gather_S64x128_S4096x200x1_S4096x200x128_2_0_n_n_0_2_1128.start i v5 a
      + gather_S64x128_S4096x200x1_S4096x200x128_2_0_n_n_0_2_1128.batchCoord i a
      + gather_S64x128_S4096x200x1_S4096x200x128_2_0_n_n_0_2_1128.offCoord i a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin S64x128.rank) ∈ gather_S64x128_S4096x200x1_S4096x200x128_2_0_n_n_0_2_1128.startIndexMap from List.mem_singleton.mpr rfl)]
    have hsi : gather_S64x128_S4096x200x1_S4096x200x128_2_0_n_n_0_2_1128.siIdx i
        ⟨List.idxOf (⟨0, by decide⟩ : Fin S64x128.rank) gather_S64x128_S4096x200x1_S4096x200x128_2_0_n_n_0_2_1128.startIndexMap,
          List.idxOf_lt_length_iff.2 (List.mem_singleton.mpr rfl)⟩
        = ix3 (n0 := 4096) (n1 := 200) (n2 := 1) (i 0) (i 1) ⟨0, Nat.one_pos⟩ := by
      funext b; refine Fin.ext ?_
      match b with
      | ⟨0, _⟩ => rfl
      | ⟨1, _⟩ => rfl
      | ⟨2, _⟩ => rfl
    rw [hsi]
    rfl
  | ⟨1, h1⟩ =>
    have hne : (⟨1, h1⟩ : Fin S64x128.rank) ∉ gather_S64x128_S4096x200x1_S4096x200x128_2_0_n_n_0_2_1128.startIndexMap :=
      fun h => Nat.one_ne_zero (congrArg Fin.val (List.mem_singleton.mp h))
    have hnc : (⟨1, h1⟩ : Fin S64x128.rank) ∉ gather_S64x128_S4096x200x1_S4096x200x128_2_0_n_n_0_2_1128.collapsedSliceDims :=
      fun h => Nat.one_ne_zero (congrArg Fin.val (List.mem_singleton.mp h))
    unfold GatherDims.start
    rw [dif_neg hne, Nat.zero_add]
    unfold GatherDims.offCoord
    rw [dif_pos ((GatherDims.mem_sKept _ _).2 ⟨hnc, List.not_mem_nil⟩)]
    rfl

/-! ## The function at an index -/

set_option maxRecDepth 8192 in
/-- Where every index word lies in [0, 63] as a signed number, the lookup in fill mode is the plain lookup. -/
theorem term_apply (idx : IVec S4096x200 32) (tab : FVec F S64x128 .f32)
    (hr : ∀ j, 0 ≤ (idx j).toInt ∧ (idx j).toInt ≤ 63) (i : S4096x200x128.Idx) :
    term idx tab i = Cert.Lookup.G idx tab i := by
  have hs : ∀ k, starts idx k = idx (ix2 (n0 := 4096) (n1 := 200) (k 0) (k 1)) := starts_apply idx fun j => (hr j).1
  have hm : ∀ j, inRange (starts idx) j = 1#1 := inRange_apply _ fun k => by rw [hs k]; exact hr _
  have e : term idx tab i
      = Scalar.select (broadcastInDim S4096x200x128 ![0, 1] bcast_S4096x200_S4096x200x128_0_1 (inRange (starts idx)) i)
          (Host.gather gather_S64x128_S4096x200x1_S4096x200x128_2_0_n_n_0_2_1128 tab (starts idx) i)
          (broadcastInDim S4096x200x128 ![] bcast_S_S4096x200x128 (constant (F := F) S_ .f32 0x7FC00000#32) i) := rfl
  have hb : broadcastInDim S4096x200x128 ![0, 1] bcast_S4096x200_S4096x200x128_0_1 (inRange (starts idx)) i = 1#1 := hm _
  rw [e, hb, select_one, gather_apply]
  refine congrArg tab ?_
  funext a
  match a with
  | ⟨0, _⟩ =>
    refine Fin.ext ?_
    show min (starts idx (ix3 (n0 := 4096) (n1 := 200) (n2 := 1) (i 0) (i 1) ⟨0, Nat.one_pos⟩)).toInt.toNat 63
      = (idx (ix2 (n0 := 4096) (n1 := 200) (i 0) (i 1))).toNat % 64
    rw [hs]
    have h := hr (ix2 (n0 := 4096) (n1 := 200) (i 0) (i 1))
    have hc := clamp_eq h.1 h.2
    show min (idx (ix2 (n0 := 4096) (n1 := 200) (i 0) (i 1))).toInt.toNat 63 = _
    rw [hc, Nat.mod_eq_of_lt (by omega)]
  | ⟨1, _⟩ => rfl

theorem term_eq (idx : IVec S4096x200 32) (tab : FVec F S64x128 .f32)
    (hr : ∀ j, 0 ≤ (idx j).toInt ∧ (idx j).toInt ≤ 63) : term idx tab = Cert.Lookup.G idx tab :=
  funext (term_apply idx tab hr)

end Cert.RefSide

end
-- ==== Proof.RefRun.lean ====
/-
  The reference program's run.

  The program's entry is a single call of the outlined lookup function, which itself calls the outlined
  selection function once: twenty-three operations in all, listed here in program order over the buffers the
  two calls name. Every weakly fair execution terminates with the result buffer at the operations' composed
  term of the two argument arrays, and with the argument arrays unchanged; under the precondition that term
  is the plain lookup.
-/
import proofs.«203224_g2765958938866_cont_9to1_225_22_alg».proof.Defs
import proofs.«203224_g2765958938866_cont_9to1_225_22_alg».proof.Proof.Gen.ReferenceIdeal
import proofs.«203224_g2765958938866_cont_9to1_225_22_alg».proof.Proof.Gen.Pre_input_domain
import proofs.«203224_g2765958938866_cont_9to1_225_22_alg».proof.Proof.Spec
import proofs.«203224_g2765958938866_cont_9to1_225_22_alg».proof.Proof.RefRange
import proofs.«203224_g2765958938866_cont_9to1_225_22_alg».proof.Proof.RefTerm
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀

variable {F : FTy → Type} [FloatOps F]

/-- The program's 23 operations, in order: the lookup function's, with the selection function's one
    operation at its call site. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 64#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 63#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S64x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select ]

set_option maxRecDepth 1024 in
/-- The entry is that straight line: the two functions' definitions unfolded at their calls, both sides are
    one chain of steps once sequencing is reassociated. -/
theorem main_eq (c : Dev nD) : main (F := F) c = seq ops := by
  simp only [main, fn_take.body, fn_where.body, seq, bind_assoc, pure_bind]

/-- Contents moved to a buffer's own type and back are the contents. -/
theorem ofBuf_toBuf {Val : EltTy → Type} {T : BufTy} (x : TRef sig T) (v : T.Contents Val) : x.ofBuf (x.toBuf v) = v := by
  obtain ⟨r, e, h1, h2⟩ := x
  subst e
  rfl

attribute [local irreducible] Host.reduce Host.gather in
set_option maxRecDepth 8192 in
/-- The fold at the result buffer is `term` of the two arguments' contents: each operation's result is read at
    its own buffer, the moves between a value's type and its buffer's cancel, and what is left is `term`
    unfolded. The reduction and the gather stay folded meanwhile. -/
theorem out_eq (V : Valuation τ sig (Elt F)) :
    after ops V (main_v0 : DevRef τ sig) = term (V (main_arg0 : DevRef τ sig)) (V (main_arg1 : DevRef τ sig)) := by
  after_results
  simp only [ofBuf_toBuf]
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- On the one device, for any float values, from any memory with zero counters: every weakly fair execution
    of the entry terminates with the result at `term` of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = term (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _),
      (h c main_arg0).trans (arg0_eq _),
      (h c main_arg1).trans (arg1_eq _)⟩)
    (run_seq scopedRefs_eq scopedSems_eq defs main (fun _ => ops) main_eq (fun _ => ops_sub) m ρ)

/-- THE REFERENCE'S RUN: under the precondition, at the ideal instance, every weakly fair execution terminates
    with the result the plain lookup of the two argument arrays, and the argument arrays unchanged. -/
theorem run (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v0) = Cert.Lookup.G (m' ((c.tc : Thread _ _).loc Cert.ReferenceIdeal.main_arg0)) (m' ((c.tc : Thread _ _).loc Cert.ReferenceIdeal.main_arg1))
      ∧ r.2.mem ((c.tc : Thread _ _).loc Cert.ReferenceIdeal.main_arg0) = m' ((c.tc : Thread _ _).loc Cert.ReferenceIdeal.main_arg0)
      ∧ r.2.mem ((c.tc : Thread _ _).loc Cert.ReferenceIdeal.main_arg1) = m' ((c.tc : Thread _ _).loc Cert.ReferenceIdeal.main_arg1)) :=
  (θ_run _ _ _).mono (fun _ h c => ⟨(h c).1.trans (term_eq _ _ (signed_range_of_pre _ _ (hpre c))), (h c).2⟩)
    (run_term m' g')

end Cert.RefSide

end
-- ==== Proof.RefFrame.lean ====
/-
  The reference program's frame: under the precondition every weakly fair execution terminates, nothing
  faulting, with the two argument arrays unchanged. It is the run with the statement about the result dropped.
-/
import proofs.«203224_g2765958938866_cont_9to1_225_22_alg».proof.Proof.RefRun

noncomputable section

namespace Cert.RefSide

open Idealize.ShloMosaic Idealize.SL.Sem

theorem frame : Cert.frame_ReferenceIdeal :=
  fun m g hpre => (θ_run _ _ _).mono (fun _ h c => (h c).2) (run m g hpre)

end Cert.RefSide

end
-- ==== Proof.ReshapeG.lean ====
/-
  The lookup commutes with flattening.

  Entry (b, s, d) of the row-major reshape of a [819200, 128] array to [4096, 200, 128] is entry
  (200 b + s, d) of that array, and entry 200 b + s of the row-major flattening of a [4096, 200] array
  is its entry (b, s). So the lookup over the flattened indices, reshaped, is the lookup itself: both
  read the table at (row named by idx[b, s], d).
-/
import Idealize.ShloMosaic.Lib.ValueLayout
import proofs.«203224_g2765958938866_cont_9to1_225_22_alg».proof.Proof.Spec

namespace Cert.Lookup

open Idealize.ShloMosaic Idealize.ShloMosaic.ValueIdx

/-- The flattened index array read at row-major position 200 b + s is the index array at (b, s). -/
theorem flat_apply {β : Type} (idx : SIdx.Idx → β) (h1 : SIdx.ShapeCasts SFlat) (b : Fin 4096) (s : Fin 200)
    (r : Fin 819200) (hr : r.val = b.val * 200 + s.val) :
    shapeCast SFlat idx h1 (ix1 r) = idx (ix2 b s) :=
  shapeCast_apply idx h1 _ _ (by
    rw [Shape.rowMajor_val_two, Shape.rowMajor_val_one]
    show b.val * 200 + s.val = r.val
    omega)

/-- A [819200, 128] array reshaped to [4096, 200, 128], read at (b, s, d), is the array at (200 b + s, d). -/
theorem rows_apply {β : Type} (y : SRows.Idx → β) (h2 : SRows.ShapeCasts SOut) (b : Fin 4096) (s : Fin 200)
    (d : Fin 128) (r : Fin 819200) (hr : r.val = b.val * 200 + s.val) :
    shapeCast SOut y h2 (ix3 b s d) = y (ix2 r d) :=
  shapeCast_apply y h2 _ _ (by
    rw [Shape.rowMajor_val_two, Shape.rowMajor_val_three]
    show r.val * 128 + d.val = (b.val * 200 + s.val) * 128 + d.val
    rw [hr])

/-- The lookup over the flattened indices, reshaped to [4096, 200, 128], is the lookup. -/
theorem reshape_Gflat {α : Type} (idx : SIdx.Idx → BitVec 32) (tab : STab.Idx → α)
    (h1 : SIdx.ShapeCasts SFlat) (h2 : SRows.ShapeCasts SOut) :
    (fun i => shapeCast SOut (Gflat (fun j => shapeCast SFlat idx h1 j) tab) h2 i) = G idx tab := by
  funext i
  obtain ⟨b, s, d, rfl⟩ : ∃ (b : Fin 4096) (s : Fin 200) (d : Fin 128), i = ix3 b s d :=
    ⟨i 0, i 1, i 2, eq_ix3 i⟩
  have hlt : b.val * 200 + s.val < 819200 := by have := b.isLt; have := s.isLt; omega
  rw [rows_apply _ h2 b s d ⟨b.val * 200 + s.val, hlt⟩ rfl]
  show tab (ix2 (rowOf (shapeCast SFlat idx h1 (ix1 ⟨b.val * 200 + s.val, hlt⟩))) d)
      = tab (ix2 (rowOf (idx (ix2 b s))) d)
  rw [flat_apply idx h1 b s ⟨b.val * 200 + s.val, hlt⟩ rfl]

end Cert.Lookup
-- ==== Proof.ReshapeRange.lean ====
/-
  A reshape keeps a bound on the entries: every entry of the reshaped array is an entry of the array.
-/
import Idealize.ShloMosaic.PureOps.ShapeOps

namespace Cert.Lookup

open Idealize.ShloMosaic

/-- Every word of a reshaped index array is below 64 when every word of the array is. -/
theorem shapeCast_lt {s t : Shape} (x : s.Idx → BitVec 32) (h : s.ShapeCasts t) (hx : ∀ i, (x i).toNat < 64) :
    ∀ j, (shapeCast t x h j).toNat < 64 :=
  fun j => hx (Shape.reshapeEquiv h j)

end Cert.Lookup
-- ==== Proof.IdealProto.lean ====
/-
  The protocol of the lookup kernel on the SparseCores, stated once for the launch and for the tile's task.

  The flattened index array (819200 words) and the result (819200 rows of 128) are cut into 32 consecutive
  parts of 25600 rows; the task on vector subcore j of SparseCore c works on part 2 j + c. The table (64 rows)
  is copied by subcore 0 of each SparseCore into that SparseCore's shared vector memory; after the subcore
  barrier every task of the SparseCore gathers rows out of the shared copy. So the barrier carries ownership:
  subcore 0's arrival at subcore j's barrier semaphore hands over the j-th read share of the shared copy, at
  the table's contents; every other arrival hands over nothing.
-/
import proofs.«203224_g2765958938866_cont_9to1_225_22_alg».proof.Defs
import proofs.«203224_g2765958938866_cont_9to1_225_22_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203224_g2765958938866_cont_9to1_225_22_alg».proof.Proof.Gen.KernelIdeal
import proofs.«203224_g2765958938866_cont_9to1_225_22_alg».proof.Proof.Gen.KernelIdeal.Skeleton

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

/-- The flattened index array, the table and the row-major result, in device `d`'s HBM. -/
abbrev idxLoc (d : Dev nD) : Loc nD τ sig := (SparseCore.T d).loc main_v0
abbrev tabLoc (d : Dev nD) : Loc nD τ sig := (SparseCore.T d).loc main_arg1
abbrev outLoc (d : Dev nD) : Loc nD τ sig := (SparseCore.T d).loc main_v1
/-- SparseCore `c`'s shared vector memory: the table's copy. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl

/-- Entries `lo ≤ r < lo + len` of the flattened index array. -/
def flatSet (lo len : ℕ) : Finset S819200.Idx := Finset.univ.filter fun i => lo ≤ (i 0).val ∧ (i 0).val < lo + len
/-- Rows `lo ≤ r < lo + len` of the row-major result, every column. -/
def rowsSet (lo len : ℕ) : Finset S819200x128.Idx := Finset.univ.filter fun i => lo ≤ (i 0).val ∧ (i 0).val < lo + len

/-- The first row of the part of vector subcore `j` of SparseCore `c`: part `2 j + c`, 25600 rows each. -/
def base (c : Fin τ.nSC) (j : Fin τ.nSub) : ℕ := 25600 * (2 * j.val + c.val)

/- The arrays' contents as the SparseCore call finds them: the flattened indices `fi`, the table `ft`, the
   result array before the call `fo`; one of each per device. -/
variable (fi : (d : Dev nD) → Buf (Elt F) (idxLoc d)) (ft : (d : Dev nD) → Buf (Elt F) (tabLoc d)) (fo : (d : Dev nD) → Buf (Elt F) (outLoc d))

/-- The shared copy's contents: the table's. -/
abbrev shT (d : Dev nD) (c : Fin τ.nSC) : Buf (Elt F) (shLoc d c) := ft d
/-- The result array after the call: row r is row idx[r] of the table. -/
abbrev outG (d : Dev nD) : Buf (Elt F) (outLoc d) := Cert.Lookup.Gflat (fi d) (ft d)

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- The `j`-th read share of SparseCore `c`'s shared copy, at the table's contents. -/
abbrev shTok (d : Dev nD) (c : Fin τ.nSC) (j : ℕ) : sProp 𝕄 := shLoc d c ↦{shareTokN fullShare j} shT ft d c

/-- What a duty in tile `j`'s round hands over: subcore 0's, the `j`-th read share of the shared copy; the others', nothing. -/
def bPay (g : GSem nD τ sig) (n : ℕ) : sProp 𝕄 :=
  match g with
  | ((d, .scVector c j), _) => if n = 0 then shTok ft d c j.val else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay ft g n
  amount_pos _ _ _ _ := Nat.one_pos

instance bRd_payload_storable (g : GSem nD τ sig) (r n : ℕ) : BI.Storable (upEmb : UEmb _ 𝕄) ((bRd (F := F) ft).payload g r n) := by
  show BI.Storable upEmb (bPay ft g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) ft).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) ft).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) ft).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its own
    position at the origin of round 0, its duty token in every tile's round 0, and the credit for the sixteen units of its
    own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) ft) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What the task on tile `(c, j)` is handed: its part of the indices, its part of the result as the call found it,
    and, subcore 0 only, a read share of the table and its SparseCore's shared memory whole. -/
def goRes (d : Dev nD) (c : Fin τ.nSC) (j : Fin τ.nSub) : sProp 𝕄 :=
  iprop((idxLoc d ↦[flatSet (base c j) 25600]{fullShare} fi d)
    ∗ (outLoc d ↦[rowsSet (base c j) 25600]{fullShare} fo d)
    ∗ (if j.val = 0 then iprop((tabLoc d ↦{shareTokN fullShare c.val} ft d) ∗ ∃ f, shLoc d c ↦{fullShare} f) else iprop(emp)))

/-- What it brings back: its part of the indices, its part of the result at the looked-up rows, its read share of
    the shared copy, and, subcore 0 only, the table's share and what remains of the shared copy beside the sixteen shares. -/
def tdRes (d : Dev nD) (c : Fin τ.nSC) (j : Fin τ.nSub) : sProp 𝕄 :=
  iprop((idxLoc d ↦[flatSet (base c j) 25600]{fullShare} fi d)
    ∗ (outLoc d ↦[rowsSet (base c j) 25600]{fullShare} outG fi ft d)
    ∗ shTok ft d c j.val
    ∗ (if j.val = 0 then iprop((tabLoc d ↦{shareTokN fullShare c.val} ft d) ∗ shLoc d c ↦{shareDrop fullShare 16} shT ft d c) else iprop(emp)))

/-- What SparseCore `c` is started with: its sixteen parts of the indices and of the result, and a read share of the table. -/
def stRes (d : Dev nD) (c : Fin τ.nSC) : sProp 𝕄 :=
  iprop((bigSep Finset.univ fun j : Fin τ.nSub => idxLoc d ↦[flatSet (base c j) 25600]{fullShare} fi d)
    ∗ (bigSep Finset.univ fun j : Fin τ.nSub => outLoc d ↦[rowsSet (base c j) 25600]{fullShare} fo d)
    ∗ tabLoc d ↦{shareTokN fullShare c.val} ft d)
/-- What it ends with: the same, the result's parts at the looked-up rows. -/
def dnRes (d : Dev nD) (c : Fin τ.nSC) : sProp 𝕄 :=
  iprop((bigSep Finset.univ fun j : Fin τ.nSub => idxLoc d ↦[flatSet (base c j) 25600]{fullShare} fi d)
    ∗ (bigSep Finset.univ fun j : Fin τ.nSub => outLoc d ↦[rowsSet (base c j) 25600]{fullShare} outG fi ft d)
    ∗ tabLoc d ↦{shareTokN fullShare c.val} ft d)

instance goRes_storable (d : Dev nD) (c : Fin τ.nSC) (j : Fin τ.nSub) : BI.Storable (upEmb : UEmb _ 𝕄) (goRes fi ft fo d c j) := by
  unfold goRes; split <;> infer_instance
instance tdRes_storable (d : Dev nD) (c : Fin τ.nSC) (j : Fin τ.nSub) : BI.Storable (upEmb : UEmb _ 𝕄) (tdRes fi ft d c j) := by
  unfold tdRes; split <;> infer_instance
instance stRes_storable (d : Dev nD) (c : Fin τ.nSC) : BI.Storable (upEmb : UEmb _ 𝕄) (stRes fi ft fo d c) := by
  unfold stRes; infer_instance
instance dnRes_storable (d : Dev nD) (c : Fin τ.nSC) : BI.Storable (upEmb : UEmb _ 𝕄) (dnRes fi ft d c) := by
  unfold dnRes; infer_instance

/-- The one call: each SparseCore its parts and a share of the table; each task its part; each task's proof consumes
    its barrier kit; each tile owes its arrivals at the sixteen barrier semaphores of its SparseCore. -/
def P : (K (F := F)).Pay (nD := nD) (Val := Elt F) (Name := ℕ) (U := UU) where
  st := fun q d c => match q with | 0 => stRes fi ft fo d ((K (F := F)).core 0 c)
  dn := fun q d c => match q with | 0 => dnRes fi ft d ((K (F := F)).core 0 c)
  go := fun q d c i => match q with | 0 => goRes fi ft fo d ((K (F := F)).core 0 c) ((K (F := F)).sub 0 i)
  td := fun q d c i => match q with | 0 => tdRes fi ft d ((K (F := F)).core 0 c) ((K (F := F)).sub 0 i)
  x := fun _ thr => match thr with
    | (d, .scVector c i) => bkit ft d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) fi ft fo).IsStorable where
  st q d c := match q with | 0 => stRes_storable fi ft fo d _
  dn q d c := match q with | 0 => dnRes_storable fi ft d _
  go q d c i := match q with | 0 => goRes_storable fi ft fo d _ _
  td q d c i := match q with | 0 => tdRes_storable fi ft d _ _

/-! ## The task's statement

What the launch asks of the task on one vector subcore, at the subcore's grid coordinates `L`: from its barrier kit,
what it is handed, its own scratch and semaphores and what it owes, the body runs to its end and brings back its parts. -/

abbrev cV (L : grid0.Coords) : Fin τ.nSC := (L 0).castLE hcore0
abbrev jV (L : grid0.Coords) : Fin τ.nSub := (L 1).castLE hsub0

def TileBody : Prop :=
  ∀ (_hF : (K (F := F)).Facts) (d : Dev nD) (L : grid0.Coords) (O : CellTallies nD τ sig (HIx 1)) (W : Waits sig (HIx 1)) (_hO : ∀ g, O g none = 0)
    (_hOlev : ∀ g ι, 0 < O g ι → 8 * (0 : Fin 1).val + 6 ≤ (K (F := F)).lev g ι),
    iprop(levAts (K (F := F)).L (K (F := F)).lev ∗ bkit ft d (cV L) (jV L) ∗ goRes fi ft fo d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_body L (Memref.whole main_v0_scv) (Memref.isWhole_whole _) (Memref.whole main_arg1_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _)
            cc0_scratch7 cc0_scratch8 cc0_scratch9 cc0_scratch10 cc0_scratch11 cc0_scratch12 cc0_scratch13 cc0_scratch14 cc0_scratch15 cc0_scratch16 cc0_scoped0 cc0_scoped1)
          fun _ => iprop(tdRes fi ft d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.Proof.IdealSide

end
-- ==== Proof.IdealLaunch.lean ====
/-
  The launch of the lookup kernel's run: the call's operands dealt to the two SparseCores and their sixteen vector
  subcores each, the barrier cells' ghost state, @main on the TensorCore (a reshape, the call, a reshape), and the
  run of the whole mesh with the result named as a pure term of the arguments.
-/
import proofs.«203224_g2765958938866_cont_9to1_225_22_alg».proof.Proof.IdealProto

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTokN shareDrop shareTok)

variable {F : FTy → Type}

local notation "𝕄" => MT nD τ sig (HIx 1) (Elt F) ℕ UU ℕ

variable (m : (ℓ : Loc nD τ sig) → Buf (Elt F) ℓ) (ρ : Dev nD → PrngReg)

/-! ## The arrays' contents at the call -/

/-- The first argument and the result, in device `d`'s HBM. -/
abbrev argLoc (d : Dev nD) : Loc nD τ sig := (SparseCore.T d).loc main_arg0
abbrev resLoc (d : Dev nD) : Loc nD τ sig := (SparseCore.T d).loc main_v2

/-- The flattened indices: the first argument read in row-major order. -/
def idxV (d : Dev nD) : Buf (Elt F) (idxLoc d) :=
  fun i => shapeCast S819200 (m (argLoc d)) shapeCasts_S4096x200_S819200 i
/-- The table and the result array as the launch finds them. -/
abbrev tabV (d : Dev nD) : Buf (Elt F) (tabLoc d) := m (tabLoc d)
abbrev outV (d : Dev nD) : Buf (Elt F) (outLoc d) := m (outLoc d)

/-- The result: the looked-up rows read at the result's shape. -/
def resV (d : Dev nD) : Buf (Elt F) (resLoc d) :=
  fun i => shapeCast S4096x200x128 (outG (idxV m) (tabV m) d) shapeCasts_S819200x128_S4096x200x128 i

variable [FloatOps F]

/-! ## The task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_body (coordsV c s)
          (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _)
          cc0_scratch7 cc0_scratch8 cc0_scratch9 cc0_scratch10 cc0_scratch11 cc0_scratch12 cc0_scratch13 cc0_scratch14 cc0_scratch15 cc0_scratch16 cc0_scoped0 cc0_scoped1) ⟨⟩ c s := rfl

set_option maxRecDepth 16384 in
theorem tileObl (hF : (K (F := F)).Facts) (htile : TileBody (idxV m) (tabV m) (outV m)) :
    (K (F := F)).TileObl (D (F := F)) 𝒱 (P (idxV m) (tabV m) (outV m)) v₀ 0 := by
  intro d c i O W hO hOlev _
  have hci : ((K (F := F)).core 0 c).val < grid0.bound 0 ∧ ((K (F := F)).sub 0 i).val < grid0.bound 1 := ⟨c.isLt, i.isLt⟩
  rw [show (P (idxV m) (tabV m) (outV m)).ox 0 (V d ((K (F := F)).core 0 c) ((K (F := F)).sub 0 i)) = oxV d ((K (F := F)).core 0 c) from rfl,
    show (P (idxV m) (tabV m) (outV m)).x 0 (V d ((K (F := F)).core 0 c) ((K (F := F)).sub 0 i)) = bkit (tabV m) d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact htile hF d (coordsV ⟨_, hci.1⟩ ⟨_, hci.2⟩) O W hO hOlev

/-! ## A SparseCore's operands among its tasks -/

section Split

variable (fi : (d : Dev nD) → Buf (Elt F) (idxLoc d)) (ft : (d : Dev nD) → Buf (Elt F) (tabLoc d)) (fo : (d : Dev nD) → Buf (Elt F) (outLoc d))

omit [FloatOps F] in
/-- The tasks of the call are the sixteen vector subcores, in their order. -/
theorem bigSep_tasks (Φ : Fin τ.nSub → sProp 𝕄) :
    (bigSep Finset.univ fun i : Fin ((K (F := F)).nSub 0) => Φ ((K (F := F)).sub 0 i)) = bigSep (Finset.univ : Finset (Fin τ.nSub)) Φ :=
  bigSep_congr fun _ _ => congrArg Φ (Fin.ext rfl)

omit [FloatOps F] in
/-- A conjunct that only subcore 0 has. -/
theorem bigSep_zero (X : sProp 𝕄) : (bigSep Finset.univ fun j : Fin τ.nSub => if j.val = 0 then X else iprop(emp)) = X := by
  rw [SparseCore.bigSep_erase' (Finset.mem_univ (⟨0, by decide⟩ : Fin τ.nSub)), if_pos rfl,
    bigSep_congr (Ψ := fun _ => iprop(emp)) fun j hj => if_neg fun h => (Finset.mem_erase.mp hj).1 (Fin.ext h), bigSep_emp']
  exact equiv_iff.mp Idealize.SL.BI.sep_emp

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- The sixteen read shares of the shared copy and what remained beside them are the copy whole. -/
theorem sh_join (d : Dev nD) (c : Fin τ.nSC) :
    iprop((shLoc d c ↦{shareDrop fullShare 16} shT ft d c) ∗ bigSep Finset.univ fun j : Fin τ.nSub => shTok ft d c j.val)
      ⊢ (shLoc d c ↦{fullShare} shT ft d c : sProp 𝕄) :=
  Transfers.pointsTo_toks_join fullShare 16

omit [FloatOps F] in
theorem vecSplit_core (d : Dev nD) (c : Fin τ.nSC) :
    iprop(stRes fi ft fo d c ∗ ownBufs (S d c)) ⊢ |={Set.univ}=> iprop((bigSep Finset.univ fun j : Fin τ.nSub => goRes fi ft fo d c j)
      ∗ ((bigSep Finset.univ fun j : Fin τ.nSub => tdRes fi ft d c j) -∗ iprop(dnRes fi ft d c ∗ ownBufs (S d c)))) := by
  unfold stRes goRes tdRes dnRes
  rw [bigSep_sep', bigSep_sep', bigSep_sep', bigSep_sep', bigSep_sep', bigSep_zero, bigSep_zero, ownBufs_S]
  iintro ⟨⟨Hi, Ho, Ht⟩, Hsh, Hrest⟩; imodintro
  isplitl [Hi Ho Ht Hsh]
  · isplitl [Hi]; · iexact Hi
    isplitl [Ho]; · iexact Ho
    isplitl [Ht]; · iexact Ht
    iexact Hsh
  iintro ⟨Hi, Ho, Htok, Ht, Hd⟩
  isplitl [Hi Ho Ht]
  · isplitl [Hi]; · iexact Hi
    isplitl [Ho]; · iexact Ho
    iexact Ht
  isplitr [Hrest]
  · iexists (shT ft d c)
    iapply (sh_join ft d c)
    isplitl [Hd]; · iexact Hd
    iexact Htok
  iexact Hrest

end Split

theorem vecSplit : (K (F := F)).VecSplit (P (idxV m) (tabV m) (outV m)) 0 := by
  intro d c
  show iprop(stRes (idxV m) (tabV m) (outV m) d ((K (F := F)).core 0 c) ∗ ownBufs (S d ((K (F := F)).core 0 c))) ⊢ |={Set.univ}=> iprop(
      (bigSep Finset.univ fun i : Fin ((K (F := F)).nSub 0) => goRes (idxV m) (tabV m) (outV m) d ((K (F := F)).core 0 c) ((K (F := F)).sub 0 i))
      ∗ ((bigSep Finset.univ fun i : Fin ((K (F := F)).nSub 0) => tdRes (idxV m) (tabV m) d ((K (F := F)).core 0 c) ((K (F := F)).sub 0 i))
          -∗ iprop(dnRes (idxV m) (tabV m) d ((K (F := F)).core 0 c) ∗ ownBufs (S d ((K (F := F)).core 0 c)))))
  rw [bigSep_tasks (F := F) (fun j => goRes (idxV m) (tabV m) (outV m) d ((K (F := F)).core 0 c) j),
    bigSep_tasks (F := F) (fun j => tdRes (idxV m) (tabV m) d ((K (F := F)).core 0 c) j)]
  exact vecSplit_core (idxV m) (tabV m) (outV m) d _

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

section Elem

variable (fi : (d : Dev nD) → Buf (Elt F) (idxLoc d)) (ft : (d : Dev nD) → Buf (Elt F) (tabLoc d)) (fo : (d : Dev nD) → Buf (Elt F) (outLoc d))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) ft) g 0)
    ⊢ |={Set.univ}=> iprop(∃ κ : GSem nD τ sig → ℕ, bigSep bCells fun g => cellInv EB (bRd (F := F) ft) (κ g) g) := by
  refine (Rounds.bodies_intro EB (bRd (F := F) ft) bCells).trans ((inv_alloc_family bCells (Rounds.body EB (bRd (F := F) ft)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) fi ft fo).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) fi ft fo).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) fi ft fo).oxFrom 0 (V d c i) = oxV d c := fun i => by
    rw [show (0 : ℕ) = (0 : Fin 1).val from rfl, (P fi ft fo).oxFrom_step, (P fi ft fo).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) fi ft fo).x q (SparseCore.T d)) = iprop(emp) :=
  bigSep_univ_of_subsingleton (0 : Fin 1)
theorem Px_S (d : Dev nD) (c : Fin τ.nSC) : (bigSep Finset.univ fun q : Fin 1 => (P (F := F) fi ft fo).x q (S d c)) = iprop(emp) :=
  bigSep_univ_of_subsingleton (0 : Fin 1)
theorem Px_V (d : Dev nD) (c : Fin τ.nSC) (i : Fin τ.nSub) :
    (bigSep Finset.univ fun q : Fin 1 => (P (F := F) fi ft fo).x q (V d c i)) = bkit ft d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) ft) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) ft ∗ mine (F := F) dci) ⊢ (bkit (F := F) ft dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) ft) (κ (bcell₃ x)) (bcell₃ x)) fun j _ =>
        sep_elim_left.trans (bigSep_elim (Φ := fun x : DCI => (cellInv EB (bRd (F := F) ft) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) ft ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) fi ft fo).x q thr : sProp 𝕄) := by
  rw [SparseCore.Cfg.bigSep_threads (fun thr : Thread nD τ => bigSep Finset.univ fun q : Fin 1 => (P fi ft fo).x q thr)]
  simp only [Px_T, Px_S, Px_V, bigSep_emp']
  iintro ⟨#Hsh, Hat, Htok, Hcred⟩
  isplitr; · iempintro
  isplitr; · iempintro
  iapply (bigSep_mono_frame (R := shared (F := F) ft) (Φ := mine (F := F)) fun dci _ => kit_intro (F := F) ft dci)
  isplitr; · iexact Hsh
  unfold mine
  rw [bigSep_sep', bigSep_sep']
  isplitl [Hat]; · iexact Hat
  isplitl [Htok]; · iexact Htok
  iexact Hcred

theorem hu₀' : iprop(ownU (u₀ (F := F)) ∗ (P (F := F) fi ft fo).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P fi ft fo).x q thr) : sProp 𝕄) := by
  unfold u₀
  iintro ⟨Hu, Hcred, Hfree⟩
  ihave H := (ownU_split _ _) $$ Hu
  icases H with ⟨HH, HB⟩
  imod (Rounds.fund EB (bRd (F := F) ft) bCells bToks) $$ HB with ⟨Hst, #Hr, Hat, Htok⟩
  ihave Hsems := (sems_b (F := F)) $$ Hfree
  imod (invs_b (F := F) ft) $$ [Hsems Hst] with ⟨%κ, #Hinv⟩
  · isplitl [Hsems] <;> iassumption
  ihave Hcred' := (creds_b fi ft fo) $$ Hcred
  ihave Hinv' := (Entails.of_eq (bCells_eq (F := F) fun g => cellInv EB (bRd (F := F) ft) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal fi ft fo)
  isplitr
  · isplitl; · iexists κ; iexact Hinv'
    iexact Hr'
  isplitl [Hat']; · iexact Hat'
  isplitl [Htok']; · iexact Htok'
  iexact Hcred'

end Elem

theorem hu₀ : iprop(ownU (u₀ (F := F)) ∗ (P (F := F) (idxV m) (tabV m) (outV m)).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P (idxV m) (tabV m) (outV m)).x q thr) : sProp 𝕄) :=
  hu₀' (idxV m) (tabV m) (outV m)

/-! ## The thirty-two parts of the index array and of the result -/

section Parts

omit [FloatOps F] in
/-- Two parts that share a row are the same part. -/
theorem base_inj {c c' : Fin τ.nSC} {j j' : Fin τ.nSub} {x : ℕ} (h1 : base c j ≤ x) (h2 : x < base c j + 25600)
    (h3 : base c' j' ≤ x) (h4 : x < base c' j' + 25600) : c = c' ∧ j = j' := by
  unfold base at h1 h2 h3 h4
  have hc : c.val < 2 := c.isLt
  have hc' : c'.val < 2 := c'.isLt
  exact ⟨Fin.ext (by omega), Fin.ext (by omega)⟩

omit [FloatOps F] in
/-- Every row below 819200 is in some part. -/
theorem base_cover {x : ℕ} (hx : x < 819200) : ∃ (c : Fin τ.nSC) (j : Fin τ.nSub), base c j ≤ x ∧ x < base c j + 25600 := by
  refine ⟨⟨(x / 25600) % 2, Nat.mod_lt _ (by decide)⟩, ⟨(x / 25600) / 2, ?_⟩, ?_⟩
  · show x / 25600 / 2 < 16; omega
  · unfold base; dsimp only; omega

omit [FloatOps F] in
theorem flat_disjoint : ∀ x ∈ (Finset.univ : Finset (Fin τ.nSC × Fin τ.nSub)), ∀ y ∈ (Finset.univ : Finset (Fin τ.nSC × Fin τ.nSub)), x ≠ y →
    Disjoint (flatSet (base x.1 x.2) 25600) (flatSet (base y.1 y.2) 25600) := by
  intro x _ y _ hxy
  rw [Finset.disjoint_left]
  intro i hi hi'
  unfold flatSet at hi hi'
  obtain ⟨h1, h2⟩ := (Finset.mem_filter.mp hi).2
  obtain ⟨h3, h4⟩ := (Finset.mem_filter.mp hi').2
  obtain ⟨e1, e2⟩ := base_inj h1 h2 h3 h4
  exact hxy (Prod.ext e1 e2)

omit [FloatOps F] in
theorem flat_cover : (Finset.univ : Finset (Fin τ.nSC × Fin τ.nSub)).biUnion (fun x => flatSet (base x.1 x.2) 25600) = Finset.univ := by
  refine Finset.eq_univ_iff_forall.mpr fun i => ?_
  obtain ⟨c, j, h1, h2⟩ := base_cover (x := (i 0).val) (i 0).isLt
  exact Finset.mem_biUnion.mpr ⟨(c, j), Finset.mem_univ _, by unfold flatSet; exact Finset.mem_filter.mpr ⟨Finset.mem_univ _, h1, h2⟩⟩

omit [FloatOps F] in
theorem rows_disjoint : ∀ x ∈ (Finset.univ : Finset (Fin τ.nSC × Fin τ.nSub)), ∀ y ∈ (Finset.univ : Finset (Fin τ.nSC × Fin τ.nSub)), x ≠ y →
    Disjoint (rowsSet (base x.1 x.2) 25600) (rowsSet (base y.1 y.2) 25600) := by
  intro x _ y _ hxy
  rw [Finset.disjoint_left]
  intro i hi hi'
  unfold rowsSet at hi hi'
  obtain ⟨h1, h2⟩ := (Finset.mem_filter.mp hi).2
  obtain ⟨h3, h4⟩ := (Finset.mem_filter.mp hi').2
  obtain ⟨e1, e2⟩ := base_inj h1 h2 h3 h4
  exact hxy (Prod.ext e1 e2)

omit [FloatOps F] in
theorem rows_cover : (Finset.univ : Finset (Fin τ.nSC × Fin τ.nSub)).biUnion (fun x => rowsSet (base x.1 x.2) 25600) = Finset.univ := by
  refine Finset.eq_univ_iff_forall.mpr fun i => ?_
  obtain ⟨c, j, h1, h2⟩ := base_cover (x := (i 0).val) (i 0).isLt
  exact Finset.mem_biUnion.mpr ⟨(c, j), Finset.mem_univ _, by unfold rowsSet; exact Finset.mem_filter.mpr ⟨Finset.mem_univ _, h1, h2⟩⟩

omit [FloatOps F] in
/-- The index array whole is its thirty-two parts, at one contents. -/
theorem idx_parts (d : Dev nD) (f : Buf (Elt F) (idxLoc d)) :
    (idxLoc d ↦{fullShare} f : sProp 𝕄)
      = bigSep Finset.univ fun c : Fin τ.nSC => bigSep Finset.univ fun j : Fin τ.nSub => idxLoc d ↦[flatSet (base c j) 25600]{fullShare} f := by
  rw [← bigSep_univ_prod (fun x : Fin τ.nSC × Fin τ.nSub => (idxLoc d ↦[flatSet (base x.1 x.2) 25600]{fullShare} f : sProp 𝕄)),
    ← pointsTo_biUnion Finset.univ (ℓ := idxLoc d) (fun x : Fin τ.nSC × Fin τ.nSub => flatSet (base x.1 x.2) 25600) flat_disjoint, flat_cover]

omit [FloatOps F] in
/-- The result array whole is its thirty-two parts, at one contents. -/
theorem out_parts (d : Dev nD) (f : Buf (Elt F) (outLoc d)) :
    (outLoc d ↦{fullShare} f : sProp 𝕄)
      = bigSep Finset.univ fun c : Fin τ.nSC => bigSep Finset.univ fun j : Fin τ.nSub => outLoc d ↦[rowsSet (base c j) 25600]{fullShare} f := by
  rw [← bigSep_univ_prod (fun x : Fin τ.nSC × Fin τ.nSub => (outLoc d ↦[rowsSet (base x.1 x.2) 25600]{fullShare} f : sProp 𝕄)),
    ← pointsTo_biUnion Finset.univ (ℓ := outLoc d) (fun x : Fin τ.nSC × Fin τ.nSub => rowsSet (base x.1 x.2) 25600) rows_disjoint, rows_cover]

end Parts

/-! ## @main on the TensorCore -/

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The two host operations of @main: the indices flattened, the rows read at the result's shape. -/
abbrev op1 : HloOp τ sig (Elt F) := StableHlo.reshape main_arg0 main_v0 rfl shapeCasts_S4096x200_S819200
abbrev op2 : HloOp τ sig (Elt F) := StableHlo.reshape main_v1 main_v2 rfl shapeCasts_S819200x128_S4096x200x128

omit [FloatOps F] in
theorem unscopedBufs_eq (d : Dev nD) (W : (b : Ref sig .tc) → Buf (Elt F) ((d.tc : Thread nD τ).loc b)) :
    (unscopedBufs d W : sProp 𝕄) = iprop((argLoc d ↦{fullShare} W main_arg0) ∗ (tabLoc d ↦{fullShare} W main_arg1) ∗ (idxLoc d ↦{fullShare} W main_v0)
      ∗ (outLoc d ↦{fullShare} W main_v1) ∗ resLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide),
    bigSep_singleton]

/-- The launch valuation of device `d`; and the same with the result array at the looked-up rows. -/
def V0 (d : Dev nD) : Valuation τ sig (Elt F) := fun b => m (d, b)
def V1 (d : Dev nD) : Valuation τ sig (Elt F) := Function.update (V0 m d) v1' (outG (idxV m) (tabV m) d)

omit [FloatOps F] in
theorem V1_v1 (d : Dev nD) : V1 m d v1' = outG (idxV m) (tabV m) d := Function.update_self _ _ _
omit [FloatOps F] in
theorem V1_v2 (d : Dev nD) : V1 m d v2' = m (resLoc d) := Function.update_of_ne (show v2' ≠ v1' by decide) _ _

omit [FloatOps F] in
theorem held_1 (d : Dev nD) :
    (held (T d) {a0', v0'} (V0 m d) : sProp 𝕄) = iprop((argLoc d ↦{fullShare} m (argLoc d)) ∗ idxLoc d ↦{fullShare} m (idxLoc d)) := by
  unfold held
  rw [SparseCore.bigSep_insert' (by decide), bigSep_singleton]; rfl

omit [FloatOps F] in
theorem held_1' (d : Dev nD) :
    (held (T d) {a0', v0'} ((op1 (F := F)).result (V0 m d)) : sProp 𝕄) = iprop((argLoc d ↦{fullShare} m (argLoc d)) ∗ idxLoc d ↦{fullShare} idxV m d) := by
  unfold held
  rw [SparseCore.bigSep_insert' (by decide), bigSep_singleton,
    (op1 (F := F)).result_of_not_mem (V0 m d) (b := a0') (show a0' ∉ ({v0'} : Finset (DevRef τ sig)) by decide),
    StableHlo.reshape_result]
  rfl

omit [FloatOps F] in
theorem held_2 (d : Dev nD) :
    (held (T d) {v1', v2'} (V1 m d) : sProp 𝕄) = iprop((outLoc d ↦{fullShare} outG (idxV m) (tabV m) d) ∗ resLoc d ↦{fullShare} m (resLoc d)) := by
  unfold held
  rw [SparseCore.bigSep_insert' (by decide), bigSep_singleton, V1_v1, V1_v2]

omit [FloatOps F] in
theorem held_2' (d : Dev nD) :
    (held (T d) {v1', v2'} ((op2 (F := F)).result (V1 m d)) : sProp 𝕄) = iprop((outLoc d ↦{fullShare} outG (idxV m) (tabV m) d) ∗ resLoc d ↦{fullShare} resV m d) := by
  unfold held
  rw [SparseCore.bigSep_insert' (by decide), bigSep_singleton,
    (op2 (F := F)).result_of_not_mem (V1 m d) (b := v1') (show v1' ∉ ({v2'} : Finset (DevRef τ sig)) by decide),
    StableHlo.reshape_result, V1_v1]
  rfl

omit [FloatOps F] in
/-- The SparseCores of the call are the device's two, in their order. -/
theorem bigSep_cores (Φ : Fin τ.nSC → sProp 𝕄) :
    (bigSep Finset.univ fun c : Fin ((K (F := F)).nCore 0) => Φ ((K (F := F)).core 0 c)) = bigSep (Finset.univ : Finset (Fin τ.nSC)) Φ :=
  bigSep_congr fun _ _ => congrArg Φ (Fin.ext rfl)

omit [FloatOps F] in
/-- The table whole is what remains beside two read shares, and the two: one per SparseCore. -/
theorem tab_toks (d : Dev nD) (f : Buf (Elt F) (tabLoc d)) :
    (tabLoc d ↦{fullShare} f : sProp 𝕄)
      ⊣⊢ iprop((tabLoc d ↦{shareDrop fullShare 2} f) ∗ bigSep Finset.univ fun c : Fin τ.nSC => tabLoc d ↦{shareTokN fullShare c.val} f) :=
  Transfers.pointsTo_toks fullShare 2

section Calls

variable (fi : (d : Dev nD) → Buf (Elt F) (idxLoc d)) (ft : (d : Dev nD) → Buf (Elt F) (tabLoc d)) (fo : (d : Dev nD) → Buf (Elt F) (outLoc d))

/-- What the call takes for the two SparseCores: the index array and the result array whole, and two read shares of the table. -/
theorem st0_eq (d : Dev nD) : (bigSep Finset.univ fun c : Fin ((K (F := F)).nCore 0) => (P fi ft fo).st 0 d c)
    = iprop((idxLoc d ↦{fullShare} fi d) ∗ (outLoc d ↦{fullShare} fo d) ∗ bigSep Finset.univ fun c : Fin τ.nSC => tabLoc d ↦{shareTokN fullShare c.val} ft d) := by
  show (bigSep Finset.univ fun c : Fin ((K (F := F)).nCore 0) => stRes fi ft fo d ((K (F := F)).core 0 c)) = _
  rw [bigSep_cores (F := F) (fun c => stRes fi ft fo d c)]
  unfold stRes
  rw [bigSep_sep', bigSep_sep', ← idx_parts d (fi d), ← out_parts d (fo d)]

/-- What it hands back: the same, the result array at the looked-up rows. -/
theorem dn0_eq (d : Dev nD) : (bigSep Finset.univ fun c : Fin ((K (F := F)).nCore 0) => (P fi ft fo).dn 0 d c)
    = iprop((idxLoc d ↦{fullShare} fi d) ∗ (outLoc d ↦{fullShare} outG fi ft d) ∗ bigSep Finset.univ fun c : Fin τ.nSC => tabLoc d ↦{shareTokN fullShare c.val} ft d) := by
  show (bigSep Finset.univ fun c : Fin ((K (F := F)).nCore 0) => dnRes fi ft d ((K (F := F)).core 0 c)) = _
  rw [bigSep_cores (F := F) (fun c => dnRes fi ft d c)]
  unfold dnRes
  rw [bigSep_sep', bigSep_sep', ← idx_parts d (fi d), ← out_parts d (outG fi ft d)]

end Calls

/-- What @main leaves the claim: both arguments at their launch contents, the result at the looked-up rows read at its shape. -/
abbrev FIN (d : Dev nD) : sProp 𝕄 :=
  iprop((argLoc d ↦{fullShare} m (argLoc d)) ∗ (tabLoc d ↦{fullShare} m (tabLoc d)) ∗ (resLoc d ↦{fullShare} resV m d))

/-- @main on device `d`'s TensorCore: the indices flattened, the call, the rows read at the result's shape. -/
theorem hmain (κ : GSem nD τ sig → ℕ) (d : Dev nD) :
    iprop((K (F := F)).ctx EH (P (idxV m) (tabV m) (outV m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ht, H0, H1, H2⟩, -, -⟩, -⟩
  -- the indices flattened
  iapply (wp_hlo_within 𝒱 (SparseCore.T d) none Set.univ (op := op1) (S := {a0', v0'}) (Finset.Subset.refl _) (V := V0 m d)) $$ [Hb Ha H0]
  · isplitl [Hb]; · iexact Hb
    rw [held_1]
    isplitl [Ha]; · iexact Ha
    iexact H0
  iintro ⟨Hb, Hheld⟩
  ihave Hh := (Entails.of_eq (held_1' (F := F) m d)) $$ Hheld
  icases Hh with ⟨Ha, H0⟩
  rw [wp_ret]; imodintro
  -- the table's two read shares, one per SparseCore
  ihave Ht' := (tab_toks d (m (tabLoc d))).1 $$ Ht
  icases Ht' with ⟨Htr, Htoks⟩
  -- the call
  iapply ((K (F := F)).wp_run (D (F := F)) 𝒱 (EH := EH) (P := P (idxV m) (tabV m) (outV m)) κ d 0) $$ [Hst H0 H1 Htoks Hb Ha Htr H2]
  isplitr; · iexact Hctx
  isplitl [Hst]; · iexact Hst
  isplitl [H0 H1 Htoks]
  · rw [st0_eq]
    isplitl [H0]; · iexact H0
    isplitl [H1]; · iexact H1
    iexact Htoks
  iintro ⟨Hst, Hdn⟩
  ihave Hdn' := (Entails.of_eq (dn0_eq (idxV m) (tabV m) (outV m) d)) $$ Hdn
  icases Hdn' with ⟨H0, H1, Htoks⟩
  ihave Ht := (tab_toks d (m (tabLoc d))).2 $$ [Htr Htoks]
  · isplitl [Htr] <;> iassumption
  -- the rows read at the result's shape
  iapply (wp_hlo_within 𝒱 (SparseCore.T d) none Set.univ (op := op2) (S := {v1', v2'}) (Finset.Subset.refl _) (V := V1 m d)) $$ [Hb H1 H2]
  · isplitl [Hb]; · iexact Hb
    rw [held_2]
    isplitl [H1]; · iexact H1
    iexact H2
  iintro ⟨Hb, Hheld⟩
  ihave Hh := (Entails.of_eq (held_2' (F := F) m d)) $$ Hheld
  icases Hh with ⟨H1, H2⟩
  rw [wp_ret]; imodintro; imodintro
  isplitl [Hst]; · iexact Hst
  isplitl [Ha]; · iexact Ha
  isplitl [Ht]; · iexact Ht
  iexact H2

/-! ## What the final memory says -/

def fq (d : Dev nD) (s' : Phys nD τ sig (Elt F)) : Prop :=
  s'.mem.mem (resLoc d) = resV m d ∧ s'.mem.mem (argLoc d) = m (argLoc d) ∧ s'.mem.mem (tabLoc d) = m (tabLoc d)

theorem hfin (d : Dev nD) (s' : Phys nD τ sig (Elt F)) : iprop(FIN m d ∗ SI s') ⊢ (⌜fq m d s'⌝ : sProp 𝕄) := by
  iintro ⟨⟨Ha, Ht, Hr⟩, HSI⟩
  icombine HSI Ha gives %h1
  icombine HSI Ht gives %h2
  icombine HSI Hr gives %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem ((c.tc : Thread nD τ).loc main_v2)
      = (fun i => shapeCast S4096x200x128 (outG (idxV m) (tabV m) c) shapeCasts_S819200x128_S4096x200x128 i)
    ∧ r.2.mem ((c.tc : Thread nD τ).loc main_arg0) = m ((c.tc : Thread nD τ).loc main_arg0)
    ∧ r.2.mem ((c.tc : Thread nD τ).loc main_arg1) = m ((c.tc : Thread nD τ).loc main_arg1)

theorem run_main [∀ e, Nonempty (Elt F e)] (htile : TileBody (idxV m) (tabV m) (outV m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (idxV m) (tabV m) (outV m)) facts v₀
    (fun q hq => match q with | 0 => nomatch hq)
    (fun q _ => match q with | 0 => tileObl m facts htile)
    (fun q _ => match q with | 0 => vecSplit m)
    m ρ main (fun _ => iprop(emp)) (FIN m) (u₀ (F := F)) (hu₀ m) (hmain m ρ) (fq m) (hfin m) (QC m) (fun _ h => h)

end Cert.Proof.IdealSide

end
-- ==== Proof.BitsProto.lean ====
/-
  The protocol of the lookup kernel on the SparseCores, stated once for the launch and for the tile's task.

  The flattened index array (819200 words) and the result (819200 rows of 128) are cut into 32 consecutive
  parts of 25600 rows; the task on vector subcore j of SparseCore c works on part 2 j + c. The table (64 rows)
  is copied by subcore 0 of each SparseCore into that SparseCore's shared vector memory; after the subcore
  barrier every task of the SparseCore gathers rows out of the shared copy. So the barrier carries ownership:
  subcore 0's arrival at subcore j's barrier semaphore hands over the j-th read share of the shared copy, at
  the table's contents; every other arrival hands over nothing.
-/
import proofs.«203224_g2765958938866_cont_9to1_225_22_alg».proof.Defs
import proofs.«203224_g2765958938866_cont_9to1_225_22_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«203224_g2765958938866_cont_9to1_225_22_alg».proof.Proof.Gen.Kernel
import proofs.«203224_g2765958938866_cont_9to1_225_22_alg».proof.Proof.Gen.Kernel.Skeleton

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

/-- The flattened index array, the table and the row-major result, in device `d`'s HBM. -/
abbrev idxLoc (d : Dev nD) : Loc nD τ sig := (SparseCore.T d).loc main_v0
abbrev tabLoc (d : Dev nD) : Loc nD τ sig := (SparseCore.T d).loc main_arg1
abbrev outLoc (d : Dev nD) : Loc nD τ sig := (SparseCore.T d).loc main_v1
/-- SparseCore `c`'s shared vector memory: the table's copy. -/
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl

/-- Entries `lo ≤ r < lo + len` of the flattened index array. -/
def flatSet (lo len : ℕ) : Finset S819200.Idx := Finset.univ.filter fun i => lo ≤ (i 0).val ∧ (i 0).val < lo + len
/-- Rows `lo ≤ r < lo + len` of the row-major result, every column. -/
def rowsSet (lo len : ℕ) : Finset S819200x128.Idx := Finset.univ.filter fun i => lo ≤ (i 0).val ∧ (i 0).val < lo + len

/-- The first row of the part of vector subcore `j` of SparseCore `c`: part `2 j + c`, 25600 rows each. -/
def base (c : Fin τ.nSC) (j : Fin τ.nSub) : ℕ := 25600 * (2 * j.val + c.val)

/- The arrays' contents as the SparseCore call finds them: the flattened indices `fi`, the table `ft`, the
   result array before the call `fo`; one of each per device. -/
variable (fi : (d : Dev nD) → Buf (Elt F) (idxLoc d)) (ft : (d : Dev nD) → Buf (Elt F) (tabLoc d)) (fo : (d : Dev nD) → Buf (Elt F) (outLoc d))

/-- The shared copy's contents: the table's. -/
abbrev shT (d : Dev nD) (c : Fin τ.nSC) : Buf (Elt F) (shLoc d c) := ft d
/-- The result array after the call: row r is row idx[r] of the table. -/
abbrev outG (d : Dev nD) : Buf (Elt F) (outLoc d) := Cert.Lookup.Gflat (fi d) (ft d)

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- The `j`-th read share of SparseCore `c`'s shared copy, at the table's contents. -/
abbrev shTok (d : Dev nD) (c : Fin τ.nSC) (j : ℕ) : sProp 𝕄 := shLoc d c ↦{shareTokN fullShare j} shT ft d c

/-- What a duty in tile `j`'s round hands over: subcore 0's, the `j`-th read share of the shared copy; the others', nothing. -/
def bPay (g : GSem nD τ sig) (n : ℕ) : sProp 𝕄 :=
  match g with
  | ((d, .scVector c j), _) => if n = 0 then shTok ft d c j.val else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay ft g n
  amount_pos _ _ _ _ := Nat.one_pos

instance bRd_payload_storable (g : GSem nD τ sig) (r n : ℕ) : BI.Storable (upEmb : UEmb _ 𝕄) ((bRd (F := F) ft).payload g r n) := by
  show BI.Storable upEmb (bPay ft g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) ft).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) ft).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) ft).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its own
    position at the origin of round 0, its duty token in every tile's round 0, and the credit for the sixteen units of its
    own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) ft) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What the task on tile `(c, j)` is handed: its part of the indices, its part of the result as the call found it,
    and, subcore 0 only, a read share of the table and its SparseCore's shared memory whole. -/
def goRes (d : Dev nD) (c : Fin τ.nSC) (j : Fin τ.nSub) : sProp 𝕄 :=
  iprop((idxLoc d ↦[flatSet (base c j) 25600]{fullShare} fi d)
    ∗ (outLoc d ↦[rowsSet (base c j) 25600]{fullShare} fo d)
    ∗ (if j.val = 0 then iprop((tabLoc d ↦{shareTokN fullShare c.val} ft d) ∗ ∃ f, shLoc d c ↦{fullShare} f) else iprop(emp)))

/-- What it brings back: its part of the indices, its part of the result at the looked-up rows, its read share of
    the shared copy, and, subcore 0 only, the table's share and what remains of the shared copy beside the sixteen shares. -/
def tdRes (d : Dev nD) (c : Fin τ.nSC) (j : Fin τ.nSub) : sProp 𝕄 :=
  iprop((idxLoc d ↦[flatSet (base c j) 25600]{fullShare} fi d)
    ∗ (outLoc d ↦[rowsSet (base c j) 25600]{fullShare} outG fi ft d)
    ∗ shTok ft d c j.val
    ∗ (if j.val = 0 then iprop((tabLoc d ↦{shareTokN fullShare c.val} ft d) ∗ shLoc d c ↦{shareDrop fullShare 16} shT ft d c) else iprop(emp)))

/-- What SparseCore `c` is started with: its sixteen parts of the indices and of the result, and a read share of the table. -/
def stRes (d : Dev nD) (c : Fin τ.nSC) : sProp 𝕄 :=
  iprop((bigSep Finset.univ fun j : Fin τ.nSub => idxLoc d ↦[flatSet (base c j) 25600]{fullShare} fi d)
    ∗ (bigSep Finset.univ fun j : Fin τ.nSub => outLoc d ↦[rowsSet (base c j) 25600]{fullShare} fo d)
    ∗ tabLoc d ↦{shareTokN fullShare c.val} ft d)
/-- What it ends with: the same, the result's parts at the looked-up rows. -/
def dnRes (d : Dev nD) (c : Fin τ.nSC) : sProp 𝕄 :=
  iprop((bigSep Finset.univ fun j : Fin τ.nSub => idxLoc d ↦[flatSet (base c j) 25600]{fullShare} fi d)
    ∗ (bigSep Finset.univ fun j : Fin τ.nSub => outLoc d ↦[rowsSet (base c j) 25600]{fullShare} outG fi ft d)
    ∗ tabLoc d ↦{shareTokN fullShare c.val} ft d)

instance goRes_storable (d : Dev nD) (c : Fin τ.nSC) (j : Fin τ.nSub) : BI.Storable (upEmb : UEmb _ 𝕄) (goRes fi ft fo d c j) := by
  unfold goRes; split <;> infer_instance
instance tdRes_storable (d : Dev nD) (c : Fin τ.nSC) (j : Fin τ.nSub) : BI.Storable (upEmb : UEmb _ 𝕄) (tdRes fi ft d c j) := by
  unfold tdRes; split <;> infer_instance
instance stRes_storable (d : Dev nD) (c : Fin τ.nSC) : BI.Storable (upEmb : UEmb _ 𝕄) (stRes fi ft fo d c) := by
  unfold stRes; infer_instance
instance dnRes_storable (d : Dev nD) (c : Fin τ.nSC) : BI.Storable (upEmb : UEmb _ 𝕄) (dnRes fi ft d c) := by
  unfold dnRes; infer_instance

/-- The one call: each SparseCore its parts and a share of the table; each task its part; each task's proof consumes
    its barrier kit; each tile owes its arrivals at the sixteen barrier semaphores of its SparseCore. -/
def P : (K (F := F)).Pay (nD := nD) (Val := Elt F) (Name := ℕ) (U := UU) where
  st := fun q d c => match q with | 0 => stRes fi ft fo d ((K (F := F)).core 0 c)
  dn := fun q d c => match q with | 0 => dnRes fi ft d ((K (F := F)).core 0 c)
  go := fun q d c i => match q with | 0 => goRes fi ft fo d ((K (F := F)).core 0 c) ((K (F := F)).sub 0 i)
  td := fun q d c i => match q with | 0 => tdRes fi ft d ((K (F := F)).core 0 c) ((K (F := F)).sub 0 i)
  x := fun _ thr => match thr with
    | (d, .scVector c i) => bkit ft d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) fi ft fo).IsStorable where
  st q d c := match q with | 0 => stRes_storable fi ft fo d _
  dn q d c := match q with | 0 => dnRes_storable fi ft d _
  go q d c i := match q with | 0 => goRes_storable fi ft fo d _ _
  td q d c i := match q with | 0 => tdRes_storable fi ft d _ _

/-! ## The task's statement

What the launch asks of the task on one vector subcore, at the subcore's grid coordinates `L`: from its barrier kit,
what it is handed, its own scratch and semaphores and what it owes, the body runs to its end and brings back its parts. -/

abbrev cV (L : grid0.Coords) : Fin τ.nSC := (L 0).castLE hcore0
abbrev jV (L : grid0.Coords) : Fin τ.nSub := (L 1).castLE hsub0

def TileBody : Prop :=
  ∀ (_hF : (K (F := F)).Facts) (d : Dev nD) (L : grid0.Coords) (O : CellTallies nD τ sig (HIx 1)) (W : Waits sig (HIx 1)) (_hO : ∀ g, O g none = 0)
    (_hOlev : ∀ g ι, 0 < O g ι → 8 * (0 : Fin 1).val + 6 ≤ (K (F := F)).lev g ι),
    iprop(levAts (K (F := F)).L (K (F := F)).lev ∗ bkit ft d (cV L) (jV L) ∗ goRes fi ft fo d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_body L (Memref.whole main_v0_scv) (Memref.isWhole_whole _) (Memref.whole main_arg1_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _)
            cc0_scratch7 cc0_scratch8 cc0_scratch9 cc0_scratch10 cc0_scratch11 cc0_scratch12 cc0_scratch13 cc0_scratch14 cc0_scratch15 cc0_scratch16 cc0_scoped0 cc0_scoped1)
          fun _ => iprop(tdRes fi ft d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Cert.Proof.BitsSide

end
-- ==== Proof.BitsLaunch.lean ====
/-
  The launch of the lookup kernel's run: the call's operands dealt to the two SparseCores and their sixteen vector
  subcores each, the barrier cells' ghost state, @main on the TensorCore (a reshape, the call, a reshape), and the
  run of the whole mesh with the result named as a pure term of the arguments.
-/
import proofs.«203224_g2765958938866_cont_9to1_225_22_alg».proof.Proof.BitsProto

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTokN shareDrop shareTok)

variable {F : FTy → Type}

local notation "𝕄" => MT nD τ sig (HIx 1) (Elt F) ℕ UU ℕ

variable (m : (ℓ : Loc nD τ sig) → Buf (Elt F) ℓ) (ρ : Dev nD → PrngReg)

/-! ## The arrays' contents at the call -/

/-- The first argument and the result, in device `d`'s HBM. -/
abbrev argLoc (d : Dev nD) : Loc nD τ sig := (SparseCore.T d).loc main_arg0
abbrev resLoc (d : Dev nD) : Loc nD τ sig := (SparseCore.T d).loc main_v2

/-- The flattened indices: the first argument read in row-major order. -/
def idxV (d : Dev nD) : Buf (Elt F) (idxLoc d) :=
  fun i => shapeCast S819200 (m (argLoc d)) shapeCasts_S4096x200_S819200 i
/-- The table and the result array as the launch finds them. -/
abbrev tabV (d : Dev nD) : Buf (Elt F) (tabLoc d) := m (tabLoc d)
abbrev outV (d : Dev nD) : Buf (Elt F) (outLoc d) := m (outLoc d)

/-- The result: the looked-up rows read at the result's shape. -/
def resV (d : Dev nD) : Buf (Elt F) (resLoc d) :=
  fun i => shapeCast S4096x200x128 (outG (idxV m) (tabV m) d) shapeCasts_S819200x128_S4096x200x128 i

variable [FloatOps F]

/-! ## The task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__emb_body (coordsV c s)
          (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _)
          cc0_scratch7 cc0_scratch8 cc0_scratch9 cc0_scratch10 cc0_scratch11 cc0_scratch12 cc0_scratch13 cc0_scratch14 cc0_scratch15 cc0_scratch16 cc0_scoped0 cc0_scoped1) ⟨⟩ c s := rfl

set_option maxRecDepth 16384 in
theorem tileObl (hF : (K (F := F)).Facts) (htile : TileBody (idxV m) (tabV m) (outV m)) :
    (K (F := F)).TileObl (D (F := F)) 𝒱 (P (idxV m) (tabV m) (outV m)) v₀ 0 := by
  intro d c i O W hO hOlev _
  have hci : ((K (F := F)).core 0 c).val < grid0.bound 0 ∧ ((K (F := F)).sub 0 i).val < grid0.bound 1 := ⟨c.isLt, i.isLt⟩
  rw [show (P (idxV m) (tabV m) (outV m)).ox 0 (V d ((K (F := F)).core 0 c) ((K (F := F)).sub 0 i)) = oxV d ((K (F := F)).core 0 c) from rfl,
    show (P (idxV m) (tabV m) (outV m)).x 0 (V d ((K (F := F)).core 0 c) ((K (F := F)).sub 0 i)) = bkit (tabV m) d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact htile hF d (coordsV ⟨_, hci.1⟩ ⟨_, hci.2⟩) O W hO hOlev

/-! ## A SparseCore's operands among its tasks -/

section Split

variable (fi : (d : Dev nD) → Buf (Elt F) (idxLoc d)) (ft : (d : Dev nD) → Buf (Elt F) (tabLoc d)) (fo : (d : Dev nD) → Buf (Elt F) (outLoc d))

omit [FloatOps F] in
/-- The tasks of the call are the sixteen vector subcores, in their order. -/
theorem bigSep_tasks (Φ : Fin τ.nSub → sProp 𝕄) :
    (bigSep Finset.univ fun i : Fin ((K (F := F)).nSub 0) => Φ ((K (F := F)).sub 0 i)) = bigSep (Finset.univ : Finset (Fin τ.nSub)) Φ :=
  bigSep_congr fun _ _ => congrArg Φ (Fin.ext rfl)

omit [FloatOps F] in
/-- A conjunct that only subcore 0 has. -/
theorem bigSep_zero (X : sProp 𝕄) : (bigSep Finset.univ fun j : Fin τ.nSub => if j.val = 0 then X else iprop(emp)) = X := by
  rw [SparseCore.bigSep_erase' (Finset.mem_univ (⟨0, by decide⟩ : Fin τ.nSub)), if_pos rfl,
    bigSep_congr (Ψ := fun _ => iprop(emp)) fun j hj => if_neg fun h => (Finset.mem_erase.mp hj).1 (Fin.ext h), bigSep_emp']
  exact equiv_iff.mp Idealize.SL.BI.sep_emp

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- The sixteen read shares of the shared copy and what remained beside them are the copy whole. -/
theorem sh_join (d : Dev nD) (c : Fin τ.nSC) :
    iprop((shLoc d c ↦{shareDrop fullShare 16} shT ft d c) ∗ bigSep Finset.univ fun j : Fin τ.nSub => shTok ft d c j.val)
      ⊢ (shLoc d c ↦{fullShare} shT ft d c : sProp 𝕄) :=
  Transfers.pointsTo_toks_join fullShare 16

omit [FloatOps F] in
theorem vecSplit_core (d : Dev nD) (c : Fin τ.nSC) :
    iprop(stRes fi ft fo d c ∗ ownBufs (S d c)) ⊢ |={Set.univ}=> iprop((bigSep Finset.univ fun j : Fin τ.nSub => goRes fi ft fo d c j)
      ∗ ((bigSep Finset.univ fun j : Fin τ.nSub => tdRes fi ft d c j) -∗ iprop(dnRes fi ft d c ∗ ownBufs (S d c)))) := by
  unfold stRes goRes tdRes dnRes
  rw [bigSep_sep', bigSep_sep', bigSep_sep', bigSep_sep', bigSep_sep', bigSep_zero, bigSep_zero, ownBufs_S]
  iintro ⟨⟨Hi, Ho, Ht⟩, Hsh, Hrest⟩; imodintro
  isplitl [Hi Ho Ht Hsh]
  · isplitl [Hi]; · iexact Hi
    isplitl [Ho]; · iexact Ho
    isplitl [Ht]; · iexact Ht
    iexact Hsh
  iintro ⟨Hi, Ho, Htok, Ht, Hd⟩
  isplitl [Hi Ho Ht]
  · isplitl [Hi]; · iexact Hi
    isplitl [Ho]; · iexact Ho
    iexact Ht
  isplitr [Hrest]
  · iexists (shT ft d c)
    iapply (sh_join ft d c)
    isplitl [Hd]; · iexact Hd
    iexact Htok
  iexact Hrest

end Split

theorem vecSplit : (K (F := F)).VecSplit (P (idxV m) (tabV m) (outV m)) 0 := by
  intro d c
  show iprop(stRes (idxV m) (tabV m) (outV m) d ((K (F := F)).core 0 c) ∗ ownBufs (S d ((K (F := F)).core 0 c))) ⊢ |={Set.univ}=> iprop(
      (bigSep Finset.univ fun i : Fin ((K (F := F)).nSub 0) => goRes (idxV m) (tabV m) (outV m) d ((K (F := F)).core 0 c) ((K (F := F)).sub 0 i))
      ∗ ((bigSep Finset.univ fun i : Fin ((K (F := F)).nSub 0) => tdRes (idxV m) (tabV m) d ((K (F := F)).core 0 c) ((K (F := F)).sub 0 i))
          -∗ iprop(dnRes (idxV m) (tabV m) d ((K (F := F)).core 0 c) ∗ ownBufs (S d ((K (F := F)).core 0 c)))))
  rw [bigSep_tasks (F := F) (fun j => goRes (idxV m) (tabV m) (outV m) d ((K (F := F)).core 0 c) j),
    bigSep_tasks (F := F) (fun j => tdRes (idxV m) (tabV m) d ((K (F := F)).core 0 c) j)]
  exact vecSplit_core (idxV m) (tabV m) (outV m) d _

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

section Elem

variable (fi : (d : Dev nD) → Buf (Elt F) (idxLoc d)) (ft : (d : Dev nD) → Buf (Elt F) (tabLoc d)) (fo : (d : Dev nD) → Buf (Elt F) (outLoc d))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) ft) g 0)
    ⊢ |={Set.univ}=> iprop(∃ κ : GSem nD τ sig → ℕ, bigSep bCells fun g => cellInv EB (bRd (F := F) ft) (κ g) g) := by
  refine (Rounds.bodies_intro EB (bRd (F := F) ft) bCells).trans ((inv_alloc_family bCells (Rounds.body EB (bRd (F := F) ft)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) fi ft fo).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) fi ft fo).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) fi ft fo).oxFrom 0 (V d c i) = oxV d c := fun i => by
    rw [show (0 : ℕ) = (0 : Fin 1).val from rfl, (P fi ft fo).oxFrom_step, (P fi ft fo).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) fi ft fo).x q (SparseCore.T d)) = iprop(emp) :=
  bigSep_univ_of_subsingleton (0 : Fin 1)
theorem Px_S (d : Dev nD) (c : Fin τ.nSC) : (bigSep Finset.univ fun q : Fin 1 => (P (F := F) fi ft fo).x q (S d c)) = iprop(emp) :=
  bigSep_univ_of_subsingleton (0 : Fin 1)
theorem Px_V (d : Dev nD) (c : Fin τ.nSC) (i : Fin τ.nSub) :
    (bigSep Finset.univ fun q : Fin 1 => (P (F := F) fi ft fo).x q (V d c i)) = bkit ft d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) ft) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) ft ∗ mine (F := F) dci) ⊢ (bkit (F := F) ft dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) ft) (κ (bcell₃ x)) (bcell₃ x)) fun j _ =>
        sep_elim_left.trans (bigSep_elim (Φ := fun x : DCI => (cellInv EB (bRd (F := F) ft) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) ft ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) fi ft fo).x q thr : sProp 𝕄) := by
  rw [SparseCore.Cfg.bigSep_threads (fun thr : Thread nD τ => bigSep Finset.univ fun q : Fin 1 => (P fi ft fo).x q thr)]
  simp only [Px_T, Px_S, Px_V, bigSep_emp']
  iintro ⟨#Hsh, Hat, Htok, Hcred⟩
  isplitr; · iempintro
  isplitr; · iempintro
  iapply (bigSep_mono_frame (R := shared (F := F) ft) (Φ := mine (F := F)) fun dci _ => kit_intro (F := F) ft dci)
  isplitr; · iexact Hsh
  unfold mine
  rw [bigSep_sep', bigSep_sep']
  isplitl [Hat]; · iexact Hat
  isplitl [Htok]; · iexact Htok
  iexact Hcred

theorem hu₀' : iprop(ownU (u₀ (F := F)) ∗ (P (F := F) fi ft fo).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P fi ft fo).x q thr) : sProp 𝕄) := by
  unfold u₀
  iintro ⟨Hu, Hcred, Hfree⟩
  ihave H := (ownU_split _ _) $$ Hu
  icases H with ⟨HH, HB⟩
  imod (Rounds.fund EB (bRd (F := F) ft) bCells bToks) $$ HB with ⟨Hst, #Hr, Hat, Htok⟩
  ihave Hsems := (sems_b (F := F)) $$ Hfree
  imod (invs_b (F := F) ft) $$ [Hsems Hst] with ⟨%κ, #Hinv⟩
  · isplitl [Hsems] <;> iassumption
  ihave Hcred' := (creds_b fi ft fo) $$ Hcred
  ihave Hinv' := (Entails.of_eq (bCells_eq (F := F) fun g => cellInv EB (bRd (F := F) ft) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal fi ft fo)
  isplitr
  · isplitl; · iexists κ; iexact Hinv'
    iexact Hr'
  isplitl [Hat']; · iexact Hat'
  isplitl [Htok']; · iexact Htok'
  iexact Hcred'

end Elem

theorem hu₀ : iprop(ownU (u₀ (F := F)) ∗ (P (F := F) (idxV m) (tabV m) (outV m)).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P (idxV m) (tabV m) (outV m)).x q thr) : sProp 𝕄) :=
  hu₀' (idxV m) (tabV m) (outV m)

/-! ## The thirty-two parts of the index array and of the result -/

section Parts

omit [FloatOps F] in
/-- Two parts that share a row are the same part. -/
theorem base_inj {c c' : Fin τ.nSC} {j j' : Fin τ.nSub} {x : ℕ} (h1 : base c j ≤ x) (h2 : x < base c j + 25600)
    (h3 : base c' j' ≤ x) (h4 : x < base c' j' + 25600) : c = c' ∧ j = j' := by
  unfold base at h1 h2 h3 h4
  have hc : c.val < 2 := c.isLt
  have hc' : c'.val < 2 := c'.isLt
  exact ⟨Fin.ext (by omega), Fin.ext (by omega)⟩

omit [FloatOps F] in
/-- Every row below 819200 is in some part. -/
theorem base_cover {x : ℕ} (hx : x < 819200) : ∃ (c : Fin τ.nSC) (j : Fin τ.nSub), base c j ≤ x ∧ x < base c j + 25600 := by
  refine ⟨⟨(x / 25600) % 2, Nat.mod_lt _ (by decide)⟩, ⟨(x / 25600) / 2, ?_⟩, ?_⟩
  · show x / 25600 / 2 < 16; omega
  · unfold base; dsimp only; omega

omit [FloatOps F] in
theorem flat_disjoint : ∀ x ∈ (Finset.univ : Finset (Fin τ.nSC × Fin τ.nSub)), ∀ y ∈ (Finset.univ : Finset (Fin τ.nSC × Fin τ.nSub)), x ≠ y →
    Disjoint (flatSet (base x.1 x.2) 25600) (flatSet (base y.1 y.2) 25600) := by
  intro x _ y _ hxy
  rw [Finset.disjoint_left]
  intro i hi hi'
  unfold flatSet at hi hi'
  obtain ⟨h1, h2⟩ := (Finset.mem_filter.mp hi).2
  obtain ⟨h3, h4⟩ := (Finset.mem_filter.mp hi').2
  obtain ⟨e1, e2⟩ := base_inj h1 h2 h3 h4
  exact hxy (Prod.ext e1 e2)

omit [FloatOps F] in
theorem flat_cover : (Finset.univ : Finset (Fin τ.nSC × Fin τ.nSub)).biUnion (fun x => flatSet (base x.1 x.2) 25600) = Finset.univ := by
  refine Finset.eq_univ_iff_forall.mpr fun i => ?_
  obtain ⟨c, j, h1, h2⟩ := base_cover (x := (i 0).val) (i 0).isLt
  exact Finset.mem_biUnion.mpr ⟨(c, j), Finset.mem_univ _, by unfold flatSet; exact Finset.mem_filter.mpr ⟨Finset.mem_univ _, h1, h2⟩⟩

omit [FloatOps F] in
theorem rows_disjoint : ∀ x ∈ (Finset.univ : Finset (Fin τ.nSC × Fin τ.nSub)), ∀ y ∈ (Finset.univ : Finset (Fin τ.nSC × Fin τ.nSub)), x ≠ y →
    Disjoint (rowsSet (base x.1 x.2) 25600) (rowsSet (base y.1 y.2) 25600) := by
  intro x _ y _ hxy
  rw [Finset.disjoint_left]
  intro i hi hi'
  unfold rowsSet at hi hi'
  obtain ⟨h1, h2⟩ := (Finset.mem_filter.mp hi).2
  obtain ⟨h3, h4⟩ := (Finset.mem_filter.mp hi').2
  obtain ⟨e1, e2⟩ := base_inj h1 h2 h3 h4
  exact hxy (Prod.ext e1 e2)

omit [FloatOps F] in
theorem rows_cover : (Finset.univ : Finset (Fin τ.nSC × Fin τ.nSub)).biUnion (fun x => rowsSet (base x.1 x.2) 25600) = Finset.univ := by
  refine Finset.eq_univ_iff_forall.mpr fun i => ?_
  obtain ⟨c, j, h1, h2⟩ := base_cover (x := (i 0).val) (i 0).isLt
  exact Finset.mem_biUnion.mpr ⟨(c, j), Finset.mem_univ _, by unfold rowsSet; exact Finset.mem_filter.mpr ⟨Finset.mem_univ _, h1, h2⟩⟩

omit [FloatOps F] in
/-- The index array whole is its thirty-two parts, at one contents. -/
theorem idx_parts (d : Dev nD) (f : Buf (Elt F) (idxLoc d)) :
    (idxLoc d ↦{fullShare} f : sProp 𝕄)
      = bigSep Finset.univ fun c : Fin τ.nSC => bigSep Finset.univ fun j : Fin τ.nSub => idxLoc d ↦[flatSet (base c j) 25600]{fullShare} f := by
  rw [← bigSep_univ_prod (fun x : Fin τ.nSC × Fin τ.nSub => (idxLoc d ↦[flatSet (base x.1 x.2) 25600]{fullShare} f : sProp 𝕄)),
    ← pointsTo_biUnion Finset.univ (ℓ := idxLoc d) (fun x : Fin τ.nSC × Fin τ.nSub => flatSet (base x.1 x.2) 25600) flat_disjoint, flat_cover]

omit [FloatOps F] in
/-- The result array whole is its thirty-two parts, at one contents. -/
theorem out_parts (d : Dev nD) (f : Buf (Elt F) (outLoc d)) :
    (outLoc d ↦{fullShare} f : sProp 𝕄)
      = bigSep Finset.univ fun c : Fin τ.nSC => bigSep Finset.univ fun j : Fin τ.nSub => outLoc d ↦[rowsSet (base c j) 25600]{fullShare} f := by
  rw [← bigSep_univ_prod (fun x : Fin τ.nSC × Fin τ.nSub => (outLoc d ↦[rowsSet (base x.1 x.2) 25600]{fullShare} f : sProp 𝕄)),
    ← pointsTo_biUnion Finset.univ (ℓ := outLoc d) (fun x : Fin τ.nSC × Fin τ.nSub => rowsSet (base x.1 x.2) 25600) rows_disjoint, rows_cover]

end Parts

/-! ## @main on the TensorCore -/

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
/-- The two host operations of @main: the indices flattened, the rows read at the result's shape. -/
abbrev op1 : HloOp τ sig (Elt F) := StableHlo.reshape main_arg0 main_v0 rfl shapeCasts_S4096x200_S819200
abbrev op2 : HloOp τ sig (Elt F) := StableHlo.reshape main_v1 main_v2 rfl shapeCasts_S819200x128_S4096x200x128

omit [FloatOps F] in
theorem unscopedBufs_eq (d : Dev nD) (W : (b : Ref sig .tc) → Buf (Elt F) ((d.tc : Thread nD τ).loc b)) :
    (unscopedBufs d W : sProp 𝕄) = iprop((argLoc d ↦{fullShare} W main_arg0) ∗ (tabLoc d ↦{fullShare} W main_arg1) ∗ (idxLoc d ↦{fullShare} W main_v0)
      ∗ (outLoc d ↦{fullShare} W main_v1) ∗ resLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide),
    bigSep_singleton]

/-- The launch valuation of device `d`; and the same with the result array at the looked-up rows. -/
def V0 (d : Dev nD) : Valuation τ sig (Elt F) := fun b => m (d, b)
def V1 (d : Dev nD) : Valuation τ sig (Elt F) := Function.update (V0 m d) v1' (outG (idxV m) (tabV m) d)

omit [FloatOps F] in
theorem V1_v1 (d : Dev nD) : V1 m d v1' = outG (idxV m) (tabV m) d := Function.update_self _ _ _
omit [FloatOps F] in
theorem V1_v2 (d : Dev nD) : V1 m d v2' = m (resLoc d) := Function.update_of_ne (show v2' ≠ v1' by decide) _ _

omit [FloatOps F] in
theorem held_1 (d : Dev nD) :
    (held (T d) {a0', v0'} (V0 m d) : sProp 𝕄) = iprop((argLoc d ↦{fullShare} m (argLoc d)) ∗ idxLoc d ↦{fullShare} m (idxLoc d)) := by
  unfold held
  rw [SparseCore.bigSep_insert' (by decide), bigSep_singleton]; rfl

omit [FloatOps F] in
theorem held_1' (d : Dev nD) :
    (held (T d) {a0', v0'} ((op1 (F := F)).result (V0 m d)) : sProp 𝕄) = iprop((argLoc d ↦{fullShare} m (argLoc d)) ∗ idxLoc d ↦{fullShare} idxV m d) := by
  unfold held
  rw [SparseCore.bigSep_insert' (by decide), bigSep_singleton,
    (op1 (F := F)).result_of_not_mem (V0 m d) (b := a0') (show a0' ∉ ({v0'} : Finset (DevRef τ sig)) by decide),
    StableHlo.reshape_result]
  rfl

omit [FloatOps F] in
theorem held_2 (d : Dev nD) :
    (held (T d) {v1', v2'} (V1 m d) : sProp 𝕄) = iprop((outLoc d ↦{fullShare} outG (idxV m) (tabV m) d) ∗ resLoc d ↦{fullShare} m (resLoc d)) := by
  unfold held
  rw [SparseCore.bigSep_insert' (by decide), bigSep_singleton, V1_v1, V1_v2]

omit [FloatOps F] in
theorem held_2' (d : Dev nD) :
    (held (T d) {v1', v2'} ((op2 (F := F)).result (V1 m d)) : sProp 𝕄) = iprop((outLoc d ↦{fullShare} outG (idxV m) (tabV m) d) ∗ resLoc d ↦{fullShare} resV m d) := by
  unfold held
  rw [SparseCore.bigSep_insert' (by decide), bigSep_singleton,
    (op2 (F := F)).result_of_not_mem (V1 m d) (b := v1') (show v1' ∉ ({v2'} : Finset (DevRef τ sig)) by decide),
    StableHlo.reshape_result, V1_v1]
  rfl

omit [FloatOps F] in
/-- The SparseCores of the call are the device's two, in their order. -/
theorem bigSep_cores (Φ : Fin τ.nSC → sProp 𝕄) :
    (bigSep Finset.univ fun c : Fin ((K (F := F)).nCore 0) => Φ ((K (F := F)).core 0 c)) = bigSep (Finset.univ : Finset (Fin τ.nSC)) Φ :=
  bigSep_congr fun _ _ => congrArg Φ (Fin.ext rfl)

omit [FloatOps F] in
/-- The table whole is what remains beside two read shares, and the two: one per SparseCore. -/
theorem tab_toks (d : Dev nD) (f : Buf (Elt F) (tabLoc d)) :
    (tabLoc d ↦{fullShare} f : sProp 𝕄)
      ⊣⊢ iprop((tabLoc d ↦{shareDrop fullShare 2} f) ∗ bigSep Finset.univ fun c : Fin τ.nSC => tabLoc d ↦{shareTokN fullShare c.val} f) :=
  Transfers.pointsTo_toks fullShare 2

section Calls

variable (fi : (d : Dev nD) → Buf (Elt F) (idxLoc d)) (ft : (d : Dev nD) → Buf (Elt F) (tabLoc d)) (fo : (d : Dev nD) → Buf (Elt F) (outLoc d))

/-- What the call takes for the two SparseCores: the index array and the result array whole, and two read shares of the table. -/
theorem st0_eq (d : Dev nD) : (bigSep Finset.univ fun c : Fin ((K (F := F)).nCore 0) => (P fi ft fo).st 0 d c)
    = iprop((idxLoc d ↦{fullShare} fi d) ∗ (outLoc d ↦{fullShare} fo d) ∗ bigSep Finset.univ fun c : Fin τ.nSC => tabLoc d ↦{shareTokN fullShare c.val} ft d) := by
  show (bigSep Finset.univ fun c : Fin ((K (F := F)).nCore 0) => stRes fi ft fo d ((K (F := F)).core 0 c)) = _
  rw [bigSep_cores (F := F) (fun c => stRes fi ft fo d c)]
  unfold stRes
  rw [bigSep_sep', bigSep_sep', ← idx_parts d (fi d), ← out_parts d (fo d)]

/-- What it hands back: the same, the result array at the looked-up rows. -/
theorem dn0_eq (d : Dev nD) : (bigSep Finset.univ fun c : Fin ((K (F := F)).nCore 0) => (P fi ft fo).dn 0 d c)
    = iprop((idxLoc d ↦{fullShare} fi d) ∗ (outLoc d ↦{fullShare} outG fi ft d) ∗ bigSep Finset.univ fun c : Fin τ.nSC => tabLoc d ↦{shareTokN fullShare c.val} ft d) := by
  show (bigSep Finset.univ fun c : Fin ((K (F := F)).nCore 0) => dnRes fi ft d ((K (F := F)).core 0 c)) = _
  rw [bigSep_cores (F := F) (fun c => dnRes fi ft d c)]
  unfold dnRes
  rw [bigSep_sep', bigSep_sep', ← idx_parts d (fi d), ← out_parts d (outG fi ft d)]

end Calls

/-- What @main leaves the claim: both arguments at their launch contents, the result at the looked-up rows read at its shape. -/
abbrev FIN (d : Dev nD) : sProp 𝕄 :=
  iprop((argLoc d ↦{fullShare} m (argLoc d)) ∗ (tabLoc d ↦{fullShare} m (tabLoc d)) ∗ (resLoc d ↦{fullShare} resV m d))

/-- @main on device `d`'s TensorCore: the indices flattened, the call, the rows read at the result's shape. -/
theorem hmain (κ : GSem nD τ sig → ℕ) (d : Dev nD) :
    iprop((K (F := F)).ctx EH (P (idxV m) (tabV m) (outV m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ht, H0, H1, H2⟩, -, -⟩, -⟩
  -- the indices flattened
  iapply (wp_hlo_within 𝒱 (SparseCore.T d) none Set.univ (op := op1) (S := {a0', v0'}) (Finset.Subset.refl _) (V := V0 m d)) $$ [Hb Ha H0]
  · isplitl [Hb]; · iexact Hb
    rw [held_1]
    isplitl [Ha]; · iexact Ha
    iexact H0
  iintro ⟨Hb, Hheld⟩
  ihave Hh := (Entails.of_eq (held_1' (F := F) m d)) $$ Hheld
  icases Hh with ⟨Ha, H0⟩
  rw [wp_ret]; imodintro
  -- the table's two read shares, one per SparseCore
  ihave Ht' := (tab_toks d (m (tabLoc d))).1 $$ Ht
  icases Ht' with ⟨Htr, Htoks⟩
  -- the call
  iapply ((K (F := F)).wp_run (D (F := F)) 𝒱 (EH := EH) (P := P (idxV m) (tabV m) (outV m)) κ d 0) $$ [Hst H0 H1 Htoks Hb Ha Htr H2]
  isplitr; · iexact Hctx
  isplitl [Hst]; · iexact Hst
  isplitl [H0 H1 Htoks]
  · rw [st0_eq]
    isplitl [H0]; · iexact H0
    isplitl [H1]; · iexact H1
    iexact Htoks
  iintro ⟨Hst, Hdn⟩
  ihave Hdn' := (Entails.of_eq (dn0_eq (idxV m) (tabV m) (outV m) d)) $$ Hdn
  icases Hdn' with ⟨H0, H1, Htoks⟩
  ihave Ht := (tab_toks d (m (tabLoc d))).2 $$ [Htr Htoks]
  · isplitl [Htr] <;> iassumption
  -- the rows read at the result's shape
  iapply (wp_hlo_within 𝒱 (SparseCore.T d) none Set.univ (op := op2) (S := {v1', v2'}) (Finset.Subset.refl _) (V := V1 m d)) $$ [Hb H1 H2]
  · isplitl [Hb]; · iexact Hb
    rw [held_2]
    isplitl [H1]; · iexact H1
    iexact H2
  iintro ⟨Hb, Hheld⟩
  ihave Hh := (Entails.of_eq (held_2' (F := F) m d)) $$ Hheld
  icases Hh with ⟨H1, H2⟩
  rw [wp_ret]; imodintro; imodintro
  isplitl [Hst]; · iexact Hst
  isplitl [Ha]; · iexact Ha
  isplitl [Ht]; · iexact Ht
  iexact H2

/-! ## What the final memory says -/

def fq (d : Dev nD) (s' : Phys nD τ sig (Elt F)) : Prop :=
  s'.mem.mem (resLoc d) = resV m d ∧ s'.mem.mem (argLoc d) = m (argLoc d) ∧ s'.mem.mem (tabLoc d) = m (tabLoc d)

theorem hfin (d : Dev nD) (s' : Phys nD τ sig (Elt F)) : iprop(FIN m d ∗ SI s') ⊢ (⌜fq m d s'⌝ : sProp 𝕄) := by
  iintro ⟨⟨Ha, Ht, Hr⟩, HSI⟩
  icombine HSI Ha gives %h1
  icombine HSI Ht gives %h2
  icombine HSI Hr gives %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem ((c.tc : Thread nD τ).loc main_v2)
      = (fun i => shapeCast S4096x200x128 (outG (idxV m) (tabV m) c) shapeCasts_S819200x128_S4096x200x128 i)
    ∧ r.2.mem ((c.tc : Thread nD τ).loc main_arg0) = m ((c.tc : Thread nD τ).loc main_arg0)
    ∧ r.2.mem ((c.tc : Thread nD τ).loc main_arg1) = m ((c.tc : Thread nD τ).loc main_arg1)

theorem run_main [∀ e, Nonempty (Elt F e)] (htile : TileBody (idxV m) (tabV m) (outV m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (idxV m) (tabV m) (outV m)) facts v₀
    (fun q hq => match q with | 0 => nomatch hq)
    (fun q _ => match q with | 0 => tileObl m facts htile)
    (fun q _ => match q with | 0 => vecSplit m)
    m ρ main (fun _ => iprop(emp)) (FIN m) (u₀ (F := F)) (hu₀ m) (hmain m ρ) (fq m) (hfin m) (QC m) (fun _ h => h)

end Cert.Proof.BitsSide

end
-- ==== Proof.IdealRows.lean ====
/-
  The result array by rows, and subcore 0's hand-over at the barrier.

  A run of consecutive rows of the row-major result splits at any row into the rows before and the rows from
  there on, and ownership of the run splits and joins with it. The shared copy of the table, held whole by
  subcore 0 once it has copied the table in, splits into sixteen read shares, one per subcore of the SparseCore,
  and a remainder: the sixteen shares are exactly what subcore 0's sixteen arrivals at the barrier hand over.
-/
import proofs.«203224_g2765958938866_cont_9to1_225_22_alg».proof.Proof.IdealProto

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

/-! ## Runs of rows -/

/-- Rows lo … lo + a + b − 1 are rows lo … lo + a − 1 and rows lo + a … lo + a + b − 1. -/
theorem rowsSet_add (lo a b : ℕ) : rowsSet lo (a + b) = rowsSet lo a ∪ rowsSet (lo + a) b := by
  ext i
  simp only [rowsSet, Finset.mem_union, Finset.mem_filter, Finset.mem_univ, true_and]
  omega

/-- The two runs have no row in common. -/
theorem rowsSet_disjoint (lo a b : ℕ) : Disjoint (rowsSet lo a) (rowsSet (lo + a) b) := by
  rw [Finset.disjoint_left]
  intro i h1 h2
  simp only [rowsSet, Finset.mem_filter, Finset.mem_univ, true_and] at h1 h2
  omega

/-- Ownership of a run of rows of the result is ownership of its two parts. -/
theorem rows_split (d : Dev nD) (q : PosShare TreeShare) (f : Buf (Elt F) (outLoc d)) (lo a b : ℕ) :
    (outLoc d ↦[rowsSet lo (a + b)]{q} f : sProp 𝕄)
      ⊣⊢ iprop((outLoc d ↦[rowsSet lo a]{q} f) ∗ outLoc d ↦[rowsSet (lo + a) b]{q} f) := by
  rw [rowsSet_add]
  exact pointsTo_union (rowsSet_disjoint lo a b)

theorem rows_carve (d : Dev nD) (q : PosShare TreeShare) (f : Buf (Elt F) (outLoc d)) (lo a b : ℕ) :
    (outLoc d ↦[rowsSet lo (a + b)]{q} f : sProp 𝕄)
      ⊢ iprop((outLoc d ↦[rowsSet lo a]{q} f) ∗ outLoc d ↦[rowsSet (lo + a) b]{q} f) :=
  (rows_split d q f lo a b).1

theorem rows_join (d : Dev nD) (q : PosShare TreeShare) (f : Buf (Elt F) (outLoc d)) (lo a b : ℕ) :
    iprop((outLoc d ↦[rowsSet lo a]{q} f) ∗ outLoc d ↦[rowsSet (lo + a) b]{q} f)
      ⊢ (outLoc d ↦[rowsSet lo (a + b)]{q} f : sProp 𝕄) :=
  (rows_split d q f lo a b).2

/-- The same join when the second part is held at contents that agree with `f` on its rows. -/
theorem rows_join' (d : Dev nD) (q : PosShare TreeShare) (f g : Buf (Elt F) (outLoc d)) (lo a b : ℕ)
    (h : ∀ i ∈ rowsSet (lo + a) b, g i = f i) :
    iprop((outLoc d ↦[rowsSet lo a]{q} f) ∗ outLoc d ↦[rowsSet (lo + a) b]{q} g)
      ⊢ (outLoc d ↦[rowsSet lo (a + b)]{q} f : sProp 𝕄) := by
  rw [pointsTo_congr (ℓ := outLoc d) (q := q) h]
  exact rows_join d q f lo a b

/-! ## Subcore 0's hand-over -/

variable (ft : (d : Dev nD) → Buf (Elt F) (tabLoc d)) [FloatOps F]

/-- What subcore 0's duty in subcore j's round hands over is the j-th read share of the shared copy. -/
theorem payload_zero (d : Dev nD) (c : Fin τ.nSC) (j : Fin (grid0.bound 1)) :
    (bRd (F := F) ft).payload (bcell d c (j.castLE hsub0)) 0 0
      = (shLoc d c ↦{shareTokN fullShare j.val} shT ft d c : sProp 𝕄) := by
  show bPay ft (bcell d c (j.castLE hsub0)) 0 = _
  unfold bPay
  exact if_pos rfl

/-- The shared copy held whole is the sixteen read shares subcore 0 hands over at the barrier, and a remainder. -/
theorem pays_intro_zero (d : Dev nD) (c : Fin τ.nSC) :
    (shLoc d c ↦{fullShare} shT ft d c : sProp 𝕄)
      ⊢ iprop((bigSep Finset.univ fun j : Fin (grid0.bound 1) => (bRd (F := F) ft).payload (bcell d c (j.castLE hsub0)) 0 0)
          ∗ shLoc d c ↦{shareDrop fullShare 16} shT ft d c) := by
  have hb : (bigSep Finset.univ fun j : Fin (grid0.bound 1) => (bRd (F := F) ft).payload (bcell d c (j.castLE hsub0)) 0 0)
      = bigSep (Finset.range 16) fun i => (shLoc d c ↦{shareTokN fullShare i} shT ft d c : sProp 𝕄) := by
    rw [bigSep_congr (fun j _ => payload_zero ft d c j)]
    show bigSep (Finset.univ : Finset (Fin 16)) (fun j => (shLoc d c ↦{shareTokN fullShare j.val} shT ft d c : sProp 𝕄)) = _
    rw [← Nat.Iio_eq_range, ← Fin.map_valEmbedding_univ, bigSep_map]
    rfl
  rw [hb]
  exact (Transfers.pointsTo_toks_range fullShare 16).1.trans sep_comm.1

end Cert.Proof.IdealSide

end
-- ==== Proof.IdealTileDefs.lean ====
/-
  The tile's task of the lookup kernel: its resources and the state of its pipeline between trips.

  A tile works on 200 chunks of 128 rows. It copies its 25600 indices into its own memory; subcore 0 also copies
  the table into the SparseCore's shared memory; after the barrier every tile holds a read share of that copy.
  Then a ring of five row buffers: chunk g is gathered into buffer g mod 5 (rows of the shared copy named by the
  chunk's 128 indices), and two steps later, once that gather is waited for, the buffer is copied out to rows
  128 g … 128 g + 127 of the tile's part of the result; a buffer is gathered into again only after its copy-out
  has been waited for. Each buffer has its own gather semaphore and its own store semaphore, so at most one
  transfer is outstanding per semaphore, and no buffer is touched while a transfer on it is pending.
-/
import proofs.«203224_g2765958938866_cont_9to1_225_22_alg».proof.Proof.IdealProto
import proofs.«203224_g2765958938866_cont_9to1_225_22_alg».proof.Proof.IdealRows

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (fi : (d : Dev nD) → Buf (Elt F) (idxLoc d)) (ft : (d : Dev nD) → Buf (Elt F) (tabLoc d)) (fo : (d : Dev nD) → Buf (Elt F) (outLoc d))
variable [FloatOps F]

section Tile

variable (d : Dev nD) (L : grid0.Coords)

theorem reg_not_scoped : ∀ r : Sem sig, (SemLoc.reg r : SemLoc sig).isScoped .scVector = false := by decide
theorem dma_scoped : ∀ k : DmaSem sig, (SemLoc.dma k : SemLoc sig).isScoped .scVector = true := by decide

/-- The twelve DMA semaphores of the tile: its own cells, every one. -/
theorem ownCells_V : ownCells (sig := sig) (V d (cV L) (jV L))
    = (Finset.univ : Finset (DmaSem sig)).image fun k => ((V d (cV L) (jV L), SemLoc.dma k) : GSem nD τ sig) := by
  ext ⟨thr, sm⟩
  simp only [mem_ownCells, Finset.mem_image, Finset.mem_univ, true_and]
  constructor
  · rintro ⟨rfl, h⟩
    cases sm with
    | reg r =>
      have h' : (SemLoc.reg r : SemLoc sig).isScoped .scVector = true := h
      rw [reg_not_scoped] at h'; exact absurd h' (by decide)
    | dma k => exact ⟨k, rfl⟩
  · rintro ⟨k, hk⟩
    cases hk
    exact ⟨rfl, dma_scoped k⟩

abbrev dc (k : DmaSem sig) : GSem nD τ sig := (V d (cV L) (jV L), SemLoc.dma k)

theorem ownSems0_V : (ownSems0 (V d (cV L) (jV L)) : sProp 𝕄)
    = iprop(semVal (dc d L 0) 0 ∗ semVal (dc d L 1) 0 ∗ semVal (dc d L 2) 0 ∗ semVal (dc d L 3) 0 ∗ semVal (dc d L 4) 0 ∗ semVal (dc d L 5) 0
        ∗ semVal (dc d L 6) 0 ∗ semVal (dc d L 7) 0 ∗ semVal (dc d L 8) 0 ∗ semVal (dc d L 9) 0 ∗ semVal (dc d L 10) 0 ∗ semVal (dc d L 11) 0) := by
  unfold SparseCore.Cfg.ownSems0
  rw [ownCells_V, SparseCore.bigSep_image_of_injOn (fun a _ b _ e => SemLoc.dma.inj (Prod.mk.inj e).2)]
  rw [show (Finset.univ : Finset (DmaSem sig)) = {0, 1, 2, 3, 4, 5, 6, 7, 8, 9, 10, 11} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- The part of the flattened indices a slice of 25600 entries at offset `off` addresses. -/
theorem set_idx_slice (off : Fin 1 → Nat) (inb : ∀ a, off a + S25600.size a ≤ S819200.size a) :
    (((Memref.whole main_v0_scv : Memref sig .scVector .hbm S819200 .i32).slice (Rect.unit (s := S819200) off S25600.size inb) (fun _ => rfl)).view.set : Finset S819200.Idx)
      = flatSet (off 0) 25600 := by
  show ((View.whole (main_v0_scv : Ref sig .scVector)).slice _).set = _
  rw [View.set_slice_whole]
  ext i
  simp only [Rect.mem_set_unit, flatSet, Finset.mem_filter, Finset.mem_univ, true_and]
  constructor
  · intro h; exact h 0
  · intro h a; match a with | ⟨0, _⟩ => exact h

omit [FloatOps F] in
/-- The rows of the result a slice of 128 whole rows at row `off 0` addresses. -/
theorem set_out_slice (off : Fin 2 → Nat) (h1 : off 1 = 0) (inb : ∀ a, off a + S128x128.size a ≤ S819200x128.size a) :
    (((Memref.whole main_v1_scv : Memref sig .scVector .hbm S819200x128 .f32).slice (Rect.unit (s := S819200x128) off S128x128.size inb) (fun _ => rfl)).view.set : Finset S819200x128.Idx)
      = rowsSet (off 0) 128 := by
  show ((View.whole (main_v1_scv : Ref sig .scVector)).slice _).set = _
  rw [View.set_slice_whole]
  ext i
  simp only [Rect.mem_set_unit, rowsSet, Finset.mem_filter, Finset.mem_univ, true_and]
  constructor
  · intro h; exact h 0
  · intro h a
    match a with
    | ⟨0, _⟩ => exact h
    | ⟨1, hlt⟩ =>
      have e : off ⟨1, hlt⟩ = 0 := h1
      exact ⟨by rw [e]; exact Nat.zero_le _, by rw [e, Nat.zero_add]; exact (i ⟨1, hlt⟩).isLt⟩

/-- The tile's own scratch buffers: the index list (0) and the five row buffers (1–5). -/
abbrev vref (k : Fin 6) : Ref sig .scVector := ⟨.vmem, k, rfl⟩
abbrev vb (k : Fin 6) : DevRef τ sig := (Proc.scVector (cV L) (jV L)).devRef (vref k)

omit [FloatOps F] in
theorem vb_injective : Function.Injective (vb L) := fun a b e => by
  have := congrArg (fun r : DevRef τ sig => r.idx.val) e
  exact Fin.ext this

omit [FloatOps F] in
theorem ownBufs_V :
    (ownBufs (V d (cV L) (jV L)) : sProp 𝕄)
      = iprop((bigSep Finset.univ fun k : Fin 6 => iprop(∃ f, ((d, vb L k) : Loc nD τ sig) ↦{fullShare} f))
          ∗ bigSep (ownRefs (τ := τ) (.scVector (cV L) (jV L)) \ Finset.univ.image (vb L))
              fun b => iprop(∃ f, ((d, b) : Loc nD τ sig) ↦{fullShare} f)) := by
  unfold SparseCore.Cfg.ownBufs
  rw [SparseCore.bigSep_sdiff_split' (t := Finset.univ.image (vb L)) (fun b hb => by
      obtain ⟨k, -, rfl⟩ := Finset.mem_image.mp hb
      exact SparseCore.Cfg.mem_ownRefs_of_owner rfl),
    SparseCore.bigSep_image_of_injOn (fun a _ b _ e => vb_injective L e)]

/-! ## The tile's resources in the body's own spelling -/

theorem ownSems0_V' : (ownSems0 (V d (cV L) (jV L)) : sProp 𝕄)
    = iprop(semVal (V d (cV L) (jV L), SemLoc.dma cc0_scratch7.sem) 0 ∗ semVal (V d (cV L) (jV L), SemLoc.dma cc0_scratch8.sem) 0
        ∗ semVal (V d (cV L) (jV L), SemLoc.dma cc0_scratch9.sem) 0 ∗ semVal (V d (cV L) (jV L), SemLoc.dma cc0_scratch10.sem) 0
        ∗ semVal (V d (cV L) (jV L), SemLoc.dma cc0_scratch11.sem) 0 ∗ semVal (V d (cV L) (jV L), SemLoc.dma cc0_scratch12.sem) 0
        ∗ semVal (V d (cV L) (jV L), SemLoc.dma cc0_scratch13.sem) 0 ∗ semVal (V d (cV L) (jV L), SemLoc.dma cc0_scratch14.sem) 0
        ∗ semVal (V d (cV L) (jV L), SemLoc.dma cc0_scratch15.sem) 0 ∗ semVal (V d (cV L) (jV L), SemLoc.dma cc0_scratch16.sem) 0
        ∗ semVal (V d (cV L) (jV L), SemLoc.dma cc0_scoped0.sem) 0 ∗ semVal (V d (cV L) (jV L), SemLoc.dma cc0_scoped1.sem) 0) := by
  rw [ownSems0_V]; rfl

theorem pts_ix (f : Buf (Elt F) ((V d (cV L) (jV L)).loc cc0_scratch0)) :
    ((Memref.whole cc0_scratch0).view.loc (V d (cV L) (jV L)) ↦{fullShare} f : sProp 𝕄) = ((d, vb L 0) : Loc nD τ sig) ↦{fullShare} f := rfl
theorem pts_r0 (f : Buf (Elt F) ((V d (cV L) (jV L)).loc cc0_scratch2)) :
    ((Memref.whole cc0_scratch2).view.loc (V d (cV L) (jV L)) ↦{fullShare} f : sProp 𝕄) = ((d, vb L 1) : Loc nD τ sig) ↦{fullShare} f := rfl
theorem pts_r1 (f : Buf (Elt F) ((V d (cV L) (jV L)).loc cc0_scratch3)) :
    ((Memref.whole cc0_scratch3).view.loc (V d (cV L) (jV L)) ↦{fullShare} f : sProp 𝕄) = ((d, vb L 2) : Loc nD τ sig) ↦{fullShare} f := rfl
theorem pts_r2 (f : Buf (Elt F) ((V d (cV L) (jV L)).loc cc0_scratch4)) :
    ((Memref.whole cc0_scratch4).view.loc (V d (cV L) (jV L)) ↦{fullShare} f : sProp 𝕄) = ((d, vb L 3) : Loc nD τ sig) ↦{fullShare} f := rfl
theorem pts_r3 (f : Buf (Elt F) ((V d (cV L) (jV L)).loc cc0_scratch5)) :
    ((Memref.whole cc0_scratch5).view.loc (V d (cV L) (jV L)) ↦{fullShare} f : sProp 𝕄) = ((d, vb L 4) : Loc nD τ sig) ↦{fullShare} f := rfl
theorem pts_r4 (f : Buf (Elt F) ((V d (cV L) (jV L)).loc cc0_scratch6)) :
    ((Memref.whole cc0_scratch6).view.loc (V d (cV L) (jV L)) ↦{fullShare} f : sProp 𝕄) = ((d, vb L 5) : Loc nD τ sig) ↦{fullShare} f := rfl

/-- The tile's part of the flattened indices, as the body slices it. -/
abbrev idxK : Memref sig .scVector .hbm S25600 .i32 :=
  (Memref.whole main_v0_scv).slice (Rect.unit (s := S819200) (k0_off1 L) S25600.size (k0_off1_inb L)) (fun _ => rfl)

theorem base_eq : base (cV L) (jV L) = (k0_off1 L) 0 := by
  rw [k0_off1_eq]; show 25600 * (2 * (L 1).val + (L 0).val) = 51200 * (L 1).val + 25600 * (L 0).val; omega

theorem pts_idxK (f : Buf (Elt F) (idxLoc d)) :
    ((idxK L).view.loc (V d (cV L) (jV L)) ↦[(idxK L).view.set]{fullShare} f : sProp 𝕄) = idxLoc d ↦[flatSet (base (cV L) (jV L)) 25600]{fullShare} f := by
  rw [base_eq, ← set_idx_slice (k0_off1 L) (k0_off1_inb L)]

/-! ## The barrier's hand-overs -/

/-- A tile other than subcore 0 hands nothing over at the barrier. -/
theorem pays_intro_other (hj : (jV L).val ≠ 0) : (iprop(emp) : sProp 𝕄)
    ⊢ (bigSep Finset.univ fun j : Fin (grid0.bound 1) => (bRd (F := F) ft).payload (bcell d (cV L) (j.castLE hsub0)) 0 (jV L).val : sProp 𝕄) := by
  rw [show (bigSep Finset.univ fun j : Fin (grid0.bound 1) => (bRd (F := F) ft).payload (bcell d (cV L) (j.castLE hsub0)) 0 (jV L).val)
      = bigSep Finset.univ fun _ : Fin (grid0.bound 1) => (iprop(emp) : sProp 𝕄) from
      bigSep_congr fun j _ => if_neg hj, bigSep_emp']

/-- What a tile's own round collected holds its read share of the shared copy (subcore 0's duty). -/
theorem pays_elim : (bigSep ((bRd (F := F) ft).duties (bcell d (cV L) (jV L)) 0 \ ∅) fun n => (bRd (F := F) ft).payload (bcell d (cV L) (jV L)) 0 n)
    ⊢ (shTok ft d (cV L) (jV L).val : sProp 𝕄) := by
  rw [Finset.sdiff_empty, bRd_duties₀]
  refine (bigSep_elim (i := 0) (Finset.mem_image.mpr ⟨(⟨0, by decide⟩ : Fin τ.nSub), Finset.mem_univ _, rfl⟩)).trans ?_
  show bPay ft (bcell d (cV L) (jV L)) 0 ⊢ _
  unfold bPay; dsimp only
  rw [if_pos rfl]

/-- The test `s == 0` of the body, as a word of the subcore's number. -/
theorem when_s0 : ∀ x : Fin 16, Iff (Scalar.cmpi .ne (Scalar.extui (Scalar.cmpi .eq (BitVec.ofNat 32 x.val) (0#32 : BitVec 32)) : BitVec 32) (0#32 : BitVec 32) = 1#1) (x.val = 0) := by decide

/-! ## The loop -/

/-- The tile's read share of the shared copy. -/
abbrev Qj : PosShare TreeShare := shareTokN fullShare (jV L).val

theorem pts_sh (q : PosShare TreeShare) (f : Buf (Elt F) (shLoc d (cV L))) :
    ((Memref.whole cc0_scratch1).view.loc (V d (cV L) (jV L)) ↦{q} f : sProp 𝕄) = shLoc d (cV L) ↦{q} f := rfl

/-- The share split into one read token per gather semaphore (cells 0 to 4) and a remainder. -/
theorem sh_toks (f : Buf (Elt F) (shLoc d (cV L))) : (shLoc d (cV L) ↦{Qj L} f : sProp 𝕄)
    ⊣⊢ iprop((shLoc d (cV L) ↦{shareDrop (Qj L) 5} f) ∗ (shLoc d (cV L) ↦{shareTokN (Qj L) 0} f) ∗ (shLoc d (cV L) ↦{shareTokN (Qj L) 1} f)
        ∗ (shLoc d (cV L) ↦{shareTokN (Qj L) 2} f) ∗ (shLoc d (cV L) ↦{shareTokN (Qj L) 3} f) ∗ shLoc d (cV L) ↦{shareTokN (Qj L) 4} f) := by
  have h := Transfers.pointsTo_toks_range (ℓ := shLoc d (cV L)) (S := Finset.univ) (f := f) (nD := nD) (τ := τ) (sig := sig) (Ix := HIx 1) (Val := Elt F) (Name := ℕ) (U := UU) (Lvl := ℕ) (Qj L) 5
  rw [show Finset.range 5 = {0, 1, 2, 3, 4} by decide, SparseCore.bigSep_insert' (by decide), SparseCore.bigSep_insert' (by decide),
    SparseCore.bigSep_insert' (by decide), SparseCore.bigSep_insert' (by decide), bigSep_singleton] at h
  exact h

/-- The trip's tests: "a store of this slot is outstanding" and "the chunk two back exists" hold from the second trip on;
    for the third, fourth and fifth slot of a trip the chunk two back always exists. -/
theorem conds : ∀ k : Fin k0_t1_loop.trips,
    (Iff (k0_cond2 k = 1#1) (0 < k.val)) ∧ (Iff (k0_cond3 k = 1#1) (0 < k.val)) ∧ (Iff (k0_cond4 k = 1#1) (0 < k.val)) ∧ (Iff (k0_cond5 k = 1#1) (0 < k.val))
    ∧ (Iff (k0_cond6 k = 1#1) (0 < k.val)) ∧ (k0_cond7 k = 1#1) ∧ (Iff (k0_cond8 k = 1#1) (0 < k.val)) ∧ (k0_cond9 k = 1#1)
    ∧ (Iff (k0_cond10 k = 1#1) (0 < k.val)) ∧ (k0_cond11 k = 1#1) := by decide +kernel

/-- The index list as the tile holds it after its copy: its part of the flattened indices. -/
abbrev ixc : S25600.Idx → Elt F .i32 := (idxK L).view.read (Elt F) (fi d)

theorem ixc_lt (hin : ∀ d j, (fi d j).toNat < 64) (r : S25600.Idx) : (ixc fi d L r).toNat < 64 := by
  unfold ixc; rw [View.read_apply]; exact hin d _

/-- Before the first trip: every buffer, token and semaphore at rest, nothing of the result written. -/
def invX (O : CellTallies nD τ sig (HIx 1)) (W : Waits sig (HIx 1)) (f0 f1 f2 f3 f4 : S128x128.Idx → Elt F .f32) (_ : Nat) (_ : PUnit) : sProp 𝕄 :=
  iprop(Transfers.MayWaits (V d (cV L) (jV L)) (default : HIx 1) O
    ∗ ((Memref.whole cc0_scratch0).view.loc (V d (cV L) (jV L)) ↦{fullShare} ixc fi d L)
    ∗ ((Memref.whole cc0_scratch1).view.loc (V d (cV L) (jV L)) ↦{shareTokN (Qj L) 0} shT ft d (cV L))
    ∗ ((Memref.whole cc0_scratch1).view.loc (V d (cV L) (jV L)) ↦{shareTokN (Qj L) 1} shT ft d (cV L))
    ∗ ((Memref.whole cc0_scratch1).view.loc (V d (cV L) (jV L)) ↦{shareTokN (Qj L) 2} shT ft d (cV L))
    ∗ ((Memref.whole cc0_scratch1).view.loc (V d (cV L) (jV L)) ↦{shareTokN (Qj L) 3} shT ft d (cV L))
    ∗ ((Memref.whole cc0_scratch1).view.loc (V d (cV L) (jV L)) ↦{shareTokN (Qj L) 4} shT ft d (cV L))
    ∗ ((Memref.whole cc0_scratch2).view.loc (V d (cV L) (jV L)) ↦{fullShare} f0)
    ∗ ((Memref.whole cc0_scratch3).view.loc (V d (cV L) (jV L)) ↦{fullShare} f1)
    ∗ ((Memref.whole cc0_scratch4).view.loc (V d (cV L) (jV L)) ↦{fullShare} f2)
    ∗ ((Memref.whole cc0_scratch5).view.loc (V d (cV L) (jV L)) ↦{fullShare} f3)
    ∗ ((Memref.whole cc0_scratch6).view.loc (V d (cV L) (jV L)) ↦{fullShare} f4)
    ∗ semVal (V d (cV L) (jV L), SemLoc.dma cc0_scratch7.sem) 0 ∗ semVal (V d (cV L) (jV L), SemLoc.dma cc0_scratch8.sem) 0
    ∗ semVal (V d (cV L) (jV L), SemLoc.dma cc0_scratch9.sem) 0 ∗ semVal (V d (cV L) (jV L), SemLoc.dma cc0_scratch10.sem) 0
    ∗ semVal (V d (cV L) (jV L), SemLoc.dma cc0_scratch11.sem) 0 ∗ semVal (V d (cV L) (jV L), SemLoc.dma cc0_scratch12.sem) 0
    ∗ semVal (V d (cV L) (jV L), SemLoc.dma cc0_scratch13.sem) 0 ∗ semVal (V d (cV L) (jV L), SemLoc.dma cc0_scratch14.sem) 0
    ∗ semVal (V d (cV L) (jV L), SemLoc.dma cc0_scratch15.sem) 0 ∗ semVal (V d (cV L) (jV L), SemLoc.dma cc0_scratch16.sem) 0
    ∗ (outLoc d ↦[rowsSet (base (cV L) (jV L)) 25600]{fullShare} fo d)
    ∗ ∃ W', ⌜∀ p ∈ W', p ∈ W ∨ p.2 = none ∨ p.2 = some (0 : Fin 1)⌝ ∗ owes (V d (cV L) (jV L)) O W')

/-! ## The result's chunks -/

/-- A chunk of the result as the body slices it: 128 whole rows from row `R`. -/
theorem pts_chunk (off : Fin 2 → Nat) (inb : ∀ a, off a + S128x128.size a ≤ S819200x128.size a) (R : ℕ) (h0 : off 0 = R) (h1 : off 1 = 0)
    (f : Buf (Elt F) (outLoc d)) :
    ((((Memref.whole main_v1_scv : Memref sig .scVector .hbm S819200x128 .f32).slice (Rect.unit (s := S819200x128) off S128x128.size inb) (fun _ => rfl)).view).loc (V d (cV L) (jV L))
        ↦[((Memref.whole main_v1_scv : Memref sig .scVector .hbm S819200x128 .f32).slice (Rect.unit (s := S819200x128) off S128x128.size inb) (fun _ => rfl)).view.set]{fullShare} f : sProp 𝕄)
      = outLoc d ↦[rowsSet R 128]{fullShare} f := by
  rw [set_out_slice off h1 inb, h0]

/-- The rows still to be written: from chunk `c` of the tile's 200 on. -/
abbrev todoSet (c : ℕ) : Finset S819200x128.Idx := rowsSet (base (cV L) (jV L) + 128 * c) (128 * (200 - c))
/-- The rows written and back in hand: the tile's first `c` chunks. -/
abbrev doneSet (c : ℕ) : Finset S819200x128.Idx := rowsSet (base (cV L) (jV L)) (128 * c)
abbrev chunkSet (c : ℕ) : Finset S819200x128.Idx := rowsSet (base (cV L) (jV L) + 128 * c) 128

theorem todo_carve (f : Buf (Elt F) (outLoc d)) (c : ℕ) (hc : c < 200) :
    (outLoc d ↦[todoSet L c]{fullShare} f : sProp 𝕄) ⊢ iprop((outLoc d ↦[chunkSet L c]{fullShare} f) ∗ outLoc d ↦[todoSet L (c + 1)]{fullShare} f) := by
  have e1 : 128 * (200 - c) = 128 + 128 * (200 - (c + 1)) := by omega
  have e2 : base (cV L) (jV L) + 128 * c + 128 = base (cV L) (jV L) + 128 * (c + 1) := by omega
  unfold todoSet chunkSet
  rw [e1]
  refine (rows_carve d fullShare f _ 128 _).trans ?_
  rw [e2]

theorem done_join (f g : Buf (Elt F) (outLoc d)) (c : ℕ) (h : ∀ i ∈ chunkSet L c, g i = f i) :
    iprop((outLoc d ↦[doneSet L c]{fullShare} f) ∗ outLoc d ↦[chunkSet L c]{fullShare} g) ⊢ (outLoc d ↦[doneSet L (c + 1)]{fullShare} f : sProp 𝕄) := by
  have e1 : 128 * (c + 1) = 128 * c + 128 := by omega
  unfold doneSet chunkSet at *
  rw [e1]
  exact rows_join' d fullShare f g _ (128 * c) 128 h

theorem off8_0 (k : Fin k0_t1_loop.trips) : (k0_off8 L k) 0 = base (cV L) (jV L) + 128 * (5 * k.val) := by
  rw [k0_off8_eq]; show 51200 * (L 1).val + 25600 * (L 0).val + 640 * k.val = 25600 * (2 * (L 1).val + (L 0).val) + 128 * (5 * k.val); omega
theorem off10_0 (k : Fin k0_t1_loop.trips) : (k0_off10 L k) 0 = base (cV L) (jV L) + 128 * (5 * k.val + 1) := by
  rw [k0_off10_eq]; show 51200 * (L 1).val + 25600 * (L 0).val + 640 * k.val + 128 = 25600 * (2 * (L 1).val + (L 0).val) + 128 * (5 * k.val + 1); omega
theorem off12_0 (k : Fin k0_t1_loop.trips) : (k0_off12 L k) 0 = base (cV L) (jV L) + 128 * (5 * k.val + 2) := by
  rw [k0_off12_eq]; show 51200 * (L 1).val + 25600 * (L 0).val + 640 * k.val + 256 = 25600 * (2 * (L 1).val + (L 0).val) + 128 * (5 * k.val + 2); omega
theorem off8_1 (k : Fin k0_t1_loop.trips) : (k0_off8 L k) 1 = 0 := by rw [k0_off8_eq]; rfl
theorem off10_1 (k : Fin k0_t1_loop.trips) : (k0_off10 L k) 1 = 0 := by rw [k0_off10_eq]; rfl
theorem off12_1 (k : Fin k0_t1_loop.trips) : (k0_off12 L k) 1 = 0 := by rw [k0_off12_eq]; rfl

/-! ## The index list's windows -/

/-- Entries `lo ≤ r < lo + len` of the tile's index list. -/
def ixSet (lo len : ℕ) : Finset S25600.Idx := Finset.univ.filter fun i => lo ≤ (i 0).val ∧ (i 0).val < lo + len

omit [FloatOps F] in
theorem ixSet_add (lo a b : ℕ) : ixSet lo (a + b) = ixSet lo a ∪ ixSet (lo + a) b := by
  ext i
  simp only [ixSet, Finset.mem_union, Finset.mem_filter, Finset.mem_univ, true_and]
  omega
omit [FloatOps F] in
theorem ixSet_disjoint (lo a b : ℕ) : Disjoint (ixSet lo a) (ixSet (lo + a) b) := by
  rw [Finset.disjoint_left]
  intro i h1 h2
  simp only [ixSet, Finset.mem_filter, Finset.mem_univ, true_and] at h1 h2
  omega
omit [FloatOps F] in
theorem ixSet_zero (lo : ℕ) : ixSet lo 0 = ∅ := by
  ext i; simp only [ixSet, Finset.mem_filter, Finset.mem_univ, true_and, Finset.notMem_empty, iff_false]; omega
omit [FloatOps F] in
theorem ixSet_all : ixSet 0 25600 = Finset.univ := by
  ext i; simp only [ixSet, Finset.mem_filter, Finset.mem_univ, true_and, iff_true]; exact ⟨Nat.zero_le _, by have := (i 0).isLt; simpa using this⟩

/-- The index list in the tile's own memory. -/
abbrev ixLoc : Loc nD τ sig := (Memref.whole cc0_scratch0 : Memref sig .scVector .vmem S25600 .i32).view.loc (V d (cV L) (jV L))

theorem ix_split (q : PosShare TreeShare) (f : Buf (Elt F) (ixLoc d L)) (lo a b : ℕ) :
    (ixLoc d L ↦[ixSet lo (a + b)]{q} f : sProp 𝕄) ⊣⊢ iprop((ixLoc d L ↦[ixSet lo a]{q} f) ∗ ixLoc d L ↦[ixSet (lo + a) b]{q} f) := by
  rw [ixSet_add]
  exact pointsTo_union (ixSet_disjoint lo a b)

/-- The list's entries still to be gathered from: from window `c` of the tile's 200 on; those used and back in hand: the first `c` windows. -/
abbrev ixTodo (c : ℕ) : Finset S25600.Idx := ixSet (128 * c) (128 * (200 - c))
abbrev ixDone (c : ℕ) : Finset S25600.Idx := ixSet 0 (128 * c)
abbrev ixWinSet (c : ℕ) : Finset S25600.Idx := ixSet (128 * c) 128

theorem ixtodo_carve (f : Buf (Elt F) (ixLoc d L)) (c : ℕ) (hc : c < 200) :
    (ixLoc d L ↦[ixTodo c]{fullShare} f : sProp 𝕄) ⊢ iprop((ixLoc d L ↦[ixWinSet c]{fullShare} f) ∗ ixLoc d L ↦[ixTodo (c + 1)]{fullShare} f) := by
  have e1 : 128 * (200 - c) = 128 + 128 * (200 - (c + 1)) := by omega
  have e2 : 128 * c + 128 = 128 * (c + 1) := by omega
  unfold ixTodo ixWinSet
  rw [e1]
  refine (ix_split d L fullShare f _ 128 _).1.trans ?_
  rw [e2]

theorem ixdone_join (f : Buf (Elt F) (ixLoc d L)) (c : ℕ) :
    iprop((ixLoc d L ↦[ixDone c]{fullShare} f) ∗ ixLoc d L ↦[ixWinSet c]{fullShare} f) ⊢ (ixLoc d L ↦[ixDone (c + 1)]{fullShare} f : sProp 𝕄) := by
  have e1 : 128 * (c + 1) = 128 * c + 128 := by omega
  unfold ixDone ixWinSet
  rw [e1]
  have h := (ix_split d L fullShare f 0 (128 * c) 128).2
  rw [Nat.zero_add] at h
  exact h

omit [FloatOps F] in
/-- A window of the index list as the body slices it: 128 entries from entry `R`. -/
theorem set_ix_slice (off : Fin 1 → Nat) (inb : ∀ a, off a + S128.size a ≤ S25600.size a) :
    (((Memref.whole cc0_scratch0 : Memref sig .scVector .vmem S25600 .i32).slice (Rect.unit (s := S25600) off S128.size inb) (fun _ => rfl)).view.set : Finset S25600.Idx)
      = ixSet (off 0) 128 := by
  show ((View.whole (cc0_scratch0 : Ref sig .scVector)).slice _).set = _
  rw [View.set_slice_whole]
  ext i
  simp only [Rect.mem_set_unit, ixSet, Finset.mem_filter, Finset.mem_univ, true_and]
  constructor
  · intro h; exact h 0
  · intro h a; match a with | ⟨0, _⟩ => exact h

theorem off3_0 (k : Fin k0_t1_loop.trips) (r : Fin 5) : (k0_off3 k (BitVec.ofNat 32 r.val)) 0 = 128 * (5 * k.val + r.val) := by
  rw [k0_off3_eq]; show 640 * k.val + 128 * r.val = 128 * (5 * k.val + r.val); omega

/-! ## The state between trips

After trip `p` the gathers of chunks `5p+3` and `5p+4` (slots 3 and 4) are in flight, each with its window of the index
list and its read token of the shared copy lent; the stores of chunks `5p`, `5p+1`, `5p+2` (slots 0 to 2) are in flight,
each with its row buffer lent and its chunk of the result at the looked-up rows; the first `5p` chunks are written and
back in hand, the chunks from `5p+3` on still to be written. -/

/-- A row buffer holds chunk `c` of the tile's part of the result. -/
def GatherFact (c : ℕ) (g : S128x128.Idx → Elt F .f32) : Prop :=
  ∀ (y : S128x128.Idx) (i : S819200x128.Idx), (i 0).val = base (cV L) (jV L) + 128 * c + (y 0).val → (i 1).val = (y 1).val → g y = outG fi ft d i
/-- The result's contents agree with the lookup on chunk `c` of the tile's part. -/
def ChunkFact (c : ℕ) (oc : Buf (Elt F) (outLoc d)) : Prop := ∀ i ∈ chunkSet L c, oc i = outG fi ft d i

set_option quotPrecheck false
local notation "THR" => (V d (cV L) (jV L))
local notation "ixM" => (Memref.whole cc0_scratch0 : Memref sig .scVector .vmem S25600 .i32)
local notation "shM" => (Memref.whole cc0_scratch1 : Memref sig .scVector .shared S64x128 .f32)
local notation "oM" => (Memref.whole main_v1_scv : Memref sig .scVector .hbm S819200x128 .f32)
local notation "shSl" => ((Memref.whole cc0_scratch1 : Memref sig .scVector .shared S64x128 .f32).slice (Rect.unit (s := S64x128) ![0, 0] S64x128.size inb_S64x128_S64x128_0_0) (fun _ => rfl))

/-- A gather in flight on cell `sm`: the row buffer `rm` whole at the gathered rows `r`, the list's window `ws`, the read token `n`. -/
abbrev gFlight (sm : DmaSem sig) (rm : Memref sig .scVector .vmem S128x128 .f32) (r : Buf (Elt F) (rm.view.loc THR))
    (ws : Finset S25600.Idx) (n : ℕ) : sProp 𝕄 :=
  Transfers.Flight countersEmb THR (SemLoc.dma sm) (default : HIx 1) 524288
    iprop(((rm.view.loc THR ↦{fullShare} r) ∗ (ixM).view.loc THR ↦[ws]{fullShare} ixc fi d L)
      ∗ (shM).view.loc THR ↦[(shSl).view.set]{shareTokN (Qj L) n} ft d)

/-- A store in flight on cell `sm`: the chunk `om` of the result at contents `oc`, the row buffer `rm` at `r`. -/
abbrev sFlight (sm : DmaSem sig) (om : Memref sig .scVector .hbm S128x128 .f32) (oc : Buf (Elt F) (om.view.loc THR))
    (rm : Memref sig .scVector .vmem S128x128 .f32) (r : Buf (Elt F) (rm.view.loc THR)) : sProp 𝕄 :=
  Transfers.Flight countersEmb THR (SemLoc.dma sm) (default : HIx 1) 524288
    iprop((om.view.loc THR ↦[om.view.set]{fullShare} oc) ∗ rm.view.loc THR ↦[rm.view.set]{fullShare} r)

abbrev ixWin (p : Fin k0_t1_loop.trips) (r : Fin 5) : Memref sig .scVector .vmem S128 .i32 :=
  (ixM).slice (Rect.unit (s := S25600) (k0_off3 p (BitVec.ofNat 32 r.val)) S128.size (k0_off3_inb p r)) (fun _ => rfl)
abbrev outS8 (p : Fin k0_t1_loop.trips) : Memref sig .scVector .hbm S128x128 .f32 :=
  (oM).slice (Rect.unit (s := S819200x128) (k0_off8 L p) S128x128.size (k0_off8_inb L p (conds p).2.2.2.2.2.1)) (fun _ => rfl)
abbrev outS10 (p : Fin k0_t1_loop.trips) : Memref sig .scVector .hbm S128x128 .f32 :=
  (oM).slice (Rect.unit (s := S819200x128) (k0_off10 L p) S128x128.size (k0_off10_inb L p (conds p).2.2.2.2.2.2.2.1)) (fun _ => rfl)
abbrev outS12 (p : Fin k0_t1_loop.trips) : Memref sig .scVector .hbm S128x128 .f32 :=
  (oM).slice (Rect.unit (s := S819200x128) (k0_off12 L p) S128x128.size (k0_off12_inb L p (conds p).2.2.2.2.2.2.2.2.2)) (fun _ => rfl)

def Steady (O : CellTallies nD τ sig (HIx 1)) (W : Waits sig (HIx 1)) (p : Fin k0_t1_loop.trips) : sProp 𝕄 :=
  iprop(∃ (r0 r1 r2 r3 r4 : S128x128.Idx → Elt F .f32) (oc0 oc1 oc2 : Buf (Elt F) (outLoc d)) (W' : Waits sig (HIx 1)),
    ⌜GatherFact fi ft d L (5 * p.val + 3) r3 ∧ GatherFact fi ft d L (5 * p.val + 4) r4
      ∧ ChunkFact fi ft d L (5 * p.val) oc0 ∧ ChunkFact fi ft d L (5 * p.val + 1) oc1 ∧ ChunkFact fi ft d L (5 * p.val + 2) oc2
      ∧ ∀ q ∈ W', q ∈ W ∨ q.2 = none ∨ q.2 = some (0 : Fin 1)⌝
    ∗ Transfers.MayWaits THR (default : HIx 1) O
    ∗ ((ixM).view.loc THR ↦[ixDone (5 * p.val + 3)]{fullShare} ixc fi d L)
    ∗ ((ixM).view.loc THR ↦[ixTodo (5 * p.val + 5)]{fullShare} ixc fi d L)
    ∗ ((shM).view.loc THR ↦{shareTokN (Qj L) 0} ft d) ∗ ((shM).view.loc THR ↦{shareTokN (Qj L) 1} ft d) ∗ ((shM).view.loc THR ↦{shareTokN (Qj L) 2} ft d)
    ∗ ((shM).view.loc THR ↦[Finset.univ \ (shSl).view.set]{shareTokN (Qj L) 3} ft d) ∗ ((shM).view.loc THR ↦[Finset.univ \ (shSl).view.set]{shareTokN (Qj L) 4} ft d)
    ∗ semVal (THR, SemLoc.dma cc0_scratch7.sem) 0 ∗ semVal (THR, SemLoc.dma cc0_scratch8.sem) 0 ∗ semVal (THR, SemLoc.dma cc0_scratch9.sem) 0
    ∗ semVal (THR, SemLoc.dma cc0_scratch15.sem) 0 ∗ semVal (THR, SemLoc.dma cc0_scratch16.sem) 0
    ∗ gFlight fi ft d L cc0_scratch10.sem (Memref.whole cc0_scratch5) r3 (ixWin p 3).view.set 3
    ∗ gFlight fi ft d L cc0_scratch11.sem (Memref.whole cc0_scratch6) r4 (ixWin p 4).view.set 4
    ∗ sFlight (F := F) d L cc0_scratch12.sem (outS8 L p) oc0 (Memref.whole cc0_scratch2) r0
    ∗ sFlight (F := F) d L cc0_scratch13.sem (outS10 L p) oc1 (Memref.whole cc0_scratch3) r1
    ∗ sFlight (F := F) d L cc0_scratch14.sem (outS12 L p) oc2 (Memref.whole cc0_scratch4) r2
    ∗ ((Memref.whole cc0_scratch2).view.loc THR ↦[Finset.univ \ (Memref.whole cc0_scratch2).view.set]{fullShare} r0)
    ∗ ((Memref.whole cc0_scratch3).view.loc THR ↦[Finset.univ \ (Memref.whole cc0_scratch3).view.set]{fullShare} r1)
    ∗ ((Memref.whole cc0_scratch4).view.loc THR ↦[Finset.univ \ (Memref.whole cc0_scratch4).view.set]{fullShare} r2)
    ∗ (outLoc d ↦[doneSet L (5 * p.val)]{fullShare} outG fi ft d)
    ∗ (outLoc d ↦[todoSet L (5 * p.val + 3)]{fullShare} fo d)
    ∗ owes THR O W')

/-- The loop's invariant: before the first trip everything at rest; before a later trip the state the trip before left. -/
def inv (O : CellTallies nD τ sig (HIx 1)) (W : Waits sig (HIx 1)) (f0 f1 f2 f3 f4 : S128x128.Idx → Elt F .f32) (n : Nat) (u : PUnit) : sProp 𝕄 :=
  if n = 0 then invX fi ft fo d L O W f0 f1 f2 f3 f4 n u
  else if h1 : n - 1 < k0_t1_loop.trips then Steady fi ft fo d L O W ⟨n - 1, h1⟩ else iprop(emp)

theorem inv_succ (O W f0 f1 f2 f3 f4) (k : Fin k0_t1_loop.trips) (u : PUnit) :
    inv fi ft fo d L O W f0 f1 f2 f3 f4 (k.val + 1) u = Steady fi ft fo d L O W k := by
  unfold inv
  rw [if_neg (Nat.succ_ne_zero _), dif_pos (show k.val + 1 - 1 < k0_t1_loop.trips by rw [Nat.add_sub_cancel]; exact k.isLt)]
  congr 1

theorem set_whole5 : (Memref.whole cc0_scratch5 : Memref sig .scVector .vmem S128x128 .f32).view.set = Finset.univ := View.set_whole _
theorem set_whole6 : (Memref.whole cc0_scratch6 : Memref sig .scVector .vmem S128x128 .f32).view.set = Finset.univ := View.set_whole _

end Tile

end Cert.Proof.IdealSide

end
-- ==== Proof.IdealGatherValue.lean ====
/-
  What a gather leaves in a row buffer: the rows of the shared copy that the chunk's indices name are the chunk of the
  lookup's result. The window of the index list the gather reads is 128 consecutive entries of the tile's part of the
  flattened indices; entry (k, c) of the payload is entry (w, c) of the table, w the k-th word of the window as a number.
-/
import proofs.«203224_g2765958938866_cont_9to1_225_22_alg».proof.Proof.IdealTileDefs

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (fi : (d : Dev nD) → Buf (Elt F) (idxLoc d)) (ft : (d : Dev nD) → Buf (Elt F) (tabLoc d)) (fo : (d : Dev nD) → Buf (Elt F) (outLoc d))
variable [FloatOps F]

section Tile

variable (d : Dev nD) (L : grid0.Coords)

set_option quotPrecheck false
local notation "shSl" => ((Memref.whole cc0_scratch1 : Memref sig .scVector .shared S64x128 .f32).slice (Rect.unit (s := S64x128) ![0, 0] S64x128.size inb_S64x128_S64x128_0_0) (fun _ => rfl))

/-- The word of a window of the index list: the flattened indices' entry at the tile's first row, the window's place
    in the tile's part, and the place in the window. The payload of the gather from the shared copy (the table's
    contents), with the window's words as rows, is the chunk of the lookup the window stands for. -/
theorem gather_fact (hin : ∀ d j, (fi d j).toNat < 64) (p : Fin k0_t1_loop.trips) (b : Fin 5)
    (hn : S128.numel = S128x128.size (gathers_S64x128_S128x128).axis')
    (h : ∀ x, ((ixWin p b).view.read (Elt F) (ixc fi d L) x).toNat < S64x128.size (gathers_S64x128_S128x128).axis) :
    GatherFact fi ft d L (5 * p.val + b.val)
      (SparseCore.gatherPayload gathers_S64x128_S128x128 ((shSl).view.read (Elt F) (ft d)) (SparseCore.rows ((ixWin p b).view.read (Elt F) (ixc fi d L)) hn h)) := by
  intro y i hi0 hi1
  -- the place in the window that the payload's row names
  have hx : ((S128.rowMajor.symm ((y (gathers_S64x128_S128x128).axis').cast hn.symm)) 0).val = (y 0).val := by
    have h1 := Shape.rowMajor_val_one (S128.rowMajor.symm ((y (gathers_S64x128_S128x128).axis').cast hn.symm))
    rw [Equiv.apply_symm_apply] at h1
    exact h1.symm
  -- the window's word there is the flattened indices' entry for the result's row
  have hw : (ixWin p b).view.read (Elt F) (ixc fi d L) (S128.rowMajor.symm ((y (gathers_S64x128_S128x128).axis').cast hn.symm)) = fi d (ValueIdx.ix1 (i 0)) := by
    show fi d _ = fi d _
    refine congrArg (fi d) (funext ?_)
    refine Fin.forall_fin_one.mpr (Fin.ext ?_)
    show (k0_off1 L) 0 + 1 * ((k0_off3 p (BitVec.ofNat 32 b.val)) 0 + 1 * ((S128.rowMajor.symm ((y (gathers_S64x128_S128x128).axis').cast hn.symm)) 0).val) = (i 0).val
    rw [hx, ← base_eq, k0_off3_eq, hi0]
    show base (cV L) (jV L) + 1 * (640 * p.val + 128 * b.val + 1 * (y 0).val) = _
    omega
  unfold SparseCore.gatherPayload
  rw [View.read_apply]
  show ft d _ = Cert.Lookup.Gflat (fi d) (ft d) i
  unfold Cert.Lookup.Gflat
  refine congrArg (ft d) (funext ?_)
  refine Fin.forall_fin_two.mpr ⟨Fin.ext ?_, Fin.ext ?_⟩
  · -- the row: the window's word, below 64
    show (![0, 0] : Fin 2 → ℕ) 0 + 1 * ((gathers_S64x128_S128x128).idx (SparseCore.rows ((ixWin p b).view.read (Elt F) (ixc fi d L)) hn h) y (gathers_S64x128_S128x128).axis).val
      = (Cert.Lookup.rowOf (fi d (ValueIdx.ix1 (i 0)))).val
    rw [Shape.Gathers.idx_axis, Cert.Lookup.rowOf_val_of_lt (hin d _)]
    show 0 + 1 * ((ixWin p b).view.read (Elt F) (ixc fi d L) (S128.rowMajor.symm ((y (gathers_S64x128_S128x128).axis').cast hn.symm))).toNat = _
    rw [hw]; omega
  · -- the column: the payload's own
    show (![0, 0] : Fin 2 → ℕ) 1 + 1 * ((gathers_S64x128_S128x128).idx (SparseCore.rows ((ixWin p b).view.read (Elt F) (ixc fi d L)) hn h) y 1).val = (i 1).val
    rw [Shape.Gathers.idx_of_ne _ _ _ _ (by decide), hi1]
    show 0 + 1 * (y 1).val = (y 1).val
    omega

/-! ## A row buffer written whole -/

omit [FloatOps F] in
/-- A buffer written whole through its own rectangle holds the payload. -/
theorem writes_whole_apply {κ : Kind} (r : Ref sig κ) (f : r.ty.Contents (Elt F)) (g : (Rect.whole r.ty.shape).shape.Idx → Elt F r.ty.elt)
    (y : (Rect.whole r.ty.shape).shape.Idx) :
    (View.whole r).writes (Elt F) f [⟨Rect.whole r.ty.shape, g⟩] y = g y := by
  have h := View.read_writes_cons_emb (View.whole r) f (Rect.whole r.ty.shape) g [] y
  rw [View.read_whole, Rect.emb_whole_apply] at h
  exact h

/-- The contents of a row buffer after a gather's payload is written over it whole are the payload: what the payload
    holds of the lookup, the buffer holds. One statement per row buffer of the ring. -/
theorem GatherFact_writes2 (c : ℕ) (f g : S128x128.Idx → Elt F .f32) (hg : GatherFact fi ft d L c g) :
    GatherFact fi ft d L c ((Memref.whole cc0_scratch2).view.writes (Elt F) f [⟨Rect.whole cc0_scratch2.ty.shape, g⟩]) :=
  fun y i h0 h1 => (writes_whole_apply cc0_scratch2 f g y).trans (hg y i h0 h1)
theorem GatherFact_writes3 (c : ℕ) (f g : S128x128.Idx → Elt F .f32) (hg : GatherFact fi ft d L c g) :
    GatherFact fi ft d L c ((Memref.whole cc0_scratch3).view.writes (Elt F) f [⟨Rect.whole cc0_scratch3.ty.shape, g⟩]) :=
  fun y i h0 h1 => (writes_whole_apply cc0_scratch3 f g y).trans (hg y i h0 h1)
theorem GatherFact_writes4 (c : ℕ) (f g : S128x128.Idx → Elt F .f32) (hg : GatherFact fi ft d L c g) :
    GatherFact fi ft d L c ((Memref.whole cc0_scratch4).view.writes (Elt F) f [⟨Rect.whole cc0_scratch4.ty.shape, g⟩]) :=
  fun y i h0 h1 => (writes_whole_apply cc0_scratch4 f g y).trans (hg y i h0 h1)
theorem GatherFact_writes5 (c : ℕ) (f g : S128x128.Idx → Elt F .f32) (hg : GatherFact fi ft d L c g) :
    GatherFact fi ft d L c ((Memref.whole cc0_scratch5).view.writes (Elt F) f [⟨Rect.whole cc0_scratch5.ty.shape, g⟩]) :=
  fun y i h0 h1 => (writes_whole_apply cc0_scratch5 f g y).trans (hg y i h0 h1)
theorem GatherFact_writes6 (c : ℕ) (f g : S128x128.Idx → Elt F .f32) (hg : GatherFact fi ft d L c g) :
    GatherFact fi ft d L c ((Memref.whole cc0_scratch6).view.writes (Elt F) f [⟨Rect.whole cc0_scratch6.ty.shape, g⟩]) :=
  fun y i h0 h1 => (writes_whole_apply cc0_scratch6 f g y).trans (hg y i h0 h1)

end Tile

end Cert.Proof.IdealSide

end
-- ==== Proof.IdealStoreValue.lean ====
/-
  What a store leaves in a chunk of the result.

  A chunk of the result is 128 whole rows; the body addresses it as a slice of the result array, and a copy-out
  writes its payload through the whole of that slice. A row i of the chunk is the slice's own index y placed in
  the array: row (first row of the chunk) + y 0, column y 1. There the write leaves the payload's entry at y.
  So when the payload is a row buffer that holds the chunk's looked-up rows, the array agrees with the lookup
  on the chunk after the write, whatever it held before.
-/
import proofs.«203224_g2765958938866_cont_9to1_225_22_alg».proof.Proof.IdealTileDefs

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (fi : (d : Dev nD) → Buf (Elt F) (idxLoc d)) (ft : (d : Dev nD) → Buf (Elt F) (tabLoc d)) (fo : (d : Dev nD) → Buf (Elt F) (outLoc d))
variable [FloatOps F]

section Tile

variable (d : Dev nD) (L : grid0.Coords)

set_option quotPrecheck false
local notation "oM" => (Memref.whole main_v1_scv : Memref sig .scVector .hbm S819200x128 .f32)

/-- After the copy-out of a row buffer that holds chunk `c`'s looked-up rows, the result agrees with the lookup on
    chunk `c`: a row of the chunk is the slice's index `y` placed at row `off 0 + y 0`, column `y 1`, where the write
    through the whole slice leaves the payload's entry at `y`. -/
theorem chunk_fact (off : Fin 2 → Nat) (inb : ∀ a, off a + S128x128.size a ≤ S819200x128.size a) (c : ℕ)
    (h0 : off 0 = base (cV L) (jV L) + 128 * c) (h1 : off 1 = 0)
    (r : S128x128.Idx → Elt F .f32) (hr : GatherFact fi ft d L c r) (f : Buf (Elt F) (outLoc d))
    (P : (Rect.whole (Rect.unit (s := S819200x128) off S128x128.size inb).shape).shape.Idx → Elt F .f32) (hP : ∀ y, P y = r y) :
    ChunkFact fi ft d L c (((oM).slice (Rect.unit (s := S819200x128) off S128x128.size inb) (fun _ => rfl)).view.writes (Elt F) f [⟨Rect.whole _, P⟩]) := by
  intro i hi
  -- the row is one of the slice's: i is the slice's index y placed in the result
  have hi' : i ∈ (((oM).slice (Rect.unit (s := S819200x128) off S128x128.size inb) (fun _ => rfl)).view.set : Finset S819200x128.Idx) := by
    rw [set_out_slice off h1 inb, h0]; exact hi
  obtain ⟨y, -, rfl⟩ := Finset.mem_map.mp hi'
  -- there the write left its payload
  have hw := View.read_writes_cons_emb ((oM).slice (Rect.unit (s := S819200x128) off S128x128.size inb) (fun _ => rfl)).view f
    (Rect.whole _) P [] y
  rw [Rect.emb_whole_apply, View.read_apply, cast_eq] at hw
  rw [hw, hP]
  -- and the payload's entry at y is the lookup at row off 0 + y 0, column y 1
  refine hr y _ ?_ ?_
  · show off 0 + 1 * (y 0).val = base (cV L) (jV L) + 128 * c + (y 0).val
    omega
  · show off 1 + 1 * (y 1).val = (y 1).val
    omega

omit [FloatOps F] in
/-- A transfer that moves its source as it is, out of a whole buffer at contents `rr`, moves `rr`. -/
theorem same_read_whole (b : Ref sig .scVector) (rr : b.ty.Contents (Elt F)) :
    (ReadAs.same : ReadAs (Elt F) _ _ _ _).apply ((Memref.whole b).view.read (Elt F) rr) = rr := rfl

omit [FloatOps F] in
/-- The same at an index. -/
theorem same_read_whole_apply (b : Ref sig .scVector) (rr : b.ty.Contents (Elt F)) (y : b.ty.shape.Idx) :
    (ReadAs.same : ReadAs (Elt F) _ _ _ _).apply ((Memref.whole b).view.read (Elt F) rr) y = rr y := rfl

end Tile

end Cert.Proof.IdealSide

end
-- ==== Proof.IdealTripLemmas.lean ====
/-
  One trip of the tile's pipeline: the arithmetic of its chunks and windows and the ownership lemmas it uses.

  Trip k (k = 0 … 39) gathers chunks 5k … 5k+4 into the five row buffers and stores chunks 5k−2 … 5k+2; the
  store of chunk c writes rows base + 128 c … base + 128 c + 127 of the result, the gather of chunk c reads
  entries 128 c … 128 c + 127 of the tile's index list. A chunk whose store has been waited for joins the
  rows already written, a window whose gather has been waited for joins the entries back in hand; subcore 0's
  shared memory, once the table is copied in, holds the table.
-/
import proofs.«203224_g2765958938866_cont_9to1_225_22_alg».proof.Proof.IdealTileDefs
import proofs.«203224_g2765958938866_cont_9to1_225_22_alg».proof.Proof.IdealGatherValue
import proofs.«203224_g2765958938866_cont_9to1_225_22_alg».proof.Proof.IdealStoreValue

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (fi : (d : Dev nD) → Buf (Elt F) (idxLoc d)) (ft : (d : Dev nD) → Buf (Elt F) (tabLoc d)) (fo : (d : Dev nD) → Buf (Elt F) (outLoc d))
variable [FloatOps F]

section Tile

variable (d : Dev nD) (L : grid0.Coords)

set_option quotPrecheck false
local notation "THR" => (V d (cV L) (jV L))
local notation "ixM" => (Memref.whole cc0_scratch0 : Memref sig .scVector .vmem S25600 .i32)
local notation "shM" => (Memref.whole cc0_scratch1 : Memref sig .scVector .shared S64x128 .f32)
local notation "oM" => (Memref.whole main_v1_scv : Memref sig .scVector .hbm S819200x128 .f32)
local notation "shSl" => ((Memref.whole cc0_scratch1 : Memref sig .scVector .shared S64x128 .f32).slice (Rect.unit (s := S64x128) ![0, 0] S64x128.size inb_S64x128_S64x128_0_0) (fun _ => rfl))

theorem rowsSet_zero (lo : ℕ) : rowsSet lo 0 = ∅ := by
  ext i; simp only [rowsSet, Finset.mem_filter, Finset.mem_univ, true_and, Finset.notMem_empty, iff_false]; omega

/-- The chunks two back of the first two slots of a trip: from the second trip on. -/
theorem off4_eq : ∀ (i : grid0.Coords) (k : Fin k0_t1_loop.trips), 0 < k.val → k0_off4 i k = ![51200 * (i 1).val + 25600 * (i 0).val + 640 * k.val - 256, 0] := by decide +kernel
theorem off6_eq : ∀ (i : grid0.Coords) (k : Fin k0_t1_loop.trips), 0 < k.val → k0_off6 i k = ![51200 * (i 1).val + 25600 * (i 0).val + 640 * k.val - 128, 0] := by decide +kernel

theorem inv_of_succ (O W f0 f1 f2 f3 f4) (k kp : Fin k0_t1_loop.trips) (h : kp.val + 1 = k.val) (u : PUnit) :
    inv fi ft fo d L O W f0 f1 f2 f3 f4 k.val u = Steady fi ft fo d L O W kp := by
  rw [← h]; exact inv_succ fi ft fo d L O W f0 f1 f2 f3 f4 kp u

theorem inv_succ' (O W f0 f1 f2 f3 f4) (k : Fin k0_t1_loop.trips) :
    inv fi ft fo d L O W f0 f1 f2 f3 f4 (k.val + 1) = fun _ => Steady fi ft fo d L O W k :=
  funext fun u => inv_succ fi ft fo d L O W f0 f1 f2 f3 f4 k u

/-- A window of the index list as the body slices it, held by exactly its own entries. -/
theorem pts_ixwin (off : Fin 1 → Nat) (inb : ∀ a, off a + S128.size a ≤ S25600.size a) (c : ℕ) (h0 : off 0 = 128 * c) (f : Buf (Elt F) (ixLoc d L)) :
    ((((Memref.whole cc0_scratch0 : Memref sig .scVector .vmem S25600 .i32).slice (Rect.unit (s := S25600) off S128.size inb) (fun _ => rfl)).view).loc (V d (cV L) (jV L))
        ↦[((Memref.whole cc0_scratch0 : Memref sig .scVector .vmem S25600 .i32).slice (Rect.unit (s := S25600) off S128.size inb) (fun _ => rfl)).view.set]{fullShare} f : sProp 𝕄)
      = ixLoc d L ↦[ixWinSet c]{fullShare} f := by
  rw [set_ix_slice off inb, h0]

theorem ix_whole (f : Buf (Elt F) (ixLoc d L)) : (ixLoc d L ↦{fullShare} f : sProp 𝕄) = ixLoc d L ↦[ixTodo 0]{fullShare} f := by
  rw [show ixTodo 0 = Finset.univ from ixSet_all]

theorem off3b (k : Fin k0_t1_loop.trips) (b : ℕ) (hb : b < 5) : (k0_off3 k (BitVec.ofNat 32 b)) 0 = 128 * (5 * k.val + b) := by
  have h := k0_off3_eq k ⟨b, hb⟩
  simp only at h
  rw [h]; show 640 * k.val + 128 * b = _; omega

theorem wf_ins {W W' : Waits sig (HIx 1)} (sm : SemLoc sig) (h : ∀ q ∈ W', q ∈ W ∨ q.2 = none ∨ q.2 = some (0 : Fin 1)) :
    ∀ q ∈ insert (sm, (default : HIx 1)) W', q ∈ W ∨ q.2 = none ∨ q.2 = some (0 : Fin 1) := by
  intro q hq
  rcases Finset.mem_insert.mp hq with rfl | hq
  · exact .inr (.inl rfl)
  · exact h q hq

theorem ixdone_nil (f : Buf (Elt F) (ixLoc d L)) (c : ℕ) (hc : c = 0) : (iprop(emp) : sProp 𝕄) ⊢ ixLoc d L ↦[ixDone c]{fullShare} f := by
  subst hc
  rw [show ixDone 0 = ∅ from ixSet_zero 0, pointsTo_empty]

theorem done_nil (f : Buf (Elt F) (outLoc d)) (c : ℕ) (hc : c = 0) : (iprop(emp) : sProp 𝕄) ⊢ outLoc d ↦[doneSet L c]{fullShare} f := by
  subst hc
  rw [show doneSet L 0 = ∅ from rowsSet_zero _, pointsTo_empty]

/-- A chunk at contents that agree with the lookup on it joins the written rows. -/
theorem done_join_any (c : ℕ) :
    iprop((outLoc d ↦[doneSet L c]{fullShare} outG fi ft d) ∗ ∃ g, ⌜ChunkFact fi ft d L c g⌝ ∗ outLoc d ↦[chunkSet L c]{fullShare} g)
      ⊢ (outLoc d ↦[doneSet L (c + 1)]{fullShare} outG fi ft d : sProp 𝕄) := by
  iintro ⟨H1, %g, %hg, H2⟩
  iapply (done_join (F := F) d L (outG fi ft d) g c hg)
  isplitl [H1] <;> iassumption

/-- A window of the index list handed back by a gather's wait: the same entries, named at the whole list. -/
theorem pts_ixwin' (off : Fin 1 → Nat) (inb : ∀ a, off a + S128.size a ≤ S25600.size a) (c : ℕ) (h0 : off 0 = 128 * c) (f : Buf (Elt F) (ixLoc d L)) :
    (ixLoc d L ↦[((Memref.whole cc0_scratch0 : Memref sig .scVector .vmem S25600 .i32).slice (Rect.unit (s := S25600) off S128.size inb) (fun _ => rfl)).view.set]{fullShare} f : sProp 𝕄)
      = ixLoc d L ↦[ixWinSet c]{fullShare} f := by
  rw [set_ix_slice off inb, h0]

/-- A window handed back by the wait of a gather issued in an earlier trip, as the invariant names it. -/
theorem pts_ixwin'' (p : Fin k0_t1_loop.trips) (r : Fin 5) (c : ℕ) (h0 : (k0_off3 p (BitVec.ofNat 32 r.val)) 0 = 128 * c) (f : Buf (Elt F) (ixLoc d L)) :
    ((Memref.whole cc0_scratch0 : Memref sig .scVector .vmem S25600 .i32).view.loc (V d (cV L) (jV L)) ↦[(ixWin p r).view.set]{fullShare} f : sProp 𝕄)
      = ixLoc d L ↦[ixWinSet c]{fullShare} f := by
  rw [set_ix_slice _ (k0_off3_inb p r), h0]

theorem pts_tab (q : PosShare TreeShare) (f : Buf (Elt F) (tabLoc d)) :
    ((Memref.whole main_arg1_scv).view.loc (V d (cV L) (jV L)) ↦{q} f : sProp 𝕄) = tabLoc d ↦{q} f := rfl

/-- The shared memory after the table's copy holds the table. -/
theorem sh_norm : iprop(∃ g : Buf (Elt F) (shLoc d (cV L)), ⌜∀ i, g i = ft d i⌝ ∗ (Memref.whole cc0_scratch1).view.loc (V d (cV L) (jV L)) ↦{fullShare} g)
    ⊢ (shLoc d (cV L) ↦{fullShare} shT ft d (cV L) : sProp 𝕄) := by
  iintro ⟨%g, %hg, H⟩
  have e : g = shT ft d (cV L) := funext hg
  subst e
  iexact H

end Tile

end Cert.Proof.IdealSide

end
-- ==== Proof.IdealBodyOther.lean ====
/-
  The task on a vector subcore other than subcore 0: the whole body, from what the launch hands it to what it
  brings back.

  It copies its 25600 indices in, hands nothing over at the barrier and receives its read share of the shared
  copy of the table there. Before the first trip everything is at rest; a trip starts from the state the trip
  before left (two gathers and three stores in flight), waits each slot's store before gathering into the slot
  again and each gather before storing its slot, and leaves the same state five chunks further on; after the
  fortieth trip the last two chunks are stored and all five stores waited for, so that every chunk of the
  tile's part of the result holds the looked-up rows and every buffer, share and semaphore is back.
-/
import proofs.«203224_g2765958938866_cont_9to1_225_22_alg».proof.Proof.IdealTripLemmas

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (fi : (d : Dev nD) → Buf (Elt F) (idxLoc d)) (ft : (d : Dev nD) → Buf (Elt F) (tabLoc d)) (fo : (d : Dev nD) → Buf (Elt F) (outLoc d))
variable [FloatOps F]

section Tile

variable (d : Dev nD) (L : grid0.Coords)

set_option quotPrecheck false
local notation "THR" => (V d (cV L) (jV L))
local notation "ixM" => (Memref.whole cc0_scratch0 : Memref sig .scVector .vmem S25600 .i32)
local notation "shM" => (Memref.whole cc0_scratch1 : Memref sig .scVector .shared S64x128 .f32)
local notation "oM" => (Memref.whole main_v1_scv : Memref sig .scVector .hbm S819200x128 .f32)
local notation "shSl" => ((Memref.whole cc0_scratch1 : Memref sig .scVector .shared S64x128 .f32).slice (Rect.unit (s := S64x128) ![0, 0] S64x128.size inb_S64x128_S64x128_0_0) (fun _ => rfl))

set_option maxHeartbeats 4000000 in
theorem tile_body_other (hin : ∀ d j, (fi d j).toNat < 64) (hj : (jV L).val ≠ 0) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit ft d (cV L) (jV L) ∗ goRes fi ft fo d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_body L (Memref.whole main_v0_scv) (Memref.isWhole_whole _) (Memref.whole main_arg1_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _)
            cc0_scratch7 cc0_scratch8 cc0_scratch9 cc0_scratch10 cc0_scratch11 cc0_scratch12 cc0_scratch13 cc0_scratch14 cc0_scratch15 cc0_scratch16 cc0_scoped0 cc0_scoped1)
          fun _ => iprop(tdRes fi ft d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__emb_body_eq_skeleton]; unfold cc0__emb_body_skel
  rw [(K (F := F)).scopedBufs_V hF d (cV L) (jV L), SparseCore.Cfg.scopedSems0_V (Val := Elt F) d (cV L) (jV L), ownSems0_V', ownBufs_V]
  rw [show (Finset.univ : Finset (Fin 6)) = {0, 1, 2, 3, 4, 5} by decide,
    SparseCore.bigSep_insert' (by decide), SparseCore.bigSep_insert' (by decide), SparseCore.bigSep_insert' (by decide), SparseCore.bigSep_insert' (by decide),
    SparseCore.bigSep_insert' (by decide), bigSep_singleton]
  unfold bkit goRes
  rw [if_neg hj]
  iintro ⟨#Hlv, ⟨⟨%κ, #Hinv⟩, Htoks, #Hrch, Hat, Hcred⟩, ⟨Hidx, Hout, -⟩, ⟨⟨⟨%fx, Hx⟩, ⟨%f0, H0⟩, ⟨%f1, H1⟩, ⟨%f2, H2⟩, ⟨%f3, H3⟩, ⟨%f4, H4⟩⟩, Hbufs⟩,
    ⟨Hg0, Hg1, Hg2, Hg3, Hg4, Hs0, Hs1, Hs2, Hs3, Hs4, HsA, HsB⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hidx' := (Entails.of_eq (pts_idxK (F := F) d L _).symm) $$ Hidx
  ihave Hx' := (Entails.of_eq (pts_ix (F := F) d L _).symm) $$ Hx
  ihave H0' := (Entails.of_eq (pts_r0 (F := F) d L _).symm) $$ H0
  ihave H1' := (Entails.of_eq (pts_r1 (F := F) d L _).symm) $$ H1
  ihave H2' := (Entails.of_eq (pts_r2 (F := F) d L _).symm) $$ H2
  ihave H3' := (Entails.of_eq (pts_r3 (F := F) d L _).symm) $$ H3
  ihave H4' := (Entails.of_eq (pts_r4 (F := F) d L _).symm) $$ H4
  sl_exec
  have hv5 : ¬ tile_body_other.sl.v5 L = 1#1 := fun h => hj ((when_s0 (L 1)).mp h)
  sl_exec
  -- the barrier: nothing handed over, the tile's read share of the shared copy received
  ihave Hpays := (pays_intro_other (F := F) ft d L hj) $$ []
  · iempintro
  iapply (SparseCore.wp_subcoreBarrier 𝒱₀ none EB (bRd (F := F) ft) d (sc := cV L) (i := jV L) sc_bar0 (grid0.bound 1) hsub0 (L 1) rfl κ (fun _ => 0) (jV L).val
      (fun j => bRd_mem₀ ft d _ _ _) (fun _ => rfl) (bRd_expect ft d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hsh := (pays_elim (F := F) ft d L) $$ Hgot
  unfold shTok at ⊢
  ihave Hsh' := (sh_toks (F := F) d L _).1 $$ Hsh
  icases Hsh' with ⟨Hshr, Ht0, Ht1, Ht2, Ht3, Ht4⟩
  rw [View.write_whole_univ]
  have hdm : tile_body_other.sl.dma0 fi d L = ixc fi d L := rfl
  rw [hdm]
  have hall : ∀ (off : Fin 1 → Nat) (inb : ∀ a, off a + S128.size a ≤ S25600.size a) (j : S128.Idx),
      ((((Memref.whole cc0_scratch0 : Memref sig .scVector .vmem S25600 .i32).slice (Rect.unit (s := S25600) off S128.size inb) (fun _ => rfl)).view.read (Elt F) (ixc fi d L) j : Elt F .i32) : BitVec 32).toNat < 64 := by
    intro off inb j; rw [View.read_apply]; exact ixc_lt fi d L hin _
  sl_exec
  sl_for (inv fi ft fo d L O W f0 f1 f2 f3 f4) $$ [Hmw2 Hx' Ht0 Ht1 Ht2 Ht3 Ht4 H0' H1' H2' H3' H4' Hg0 Hg1 Hg2 Hg3 Hg4 Hs0 Hs1 Hs2 Hs3 Hs4 Hout HO]
  case region =>
    intro k u
    rw [inv_succ']
    obtain ⟨c2, c3, c4, c5, c6, c7, c8, c9, c10, c11⟩ := conds k
    by_cases hk : 0 < k.val
    ·
      obtain ⟨kp, hkp⟩ : ∃ kp : Fin k0_t1_loop.trips, kp.val + 1 = k.val := ⟨⟨k.val - 1, lt_of_le_of_lt (Nat.sub_le _ _) k.isLt⟩, Nat.sub_add_cancel hk⟩
      have hk40 : k.val < 40 := lt_of_lt_of_le k.isLt k0_t1_abs.2.1
      rw [inv_of_succ fi ft fo d L O W f0 f1 f2 f3 f4 k kp hkp]
      unfold Steady
      iintro ⟨%r0, %r1, %r2, %r3, %r4, %oc0, %oc1, %oc2, %W', %hf, Hmw, Hxd, Hxt, Ht0, Ht1, Ht2, Ht3, Ht4, Hg0, Hg1, Hg2, Hs3, Hs4, Fg3, Fg4, Fs0, Fs1, Fs2, H0, H1, H2, Hdone, Hout, HO⟩
      obtain ⟨hr3, hr4, hc0, hc1, hc2, hW'⟩ := hf
      have p2 : k0_cond2 k = 1#1 := c2.mpr hk
      have p3 : k0_cond3 k = 1#1 := c3.mpr hk
      have p4 : k0_cond4 k = 1#1 := c4.mpr hk
      have p5 : k0_cond5 k = 1#1 := c5.mpr hk
      have p6 : k0_cond6 k = 1#1 := c6.mpr hk
      have p8 : k0_cond8 k = 1#1 := c8.mpr hk
      have p10 : k0_cond10 k = 1#1 := c10.mpr hk
      -- the five chunks this trip stores, carved off the rows still to be written
      ihave Hc := (todo_carve (F := F) d L (fo d) (5 * kp.val + 3) (by omega)) $$ Hout
      icases Hc with ⟨Hc3, Hout⟩
      ihave Hc := (todo_carve (F := F) d L (fo d) (5 * kp.val + 4) (by omega)) $$ Hout
      icases Hc with ⟨Hc4, Hout⟩
      ihave Hc := (todo_carve (F := F) d L (fo d) (5 * kp.val + 5) (by omega)) $$ Hout
      icases Hc with ⟨Hc5, Hout⟩
      ihave Hc := (todo_carve (F := F) d L (fo d) (5 * kp.val + 6) (by omega)) $$ Hout
      icases Hc with ⟨Hc6, Hout⟩
      ihave Hc := (todo_carve (F := F) d L (fo d) (5 * kp.val + 7) (by omega)) $$ Hout
      icases Hc with ⟨Hc7, Hout⟩
      have e4 : (k0_off4 L k) 0 = base (cV L) (jV L) + 128 * (5 * kp.val + 3) := by
        rw [off4_eq L k hk]; show 51200 * (L 1).val + 25600 * (L 0).val + 640 * k.val - 256 = 25600 * (2 * (L 1).val + (L 0).val) + 128 * (5 * kp.val + 3); omega
      have e6 : (k0_off6 L k) 0 = base (cV L) (jV L) + 128 * (5 * kp.val + 4) := by
        rw [off6_eq L k hk]; show 51200 * (L 1).val + 25600 * (L 0).val + 640 * k.val - 128 = 25600 * (2 * (L 1).val + (L 0).val) + 128 * (5 * kp.val + 4); omega
      have e8 : (k0_off8 L k) 0 = base (cV L) (jV L) + 128 * (5 * kp.val + 5) := (off8_0 L k).trans (by omega)
      have e10 : (k0_off10 L k) 0 = base (cV L) (jV L) + 128 * (5 * kp.val + 6) := (off10_0 L k).trans (by omega)
      have e12 : (k0_off12 L k) 0 = base (cV L) (jV L) + 128 * (5 * kp.val + 7) := (off12_0 L k).trans (by omega)
      ihave Hc3 := (Entails.of_eq (pts_chunk (F := F) d L (k0_off4 L k) (k0_off4_inb L k p3) _ e4 (by rw [off4_eq L k hk]; rfl) (fo d)).symm) $$ Hc3
      ihave Hc4 := (Entails.of_eq (pts_chunk (F := F) d L (k0_off6 L k) (k0_off6_inb L k p5) _ e6 (by rw [off6_eq L k hk]; rfl) (fo d)).symm) $$ Hc4
      ihave Hc5 := (Entails.of_eq (pts_chunk (F := F) d L (k0_off8 L k) (k0_off8_inb L k c7) _ e8 (off8_1 L k) (fo d)).symm) $$ Hc5
      ihave Hc6 := (Entails.of_eq (pts_chunk (F := F) d L (k0_off10 L k) (k0_off10_inb L k c9) _ e10 (off10_1 L k) (fo d)).symm) $$ Hc6
      ihave Hc7 := (Entails.of_eq (pts_chunk (F := F) d L (k0_off12 L k) (k0_off12_inb L k c11) _ e12 (off12_1 L k) (fo d)).symm) $$ Hc7
      -- the five windows of the index list this trip gathers from
      ihave Hc := (ixtodo_carve (F := F) d L (ixc fi d L) (5 * kp.val + 5) (by omega)) $$ Hxt
      icases Hc with ⟨Hw0, Hxt⟩
      ihave Hc := (ixtodo_carve (F := F) d L (ixc fi d L) (5 * kp.val + 6) (by omega)) $$ Hxt
      icases Hc with ⟨Hw1, Hxt⟩
      ihave Hc := (ixtodo_carve (F := F) d L (ixc fi d L) (5 * kp.val + 7) (by omega)) $$ Hxt
      icases Hc with ⟨Hw2, Hxt⟩
      ihave Hc := (ixtodo_carve (F := F) d L (ixc fi d L) (5 * kp.val + 8) (by omega)) $$ Hxt
      icases Hc with ⟨Hw3, Hxt⟩
      ihave Hc := (ixtodo_carve (F := F) d L (ixc fi d L) (5 * kp.val + 9) (by omega)) $$ Hxt
      icases Hc with ⟨Hw4, Hxt⟩
      ihave Hw0 := (Entails.of_eq (pts_ixwin (F := F) d L (k0_off3 k 0#32) (k0_off3_inb k 0) (5 * kp.val + 5) ((off3b k 0 (by decide)).trans (by omega)) (ixc fi d L)).symm) $$ Hw0
      ihave Hw1 := (Entails.of_eq (pts_ixwin (F := F) d L (k0_off3 k 1#32) (k0_off3_inb k 1) (5 * kp.val + 6) ((off3b k 1 (by decide)).trans (by omega)) (ixc fi d L)).symm) $$ Hw1
      ihave Hw2 := (Entails.of_eq (pts_ixwin (F := F) d L (k0_off3 k 2#32) (k0_off3_inb k 2) (5 * kp.val + 7) ((off3b k 2 (by decide)).trans (by omega)) (ixc fi d L)).symm) $$ Hw2
      ihave Hw3 := (Entails.of_eq (pts_ixwin (F := F) d L (k0_off3 k 3#32) (k0_off3_inb k 3) (5 * kp.val + 8) ((off3b k 3 (by decide)).trans (by omega)) (ixc fi d L)).symm) $$ Hw3
      ihave Hw4 := (Entails.of_eq (pts_ixwin (F := F) d L (k0_off3 k 4#32) (k0_off3_inb k 4) (5 * kp.val + 9) ((off3b k 4 (by decide)).trans (by omega)) (ixc fi d L)).symm) $$ Hw4
      sl_exec
      sl_step
      -- the chunks whose stores were waited for join the written rows
      ihave Fs0_dst := (Entails.of_eq (pts_chunk (F := F) d L (k0_off8 L kp) (k0_off8_inb L kp (conds kp).2.2.2.2.2.1) _ (off8_0 L kp) (off8_1 L kp) oc0)) $$ Fs0_dst
      ihave Hdone := (done_join (F := F) d L (outG fi ft d) oc0 (5 * kp.val) hc0) $$ [Hdone Fs0_dst]
      · isplitl [Hdone] <;> iassumption
      ihave Fs1_dst := (Entails.of_eq (pts_chunk (F := F) d L (k0_off10 L kp) (k0_off10_inb L kp (conds kp).2.2.2.2.2.2.2.1) _ (off10_0 L kp) (off10_1 L kp) oc1)) $$ Fs1_dst
      ihave Hdone := (done_join (F := F) d L (outG fi ft d) oc1 (5 * kp.val + 1) hc1) $$ [Hdone Fs1_dst]
      · isplitl [Hdone] <;> iassumption
      ihave Fs2_dst := (Entails.of_eq (pts_chunk (F := F) d L (k0_off12 L kp) (k0_off12_inb L kp (conds kp).2.2.2.2.2.2.2.2.2) _ (off12_0 L kp) (off12_1 L kp) oc2)) $$ Fs2_dst
      ihave Hdone := (done_join (F := F) d L (outG fi ft d) oc2 (5 * kp.val + 2) hc2) $$ [Hdone Fs2_dst]
      · isplitl [Hdone] <;> iassumption
      have h41 : (k0_off4 L k) 1 = 0 := by rw [off4_eq L k hk]; rfl
      have h61 : (k0_off6 L k) 1 = 0 := by rw [off6_eq L k hk]; rfl
      ihave Hc3 := (Entails.of_eq (pts_chunk (F := F) d L (k0_off4 L k) (k0_off4_inb L k p3) _ e4 h41 _)) $$ Hc3
      ihave Hdone := (done_join_any (F := F) fi ft d L (5 * kp.val + 3)) $$ [Hdone Hc3]
      · isplitl [Hdone]; · iexact Hdone
        iexists _; isplitr; swap; · iexact Hc3
        ipureintro
        exact chunk_fact fi ft d L (k0_off4 L k) (k0_off4_inb L k p3) (5 * kp.val + 3) e4 h41 r3 hr3 (fo d) _ (fun _ => rfl)
      ihave Hc4 := (Entails.of_eq (pts_chunk (F := F) d L (k0_off6 L k) (k0_off6_inb L k p5) _ e6 h61 _)) $$ Hc4
      ihave Hdone := (done_join_any (F := F) fi ft d L (5 * kp.val + 4)) $$ [Hdone Hc4]
      · isplitl [Hdone]; · iexact Hdone
        iexists _; isplitr; swap; · iexact Hc4
        ipureintro
        exact chunk_fact fi ft d L (k0_off6 L k) (k0_off6_inb L k p5) (5 * kp.val + 4) e6 h61 r4 hr4 (fo d) _ (fun _ => rfl)
      -- the windows whose gathers were waited for join the entries back in hand
      ihave Fg3_dst_and := (Entails.of_eq (pts_ixwin'' (F := F) d L kp 3 (5 * kp.val + 3) ((off3b kp 3 (by decide)).trans (by omega)) (ixc fi d L))) $$ Fg3_dst_and
      ihave Hxd := (ixdone_join (F := F) d L (ixc fi d L) (5 * kp.val + 3)) $$ [Hxd Fg3_dst_and]
      · isplitl [Hxd] <;> iassumption
      ihave Fg4_dst_and := (Entails.of_eq (pts_ixwin'' (F := F) d L kp 4 (5 * kp.val + 4) ((off3b kp 4 (by decide)).trans (by omega)) (ixc fi d L))) $$ Fg4_dst_and
      ihave Hxd := (ixdone_join (F := F) d L (ixc fi d L) (5 * kp.val + 4)) $$ [Hxd Fg4_dst_and]
      · isplitl [Hxd] <;> iassumption
      ihave Hw0 := (Entails.of_eq (pts_ixwin (F := F) d L (k0_off3 k 0#32) (k0_off3_inb k 0) (5 * kp.val + 5) ((off3b k 0 (by decide)).trans (by omega)) (ixc fi d L))) $$ Hw0
      ihave Hxd := (ixdone_join (F := F) d L (ixc fi d L) (5 * kp.val + 5)) $$ [Hxd Hw0]
      · isplitl [Hxd] <;> iassumption
      ihave Hw1 := (Entails.of_eq (pts_ixwin (F := F) d L (k0_off3 k 1#32) (k0_off3_inb k 1) (5 * kp.val + 6) ((off3b k 1 (by decide)).trans (by omega)) (ixc fi d L))) $$ Hw1
      ihave Hxd := (ixdone_join (F := F) d L (ixc fi d L) (5 * kp.val + 6)) $$ [Hxd Hw1]
      · isplitl [Hxd] <;> iassumption
      ihave Hw2 := (Entails.of_eq (pts_ixwin (F := F) d L (k0_off3 k 2#32) (k0_off3_inb k 2) (5 * kp.val + 7) ((off3b k 2 (by decide)).trans (by omega)) (ixc fi d L))) $$ Hw2
      ihave Hxd := (ixdone_join (F := F) d L (ixc fi d L) (5 * kp.val + 7)) $$ [Hxd Hw2]
      · isplitl [Hxd] <;> iassumption
      have q1 : 5 * kp.val + 4 + 1 = 5 * k.val := by omega
      have q2 : 5 * kp.val + 7 + 1 = 5 * k.val + 3 := by omega
      have q3 : 5 * kp.val + 9 + 1 = 5 * k.val + 5 := by omega
      rw [q1, q2, q3]
      unfold gFlight sFlight
      iexists _, _, _, _, _, _, _, _, _
      isplitr; swap
      ·
        isplitl [Hmw]; · iexact Hmw
        isplitl [Hxd]; · iexact Hxd
        isplitl [Hxt]; · iexact Hxt
        isplitl [Ht0]; · iexact Ht0
        isplitl [Ht1]; · iexact Ht1
        isplitl [Ht2]; · iexact Ht2
        isplitl [Ht3]; · iexact Ht3
        isplitl [Ht4]; · iexact Ht4
        isplitl [Hg0]; · iexact Hg0
        isplitl [Hg1]; · iexact Hg1
        isplitl [Hg2]; · iexact Hg2
        isplitl [Hs3]; · iexact Hs3
        isplitl [Hs4]; · iexact Hs4
        isplitl [Fg3]; · iexact Fg3
        isplitl [Fg4]; · iexact Fg4
        isplitl [Fs0]; · iexact Fs0
        isplitl [Fs1]; · iexact Fs1
        isplitl [Fs2]; · iexact Fs2
        isplitl [H0]; · iexact H0
        isplitl [H1]; · iexact H1
        isplitl [H2]; · iexact H2
        isplitl [Hdone]; · iexact Hdone
        isplitl [Hout]; · iexact Hout
        iexact HO
      ·
        ipureintro
        refine ⟨?_, ?_, ?_, ?_, ?_, ?_⟩
        · exact GatherFact_writes5 fi ft d L _ _ _ (gather_fact fi ft d L hin k 3 _ _)
        · exact GatherFact_writes6 fi ft d L _ _ _ (gather_fact fi ft d L hin k 4 _ _)
        · exact chunk_fact fi ft d L (k0_off8 L k) _ (5 * k.val) (off8_0 L k) (off8_1 L k) _ (GatherFact_writes2 fi ft d L _ _ _ (gather_fact fi ft d L hin k 0 _ _)) (fo d) _ (fun _ => rfl)
        · exact chunk_fact fi ft d L (k0_off10 L k) _ (5 * k.val + 1) (off10_0 L k) (off10_1 L k) _ (GatherFact_writes3 fi ft d L _ _ _ (gather_fact fi ft d L hin k 1 _ _)) (fo d) _ (fun _ => rfl)
        · exact chunk_fact fi ft d L (k0_off12 L k) _ (5 * k.val + 2) (off12_0 L k) (off12_1 L k) _ (GatherFact_writes4 fi ft d L _ _ _ (gather_fact fi ft d L hin k 2 _ _)) (fo d) _ (fun _ => rfl)
        · exact wf_ins _ (wf_ins _ (wf_ins _ (wf_ins _ (wf_ins _ (wf_ins _ (wf_ins _ (wf_ins _ (wf_ins _ (wf_ins _ (hW'))))))))))
    ·
      have n2 : ¬ k0_cond2 k = 1#1 := fun h => hk (c2.mp h)
      have n3 : ¬ k0_cond3 k = 1#1 := fun h => hk (c3.mp h)
      have n4 : ¬ k0_cond4 k = 1#1 := fun h => hk (c4.mp h)
      have n5 : ¬ k0_cond5 k = 1#1 := fun h => hk (c5.mp h)
      have n6 : ¬ k0_cond6 k = 1#1 := fun h => hk (c6.mp h)
      have n8 : ¬ k0_cond8 k = 1#1 := fun h => hk (c8.mp h)
      have n10 : ¬ k0_cond10 k = 1#1 := fun h => hk (c10.mp h)
      have hk0 : k.val = 0 := by omega
      unfold inv; rw [if_pos hk0]; unfold invX
      iintro ⟨Hmw, Hx, Ht0, Ht1, Ht2, Ht3, Ht4, H0, H1, H2, H3, H4, Hg0, Hg1, Hg2, Hg3, Hg4, Hs0, Hs1, Hs2, Hs3, Hs4, Hout, %W', %hW', HO⟩
      ihave Hout := (Entails.of_eq (show (outLoc d ↦[rowsSet (base (cV L) (jV L)) 25600]{fullShare} fo d : sProp 𝕄) = outLoc d ↦[todoSet L (5 * k.val)]{fullShare} fo d by
        rw [hk0]; rfl)) $$ Hout
      ihave Hc := (todo_carve (F := F) d L (fo d) (5 * k.val + 0) (by omega)) $$ Hout
      icases Hc with ⟨Hc0, Hout⟩
      ihave Hc := (todo_carve (F := F) d L (fo d) (5 * k.val + 1) (by omega)) $$ Hout
      icases Hc with ⟨Hc1, Hout⟩
      ihave Hc := (todo_carve (F := F) d L (fo d) (5 * k.val + 2) (by omega)) $$ Hout
      icases Hc with ⟨Hc2, Hout⟩
      ihave Hc0 := (Entails.of_eq (pts_chunk (F := F) d L (k0_off8 L k) (k0_off8_inb L k c7) _ (off8_0 L k) (off8_1 L k) (fo d)).symm) $$ Hc0
      ihave Hc1 := (Entails.of_eq (pts_chunk (F := F) d L (k0_off10 L k) (k0_off10_inb L k c9) _ (off10_0 L k) (off10_1 L k) (fo d)).symm) $$ Hc1
      ihave Hc2 := (Entails.of_eq (pts_chunk (F := F) d L (k0_off12 L k) (k0_off12_inb L k c11) _ (off12_0 L k) (off12_1 L k) (fo d)).symm) $$ Hc2
      ihave Hxt := (Entails.of_eq (ix_whole (F := F) d L _)) $$ Hx
      ihave Hxt := (Entails.of_eq (show (ixLoc d L ↦[ixTodo 0]{fullShare} ixc fi d L : sProp 𝕄) = ixLoc d L ↦[ixTodo (5 * k.val)]{fullShare} ixc fi d L by rw [hk0])) $$ Hxt
      ihave Hc := (ixtodo_carve (F := F) d L (ixc fi d L) (5 * k.val + 0) (by omega)) $$ Hxt
      icases Hc with ⟨Hw0, Hxt⟩
      ihave Hc := (ixtodo_carve (F := F) d L (ixc fi d L) (5 * k.val + 1) (by omega)) $$ Hxt
      icases Hc with ⟨Hw1, Hxt⟩
      ihave Hc := (ixtodo_carve (F := F) d L (ixc fi d L) (5 * k.val + 2) (by omega)) $$ Hxt
      icases Hc with ⟨Hw2, Hxt⟩
      ihave Hc := (ixtodo_carve (F := F) d L (ixc fi d L) (5 * k.val + 3) (by omega)) $$ Hxt
      icases Hc with ⟨Hw3, Hxt⟩
      ihave Hc := (ixtodo_carve (F := F) d L (ixc fi d L) (5 * k.val + 4) (by omega)) $$ Hxt
      icases Hc with ⟨Hw4, Hxt⟩
      ihave Hw0 := (Entails.of_eq (pts_ixwin (F := F) d L (k0_off3 k 0#32) (k0_off3_inb k 0) (5 * k.val + 0) (off3b k 0 (by decide)) (ixc fi d L)).symm) $$ Hw0
      ihave Hw1 := (Entails.of_eq (pts_ixwin (F := F) d L (k0_off3 k 1#32) (k0_off3_inb k 1) (5 * k.val + 1) (off3b k 1 (by decide)) (ixc fi d L)).symm) $$ Hw1
      ihave Hw2 := (Entails.of_eq (pts_ixwin (F := F) d L (k0_off3 k 2#32) (k0_off3_inb k 2) (5 * k.val + 2) (off3b k 2 (by decide)) (ixc fi d L)).symm) $$ Hw2
      ihave Hw3 := (Entails.of_eq (pts_ixwin (F := F) d L (k0_off3 k 3#32) (k0_off3_inb k 3) (5 * k.val + 3) (off3b k 3 (by decide)) (ixc fi d L)).symm) $$ Hw3
      ihave Hw4 := (Entails.of_eq (pts_ixwin (F := F) d L (k0_off3 k 4#32) (k0_off3_inb k 4) (5 * k.val + 4) (off3b k 4 (by decide)) (ixc fi d L)).symm) $$ Hw4
      sl_exec
      sl_step
      ihave Hxd := (ixdone_nil (F := F) d L (ixc fi d L) (5 * k.val) (by omega)) $$ []
      · iempintro
      ihave Hw0 := (Entails.of_eq (pts_ixwin (F := F) d L (k0_off3 k 0#32) (k0_off3_inb k 0) (5 * k.val) ((off3b k 0 (by decide)).trans (by omega)) (ixc fi d L))) $$ Hw0
      ihave Hxd := (ixdone_join (F := F) d L (ixc fi d L) (5 * k.val)) $$ [Hxd Hw0]
      · isplitl [Hxd] <;> iassumption
      ihave Hw1 := (Entails.of_eq (pts_ixwin (F := F) d L (k0_off3 k 1#32) (k0_off3_inb k 1) (5 * k.val + 1) ((off3b k 1 (by decide)).trans (by omega)) (ixc fi d L))) $$ Hw1
      ihave Hxd := (ixdone_join (F := F) d L (ixc fi d L) (5 * k.val + 1)) $$ [Hxd Hw1]
      · isplitl [Hxd] <;> iassumption
      ihave Hw2 := (Entails.of_eq (pts_ixwin (F := F) d L (k0_off3 k 2#32) (k0_off3_inb k 2) (5 * k.val + 2) ((off3b k 2 (by decide)).trans (by omega)) (ixc fi d L))) $$ Hw2
      ihave Hxd := (ixdone_join (F := F) d L (ixc fi d L) (5 * k.val + 2)) $$ [Hxd Hw2]
      · isplitl [Hxd] <;> iassumption
      ihave Hdone := (done_nil (F := F) d L (outG fi ft d) (5 * k.val) (by omega)) $$ []
      · iempintro
      unfold Steady gFlight sFlight
      iexists _, _, _, _, _, _, _, _, _
      isplitr; swap
      ·
        isplitl [Hmw]; · iexact Hmw
        isplitl [Hxd]; · iexact Hxd
        isplitl [Hxt]; · iexact Hxt
        isplitl [Ht0]; · iexact Ht0
        isplitl [Ht1]; · iexact Ht1
        isplitl [Ht2]; · iexact Ht2
        isplitl [Ht3]; · iexact Ht3
        isplitl [Ht4]; · iexact Ht4
        isplitl [Hg0]; · iexact Hg0
        isplitl [Hg1]; · iexact Hg1
        isplitl [Hg2]; · iexact Hg2
        isplitl [Hs3]; · iexact Hs3
        isplitl [Hs4]; · iexact Hs4
        isplitl [Hg3]; · iexact Hg3
        isplitl [Hg4]; · iexact Hg4
        isplitl [Hs0]; · iexact Hs0
        isplitl [Hs1]; · iexact Hs1
        isplitl [Hs2]; · iexact Hs2
        isplitl [H0]; · iexact H0
        isplitl [H1]; · iexact H1
        isplitl [H2]; · iexact H2
        isplitl [Hdone]; · iexact Hdone
        isplitl [Hout]; · iexact Hout
        iexact HO
      ·
        ipureintro
        refine ⟨?_, ?_, ?_, ?_, ?_, ?_⟩
        · exact GatherFact_writes5 fi ft d L _ _ _ (gather_fact fi ft d L hin k 3 _ _)
        · exact GatherFact_writes6 fi ft d L _ _ _ (gather_fact fi ft d L hin k 4 _ _)
        · exact chunk_fact fi ft d L (k0_off8 L k) _ (5 * k.val) (off8_0 L k) (off8_1 L k) _ (GatherFact_writes2 fi ft d L _ _ _ (gather_fact fi ft d L hin k 0 _ _)) (fo d) _ (fun _ => rfl)
        · exact chunk_fact fi ft d L (k0_off10 L k) _ (5 * k.val + 1) (off10_0 L k) (off10_1 L k) _ (GatherFact_writes3 fi ft d L _ _ _ (gather_fact fi ft d L hin k 1 _ _)) (fo d) _ (fun _ => rfl)
        · exact chunk_fact fi ft d L (k0_off12 L k) _ (5 * k.val + 2) (off12_0 L k) (off12_1 L k) _ (GatherFact_writes4 fi ft d L _ _ _ (gather_fact fi ft d L hin k 2 _ _)) (fo d) _ (fun _ => rfl)
        · exact wf_ins _ (wf_ins _ (wf_ins _ (hW')))
  · unfold inv; rw [if_pos rfl]; unfold invX
    isplitl [Hmw2]; · iexact Hmw2
    isplitl [Hx']; · iexact Hx'
    isplitl [Ht0]; · iexact Ht0
    isplitl [Ht1]; · iexact Ht1
    isplitl [Ht2]; · iexact Ht2
    isplitl [Ht3]; · iexact Ht3
    isplitl [Ht4]; · iexact Ht4
    isplitl [H0']; · iexact H0'
    isplitl [H1']; · iexact H1'
    isplitl [H2']; · iexact H2'
    isplitl [H3']; · iexact H3'
    isplitl [H4']; · iexact H4'
    isplitl [Hg0]; · iexact Hg0
    isplitl [Hg1]; · iexact Hg1
    isplitl [Hg2]; · iexact Hg2
    isplitl [Hg3]; · iexact Hg3
    isplitl [Hg4]; · iexact Hg4
    isplitl [Hs0]; · iexact Hs0
    isplitl [Hs1]; · iexact Hs1
    isplitl [Hs2]; · iexact Hs2
    isplitl [Hs3]; · iexact Hs3
    isplitl [Hs4]; · iexact Hs4
    isplitl [Hout]; · iexact Hout
    iexists _; isplitr
    swap; · iexact HO
    ipureintro; intro p hp
    rcases Finset.mem_insert.mp hp with hp | hp; · exact .inr (.inr (hp ▸ rfl))
    rcases Finset.mem_insert.mp hp with hp | hp; · exact .inr (.inl (hp ▸ rfl))
    exact .inl hp
  iintro %u HI
  obtain ⟨kl, hkl'⟩ : ∃ kl : Fin k0_t1_loop.trips, kl.val = 39 := ⟨⟨39, by decide⟩, rfl⟩
  have e40 : Scf.trips k0_t1_loop.lb k0_t1_loop.ub k0_t1_loop.st = kl.val + 1 := by rw [hkl']; decide
  have hlast : inv fi ft fo d L O W f0 f1 f2 f3 f4 (Scf.trips k0_t1_loop.lb k0_t1_loop.ub k0_t1_loop.st) u = Steady fi ft fo d L O W kl := by
    rw [e40]; exact inv_succ fi ft fo d L O W f0 f1 f2 f3 f4 kl u
  ihave HI := (Entails.of_eq hlast) $$ HI
  unfold Steady
  icases HI with ⟨%r0, %r1, %r2, %r3, %r4, %oc0, %oc1, %oc2, %W', %hf, Hmw, Hxd, Hxt, Ht0, Ht1, Ht2, Ht3, Ht4, Hg0, Hg1, Hg2, Hs3, Hs4, Fg3, Fg4, Fs0, Fs1, Fs2, H0, H1, H2, Hdone, Hout, HO⟩
  obtain ⟨hr3, hr4, hc0, hc1, hc2, hW'⟩ := hf
  -- the last two chunks, carved off the rows still to be written
  ihave Hc := (todo_carve (F := F) d L (fo d) (5 * kl.val + 3) (by omega)) $$ Hout
  icases Hc with ⟨Hc3, Hout⟩
  ihave Hc := (todo_carve (F := F) d L (fo d) (5 * kl.val + 4) (by omega)) $$ Hout
  icases Hc with ⟨Hc4, Hout⟩
  have e13a : (k0_off13 L 25344#32) 0 = base (cV L) (jV L) + 128 * (5 * kl.val + 3) := by
    have h := k0_off13_eq L ⟨0, by decide⟩
    simp only at h
    rw [h]; show 51200 * (L 1).val + 25600 * (L 0).val + 128 * 0 + 25344 = 25600 * (2 * (L 1).val + (L 0).val) + 128 * (5 * kl.val + 3); omega
  have e13b : (k0_off13 L 25472#32) 0 = base (cV L) (jV L) + 128 * (5 * kl.val + 4) := by
    have h := k0_off13_eq L ⟨1, by decide⟩
    simp only at h
    rw [h]; show 51200 * (L 1).val + 25600 * (L 0).val + 128 * 1 + 25344 = 25600 * (2 * (L 1).val + (L 0).val) + 128 * (5 * kl.val + 4); omega
  have h13a : (k0_off13 L 25344#32) 1 = 0 := by
    have h := k0_off13_eq L ⟨0, by decide⟩
    simp only at h
    rw [h]; rfl
  have h13b : (k0_off13 L 25472#32) 1 = 0 := by
    have h := k0_off13_eq L ⟨1, by decide⟩
    simp only at h
    rw [h]; rfl
  ihave Hc3 := (Entails.of_eq (pts_chunk (F := F) d L (k0_off13 L 25344#32) (k0_off13_inb L 0) _ e13a h13a (fo d)).symm) $$ Hc3
  ihave Hc4 := (Entails.of_eq (pts_chunk (F := F) d L (k0_off13 L 25472#32) (k0_off13_inb L 1) _ e13b h13b (fo d)).symm) $$ Hc4
  sl_exec
  sl_step
  -- the last five chunks join the written rows
  ihave Fs0_dst := (Entails.of_eq (pts_chunk (F := F) d L (k0_off8 L kl) (k0_off8_inb L kl (conds kl).2.2.2.2.2.1) _ (off8_0 L kl) (off8_1 L kl) oc0)) $$ Fs0_dst
  ihave Hdone := (done_join (F := F) d L (outG fi ft d) oc0 (5 * kl.val) hc0) $$ [Hdone Fs0_dst]
  · isplitl [Hdone] <;> iassumption
  ihave Fs1_dst := (Entails.of_eq (pts_chunk (F := F) d L (k0_off10 L kl) (k0_off10_inb L kl (conds kl).2.2.2.2.2.2.2.1) _ (off10_0 L kl) (off10_1 L kl) oc1)) $$ Fs1_dst
  ihave Hdone := (done_join (F := F) d L (outG fi ft d) oc1 (5 * kl.val + 1) hc1) $$ [Hdone Fs1_dst]
  · isplitl [Hdone] <;> iassumption
  ihave Fs2_dst := (Entails.of_eq (pts_chunk (F := F) d L (k0_off12 L kl) (k0_off12_inb L kl (conds kl).2.2.2.2.2.2.2.2.2) _ (off12_0 L kl) (off12_1 L kl) oc2)) $$ Fs2_dst
  ihave Hdone := (done_join (F := F) d L (outG fi ft d) oc2 (5 * kl.val + 2) hc2) $$ [Hdone Fs2_dst]
  · isplitl [Hdone] <;> iassumption
  ihave Hc3 := (Entails.of_eq (pts_chunk (F := F) d L (k0_off13 L 25344#32) (k0_off13_inb L 0) _ e13a h13a _)) $$ Hc3
  ihave Hdone := (done_join_any (F := F) fi ft d L (5 * kl.val + 3)) $$ [Hdone Hc3]
  · isplitl [Hdone]; · iexact Hdone
    iexists _; isplitr; swap; · iexact Hc3
    ipureintro
    exact chunk_fact fi ft d L (k0_off13 L 25344#32) (k0_off13_inb L 0) (5 * kl.val + 3) e13a h13a r3 hr3 (fo d) _ (fun _ => rfl)
  ihave Hc4 := (Entails.of_eq (pts_chunk (F := F) d L (k0_off13 L 25472#32) (k0_off13_inb L 1) _ e13b h13b _)) $$ Hc4
  ihave Hdone := (done_join_any (F := F) fi ft d L (5 * kl.val + 4)) $$ [Hdone Hc4]
  · isplitl [Hdone]; · iexact Hdone
    iexists _; isplitr; swap; · iexact Hc4
    ipureintro
    exact chunk_fact fi ft d L (k0_off13 L 25472#32) (k0_off13_inb L 1) (5 * kl.val + 4) e13b h13b r4 hr4 (fo d) _ (fun _ => rfl)
  -- the last two windows join the index list
  ihave Fg3_dst_and := (Entails.of_eq (pts_ixwin'' (F := F) d L kl 3 (5 * kl.val + 3) ((off3b kl 3 (by decide)).trans (by omega)) (ixc fi d L))) $$ Fg3_dst_and
  ihave Hxd := (ixdone_join (F := F) d L (ixc fi d L) (5 * kl.val + 3)) $$ [Hxd Fg3_dst_and]
  · isplitl [Hxd] <;> iassumption
  ihave Fg4_dst_and := (Entails.of_eq (pts_ixwin'' (F := F) d L kl 4 (5 * kl.val + 4) ((off3b kl 4 (by decide)).trans (by omega)) (ixc fi d L))) $$ Fg4_dst_and
  ihave Hxd := (ixdone_join (F := F) d L (ixc fi d L) (5 * kl.val + 4)) $$ [Hxd Fg4_dst_and]
  · isplitl [Hxd] <;> iassumption
  unfold tdRes
  rw [if_neg hj]
  isplitl [Hidx' Hdone Hshr Ht0 Ht1 Ht2 Ht3 Ht4]
  · isplitl [Hidx']; · iapply (Entails.of_eq (pts_idxK (F := F) d L _)); iexact Hidx'
    isplitl [Hdone]
    · iapply (Entails.of_eq (show (outLoc d ↦[doneSet L (5 * kl.val + 4 + 1)]{fullShare} outG fi ft d : sProp 𝕄)
          = outLoc d ↦[rowsSet (base (cV L) (jV L)) 25600]{fullShare} outG fi ft d by rw [hkl']))
      iexact Hdone
    isplitl [Hshr Ht0 Ht1 Ht2 Ht3 Ht4]
    · unfold shTok
      iapply (sh_toks (F := F) d L _).2
      isplitl [Hshr]; · iexact Hshr
      isplitl [Ht0]; · iexact Ht0
      isplitl [Ht1]; · iexact Ht1
      isplitl [Ht2]; · iexact Ht2
      isplitl [Ht3]; · iexact Ht3
      iexact Ht4
    iempintro
  isplitl [Hxd H0 H1 H2 Fg3_dst Fg4_dst Hbufs]
  · isplitl [Hxd H0 H1 H2 Fg3_dst Fg4_dst]
    · isplitl [Hxd]
      · iexists _
        iapply (Entails.of_eq (show (ixLoc d L ↦[ixDone (5 * kl.val + 4 + 1)]{fullShare} ixc fi d L : sProp 𝕄)
            = ((d, vb L 0) : Loc nD τ sig) ↦{fullShare} ixc fi d L by rw [hkl', show ixDone (5 * 39 + 4 + 1) = Finset.univ from ixSet_all]))
        iexact Hxd
      isplitl [H0]; · iexists _; iapply (Entails.of_eq (pts_r0 (F := F) d L _)); iexact H0
      isplitl [H1]; · iexists _; iapply (Entails.of_eq (pts_r1 (F := F) d L _)); iexact H1
      isplitl [H2]; · iexists _; iapply (Entails.of_eq (pts_r2 (F := F) d L _)); iexact H2
      isplitl [Fg3_dst]; · iexists _; iapply (Entails.of_eq (pts_r3 (F := F) d L _)); iexact Fg3_dst
      iexists _; iapply (Entails.of_eq (pts_r4 (F := F) d L _)); iexact Fg4_dst
    · iexact Hbufs
  isplitl [Hg0 Hg1 Hg2 Fg3 Fg4 Fs0 Fs1 Fs2 Hs3 Hs4 HsA HsB]
  ·
    isplitl [Hg0]; · iexact Hg0
    isplitl [Hg1]; · iexact Hg1
    isplitl [Hg2]; · iexact Hg2
    isplitl [Fg3]; · iexact Fg3
    isplitl [Fg4]; · iexact Fg4
    isplitl [Fs0]; · iexact Fs0
    isplitl [Fs1]; · iexact Fs1
    isplitl [Fs2]; · iexact Fs2
    isplitl [Hs3]; · iexact Hs3
    isplitl [Hs4]; · iexact Hs4
    isplitl [HsA]; · iexact HsA
    iexact HsB
  iexists _; isplitr
  swap; · iexact HO
  ipureintro
  exact wf_ins _ (wf_ins _ (wf_ins _ (wf_ins _ (wf_ins _ (wf_ins _ (wf_ins _ (hW')))))))

end Tile

end Cert.Proof.IdealSide

end
-- ==== Proof.IdealBodyZero.lean ====
/-
  The task on subcore 0 of a SparseCore: as on the other subcores, and before the barrier the table is copied
  into the SparseCore's shared memory; at the barrier subcore 0 hands each subcore of the SparseCore (itself
  included) its read share of that copy and keeps the remainder, which it brings back with the table's share.
-/
import proofs.«203224_g2765958938866_cont_9to1_225_22_alg».proof.Proof.IdealTripLemmas

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (fi : (d : Dev nD) → Buf (Elt F) (idxLoc d)) (ft : (d : Dev nD) → Buf (Elt F) (tabLoc d)) (fo : (d : Dev nD) → Buf (Elt F) (outLoc d))
variable [FloatOps F]

section Tile

variable (d : Dev nD) (L : grid0.Coords)

set_option quotPrecheck false
local notation "THR" => (V d (cV L) (jV L))
local notation "ixM" => (Memref.whole cc0_scratch0 : Memref sig .scVector .vmem S25600 .i32)
local notation "shM" => (Memref.whole cc0_scratch1 : Memref sig .scVector .shared S64x128 .f32)
local notation "oM" => (Memref.whole main_v1_scv : Memref sig .scVector .hbm S819200x128 .f32)
local notation "shSl" => ((Memref.whole cc0_scratch1 : Memref sig .scVector .shared S64x128 .f32).slice (Rect.unit (s := S64x128) ![0, 0] S64x128.size inb_S64x128_S64x128_0_0) (fun _ => rfl))

set_option maxHeartbeats 4000000 in
theorem tile_body_zero (hin : ∀ d j, (fi d j).toNat < 64) (hj : (jV L).val = 0) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit ft d (cV L) (jV L) ∗ goRes fi ft fo d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_body L (Memref.whole main_v0_scv) (Memref.isWhole_whole _) (Memref.whole main_arg1_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _)
            cc0_scratch7 cc0_scratch8 cc0_scratch9 cc0_scratch10 cc0_scratch11 cc0_scratch12 cc0_scratch13 cc0_scratch14 cc0_scratch15 cc0_scratch16 cc0_scoped0 cc0_scoped1)
          fun _ => iprop(tdRes fi ft d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__emb_body_eq_skeleton]; unfold cc0__emb_body_skel
  rw [(K (F := F)).scopedBufs_V hF d (cV L) (jV L), SparseCore.Cfg.scopedSems0_V (Val := Elt F) d (cV L) (jV L), ownSems0_V', ownBufs_V]
  rw [show (Finset.univ : Finset (Fin 6)) = {0, 1, 2, 3, 4, 5} by decide,
    SparseCore.bigSep_insert' (by decide), SparseCore.bigSep_insert' (by decide), SparseCore.bigSep_insert' (by decide), SparseCore.bigSep_insert' (by decide),
    SparseCore.bigSep_insert' (by decide), bigSep_singleton]
  unfold bkit goRes
  rw [if_pos hj]
  iintro ⟨#Hlv, ⟨⟨%κ, #Hinv⟩, Htoks, #Hrch, Hat, Hcred⟩, ⟨Hidx, Hout, Htab, %fsh, Hshw⟩, ⟨⟨⟨%fx, Hx⟩, ⟨%f0, H0⟩, ⟨%f1, H1⟩, ⟨%f2, H2⟩, ⟨%f3, H3⟩, ⟨%f4, H4⟩⟩, Hbufs⟩,
    ⟨Hg0, Hg1, Hg2, Hg3, Hg4, Hs0, Hs1, Hs2, Hs3, Hs4, HsA, HsB⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hidx' := (Entails.of_eq (pts_idxK (F := F) d L _).symm) $$ Hidx
  ihave Hx' := (Entails.of_eq (pts_ix (F := F) d L _).symm) $$ Hx
  ihave H0' := (Entails.of_eq (pts_r0 (F := F) d L _).symm) $$ H0
  ihave H1' := (Entails.of_eq (pts_r1 (F := F) d L _).symm) $$ H1
  ihave H2' := (Entails.of_eq (pts_r2 (F := F) d L _).symm) $$ H2
  ihave H3' := (Entails.of_eq (pts_r3 (F := F) d L _).symm) $$ H3
  ihave H4' := (Entails.of_eq (pts_r4 (F := F) d L _).symm) $$ H4
  sl_exec
  have hv5 : tile_body_zero.sl.v5 L = 1#1 := (when_s0 (L 1)).mpr hj
  ihave Htab' := (Entails.of_eq (pts_tab (F := F) d L _ _).symm) $$ Htab
  ihave Hshw' := (Entails.of_eq (pts_sh (F := F) d L fullShare fsh).symm) $$ Hshw
  sl_exec
  rw [View.write_whole_univ, View.write_whole_univ]
  ihave Hshw := (sh_norm (F := F) ft d L) $$ [Hshw']
  · iexists _; isplitr; swap; · iexact Hshw'
    ipureintro; intro i; rfl
  ihave Hp := (pays_intro_zero ft d (cV L)) $$ Hshw
  icases Hp with ⟨Hpays, Hshrem⟩
  ihave Hpays := (Entails.of_eq (show (bigSep Finset.univ fun j : Fin (grid0.bound 1) => (bRd (F := F) ft).payload (bcell d (cV L) (j.castLE hsub0)) 0 0 : sProp 𝕄)
      = bigSep Finset.univ fun j : Fin (grid0.bound 1) => (bRd (F := F) ft).payload (bcell d (cV L) (j.castLE hsub0)) 0 (jV L).val by rw [hj])) $$ Hpays
  -- the barrier: nothing handed over, the tile's read share of the shared copy received
  iapply (SparseCore.wp_subcoreBarrier 𝒱₀ none EB (bRd (F := F) ft) d (sc := cV L) (i := jV L) sc_bar0 (grid0.bound 1) hsub0 (L 1) rfl κ (fun _ => 0) (jV L).val
      (fun j => bRd_mem₀ ft d _ _ _) (fun _ => rfl) (bRd_expect ft d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hsh := (pays_elim (F := F) ft d L) $$ Hgot
  unfold shTok at ⊢
  ihave Hsh' := (sh_toks (F := F) d L _).1 $$ Hsh
  icases Hsh' with ⟨Hshr, Ht0, Ht1, Ht2, Ht3, Ht4⟩
  have hdm : tile_body_zero.sl.dma0 fi d L = ixc fi d L := rfl
  rw [hdm]
  have hall : ∀ (off : Fin 1 → Nat) (inb : ∀ a, off a + S128.size a ≤ S25600.size a) (j : S128.Idx),
      ((((Memref.whole cc0_scratch0 : Memref sig .scVector .vmem S25600 .i32).slice (Rect.unit (s := S25600) off S128.size inb) (fun _ => rfl)).view.read (Elt F) (ixc fi d L) j : Elt F .i32) : BitVec 32).toNat < 64 := by
    intro off inb j; rw [View.read_apply]; exact ixc_lt fi d L hin _
  sl_exec
  sl_for (inv fi ft fo d L O W f0 f1 f2 f3 f4) $$ [Hmw2 Hx' Ht0 Ht1 Ht2 Ht3 Ht4 H0' H1' H2' H3' H4' Hg0 Hg1 Hg2 Hg3 Hg4 Hs0 Hs1 Hs2 Hs3 Hs4 Hout HO]
  case region =>
    intro k u
    rw [inv_succ']
    obtain ⟨c2, c3, c4, c5, c6, c7, c8, c9, c10, c11⟩ := conds k
    by_cases hk : 0 < k.val
    ·
      obtain ⟨kp, hkp⟩ : ∃ kp : Fin k0_t1_loop.trips, kp.val + 1 = k.val := ⟨⟨k.val - 1, lt_of_le_of_lt (Nat.sub_le _ _) k.isLt⟩, Nat.sub_add_cancel hk⟩
      have hk40 : k.val < 40 := lt_of_lt_of_le k.isLt k0_t1_abs.2.1
      rw [inv_of_succ fi ft fo d L O W f0 f1 f2 f3 f4 k kp hkp]
      unfold Steady
      iintro ⟨%r0, %r1, %r2, %r3, %r4, %oc0, %oc1, %oc2, %W', %hf, Hmw, Hxd, Hxt, Ht0, Ht1, Ht2, Ht3, Ht4, Hg0, Hg1, Hg2, Hs3, Hs4, Fg3, Fg4, Fs0, Fs1, Fs2, H0, H1, H2, Hdone, Hout, HO⟩
      obtain ⟨hr3, hr4, hc0, hc1, hc2, hW'⟩ := hf
      have p2 : k0_cond2 k = 1#1 := c2.mpr hk
      have p3 : k0_cond3 k = 1#1 := c3.mpr hk
      have p4 : k0_cond4 k = 1#1 := c4.mpr hk
      have p5 : k0_cond5 k = 1#1 := c5.mpr hk
      have p6 : k0_cond6 k = 1#1 := c6.mpr hk
      have p8 : k0_cond8 k = 1#1 := c8.mpr hk
      have p10 : k0_cond10 k = 1#1 := c10.mpr hk
      -- the five chunks this trip stores, carved off the rows still to be written
      ihave Hc := (todo_carve (F := F) d L (fo d) (5 * kp.val + 3) (by omega)) $$ Hout
      icases Hc with ⟨Hc3, Hout⟩
      ihave Hc := (todo_carve (F := F) d L (fo d) (5 * kp.val + 4) (by omega)) $$ Hout
      icases Hc with ⟨Hc4, Hout⟩
      ihave Hc := (todo_carve (F := F) d L (fo d) (5 * kp.val + 5) (by omega)) $$ Hout
      icases Hc with ⟨Hc5, Hout⟩
      ihave Hc := (todo_carve (F := F) d L (fo d) (5 * kp.val + 6) (by omega)) $$ Hout
      icases Hc with ⟨Hc6, Hout⟩
      ihave Hc := (todo_carve (F := F) d L (fo d) (5 * kp.val + 7) (by omega)) $$ Hout
      icases Hc with ⟨Hc7, Hout⟩
      have e4 : (k0_off4 L k) 0 = base (cV L) (jV L) + 128 * (5 * kp.val + 3) := by
        rw [off4_eq L k hk]; show 51200 * (L 1).val + 25600 * (L 0).val + 640 * k.val - 256 = 25600 * (2 * (L 1).val + (L 0).val) + 128 * (5 * kp.val + 3); omega
      have e6 : (k0_off6 L k) 0 = base (cV L) (jV L) + 128 * (5 * kp.val + 4) := by
        rw [off6_eq L k hk]; show 51200 * (L 1).val + 25600 * (L 0).val + 640 * k.val - 128 = 25600 * (2 * (L 1).val + (L 0).val) + 128 * (5 * kp.val + 4); omega
      have e8 : (k0_off8 L k) 0 = base (cV L) (jV L) + 128 * (5 * kp.val + 5) := (off8_0 L k).trans (by omega)
      have e10 : (k0_off10 L k) 0 = base (cV L) (jV L) + 128 * (5 * kp.val + 6) := (off10_0 L k).trans (by omega)
      have e12 : (k0_off12 L k) 0 = base (cV L) (jV L) + 128 * (5 * kp.val + 7) := (off12_0 L k).trans (by omega)
      ihave Hc3 := (Entails.of_eq (pts_chunk (F := F) d L (k0_off4 L k) (k0_off4_inb L k p3) _ e4 (by rw [off4_eq L k hk]; rfl) (fo d)).symm) $$ Hc3
      ihave Hc4 := (Entails.of_eq (pts_chunk (F := F) d L (k0_off6 L k) (k0_off6_inb L k p5) _ e6 (by rw [off6_eq L k hk]; rfl) (fo d)).symm) $$ Hc4
      ihave Hc5 := (Entails.of_eq (pts_chunk (F := F) d L (k0_off8 L k) (k0_off8_inb L k c7) _ e8 (off8_1 L k) (fo d)).symm) $$ Hc5
      ihave Hc6 := (Entails.of_eq (pts_chunk (F := F) d L (k0_off10 L k) (k0_off10_inb L k c9) _ e10 (off10_1 L k) (fo d)).symm) $$ Hc6
      ihave Hc7 := (Entails.of_eq (pts_chunk (F := F) d L (k0_off12 L k) (k0_off12_inb L k c11) _ e12 (off12_1 L k) (fo d)).symm) $$ Hc7
      -- the five windows of the index list this trip gathers from
      ihave Hc := (ixtodo_carve (F := F) d L (ixc fi d L) (5 * kp.val + 5) (by omega)) $$ Hxt
      icases Hc with ⟨Hw0, Hxt⟩
      ihave Hc := (ixtodo_carve (F := F) d L (ixc fi d L) (5 * kp.val + 6) (by omega)) $$ Hxt
      icases Hc with ⟨Hw1, Hxt⟩
      ihave Hc := (ixtodo_carve (F := F) d L (ixc fi d L) (5 * kp.val + 7) (by omega)) $$ Hxt
      icases Hc with ⟨Hw2, Hxt⟩
      ihave Hc := (ixtodo_carve (F := F) d L (ixc fi d L) (5 * kp.val + 8) (by omega)) $$ Hxt
      icases Hc with ⟨Hw3, Hxt⟩
      ihave Hc := (ixtodo_carve (F := F) d L (ixc fi d L) (5 * kp.val + 9) (by omega)) $$ Hxt
      icases Hc with ⟨Hw4, Hxt⟩
      ihave Hw0 := (Entails.of_eq (pts_ixwin (F := F) d L (k0_off3 k 0#32) (k0_off3_inb k 0) (5 * kp.val + 5) ((off3b k 0 (by decide)).trans (by omega)) (ixc fi d L)).symm) $$ Hw0
      ihave Hw1 := (Entails.of_eq (pts_ixwin (F := F) d L (k0_off3 k 1#32) (k0_off3_inb k 1) (5 * kp.val + 6) ((off3b k 1 (by decide)).trans (by omega)) (ixc fi d L)).symm) $$ Hw1
      ihave Hw2 := (Entails.of_eq (pts_ixwin (F := F) d L (k0_off3 k 2#32) (k0_off3_inb k 2) (5 * kp.val + 7) ((off3b k 2 (by decide)).trans (by omega)) (ixc fi d L)).symm) $$ Hw2
      ihave Hw3 := (Entails.of_eq (pts_ixwin (F := F) d L (k0_off3 k 3#32) (k0_off3_inb k 3) (5 * kp.val + 8) ((off3b k 3 (by decide)).trans (by omega)) (ixc fi d L)).symm) $$ Hw3
      ihave Hw4 := (Entails.of_eq (pts_ixwin (F := F) d L (k0_off3 k 4#32) (k0_off3_inb k 4) (5 * kp.val + 9) ((off3b k 4 (by decide)).trans (by omega)) (ixc fi d L)).symm) $$ Hw4
      sl_exec
      sl_step
      -- the chunks whose stores were waited for join the written rows
      ihave Fs0_dst := (Entails.of_eq (pts_chunk (F := F) d L (k0_off8 L kp) (k0_off8_inb L kp (conds kp).2.2.2.2.2.1) _ (off8_0 L kp) (off8_1 L kp) oc0)) $$ Fs0_dst
      ihave Hdone := (done_join (F := F) d L (outG fi ft d) oc0 (5 * kp.val) hc0) $$ [Hdone Fs0_dst]
      · isplitl [Hdone] <;> iassumption
      ihave Fs1_dst := (Entails.of_eq (pts_chunk (F := F) d L (k0_off10 L kp) (k0_off10_inb L kp (conds kp).2.2.2.2.2.2.2.1) _ (off10_0 L kp) (off10_1 L kp) oc1)) $$ Fs1_dst
      ihave Hdone := (done_join (F := F) d L (outG fi ft d) oc1 (5 * kp.val + 1) hc1) $$ [Hdone Fs1_dst]
      · isplitl [Hdone] <;> iassumption
      ihave Fs2_dst := (Entails.of_eq (pts_chunk (F := F) d L (k0_off12 L kp) (k0_off12_inb L kp (conds kp).2.2.2.2.2.2.2.2.2) _ (off12_0 L kp) (off12_1 L kp) oc2)) $$ Fs2_dst
      ihave Hdone := (done_join (F := F) d L (outG fi ft d) oc2 (5 * kp.val + 2) hc2) $$ [Hdone Fs2_dst]
      · isplitl [Hdone] <;> iassumption
      have h41 : (k0_off4 L k) 1 = 0 := by rw [off4_eq L k hk]; rfl
      have h61 : (k0_off6 L k) 1 = 0 := by rw [off6_eq L k hk]; rfl
      ihave Hc3 := (Entails.of_eq (pts_chunk (F := F) d L (k0_off4 L k) (k0_off4_inb L k p3) _ e4 h41 _)) $$ Hc3
      ihave Hdone := (done_join_any (F := F) fi ft d L (5 * kp.val + 3)) $$ [Hdone Hc3]
      · isplitl [Hdone]; · iexact Hdone
        iexists _; isplitr; swap; · iexact Hc3
        ipureintro
        exact chunk_fact fi ft d L (k0_off4 L k) (k0_off4_inb L k p3) (5 * kp.val + 3) e4 h41 r3 hr3 (fo d) _ (fun _ => rfl)
      ihave Hc4 := (Entails.of_eq (pts_chunk (F := F) d L (k0_off6 L k) (k0_off6_inb L k p5) _ e6 h61 _)) $$ Hc4
      ihave Hdone := (done_join_any (F := F) fi ft d L (5 * kp.val + 4)) $$ [Hdone Hc4]
      · isplitl [Hdone]; · iexact Hdone
        iexists _; isplitr; swap; · iexact Hc4
        ipureintro
        exact chunk_fact fi ft d L (k0_off6 L k) (k0_off6_inb L k p5) (5 * kp.val + 4) e6 h61 r4 hr4 (fo d) _ (fun _ => rfl)
      -- the windows whose gathers were waited for join the entries back in hand
      ihave Fg3_dst_and := (Entails.of_eq (pts_ixwin'' (F := F) d L kp 3 (5 * kp.val + 3) ((off3b kp 3 (by decide)).trans (by omega)) (ixc fi d L))) $$ Fg3_dst_and
      ihave Hxd := (ixdone_join (F := F) d L (ixc fi d L) (5 * kp.val + 3)) $$ [Hxd Fg3_dst_and]
      · isplitl [Hxd] <;> iassumption
      ihave Fg4_dst_and := (Entails.of_eq (pts_ixwin'' (F := F) d L kp 4 (5 * kp.val + 4) ((off3b kp 4 (by decide)).trans (by omega)) (ixc fi d L))) $$ Fg4_dst_and
      ihave Hxd := (ixdone_join (F := F) d L (ixc fi d L) (5 * kp.val + 4)) $$ [Hxd Fg4_dst_and]
      · isplitl [Hxd] <;> iassumption
      ihave Hw0 := (Entails.of_eq (pts_ixwin (F := F) d L (k0_off3 k 0#32) (k0_off3_inb k 0) (5 * kp.val + 5) ((off3b k 0 (by decide)).trans (by omega)) (ixc fi d L))) $$ Hw0
      ihave Hxd := (ixdone_join (F := F) d L (ixc fi d L) (5 * kp.val + 5)) $$ [Hxd Hw0]
      · isplitl [Hxd] <;> iassumption
      ihave Hw1 := (Entails.of_eq (pts_ixwin (F := F) d L (k0_off3 k 1#32) (k0_off3_inb k 1) (5 * kp.val + 6) ((off3b k 1 (by decide)).trans (by omega)) (ixc fi d L))) $$ Hw1
      ihave Hxd := (ixdone_join (F := F) d L (ixc fi d L) (5 * kp.val + 6)) $$ [Hxd Hw1]
      · isplitl [Hxd] <;> iassumption
      ihave Hw2 := (Entails.of_eq (pts_ixwin (F := F) d L (k0_off3 k 2#32) (k0_off3_inb k 2) (5 * kp.val + 7) ((off3b k 2 (by decide)).trans (by omega)) (ixc fi d L))) $$ Hw2
      ihave Hxd := (ixdone_join (F := F) d L (ixc fi d L) (5 * kp.val + 7)) $$ [Hxd Hw2]
      · isplitl [Hxd] <;> iassumption
      have q1 : 5 * kp.val + 4 + 1 = 5 * k.val := by omega
      have q2 : 5 * kp.val + 7 + 1 = 5 * k.val + 3 := by omega
      have q3 : 5 * kp.val + 9 + 1 = 5 * k.val + 5 := by omega
      rw [q1, q2, q3]
      unfold gFlight sFlight
      iexists _, _, _, _, _, _, _, _, _
      isplitr; swap
      ·
        isplitl [Hmw]; · iexact Hmw
        isplitl [Hxd]; · iexact Hxd
        isplitl [Hxt]; · iexact Hxt
        isplitl [Ht0]; · iexact Ht0
        isplitl [Ht1]; · iexact Ht1
        isplitl [Ht2]; · iexact Ht2
        isplitl [Ht3]; · iexact Ht3
        isplitl [Ht4]; · iexact Ht4
        isplitl [Hg0]; · iexact Hg0
        isplitl [Hg1]; · iexact Hg1
        isplitl [Hg2]; · iexact Hg2
        isplitl [Hs3]; · iexact Hs3
        isplitl [Hs4]; · iexact Hs4
        isplitl [Fg3]; · iexact Fg3
        isplitl [Fg4]; · iexact Fg4
        isplitl [Fs0]; · iexact Fs0
        isplitl [Fs1]; · iexact Fs1
        isplitl [Fs2]; · iexact Fs2
        isplitl [H0]; · iexact H0
        isplitl [H1]; · iexact H1
        isplitl [H2]; · iexact H2
        isplitl [Hdone]; · iexact Hdone
        isplitl [Hout]; · iexact Hout
        iexact HO
      ·
        ipureintro
        refine ⟨?_, ?_, ?_, ?_, ?_, ?_⟩
        · exact GatherFact_writes5 fi ft d L _ _ _ (gather_fact fi ft d L hin k 3 _ _)
        · exact GatherFact_writes6 fi ft d L _ _ _ (gather_fact fi ft d L hin k 4 _ _)
        · exact chunk_fact fi ft d L (k0_off8 L k) _ (5 * k.val) (off8_0 L k) (off8_1 L k) _ (GatherFact_writes2 fi ft d L _ _ _ (gather_fact fi ft d L hin k 0 _ _)) (fo d) _ (fun _ => rfl)
        · exact chunk_fact fi ft d L (k0_off10 L k) _ (5 * k.val + 1) (off10_0 L k) (off10_1 L k) _ (GatherFact_writes3 fi ft d L _ _ _ (gather_fact fi ft d L hin k 1 _ _)) (fo d) _ (fun _ => rfl)
        · exact chunk_fact fi ft d L (k0_off12 L k) _ (5 * k.val + 2) (off12_0 L k) (off12_1 L k) _ (GatherFact_writes4 fi ft d L _ _ _ (gather_fact fi ft d L hin k 2 _ _)) (fo d) _ (fun _ => rfl)
        · exact wf_ins _ (wf_ins _ (wf_ins _ (wf_ins _ (wf_ins _ (wf_ins _ (wf_ins _ (wf_ins _ (wf_ins _ (wf_ins _ (hW'))))))))))
    ·
      have n2 : ¬ k0_cond2 k = 1#1 := fun h => hk (c2.mp h)
      have n3 : ¬ k0_cond3 k = 1#1 := fun h => hk (c3.mp h)
      have n4 : ¬ k0_cond4 k = 1#1 := fun h => hk (c4.mp h)
      have n5 : ¬ k0_cond5 k = 1#1 := fun h => hk (c5.mp h)
      have n6 : ¬ k0_cond6 k = 1#1 := fun h => hk (c6.mp h)
      have n8 : ¬ k0_cond8 k = 1#1 := fun h => hk (c8.mp h)
      have n10 : ¬ k0_cond10 k = 1#1 := fun h => hk (c10.mp h)
      have hk0 : k.val = 0 := by omega
      unfold inv; rw [if_pos hk0]; unfold invX
      iintro ⟨Hmw, Hx, Ht0, Ht1, Ht2, Ht3, Ht4, H0, H1, H2, H3, H4, Hg0, Hg1, Hg2, Hg3, Hg4, Hs0, Hs1, Hs2, Hs3, Hs4, Hout, %W', %hW', HO⟩
      ihave Hout := (Entails.of_eq (show (outLoc d ↦[rowsSet (base (cV L) (jV L)) 25600]{fullShare} fo d : sProp 𝕄) = outLoc d ↦[todoSet L (5 * k.val)]{fullShare} fo d by
        rw [hk0]; rfl)) $$ Hout
      ihave Hc := (todo_carve (F := F) d L (fo d) (5 * k.val + 0) (by omega)) $$ Hout
      icases Hc with ⟨Hc0, Hout⟩
      ihave Hc := (todo_carve (F := F) d L (fo d) (5 * k.val + 1) (by omega)) $$ Hout
      icases Hc with ⟨Hc1, Hout⟩
      ihave Hc := (todo_carve (F := F) d L (fo d) (5 * k.val + 2) (by omega)) $$ Hout
      icases Hc with ⟨Hc2, Hout⟩
      ihave Hc0 := (Entails.of_eq (pts_chunk (F := F) d L (k0_off8 L k) (k0_off8_inb L k c7) _ (off8_0 L k) (off8_1 L k) (fo d)).symm) $$ Hc0
      ihave Hc1 := (Entails.of_eq (pts_chunk (F := F) d L (k0_off10 L k) (k0_off10_inb L k c9) _ (off10_0 L k) (off10_1 L k) (fo d)).symm) $$ Hc1
      ihave Hc2 := (Entails.of_eq (pts_chunk (F := F) d L (k0_off12 L k) (k0_off12_inb L k c11) _ (off12_0 L k) (off12_1 L k) (fo d)).symm) $$ Hc2
      ihave Hxt := (Entails.of_eq (ix_whole (F := F) d L _)) $$ Hx
      ihave Hxt := (Entails.of_eq (show (ixLoc d L ↦[ixTodo 0]{fullShare} ixc fi d L : sProp 𝕄) = ixLoc d L ↦[ixTodo (5 * k.val)]{fullShare} ixc fi d L by rw [hk0])) $$ Hxt
      ihave Hc := (ixtodo_carve (F := F) d L (ixc fi d L) (5 * k.val + 0) (by omega)) $$ Hxt
      icases Hc with ⟨Hw0, Hxt⟩
      ihave Hc := (ixtodo_carve (F := F) d L (ixc fi d L) (5 * k.val + 1) (by omega)) $$ Hxt
      icases Hc with ⟨Hw1, Hxt⟩
      ihave Hc := (ixtodo_carve (F := F) d L (ixc fi d L) (5 * k.val + 2) (by omega)) $$ Hxt
      icases Hc with ⟨Hw2, Hxt⟩
      ihave Hc := (ixtodo_carve (F := F) d L (ixc fi d L) (5 * k.val + 3) (by omega)) $$ Hxt
      icases Hc with ⟨Hw3, Hxt⟩
      ihave Hc := (ixtodo_carve (F := F) d L (ixc fi d L) (5 * k.val + 4) (by omega)) $$ Hxt
      icases Hc with ⟨Hw4, Hxt⟩
      ihave Hw0 := (Entails.of_eq (pts_ixwin (F := F) d L (k0_off3 k 0#32) (k0_off3_inb k 0) (5 * k.val + 0) (off3b k 0 (by decide)) (ixc fi d L)).symm) $$ Hw0
      ihave Hw1 := (Entails.of_eq (pts_ixwin (F := F) d L (k0_off3 k 1#32) (k0_off3_inb k 1) (5 * k.val + 1) (off3b k 1 (by decide)) (ixc fi d L)).symm) $$ Hw1
      ihave Hw2 := (Entails.of_eq (pts_ixwin (F := F) d L (k0_off3 k 2#32) (k0_off3_inb k 2) (5 * k.val + 2) (off3b k 2 (by decide)) (ixc fi d L)).symm) $$ Hw2
      ihave Hw3 := (Entails.of_eq (pts_ixwin (F := F) d L (k0_off3 k 3#32) (k0_off3_inb k 3) (5 * k.val + 3) (off3b k 3 (by decide)) (ixc fi d L)).symm) $$ Hw3
      ihave Hw4 := (Entails.of_eq (pts_ixwin (F := F) d L (k0_off3 k 4#32) (k0_off3_inb k 4) (5 * k.val + 4) (off3b k 4 (by decide)) (ixc fi d L)).symm) $$ Hw4
      sl_exec
      sl_step
      ihave Hxd := (ixdone_nil (F := F) d L (ixc fi d L) (5 * k.val) (by omega)) $$ []
      · iempintro
      ihave Hw0 := (Entails.of_eq (pts_ixwin (F := F) d L (k0_off3 k 0#32) (k0_off3_inb k 0) (5 * k.val) ((off3b k 0 (by decide)).trans (by omega)) (ixc fi d L))) $$ Hw0
      ihave Hxd := (ixdone_join (F := F) d L (ixc fi d L) (5 * k.val)) $$ [Hxd Hw0]
      · isplitl [Hxd] <;> iassumption
      ihave Hw1 := (Entails.of_eq (pts_ixwin (F := F) d L (k0_off3 k 1#32) (k0_off3_inb k 1) (5 * k.val + 1) ((off3b k 1 (by decide)).trans (by omega)) (ixc fi d L))) $$ Hw1
      ihave Hxd := (ixdone_join (F := F) d L (ixc fi d L) (5 * k.val + 1)) $$ [Hxd Hw1]
      · isplitl [Hxd] <;> iassumption
      ihave Hw2 := (Entails.of_eq (pts_ixwin (F := F) d L (k0_off3 k 2#32) (k0_off3_inb k 2) (5 * k.val + 2) ((off3b k 2 (by decide)).trans (by omega)) (ixc fi d L))) $$ Hw2
      ihave Hxd := (ixdone_join (F := F) d L (ixc fi d L) (5 * k.val + 2)) $$ [Hxd Hw2]
      · isplitl [Hxd] <;> iassumption
      ihave Hdone := (done_nil (F := F) d L (outG fi ft d) (5 * k.val) (by omega)) $$ []
      · iempintro
      unfold Steady gFlight sFlight
      iexists _, _, _, _, _, _, _, _, _
      isplitr; swap
      ·
        isplitl [Hmw]; · iexact Hmw
        isplitl [Hxd]; · iexact Hxd
        isplitl [Hxt]; · iexact Hxt
        isplitl [Ht0]; · iexact Ht0
        isplitl [Ht1]; · iexact Ht1
        isplitl [Ht2]; · iexact Ht2
        isplitl [Ht3]; · iexact Ht3
        isplitl [Ht4]; · iexact Ht4
        isplitl [Hg0]; · iexact Hg0
        isplitl [Hg1]; · iexact Hg1
        isplitl [Hg2]; · iexact Hg2
        isplitl [Hs3]; · iexact Hs3
        isplitl [Hs4]; · iexact Hs4
        isplitl [Hg3]; · iexact Hg3
        isplitl [Hg4]; · iexact Hg4
        isplitl [Hs0]; · iexact Hs0
        isplitl [Hs1]; · iexact Hs1
        isplitl [Hs2]; · iexact Hs2
        isplitl [H0]; · iexact H0
        isplitl [H1]; · iexact H1
        isplitl [H2]; · iexact H2
        isplitl [Hdone]; · iexact Hdone
        isplitl [Hout]; · iexact Hout
        iexact HO
      ·
        ipureintro
        refine ⟨?_, ?_, ?_, ?_, ?_, ?_⟩
        · exact GatherFact_writes5 fi ft d L _ _ _ (gather_fact fi ft d L hin k 3 _ _)
        · exact GatherFact_writes6 fi ft d L _ _ _ (gather_fact fi ft d L hin k 4 _ _)
        · exact chunk_fact fi ft d L (k0_off8 L k) _ (5 * k.val) (off8_0 L k) (off8_1 L k) _ (GatherFact_writes2 fi ft d L _ _ _ (gather_fact fi ft d L hin k 0 _ _)) (fo d) _ (fun _ => rfl)
        · exact chunk_fact fi ft d L (k0_off10 L k) _ (5 * k.val + 1) (off10_0 L k) (off10_1 L k) _ (GatherFact_writes3 fi ft d L _ _ _ (gather_fact fi ft d L hin k 1 _ _)) (fo d) _ (fun _ => rfl)
        · exact chunk_fact fi ft d L (k0_off12 L k) _ (5 * k.val + 2) (off12_0 L k) (off12_1 L k) _ (GatherFact_writes4 fi ft d L _ _ _ (gather_fact fi ft d L hin k 2 _ _)) (fo d) _ (fun _ => rfl)
        · exact wf_ins _ (wf_ins _ (wf_ins _ (hW')))
  · unfold inv; rw [if_pos rfl]; unfold invX
    isplitl [Hmw2]; · iexact Hmw2
    isplitl [Hx']; · iexact Hx'
    isplitl [Ht0]; · iexact Ht0
    isplitl [Ht1]; · iexact Ht1
    isplitl [Ht2]; · iexact Ht2
    isplitl [Ht3]; · iexact Ht3
    isplitl [Ht4]; · iexact Ht4
    isplitl [H0']; · iexact H0'
    isplitl [H1']; · iexact H1'
    isplitl [H2']; · iexact H2'
    isplitl [H3']; · iexact H3'
    isplitl [H4']; · iexact H4'
    isplitl [Hg0]; · iexact Hg0
    isplitl [Hg1]; · iexact Hg1
    isplitl [Hg2]; · iexact Hg2
    isplitl [Hg3]; · iexact Hg3
    isplitl [Hg4]; · iexact Hg4
    isplitl [Hs0]; · iexact Hs0
    isplitl [Hs1]; · iexact Hs1
    isplitl [Hs2]; · iexact Hs2
    isplitl [Hs3]; · iexact Hs3
    isplitl [Hs4]; · iexact Hs4
    isplitl [Hout]; · iexact Hout
    iexists _; isplitr
    swap; · iexact HO
    ipureintro; intro p hp
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    exact .inl hp
  iintro %u HI
  obtain ⟨kl, hkl'⟩ : ∃ kl : Fin k0_t1_loop.trips, kl.val = 39 := ⟨⟨39, by decide⟩, rfl⟩
  have e40 : Scf.trips k0_t1_loop.lb k0_t1_loop.ub k0_t1_loop.st = kl.val + 1 := by rw [hkl']; decide
  have hlast : inv fi ft fo d L O W f0 f1 f2 f3 f4 (Scf.trips k0_t1_loop.lb k0_t1_loop.ub k0_t1_loop.st) u = Steady fi ft fo d L O W kl := by
    rw [e40]; exact inv_succ fi ft fo d L O W f0 f1 f2 f3 f4 kl u
  ihave HI := (Entails.of_eq hlast) $$ HI
  unfold Steady
  icases HI with ⟨%r0, %r1, %r2, %r3, %r4, %oc0, %oc1, %oc2, %W', %hf, Hmw, Hxd, Hxt, Ht0, Ht1, Ht2, Ht3, Ht4, Hg0, Hg1, Hg2, Hs3, Hs4, Fg3, Fg4, Fs0, Fs1, Fs2, H0, H1, H2, Hdone, Hout, HO⟩
  obtain ⟨hr3, hr4, hc0, hc1, hc2, hW'⟩ := hf
  -- the last two chunks, carved off the rows still to be written
  ihave Hc := (todo_carve (F := F) d L (fo d) (5 * kl.val + 3) (by omega)) $$ Hout
  icases Hc with ⟨Hc3, Hout⟩
  ihave Hc := (todo_carve (F := F) d L (fo d) (5 * kl.val + 4) (by omega)) $$ Hout
  icases Hc with ⟨Hc4, Hout⟩
  have e13a : (k0_off13 L 25344#32) 0 = base (cV L) (jV L) + 128 * (5 * kl.val + 3) := by
    have h := k0_off13_eq L ⟨0, by decide⟩
    simp only at h
    rw [h]; show 51200 * (L 1).val + 25600 * (L 0).val + 128 * 0 + 25344 = 25600 * (2 * (L 1).val + (L 0).val) + 128 * (5 * kl.val + 3); omega
  have e13b : (k0_off13 L 25472#32) 0 = base (cV L) (jV L) + 128 * (5 * kl.val + 4) := by
    have h := k0_off13_eq L ⟨1, by decide⟩
    simp only at h
    rw [h]; show 51200 * (L 1).val + 25600 * (L 0).val + 128 * 1 + 25344 = 25600 * (2 * (L 1).val + (L 0).val) + 128 * (5 * kl.val + 4); omega
  have h13a : (k0_off13 L 25344#32) 1 = 0 := by
    have h := k0_off13_eq L ⟨0, by decide⟩
    simp only at h
    rw [h]; rfl
  have h13b : (k0_off13 L 25472#32) 1 = 0 := by
    have h := k0_off13_eq L ⟨1, by decide⟩
    simp only at h
    rw [h]; rfl
  ihave Hc3 := (Entails.of_eq (pts_chunk (F := F) d L (k0_off13 L 25344#32) (k0_off13_inb L 0) _ e13a h13a (fo d)).symm) $$ Hc3
  ihave Hc4 := (Entails.of_eq (pts_chunk (F := F) d L (k0_off13 L 25472#32) (k0_off13_inb L 1) _ e13b h13b (fo d)).symm) $$ Hc4
  sl_exec
  sl_step
  -- the last five chunks join the written rows
  ihave Fs0_dst := (Entails.of_eq (pts_chunk (F := F) d L (k0_off8 L kl) (k0_off8_inb L kl (conds kl).2.2.2.2.2.1) _ (off8_0 L kl) (off8_1 L kl) oc0)) $$ Fs0_dst
  ihave Hdone := (done_join (F := F) d L (outG fi ft d) oc0 (5 * kl.val) hc0) $$ [Hdone Fs0_dst]
  · isplitl [Hdone] <;> iassumption
  ihave Fs1_dst := (Entails.of_eq (pts_chunk (F := F) d L (k0_off10 L kl) (k0_off10_inb L kl (conds kl).2.2.2.2.2.2.2.1) _ (off10_0 L kl) (off10_1 L kl) oc1)) $$ Fs1_dst
  ihave Hdone := (done_join (F := F) d L (outG fi ft d) oc1 (5 * kl.val + 1) hc1) $$ [Hdone Fs1_dst]
  · isplitl [Hdone] <;> iassumption
  ihave Fs2_dst := (Entails.of_eq (pts_chunk (F := F) d L (k0_off12 L kl) (k0_off12_inb L kl (conds kl).2.2.2.2.2.2.2.2.2) _ (off12_0 L kl) (off12_1 L kl) oc2)) $$ Fs2_dst
  ihave Hdone := (done_join (F := F) d L (outG fi ft d) oc2 (5 * kl.val + 2) hc2) $$ [Hdone Fs2_dst]
  · isplitl [Hdone] <;> iassumption
  ihave Hc3 := (Entails.of_eq (pts_chunk (F := F) d L (k0_off13 L 25344#32) (k0_off13_inb L 0) _ e13a h13a _)) $$ Hc3
  ihave Hdone := (done_join_any (F := F) fi ft d L (5 * kl.val + 3)) $$ [Hdone Hc3]
  · isplitl [Hdone]; · iexact Hdone
    iexists _; isplitr; swap; · iexact Hc3
    ipureintro
    exact chunk_fact fi ft d L (k0_off13 L 25344#32) (k0_off13_inb L 0) (5 * kl.val + 3) e13a h13a r3 hr3 (fo d) _ (fun _ => rfl)
  ihave Hc4 := (Entails.of_eq (pts_chunk (F := F) d L (k0_off13 L 25472#32) (k0_off13_inb L 1) _ e13b h13b _)) $$ Hc4
  ihave Hdone := (done_join_any (F := F) fi ft d L (5 * kl.val + 4)) $$ [Hdone Hc4]
  · isplitl [Hdone]; · iexact Hdone
    iexists _; isplitr; swap; · iexact Hc4
    ipureintro
    exact chunk_fact fi ft d L (k0_off13 L 25472#32) (k0_off13_inb L 1) (5 * kl.val + 4) e13b h13b r4 hr4 (fo d) _ (fun _ => rfl)
  -- the last two windows join the index list
  ihave Fg3_dst_and := (Entails.of_eq (pts_ixwin'' (F := F) d L kl 3 (5 * kl.val + 3) ((off3b kl 3 (by decide)).trans (by omega)) (ixc fi d L))) $$ Fg3_dst_and
  ihave Hxd := (ixdone_join (F := F) d L (ixc fi d L) (5 * kl.val + 3)) $$ [Hxd Fg3_dst_and]
  · isplitl [Hxd] <;> iassumption
  ihave Fg4_dst_and := (Entails.of_eq (pts_ixwin'' (F := F) d L kl 4 (5 * kl.val + 4) ((off3b kl 4 (by decide)).trans (by omega)) (ixc fi d L))) $$ Fg4_dst_and
  ihave Hxd := (ixdone_join (F := F) d L (ixc fi d L) (5 * kl.val + 4)) $$ [Hxd Fg4_dst_and]
  · isplitl [Hxd] <;> iassumption
  unfold tdRes
  rw [if_pos hj]
  isplitl [Hidx' Hdone Hshr Ht0 Ht1 Ht2 Ht3 Ht4 Htab' Hshrem]
  · isplitl [Hidx']; · iapply (Entails.of_eq (pts_idxK (F := F) d L _)); iexact Hidx'
    isplitl [Hdone]
    · iapply (Entails.of_eq (show (outLoc d ↦[doneSet L (5 * kl.val + 4 + 1)]{fullShare} outG fi ft d : sProp 𝕄)
          = outLoc d ↦[rowsSet (base (cV L) (jV L)) 25600]{fullShare} outG fi ft d by rw [hkl']))
      iexact Hdone
    isplitl [Hshr Ht0 Ht1 Ht2 Ht3 Ht4]
    · unfold shTok
      iapply (sh_toks (F := F) d L _).2
      isplitl [Hshr]; · iexact Hshr
      isplitl [Ht0]; · iexact Ht0
      isplitl [Ht1]; · iexact Ht1
      isplitl [Ht2]; · iexact Ht2
      isplitl [Ht3]; · iexact Ht3
      iexact Ht4
    isplitl [Htab']; · iapply (Entails.of_eq (pts_tab (F := F) d L _ _)); iexact Htab'
    iexact Hshrem
  isplitl [Hxd H0 H1 H2 Fg3_dst Fg4_dst Hbufs]
  · isplitl [Hxd H0 H1 H2 Fg3_dst Fg4_dst]
    · isplitl [Hxd]
      · iexists _
        iapply (Entails.of_eq (show (ixLoc d L ↦[ixDone (5 * kl.val + 4 + 1)]{fullShare} ixc fi d L : sProp 𝕄)
            = ((d, vb L 0) : Loc nD τ sig) ↦{fullShare} ixc fi d L by rw [hkl', show ixDone (5 * 39 + 4 + 1) = Finset.univ from ixSet_all]))
        iexact Hxd
      isplitl [H0]; · iexists _; iapply (Entails.of_eq (pts_r0 (F := F) d L _)); iexact H0
      isplitl [H1]; · iexists _; iapply (Entails.of_eq (pts_r1 (F := F) d L _)); iexact H1
      isplitl [H2]; · iexists _; iapply (Entails.of_eq (pts_r2 (F := F) d L _)); iexact H2
      isplitl [Fg3_dst]; · iexists _; iapply (Entails.of_eq (pts_r3 (F := F) d L _)); iexact Fg3_dst
      iexists _; iapply (Entails.of_eq (pts_r4 (F := F) d L _)); iexact Fg4_dst
    · iexact Hbufs
  isplitl [Hg0 Hg1 Hg2 Fg3 Fg4 Fs0 Fs1 Fs2 Hs3 Hs4 HsA HsB]
  ·
    isplitl [Hg0]; · iexact Hg0
    isplitl [Hg1]; · iexact Hg1
    isplitl [Hg2]; · iexact Hg2
    isplitl [Fg3]; · iexact Fg3
    isplitl [Fg4]; · iexact Fg4
    isplitl [Fs0]; · iexact Fs0
    isplitl [Fs1]; · iexact Fs1
    isplitl [Fs2]; · iexact Fs2
    isplitl [Hs3]; · iexact Hs3
    isplitl [Hs4]; · iexact Hs4
    isplitl [HsA]; · iexact HsA
    iexact HsB
  iexists _; isplitr
  swap; · iexact HO
  ipureintro
  exact wf_ins _ (wf_ins _ (wf_ins _ (wf_ins _ (wf_ins _ (wf_ins _ (wf_ins _ (hW')))))))

end Tile

end Cert.Proof.IdealSide

end
-- ==== Proof.IdealBody.lean ====
/-
  The task on any vector subcore of the lookup kernel: the statement the launch asks for, by cases on whether the
  subcore is subcore 0 (which also fills the shared copy of the table) or another.
-/
import proofs.«203224_g2765958938866_cont_9to1_225_22_alg».proof.Proof.IdealBodyOther
import proofs.«203224_g2765958938866_cont_9to1_225_22_alg».proof.Proof.IdealBodyZero

noncomputable section

namespace Cert.Proof.IdealSide

open Cert.KernelIdeal Cert.KernelIdeal.Gen
open Idealize.ShloMosaic

variable {F : FTy → Type}

/-- Every tile's task runs to its end and brings back its part of the result at the looked-up rows. -/
theorem tile_body [FloatOps F] (fi : (d : Dev nD) → Buf (Elt F) (idxLoc d)) (ft : (d : Dev nD) → Buf (Elt F) (tabLoc d)) (fo : (d : Dev nD) → Buf (Elt F) (outLoc d))
    (hin : ∀ d j, (fi d j).toNat < 64) : TileBody fi ft fo := by
  intro hF d L O W hO hOlev
  by_cases hj : (jV L).val = 0
  · exact tile_body_zero fi ft fo d L hin hj hF O W hO hOlev
  · exact tile_body_other fi ft fo d L hin hj hF O W hO hOlev

end Cert.Proof.IdealSide

end
-- ==== Proof.BitsRows.lean ====
/-
  The result array by rows, and subcore 0's hand-over at the barrier.

  A run of consecutive rows of the row-major result splits at any row into the rows before and the rows from
  there on, and ownership of the run splits and joins with it. The shared copy of the table, held whole by
  subcore 0 once it has copied the table in, splits into sixteen read shares, one per subcore of the SparseCore,
  and a remainder: the sixteen shares are exactly what subcore 0's sixteen arrivals at the barrier hand over.
-/
import proofs.«203224_g2765958938866_cont_9to1_225_22_alg».proof.Proof.BitsProto

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

/-! ## Runs of rows -/

/-- Rows lo … lo + a + b − 1 are rows lo … lo + a − 1 and rows lo + a … lo + a + b − 1. -/
theorem rowsSet_add (lo a b : ℕ) : rowsSet lo (a + b) = rowsSet lo a ∪ rowsSet (lo + a) b := by
  ext i
  simp only [rowsSet, Finset.mem_union, Finset.mem_filter, Finset.mem_univ, true_and]
  omega

/-- The two runs have no row in common. -/
theorem rowsSet_disjoint (lo a b : ℕ) : Disjoint (rowsSet lo a) (rowsSet (lo + a) b) := by
  rw [Finset.disjoint_left]
  intro i h1 h2
  simp only [rowsSet, Finset.mem_filter, Finset.mem_univ, true_and] at h1 h2
  omega

/-- Ownership of a run of rows of the result is ownership of its two parts. -/
theorem rows_split (d : Dev nD) (q : PosShare TreeShare) (f : Buf (Elt F) (outLoc d)) (lo a b : ℕ) :
    (outLoc d ↦[rowsSet lo (a + b)]{q} f : sProp 𝕄)
      ⊣⊢ iprop((outLoc d ↦[rowsSet lo a]{q} f) ∗ outLoc d ↦[rowsSet (lo + a) b]{q} f) := by
  rw [rowsSet_add]
  exact pointsTo_union (rowsSet_disjoint lo a b)

theorem rows_carve (d : Dev nD) (q : PosShare TreeShare) (f : Buf (Elt F) (outLoc d)) (lo a b : ℕ) :
    (outLoc d ↦[rowsSet lo (a + b)]{q} f : sProp 𝕄)
      ⊢ iprop((outLoc d ↦[rowsSet lo a]{q} f) ∗ outLoc d ↦[rowsSet (lo + a) b]{q} f) :=
  (rows_split d q f lo a b).1

theorem rows_join (d : Dev nD) (q : PosShare TreeShare) (f : Buf (Elt F) (outLoc d)) (lo a b : ℕ) :
    iprop((outLoc d ↦[rowsSet lo a]{q} f) ∗ outLoc d ↦[rowsSet (lo + a) b]{q} f)
      ⊢ (outLoc d ↦[rowsSet lo (a + b)]{q} f : sProp 𝕄) :=
  (rows_split d q f lo a b).2

/-- The same join when the second part is held at contents that agree with `f` on its rows. -/
theorem rows_join' (d : Dev nD) (q : PosShare TreeShare) (f g : Buf (Elt F) (outLoc d)) (lo a b : ℕ)
    (h : ∀ i ∈ rowsSet (lo + a) b, g i = f i) :
    iprop((outLoc d ↦[rowsSet lo a]{q} f) ∗ outLoc d ↦[rowsSet (lo + a) b]{q} g)
      ⊢ (outLoc d ↦[rowsSet lo (a + b)]{q} f : sProp 𝕄) := by
  rw [pointsTo_congr (ℓ := outLoc d) (q := q) h]
  exact rows_join d q f lo a b

/-! ## Subcore 0's hand-over -/

variable (ft : (d : Dev nD) → Buf (Elt F) (tabLoc d)) [FloatOps F]

/-- What subcore 0's duty in subcore j's round hands over is the j-th read share of the shared copy. -/
theorem payload_zero (d : Dev nD) (c : Fin τ.nSC) (j : Fin (grid0.bound 1)) :
    (bRd (F := F) ft).payload (bcell d c (j.castLE hsub0)) 0 0
      = (shLoc d c ↦{shareTokN fullShare j.val} shT ft d c : sProp 𝕄) := by
  show bPay ft (bcell d c (j.castLE hsub0)) 0 = _
  unfold bPay
  exact if_pos rfl

/-- The shared copy held whole is the sixteen read shares subcore 0 hands over at the barrier, and a remainder. -/
theorem pays_intro_zero (d : Dev nD) (c : Fin τ.nSC) :
    (shLoc d c ↦{fullShare} shT ft d c : sProp 𝕄)
      ⊢ iprop((bigSep Finset.univ fun j : Fin (grid0.bound 1) => (bRd (F := F) ft).payload (bcell d c (j.castLE hsub0)) 0 0)
          ∗ shLoc d c ↦{shareDrop fullShare 16} shT ft d c) := by
  have hb : (bigSep Finset.univ fun j : Fin (grid0.bound 1) => (bRd (F := F) ft).payload (bcell d c (j.castLE hsub0)) 0 0)
      = bigSep (Finset.range 16) fun i => (shLoc d c ↦{shareTokN fullShare i} shT ft d c : sProp 𝕄) := by
    rw [bigSep_congr (fun j _ => payload_zero ft d c j)]
    show bigSep (Finset.univ : Finset (Fin 16)) (fun j => (shLoc d c ↦{shareTokN fullShare j.val} shT ft d c : sProp 𝕄)) = _
    rw [← Nat.Iio_eq_range, ← Fin.map_valEmbedding_univ, bigSep_map]
    rfl
  rw [hb]
  exact (Transfers.pointsTo_toks_range fullShare 16).1.trans sep_comm.1

end Cert.Proof.BitsSide

end
-- ==== Proof.BitsTileDefs.lean ====
/-
  The tile's task of the lookup kernel: its resources and the state of its pipeline between trips.

  A tile works on 200 chunks of 128 rows. It copies its 25600 indices into its own memory; subcore 0 also copies
  the table into the SparseCore's shared memory; after the barrier every tile holds a read share of that copy.
  Then a ring of five row buffers: chunk g is gathered into buffer g mod 5 (rows of the shared copy named by the
  chunk's 128 indices), and two steps later, once that gather is waited for, the buffer is copied out to rows
  128 g … 128 g + 127 of the tile's part of the result; a buffer is gathered into again only after its copy-out
  has been waited for. Each buffer has its own gather semaphore and its own store semaphore, so at most one
  transfer is outstanding per semaphore, and no buffer is touched while a transfer on it is pending.
-/
import proofs.«203224_g2765958938866_cont_9to1_225_22_alg».proof.Proof.BitsProto
import proofs.«203224_g2765958938866_cont_9to1_225_22_alg».proof.Proof.BitsRows

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (fi : (d : Dev nD) → Buf (Elt F) (idxLoc d)) (ft : (d : Dev nD) → Buf (Elt F) (tabLoc d)) (fo : (d : Dev nD) → Buf (Elt F) (outLoc d))
variable [FloatOps F]

section Tile

variable (d : Dev nD) (L : grid0.Coords)

theorem reg_not_scoped : ∀ r : Sem sig, (SemLoc.reg r : SemLoc sig).isScoped .scVector = false := by decide
theorem dma_scoped : ∀ k : DmaSem sig, (SemLoc.dma k : SemLoc sig).isScoped .scVector = true := by decide

/-- The twelve DMA semaphores of the tile: its own cells, every one. -/
theorem ownCells_V : ownCells (sig := sig) (V d (cV L) (jV L))
    = (Finset.univ : Finset (DmaSem sig)).image fun k => ((V d (cV L) (jV L), SemLoc.dma k) : GSem nD τ sig) := by
  ext ⟨thr, sm⟩
  simp only [mem_ownCells, Finset.mem_image, Finset.mem_univ, true_and]
  constructor
  · rintro ⟨rfl, h⟩
    cases sm with
    | reg r =>
      have h' : (SemLoc.reg r : SemLoc sig).isScoped .scVector = true := h
      rw [reg_not_scoped] at h'; exact absurd h' (by decide)
    | dma k => exact ⟨k, rfl⟩
  · rintro ⟨k, hk⟩
    cases hk
    exact ⟨rfl, dma_scoped k⟩

abbrev dc (k : DmaSem sig) : GSem nD τ sig := (V d (cV L) (jV L), SemLoc.dma k)

theorem ownSems0_V : (ownSems0 (V d (cV L) (jV L)) : sProp 𝕄)
    = iprop(semVal (dc d L 0) 0 ∗ semVal (dc d L 1) 0 ∗ semVal (dc d L 2) 0 ∗ semVal (dc d L 3) 0 ∗ semVal (dc d L 4) 0 ∗ semVal (dc d L 5) 0
        ∗ semVal (dc d L 6) 0 ∗ semVal (dc d L 7) 0 ∗ semVal (dc d L 8) 0 ∗ semVal (dc d L 9) 0 ∗ semVal (dc d L 10) 0 ∗ semVal (dc d L 11) 0) := by
  unfold SparseCore.Cfg.ownSems0
  rw [ownCells_V, SparseCore.bigSep_image_of_injOn (fun a _ b _ e => SemLoc.dma.inj (Prod.mk.inj e).2)]
  rw [show (Finset.univ : Finset (DmaSem sig)) = {0, 1, 2, 3, 4, 5, 6, 7, 8, 9, 10, 11} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- The part of the flattened indices a slice of 25600 entries at offset `off` addresses. -/
theorem set_idx_slice (off : Fin 1 → Nat) (inb : ∀ a, off a + S25600.size a ≤ S819200.size a) :
    (((Memref.whole main_v0_scv : Memref sig .scVector .hbm S819200 .i32).slice (Rect.unit (s := S819200) off S25600.size inb) (fun _ => rfl)).view.set : Finset S819200.Idx)
      = flatSet (off 0) 25600 := by
  show ((View.whole (main_v0_scv : Ref sig .scVector)).slice _).set = _
  rw [View.set_slice_whole]
  ext i
  simp only [Rect.mem_set_unit, flatSet, Finset.mem_filter, Finset.mem_univ, true_and]
  constructor
  · intro h; exact h 0
  · intro h a; match a with | ⟨0, _⟩ => exact h

omit [FloatOps F] in
/-- The rows of the result a slice of 128 whole rows at row `off 0` addresses. -/
theorem set_out_slice (off : Fin 2 → Nat) (h1 : off 1 = 0) (inb : ∀ a, off a + S128x128.size a ≤ S819200x128.size a) :
    (((Memref.whole main_v1_scv : Memref sig .scVector .hbm S819200x128 .f32).slice (Rect.unit (s := S819200x128) off S128x128.size inb) (fun _ => rfl)).view.set : Finset S819200x128.Idx)
      = rowsSet (off 0) 128 := by
  show ((View.whole (main_v1_scv : Ref sig .scVector)).slice _).set = _
  rw [View.set_slice_whole]
  ext i
  simp only [Rect.mem_set_unit, rowsSet, Finset.mem_filter, Finset.mem_univ, true_and]
  constructor
  · intro h; exact h 0
  · intro h a
    match a with
    | ⟨0, _⟩ => exact h
    | ⟨1, hlt⟩ =>
      have e : off ⟨1, hlt⟩ = 0 := h1
      exact ⟨by rw [e]; exact Nat.zero_le _, by rw [e, Nat.zero_add]; exact (i ⟨1, hlt⟩).isLt⟩

/-- The tile's own scratch buffers: the index list (0) and the five row buffers (1–5). -/
abbrev vref (k : Fin 6) : Ref sig .scVector := ⟨.vmem, k, rfl⟩
abbrev vb (k : Fin 6) : DevRef τ sig := (Proc.scVector (cV L) (jV L)).devRef (vref k)

omit [FloatOps F] in
theorem vb_injective : Function.Injective (vb L) := fun a b e => by
  have := congrArg (fun r : DevRef τ sig => r.idx.val) e
  exact Fin.ext this

omit [FloatOps F] in
theorem ownBufs_V :
    (ownBufs (V d (cV L) (jV L)) : sProp 𝕄)
      = iprop((bigSep Finset.univ fun k : Fin 6 => iprop(∃ f, ((d, vb L k) : Loc nD τ sig) ↦{fullShare} f))
          ∗ bigSep (ownRefs (τ := τ) (.scVector (cV L) (jV L)) \ Finset.univ.image (vb L))
              fun b => iprop(∃ f, ((d, b) : Loc nD τ sig) ↦{fullShare} f)) := by
  unfold SparseCore.Cfg.ownBufs
  rw [SparseCore.bigSep_sdiff_split' (t := Finset.univ.image (vb L)) (fun b hb => by
      obtain ⟨k, -, rfl⟩ := Finset.mem_image.mp hb
      exact SparseCore.Cfg.mem_ownRefs_of_owner rfl),
    SparseCore.bigSep_image_of_injOn (fun a _ b _ e => vb_injective L e)]

/-! ## The tile's resources in the body's own spelling -/

theorem ownSems0_V' : (ownSems0 (V d (cV L) (jV L)) : sProp 𝕄)
    = iprop(semVal (V d (cV L) (jV L), SemLoc.dma cc0_scratch7.sem) 0 ∗ semVal (V d (cV L) (jV L), SemLoc.dma cc0_scratch8.sem) 0
        ∗ semVal (V d (cV L) (jV L), SemLoc.dma cc0_scratch9.sem) 0 ∗ semVal (V d (cV L) (jV L), SemLoc.dma cc0_scratch10.sem) 0
        ∗ semVal (V d (cV L) (jV L), SemLoc.dma cc0_scratch11.sem) 0 ∗ semVal (V d (cV L) (jV L), SemLoc.dma cc0_scratch12.sem) 0
        ∗ semVal (V d (cV L) (jV L), SemLoc.dma cc0_scratch13.sem) 0 ∗ semVal (V d (cV L) (jV L), SemLoc.dma cc0_scratch14.sem) 0
        ∗ semVal (V d (cV L) (jV L), SemLoc.dma cc0_scratch15.sem) 0 ∗ semVal (V d (cV L) (jV L), SemLoc.dma cc0_scratch16.sem) 0
        ∗ semVal (V d (cV L) (jV L), SemLoc.dma cc0_scoped0.sem) 0 ∗ semVal (V d (cV L) (jV L), SemLoc.dma cc0_scoped1.sem) 0) := by
  rw [ownSems0_V]; rfl

theorem pts_ix (f : Buf (Elt F) ((V d (cV L) (jV L)).loc cc0_scratch0)) :
    ((Memref.whole cc0_scratch0).view.loc (V d (cV L) (jV L)) ↦{fullShare} f : sProp 𝕄) = ((d, vb L 0) : Loc nD τ sig) ↦{fullShare} f := rfl
theorem pts_r0 (f : Buf (Elt F) ((V d (cV L) (jV L)).loc cc0_scratch2)) :
    ((Memref.whole cc0_scratch2).view.loc (V d (cV L) (jV L)) ↦{fullShare} f : sProp 𝕄) = ((d, vb L 1) : Loc nD τ sig) ↦{fullShare} f := rfl
theorem pts_r1 (f : Buf (Elt F) ((V d (cV L) (jV L)).loc cc0_scratch3)) :
    ((Memref.whole cc0_scratch3).view.loc (V d (cV L) (jV L)) ↦{fullShare} f : sProp 𝕄) = ((d, vb L 2) : Loc nD τ sig) ↦{fullShare} f := rfl
theorem pts_r2 (f : Buf (Elt F) ((V d (cV L) (jV L)).loc cc0_scratch4)) :
    ((Memref.whole cc0_scratch4).view.loc (V d (cV L) (jV L)) ↦{fullShare} f : sProp 𝕄) = ((d, vb L 3) : Loc nD τ sig) ↦{fullShare} f := rfl
theorem pts_r3 (f : Buf (Elt F) ((V d (cV L) (jV L)).loc cc0_scratch5)) :
    ((Memref.whole cc0_scratch5).view.loc (V d (cV L) (jV L)) ↦{fullShare} f : sProp 𝕄) = ((d, vb L 4) : Loc nD τ sig) ↦{fullShare} f := rfl
theorem pts_r4 (f : Buf (Elt F) ((V d (cV L) (jV L)).loc cc0_scratch6)) :
    ((Memref.whole cc0_scratch6).view.loc (V d (cV L) (jV L)) ↦{fullShare} f : sProp 𝕄) = ((d, vb L 5) : Loc nD τ sig) ↦{fullShare} f := rfl

/-- The tile's part of the flattened indices, as the body slices it. -/
abbrev idxK : Memref sig .scVector .hbm S25600 .i32 :=
  (Memref.whole main_v0_scv).slice (Rect.unit (s := S819200) (k0_off1 L) S25600.size (k0_off1_inb L)) (fun _ => rfl)

theorem base_eq : base (cV L) (jV L) = (k0_off1 L) 0 := by
  rw [k0_off1_eq]; show 25600 * (2 * (L 1).val + (L 0).val) = 51200 * (L 1).val + 25600 * (L 0).val; omega

theorem pts_idxK (f : Buf (Elt F) (idxLoc d)) :
    ((idxK L).view.loc (V d (cV L) (jV L)) ↦[(idxK L).view.set]{fullShare} f : sProp 𝕄) = idxLoc d ↦[flatSet (base (cV L) (jV L)) 25600]{fullShare} f := by
  rw [base_eq, ← set_idx_slice (k0_off1 L) (k0_off1_inb L)]

/-! ## The barrier's hand-overs -/

/-- A tile other than subcore 0 hands nothing over at the barrier. -/
theorem pays_intro_other (hj : (jV L).val ≠ 0) : (iprop(emp) : sProp 𝕄)
    ⊢ (bigSep Finset.univ fun j : Fin (grid0.bound 1) => (bRd (F := F) ft).payload (bcell d (cV L) (j.castLE hsub0)) 0 (jV L).val : sProp 𝕄) := by
  rw [show (bigSep Finset.univ fun j : Fin (grid0.bound 1) => (bRd (F := F) ft).payload (bcell d (cV L) (j.castLE hsub0)) 0 (jV L).val)
      = bigSep Finset.univ fun _ : Fin (grid0.bound 1) => (iprop(emp) : sProp 𝕄) from
      bigSep_congr fun j _ => if_neg hj, bigSep_emp']

/-- What a tile's own round collected holds its read share of the shared copy (subcore 0's duty). -/
theorem pays_elim : (bigSep ((bRd (F := F) ft).duties (bcell d (cV L) (jV L)) 0 \ ∅) fun n => (bRd (F := F) ft).payload (bcell d (cV L) (jV L)) 0 n)
    ⊢ (shTok ft d (cV L) (jV L).val : sProp 𝕄) := by
  rw [Finset.sdiff_empty, bRd_duties₀]
  refine (bigSep_elim (i := 0) (Finset.mem_image.mpr ⟨(⟨0, by decide⟩ : Fin τ.nSub), Finset.mem_univ _, rfl⟩)).trans ?_
  show bPay ft (bcell d (cV L) (jV L)) 0 ⊢ _
  unfold bPay; dsimp only
  rw [if_pos rfl]

/-- The test `s == 0` of the body, as a word of the subcore's number. -/
theorem when_s0 : ∀ x : Fin 16, Iff (Scalar.cmpi .ne (Scalar.extui (Scalar.cmpi .eq (BitVec.ofNat 32 x.val) (0#32 : BitVec 32)) : BitVec 32) (0#32 : BitVec 32) = 1#1) (x.val = 0) := by decide

/-! ## The loop -/

/-- The tile's read share of the shared copy. -/
abbrev Qj : PosShare TreeShare := shareTokN fullShare (jV L).val

theorem pts_sh (q : PosShare TreeShare) (f : Buf (Elt F) (shLoc d (cV L))) :
    ((Memref.whole cc0_scratch1).view.loc (V d (cV L) (jV L)) ↦{q} f : sProp 𝕄) = shLoc d (cV L) ↦{q} f := rfl

/-- The share split into one read token per gather semaphore (cells 0 to 4) and a remainder. -/
theorem sh_toks (f : Buf (Elt F) (shLoc d (cV L))) : (shLoc d (cV L) ↦{Qj L} f : sProp 𝕄)
    ⊣⊢ iprop((shLoc d (cV L) ↦{shareDrop (Qj L) 5} f) ∗ (shLoc d (cV L) ↦{shareTokN (Qj L) 0} f) ∗ (shLoc d (cV L) ↦{shareTokN (Qj L) 1} f)
        ∗ (shLoc d (cV L) ↦{shareTokN (Qj L) 2} f) ∗ (shLoc d (cV L) ↦{shareTokN (Qj L) 3} f) ∗ shLoc d (cV L) ↦{shareTokN (Qj L) 4} f) := by
  have h := Transfers.pointsTo_toks_range (ℓ := shLoc d (cV L)) (S := Finset.univ) (f := f) (nD := nD) (τ := τ) (sig := sig) (Ix := HIx 1) (Val := Elt F) (Name := ℕ) (U := UU) (Lvl := ℕ) (Qj L) 5
  rw [show Finset.range 5 = {0, 1, 2, 3, 4} by decide, SparseCore.bigSep_insert' (by decide), SparseCore.bigSep_insert' (by decide),
    SparseCore.bigSep_insert' (by decide), SparseCore.bigSep_insert' (by decide), bigSep_singleton] at h
  exact h

/-- The trip's tests: "a store of this slot is outstanding" and "the chunk two back exists" hold from the second trip on;
    for the third, fourth and fifth slot of a trip the chunk two back always exists. -/
theorem conds : ∀ k : Fin k0_t1_loop.trips,
    (Iff (k0_cond2 k = 1#1) (0 < k.val)) ∧ (Iff (k0_cond3 k = 1#1) (0 < k.val)) ∧ (Iff (k0_cond4 k = 1#1) (0 < k.val)) ∧ (Iff (k0_cond5 k = 1#1) (0 < k.val))
    ∧ (Iff (k0_cond6 k = 1#1) (0 < k.val)) ∧ (k0_cond7 k = 1#1) ∧ (Iff (k0_cond8 k = 1#1) (0 < k.val)) ∧ (k0_cond9 k = 1#1)
    ∧ (Iff (k0_cond10 k = 1#1) (0 < k.val)) ∧ (k0_cond11 k = 1#1) := by decide +kernel

/-- The index list as the tile holds it after its copy: its part of the flattened indices. -/
abbrev ixc : S25600.Idx → Elt F .i32 := (idxK L).view.read (Elt F) (fi d)

theorem ixc_lt (hin : ∀ d j, (fi d j).toNat < 64) (r : S25600.Idx) : (ixc fi d L r).toNat < 64 := by
  unfold ixc; rw [View.read_apply]; exact hin d _

/-- Before the first trip: every buffer, token and semaphore at rest, nothing of the result written. -/
def invX (O : CellTallies nD τ sig (HIx 1)) (W : Waits sig (HIx 1)) (f0 f1 f2 f3 f4 : S128x128.Idx → Elt F .f32) (_ : Nat) (_ : PUnit) : sProp 𝕄 :=
  iprop(Transfers.MayWaits (V d (cV L) (jV L)) (default : HIx 1) O
    ∗ ((Memref.whole cc0_scratch0).view.loc (V d (cV L) (jV L)) ↦{fullShare} ixc fi d L)
    ∗ ((Memref.whole cc0_scratch1).view.loc (V d (cV L) (jV L)) ↦{shareTokN (Qj L) 0} shT ft d (cV L))
    ∗ ((Memref.whole cc0_scratch1).view.loc (V d (cV L) (jV L)) ↦{shareTokN (Qj L) 1} shT ft d (cV L))
    ∗ ((Memref.whole cc0_scratch1).view.loc (V d (cV L) (jV L)) ↦{shareTokN (Qj L) 2} shT ft d (cV L))
    ∗ ((Memref.whole cc0_scratch1).view.loc (V d (cV L) (jV L)) ↦{shareTokN (Qj L) 3} shT ft d (cV L))
    ∗ ((Memref.whole cc0_scratch1).view.loc (V d (cV L) (jV L)) ↦{shareTokN (Qj L) 4} shT ft d (cV L))
    ∗ ((Memref.whole cc0_scratch2).view.loc (V d (cV L) (jV L)) ↦{fullShare} f0)
    ∗ ((Memref.whole cc0_scratch3).view.loc (V d (cV L) (jV L)) ↦{fullShare} f1)
    ∗ ((Memref.whole cc0_scratch4).view.loc (V d (cV L) (jV L)) ↦{fullShare} f2)
    ∗ ((Memref.whole cc0_scratch5).view.loc (V d (cV L) (jV L)) ↦{fullShare} f3)
    ∗ ((Memref.whole cc0_scratch6).view.loc (V d (cV L) (jV L)) ↦{fullShare} f4)
    ∗ semVal (V d (cV L) (jV L), SemLoc.dma cc0_scratch7.sem) 0 ∗ semVal (V d (cV L) (jV L), SemLoc.dma cc0_scratch8.sem) 0
    ∗ semVal (V d (cV L) (jV L), SemLoc.dma cc0_scratch9.sem) 0 ∗ semVal (V d (cV L) (jV L), SemLoc.dma cc0_scratch10.sem) 0
    ∗ semVal (V d (cV L) (jV L), SemLoc.dma cc0_scratch11.sem) 0 ∗ semVal (V d (cV L) (jV L), SemLoc.dma cc0_scratch12.sem) 0
    ∗ semVal (V d (cV L) (jV L), SemLoc.dma cc0_scratch13.sem) 0 ∗ semVal (V d (cV L) (jV L), SemLoc.dma cc0_scratch14.sem) 0
    ∗ semVal (V d (cV L) (jV L), SemLoc.dma cc0_scratch15.sem) 0 ∗ semVal (V d (cV L) (jV L), SemLoc.dma cc0_scratch16.sem) 0
    ∗ (outLoc d ↦[rowsSet (base (cV L) (jV L)) 25600]{fullShare} fo d)
    ∗ ∃ W', ⌜∀ p ∈ W', p ∈ W ∨ p.2 = none ∨ p.2 = some (0 : Fin 1)⌝ ∗ owes (V d (cV L) (jV L)) O W')

/-! ## The result's chunks -/

/-- A chunk of the result as the body slices it: 128 whole rows from row `R`. -/
theorem pts_chunk (off : Fin 2 → Nat) (inb : ∀ a, off a + S128x128.size a ≤ S819200x128.size a) (R : ℕ) (h0 : off 0 = R) (h1 : off 1 = 0)
    (f : Buf (Elt F) (outLoc d)) :
    ((((Memref.whole main_v1_scv : Memref sig .scVector .hbm S819200x128 .f32).slice (Rect.unit (s := S819200x128) off S128x128.size inb) (fun _ => rfl)).view).loc (V d (cV L) (jV L))
        ↦[((Memref.whole main_v1_scv : Memref sig .scVector .hbm S819200x128 .f32).slice (Rect.unit (s := S819200x128) off S128x128.size inb) (fun _ => rfl)).view.set]{fullShare} f : sProp 𝕄)
      = outLoc d ↦[rowsSet R 128]{fullShare} f := by
  rw [set_out_slice off h1 inb, h0]

/-- The rows still to be written: from chunk `c` of the tile's 200 on. -/
abbrev todoSet (c : ℕ) : Finset S819200x128.Idx := rowsSet (base (cV L) (jV L) + 128 * c) (128 * (200 - c))
/-- The rows written and back in hand: the tile's first `c` chunks. -/
abbrev doneSet (c : ℕ) : Finset S819200x128.Idx := rowsSet (base (cV L) (jV L)) (128 * c)
abbrev chunkSet (c : ℕ) : Finset S819200x128.Idx := rowsSet (base (cV L) (jV L) + 128 * c) 128

theorem todo_carve (f : Buf (Elt F) (outLoc d)) (c : ℕ) (hc : c < 200) :
    (outLoc d ↦[todoSet L c]{fullShare} f : sProp 𝕄) ⊢ iprop((outLoc d ↦[chunkSet L c]{fullShare} f) ∗ outLoc d ↦[todoSet L (c + 1)]{fullShare} f) := by
  have e1 : 128 * (200 - c) = 128 + 128 * (200 - (c + 1)) := by omega
  have e2 : base (cV L) (jV L) + 128 * c + 128 = base (cV L) (jV L) + 128 * (c + 1) := by omega
  unfold todoSet chunkSet
  rw [e1]
  refine (rows_carve d fullShare f _ 128 _).trans ?_
  rw [e2]

theorem done_join (f g : Buf (Elt F) (outLoc d)) (c : ℕ) (h : ∀ i ∈ chunkSet L c, g i = f i) :
    iprop((outLoc d ↦[doneSet L c]{fullShare} f) ∗ outLoc d ↦[chunkSet L c]{fullShare} g) ⊢ (outLoc d ↦[doneSet L (c + 1)]{fullShare} f : sProp 𝕄) := by
  have e1 : 128 * (c + 1) = 128 * c + 128 := by omega
  unfold doneSet chunkSet at *
  rw [e1]
  exact rows_join' d fullShare f g _ (128 * c) 128 h

theorem off8_0 (k : Fin k0_t1_loop.trips) : (k0_off8 L k) 0 = base (cV L) (jV L) + 128 * (5 * k.val) := by
  rw [k0_off8_eq]; show 51200 * (L 1).val + 25600 * (L 0).val + 640 * k.val = 25600 * (2 * (L 1).val + (L 0).val) + 128 * (5 * k.val); omega
theorem off10_0 (k : Fin k0_t1_loop.trips) : (k0_off10 L k) 0 = base (cV L) (jV L) + 128 * (5 * k.val + 1) := by
  rw [k0_off10_eq]; show 51200 * (L 1).val + 25600 * (L 0).val + 640 * k.val + 128 = 25600 * (2 * (L 1).val + (L 0).val) + 128 * (5 * k.val + 1); omega
theorem off12_0 (k : Fin k0_t1_loop.trips) : (k0_off12 L k) 0 = base (cV L) (jV L) + 128 * (5 * k.val + 2) := by
  rw [k0_off12_eq]; show 51200 * (L 1).val + 25600 * (L 0).val + 640 * k.val + 256 = 25600 * (2 * (L 1).val + (L 0).val) + 128 * (5 * k.val + 2); omega
theorem off8_1 (k : Fin k0_t1_loop.trips) : (k0_off8 L k) 1 = 0 := by rw [k0_off8_eq]; rfl
theorem off10_1 (k : Fin k0_t1_loop.trips) : (k0_off10 L k) 1 = 0 := by rw [k0_off10_eq]; rfl
theorem off12_1 (k : Fin k0_t1_loop.trips) : (k0_off12 L k) 1 = 0 := by rw [k0_off12_eq]; rfl

/-! ## The index list's windows -/

/-- Entries `lo ≤ r < lo + len` of the tile's index list. -/
def ixSet (lo len : ℕ) : Finset S25600.Idx := Finset.univ.filter fun i => lo ≤ (i 0).val ∧ (i 0).val < lo + len

omit [FloatOps F] in
theorem ixSet_add (lo a b : ℕ) : ixSet lo (a + b) = ixSet lo a ∪ ixSet (lo + a) b := by
  ext i
  simp only [ixSet, Finset.mem_union, Finset.mem_filter, Finset.mem_univ, true_and]
  omega
omit [FloatOps F] in
theorem ixSet_disjoint (lo a b : ℕ) : Disjoint (ixSet lo a) (ixSet (lo + a) b) := by
  rw [Finset.disjoint_left]
  intro i h1 h2
  simp only [ixSet, Finset.mem_filter, Finset.mem_univ, true_and] at h1 h2
  omega
omit [FloatOps F] in
theorem ixSet_zero (lo : ℕ) : ixSet lo 0 = ∅ := by
  ext i; simp only [ixSet, Finset.mem_filter, Finset.mem_univ, true_and, Finset.notMem_empty, iff_false]; omega
omit [FloatOps F] in
theorem ixSet_all : ixSet 0 25600 = Finset.univ := by
  ext i; simp only [ixSet, Finset.mem_filter, Finset.mem_univ, true_and, iff_true]; exact ⟨Nat.zero_le _, by have := (i 0).isLt; simpa using this⟩

/-- The index list in the tile's own memory. -/
abbrev ixLoc : Loc nD τ sig := (Memref.whole cc0_scratch0 : Memref sig .scVector .vmem S25600 .i32).view.loc (V d (cV L) (jV L))

theorem ix_split (q : PosShare TreeShare) (f : Buf (Elt F) (ixLoc d L)) (lo a b : ℕ) :
    (ixLoc d L ↦[ixSet lo (a + b)]{q} f : sProp 𝕄) ⊣⊢ iprop((ixLoc d L ↦[ixSet lo a]{q} f) ∗ ixLoc d L ↦[ixSet (lo + a) b]{q} f) := by
  rw [ixSet_add]
  exact pointsTo_union (ixSet_disjoint lo a b)

/-- The list's entries still to be gathered from: from window `c` of the tile's 200 on; those used and back in hand: the first `c` windows. -/
abbrev ixTodo (c : ℕ) : Finset S25600.Idx := ixSet (128 * c) (128 * (200 - c))
abbrev ixDone (c : ℕ) : Finset S25600.Idx := ixSet 0 (128 * c)
abbrev ixWinSet (c : ℕ) : Finset S25600.Idx := ixSet (128 * c) 128

theorem ixtodo_carve (f : Buf (Elt F) (ixLoc d L)) (c : ℕ) (hc : c < 200) :
    (ixLoc d L ↦[ixTodo c]{fullShare} f : sProp 𝕄) ⊢ iprop((ixLoc d L ↦[ixWinSet c]{fullShare} f) ∗ ixLoc d L ↦[ixTodo (c + 1)]{fullShare} f) := by
  have e1 : 128 * (200 - c) = 128 + 128 * (200 - (c + 1)) := by omega
  have e2 : 128 * c + 128 = 128 * (c + 1) := by omega
  unfold ixTodo ixWinSet
  rw [e1]
  refine (ix_split d L fullShare f _ 128 _).1.trans ?_
  rw [e2]

theorem ixdone_join (f : Buf (Elt F) (ixLoc d L)) (c : ℕ) :
    iprop((ixLoc d L ↦[ixDone c]{fullShare} f) ∗ ixLoc d L ↦[ixWinSet c]{fullShare} f) ⊢ (ixLoc d L ↦[ixDone (c + 1)]{fullShare} f : sProp 𝕄) := by
  have e1 : 128 * (c + 1) = 128 * c + 128 := by omega
  unfold ixDone ixWinSet
  rw [e1]
  have h := (ix_split d L fullShare f 0 (128 * c) 128).2
  rw [Nat.zero_add] at h
  exact h

omit [FloatOps F] in
/-- A window of the index list as the body slices it: 128 entries from entry `R`. -/
theorem set_ix_slice (off : Fin 1 → Nat) (inb : ∀ a, off a + S128.size a ≤ S25600.size a) :
    (((Memref.whole cc0_scratch0 : Memref sig .scVector .vmem S25600 .i32).slice (Rect.unit (s := S25600) off S128.size inb) (fun _ => rfl)).view.set : Finset S25600.Idx)
      = ixSet (off 0) 128 := by
  show ((View.whole (cc0_scratch0 : Ref sig .scVector)).slice _).set = _
  rw [View.set_slice_whole]
  ext i
  simp only [Rect.mem_set_unit, ixSet, Finset.mem_filter, Finset.mem_univ, true_and]
  constructor
  · intro h; exact h 0
  · intro h a; match a with | ⟨0, _⟩ => exact h

theorem off3_0 (k : Fin k0_t1_loop.trips) (r : Fin 5) : (k0_off3 k (BitVec.ofNat 32 r.val)) 0 = 128 * (5 * k.val + r.val) := by
  rw [k0_off3_eq]; show 640 * k.val + 128 * r.val = 128 * (5 * k.val + r.val); omega

/-! ## The state between trips

After trip `p` the gathers of chunks `5p+3` and `5p+4` (slots 3 and 4) are in flight, each with its window of the index
list and its read token of the shared copy lent; the stores of chunks `5p`, `5p+1`, `5p+2` (slots 0 to 2) are in flight,
each with its row buffer lent and its chunk of the result at the looked-up rows; the first `5p` chunks are written and
back in hand, the chunks from `5p+3` on still to be written. -/

/-- A row buffer holds chunk `c` of the tile's part of the result. -/
def GatherFact (c : ℕ) (g : S128x128.Idx → Elt F .f32) : Prop :=
  ∀ (y : S128x128.Idx) (i : S819200x128.Idx), (i 0).val = base (cV L) (jV L) + 128 * c + (y 0).val → (i 1).val = (y 1).val → g y = outG fi ft d i
/-- The result's contents agree with the lookup on chunk `c` of the tile's part. -/
def ChunkFact (c : ℕ) (oc : Buf (Elt F) (outLoc d)) : Prop := ∀ i ∈ chunkSet L c, oc i = outG fi ft d i

set_option quotPrecheck false
local notation "THR" => (V d (cV L) (jV L))
local notation "ixM" => (Memref.whole cc0_scratch0 : Memref sig .scVector .vmem S25600 .i32)
local notation "shM" => (Memref.whole cc0_scratch1 : Memref sig .scVector .shared S64x128 .f32)
local notation "oM" => (Memref.whole main_v1_scv : Memref sig .scVector .hbm S819200x128 .f32)
local notation "shSl" => ((Memref.whole cc0_scratch1 : Memref sig .scVector .shared S64x128 .f32).slice (Rect.unit (s := S64x128) ![0, 0] S64x128.size inb_S64x128_S64x128_0_0) (fun _ => rfl))

/-- A gather in flight on cell `sm`: the row buffer `rm` whole at the gathered rows `r`, the list's window `ws`, the read token `n`. -/
abbrev gFlight (sm : DmaSem sig) (rm : Memref sig .scVector .vmem S128x128 .f32) (r : Buf (Elt F) (rm.view.loc THR))
    (ws : Finset S25600.Idx) (n : ℕ) : sProp 𝕄 :=
  Transfers.Flight countersEmb THR (SemLoc.dma sm) (default : HIx 1) 524288
    iprop(((rm.view.loc THR ↦{fullShare} r) ∗ (ixM).view.loc THR ↦[ws]{fullShare} ixc fi d L)
      ∗ (shM).view.loc THR ↦[(shSl).view.set]{shareTokN (Qj L) n} ft d)

/-- A store in flight on cell `sm`: the chunk `om` of the result at contents `oc`, the row buffer `rm` at `r`. -/
abbrev sFlight (sm : DmaSem sig) (om : Memref sig .scVector .hbm S128x128 .f32) (oc : Buf (Elt F) (om.view.loc THR))
    (rm : Memref sig .scVector .vmem S128x128 .f32) (r : Buf (Elt F) (rm.view.loc THR)) : sProp 𝕄 :=
  Transfers.Flight countersEmb THR (SemLoc.dma sm) (default : HIx 1) 524288
    iprop((om.view.loc THR ↦[om.view.set]{fullShare} oc) ∗ rm.view.loc THR ↦[rm.view.set]{fullShare} r)

abbrev ixWin (p : Fin k0_t1_loop.trips) (r : Fin 5) : Memref sig .scVector .vmem S128 .i32 :=
  (ixM).slice (Rect.unit (s := S25600) (k0_off3 p (BitVec.ofNat 32 r.val)) S128.size (k0_off3_inb p r)) (fun _ => rfl)
abbrev outS8 (p : Fin k0_t1_loop.trips) : Memref sig .scVector .hbm S128x128 .f32 :=
  (oM).slice (Rect.unit (s := S819200x128) (k0_off8 L p) S128x128.size (k0_off8_inb L p (conds p).2.2.2.2.2.1)) (fun _ => rfl)
abbrev outS10 (p : Fin k0_t1_loop.trips) : Memref sig .scVector .hbm S128x128 .f32 :=
  (oM).slice (Rect.unit (s := S819200x128) (k0_off10 L p) S128x128.size (k0_off10_inb L p (conds p).2.2.2.2.2.2.2.1)) (fun _ => rfl)
abbrev outS12 (p : Fin k0_t1_loop.trips) : Memref sig .scVector .hbm S128x128 .f32 :=
  (oM).slice (Rect.unit (s := S819200x128) (k0_off12 L p) S128x128.size (k0_off12_inb L p (conds p).2.2.2.2.2.2.2.2.2)) (fun _ => rfl)

def Steady (O : CellTallies nD τ sig (HIx 1)) (W : Waits sig (HIx 1)) (p : Fin k0_t1_loop.trips) : sProp 𝕄 :=
  iprop(∃ (r0 r1 r2 r3 r4 : S128x128.Idx → Elt F .f32) (oc0 oc1 oc2 : Buf (Elt F) (outLoc d)) (W' : Waits sig (HIx 1)),
    ⌜GatherFact fi ft d L (5 * p.val + 3) r3 ∧ GatherFact fi ft d L (5 * p.val + 4) r4
      ∧ ChunkFact fi ft d L (5 * p.val) oc0 ∧ ChunkFact fi ft d L (5 * p.val + 1) oc1 ∧ ChunkFact fi ft d L (5 * p.val + 2) oc2
      ∧ ∀ q ∈ W', q ∈ W ∨ q.2 = none ∨ q.2 = some (0 : Fin 1)⌝
    ∗ Transfers.MayWaits THR (default : HIx 1) O
    ∗ ((ixM).view.loc THR ↦[ixDone (5 * p.val + 3)]{fullShare} ixc fi d L)
    ∗ ((ixM).view.loc THR ↦[ixTodo (5 * p.val + 5)]{fullShare} ixc fi d L)
    ∗ ((shM).view.loc THR ↦{shareTokN (Qj L) 0} ft d) ∗ ((shM).view.loc THR ↦{shareTokN (Qj L) 1} ft d) ∗ ((shM).view.loc THR ↦{shareTokN (Qj L) 2} ft d)
    ∗ ((shM).view.loc THR ↦[Finset.univ \ (shSl).view.set]{shareTokN (Qj L) 3} ft d) ∗ ((shM).view.loc THR ↦[Finset.univ \ (shSl).view.set]{shareTokN (Qj L) 4} ft d)
    ∗ semVal (THR, SemLoc.dma cc0_scratch7.sem) 0 ∗ semVal (THR, SemLoc.dma cc0_scratch8.sem) 0 ∗ semVal (THR, SemLoc.dma cc0_scratch9.sem) 0
    ∗ semVal (THR, SemLoc.dma cc0_scratch15.sem) 0 ∗ semVal (THR, SemLoc.dma cc0_scratch16.sem) 0
    ∗ gFlight fi ft d L cc0_scratch10.sem (Memref.whole cc0_scratch5) r3 (ixWin p 3).view.set 3
    ∗ gFlight fi ft d L cc0_scratch11.sem (Memref.whole cc0_scratch6) r4 (ixWin p 4).view.set 4
    ∗ sFlight (F := F) d L cc0_scratch12.sem (outS8 L p) oc0 (Memref.whole cc0_scratch2) r0
    ∗ sFlight (F := F) d L cc0_scratch13.sem (outS10 L p) oc1 (Memref.whole cc0_scratch3) r1
    ∗ sFlight (F := F) d L cc0_scratch14.sem (outS12 L p) oc2 (Memref.whole cc0_scratch4) r2
    ∗ ((Memref.whole cc0_scratch2).view.loc THR ↦[Finset.univ \ (Memref.whole cc0_scratch2).view.set]{fullShare} r0)
    ∗ ((Memref.whole cc0_scratch3).view.loc THR ↦[Finset.univ \ (Memref.whole cc0_scratch3).view.set]{fullShare} r1)
    ∗ ((Memref.whole cc0_scratch4).view.loc THR ↦[Finset.univ \ (Memref.whole cc0_scratch4).view.set]{fullShare} r2)
    ∗ (outLoc d ↦[doneSet L (5 * p.val)]{fullShare} outG fi ft d)
    ∗ (outLoc d ↦[todoSet L (5 * p.val + 3)]{fullShare} fo d)
    ∗ owes THR O W')

/-- The loop's invariant: before the first trip everything at rest; before a later trip the state the trip before left. -/
def inv (O : CellTallies nD τ sig (HIx 1)) (W : Waits sig (HIx 1)) (f0 f1 f2 f3 f4 : S128x128.Idx → Elt F .f32) (n : Nat) (u : PUnit) : sProp 𝕄 :=
  if n = 0 then invX fi ft fo d L O W f0 f1 f2 f3 f4 n u
  else if h1 : n - 1 < k0_t1_loop.trips then Steady fi ft fo d L O W ⟨n - 1, h1⟩ else iprop(emp)

theorem inv_succ (O W f0 f1 f2 f3 f4) (k : Fin k0_t1_loop.trips) (u : PUnit) :
    inv fi ft fo d L O W f0 f1 f2 f3 f4 (k.val + 1) u = Steady fi ft fo d L O W k := by
  unfold inv
  rw [if_neg (Nat.succ_ne_zero _), dif_pos (show k.val + 1 - 1 < k0_t1_loop.trips by rw [Nat.add_sub_cancel]; exact k.isLt)]
  congr 1

theorem set_whole5 : (Memref.whole cc0_scratch5 : Memref sig .scVector .vmem S128x128 .f32).view.set = Finset.univ := View.set_whole _
theorem set_whole6 : (Memref.whole cc0_scratch6 : Memref sig .scVector .vmem S128x128 .f32).view.set = Finset.univ := View.set_whole _

end Tile

end Cert.Proof.BitsSide

end
-- ==== Proof.BitsGatherValue.lean ====
/-
  What a gather leaves in a row buffer: the rows of the shared copy that the chunk's indices name are the chunk of the
  lookup's result. The window of the index list the gather reads is 128 consecutive entries of the tile's part of the
  flattened indices; entry (k, c) of the payload is entry (w, c) of the table, w the k-th word of the window as a number.
-/
import proofs.«203224_g2765958938866_cont_9to1_225_22_alg».proof.Proof.BitsTileDefs

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (fi : (d : Dev nD) → Buf (Elt F) (idxLoc d)) (ft : (d : Dev nD) → Buf (Elt F) (tabLoc d)) (fo : (d : Dev nD) → Buf (Elt F) (outLoc d))
variable [FloatOps F]

section Tile

variable (d : Dev nD) (L : grid0.Coords)

set_option quotPrecheck false
local notation "shSl" => ((Memref.whole cc0_scratch1 : Memref sig .scVector .shared S64x128 .f32).slice (Rect.unit (s := S64x128) ![0, 0] S64x128.size inb_S64x128_S64x128_0_0) (fun _ => rfl))

/-- The word of a window of the index list: the flattened indices' entry at the tile's first row, the window's place
    in the tile's part, and the place in the window. The payload of the gather from the shared copy (the table's
    contents), with the window's words as rows, is the chunk of the lookup the window stands for. -/
theorem gather_fact (hin : ∀ d j, (fi d j).toNat < 64) (p : Fin k0_t1_loop.trips) (b : Fin 5)
    (hn : S128.numel = S128x128.size (gathers_S64x128_S128x128).axis')
    (h : ∀ x, ((ixWin p b).view.read (Elt F) (ixc fi d L) x).toNat < S64x128.size (gathers_S64x128_S128x128).axis) :
    GatherFact fi ft d L (5 * p.val + b.val)
      (SparseCore.gatherPayload gathers_S64x128_S128x128 ((shSl).view.read (Elt F) (ft d)) (SparseCore.rows ((ixWin p b).view.read (Elt F) (ixc fi d L)) hn h)) := by
  intro y i hi0 hi1
  -- the place in the window that the payload's row names
  have hx : ((S128.rowMajor.symm ((y (gathers_S64x128_S128x128).axis').cast hn.symm)) 0).val = (y 0).val := by
    have h1 := Shape.rowMajor_val_one (S128.rowMajor.symm ((y (gathers_S64x128_S128x128).axis').cast hn.symm))
    rw [Equiv.apply_symm_apply] at h1
    exact h1.symm
  -- the window's word there is the flattened indices' entry for the result's row
  have hw : (ixWin p b).view.read (Elt F) (ixc fi d L) (S128.rowMajor.symm ((y (gathers_S64x128_S128x128).axis').cast hn.symm)) = fi d (ValueIdx.ix1 (i 0)) := by
    show fi d _ = fi d _
    refine congrArg (fi d) (funext ?_)
    refine Fin.forall_fin_one.mpr (Fin.ext ?_)
    show (k0_off1 L) 0 + 1 * ((k0_off3 p (BitVec.ofNat 32 b.val)) 0 + 1 * ((S128.rowMajor.symm ((y (gathers_S64x128_S128x128).axis').cast hn.symm)) 0).val) = (i 0).val
    rw [hx, ← base_eq, k0_off3_eq, hi0]
    show base (cV L) (jV L) + 1 * (640 * p.val + 128 * b.val + 1 * (y 0).val) = _
    omega
  unfold SparseCore.gatherPayload
  rw [View.read_apply]
  show ft d _ = Cert.Lookup.Gflat (fi d) (ft d) i
  unfold Cert.Lookup.Gflat
  refine congrArg (ft d) (funext ?_)
  refine Fin.forall_fin_two.mpr ⟨Fin.ext ?_, Fin.ext ?_⟩
  · -- the row: the window's word, below 64
    show (![0, 0] : Fin 2 → ℕ) 0 + 1 * ((gathers_S64x128_S128x128).idx (SparseCore.rows ((ixWin p b).view.read (Elt F) (ixc fi d L)) hn h) y (gathers_S64x128_S128x128).axis).val
      = (Cert.Lookup.rowOf (fi d (ValueIdx.ix1 (i 0)))).val
    rw [Shape.Gathers.idx_axis, Cert.Lookup.rowOf_val_of_lt (hin d _)]
    show 0 + 1 * ((ixWin p b).view.read (Elt F) (ixc fi d L) (S128.rowMajor.symm ((y (gathers_S64x128_S128x128).axis').cast hn.symm))).toNat = _
    rw [hw]; omega
  · -- the column: the payload's own
    show (![0, 0] : Fin 2 → ℕ) 1 + 1 * ((gathers_S64x128_S128x128).idx (SparseCore.rows ((ixWin p b).view.read (Elt F) (ixc fi d L)) hn h) y 1).val = (i 1).val
    rw [Shape.Gathers.idx_of_ne _ _ _ _ (by decide), hi1]
    show 0 + 1 * (y 1).val = (y 1).val
    omega

/-! ## A row buffer written whole -/

omit [FloatOps F] in
/-- A buffer written whole through its own rectangle holds the payload. -/
theorem writes_whole_apply {κ : Kind} (r : Ref sig κ) (f : r.ty.Contents (Elt F)) (g : (Rect.whole r.ty.shape).shape.Idx → Elt F r.ty.elt)
    (y : (Rect.whole r.ty.shape).shape.Idx) :
    (View.whole r).writes (Elt F) f [⟨Rect.whole r.ty.shape, g⟩] y = g y := by
  have h := View.read_writes_cons_emb (View.whole r) f (Rect.whole r.ty.shape) g [] y
  rw [View.read_whole, Rect.emb_whole_apply] at h
  exact h

/-- The contents of a row buffer after a gather's payload is written over it whole are the payload: what the payload
    holds of the lookup, the buffer holds. One statement per row buffer of the ring. -/
theorem GatherFact_writes2 (c : ℕ) (f g : S128x128.Idx → Elt F .f32) (hg : GatherFact fi ft d L c g) :
    GatherFact fi ft d L c ((Memref.whole cc0_scratch2).view.writes (Elt F) f [⟨Rect.whole cc0_scratch2.ty.shape, g⟩]) :=
  fun y i h0 h1 => (writes_whole_apply cc0_scratch2 f g y).trans (hg y i h0 h1)
theorem GatherFact_writes3 (c : ℕ) (f g : S128x128.Idx → Elt F .f32) (hg : GatherFact fi ft d L c g) :
    GatherFact fi ft d L c ((Memref.whole cc0_scratch3).view.writes (Elt F) f [⟨Rect.whole cc0_scratch3.ty.shape, g⟩]) :=
  fun y i h0 h1 => (writes_whole_apply cc0_scratch3 f g y).trans (hg y i h0 h1)
theorem GatherFact_writes4 (c : ℕ) (f g : S128x128.Idx → Elt F .f32) (hg : GatherFact fi ft d L c g) :
    GatherFact fi ft d L c ((Memref.whole cc0_scratch4).view.writes (Elt F) f [⟨Rect.whole cc0_scratch4.ty.shape, g⟩]) :=
  fun y i h0 h1 => (writes_whole_apply cc0_scratch4 f g y).trans (hg y i h0 h1)
theorem GatherFact_writes5 (c : ℕ) (f g : S128x128.Idx → Elt F .f32) (hg : GatherFact fi ft d L c g) :
    GatherFact fi ft d L c ((Memref.whole cc0_scratch5).view.writes (Elt F) f [⟨Rect.whole cc0_scratch5.ty.shape, g⟩]) :=
  fun y i h0 h1 => (writes_whole_apply cc0_scratch5 f g y).trans (hg y i h0 h1)
theorem GatherFact_writes6 (c : ℕ) (f g : S128x128.Idx → Elt F .f32) (hg : GatherFact fi ft d L c g) :
    GatherFact fi ft d L c ((Memref.whole cc0_scratch6).view.writes (Elt F) f [⟨Rect.whole cc0_scratch6.ty.shape, g⟩]) :=
  fun y i h0 h1 => (writes_whole_apply cc0_scratch6 f g y).trans (hg y i h0 h1)

end Tile

end Cert.Proof.BitsSide

end
-- ==== Proof.BitsStoreValue.lean ====
/-
  What a store leaves in a chunk of the result.

  A chunk of the result is 128 whole rows; the body addresses it as a slice of the result array, and a copy-out
  writes its payload through the whole of that slice. A row i of the chunk is the slice's own index y placed in
  the array: row (first row of the chunk) + y 0, column y 1. There the write leaves the payload's entry at y.
  So when the payload is a row buffer that holds the chunk's looked-up rows, the array agrees with the lookup
  on the chunk after the write, whatever it held before.
-/
import proofs.«203224_g2765958938866_cont_9to1_225_22_alg».proof.Proof.BitsTileDefs

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (fi : (d : Dev nD) → Buf (Elt F) (idxLoc d)) (ft : (d : Dev nD) → Buf (Elt F) (tabLoc d)) (fo : (d : Dev nD) → Buf (Elt F) (outLoc d))
variable [FloatOps F]

section Tile

variable (d : Dev nD) (L : grid0.Coords)

set_option quotPrecheck false
local notation "oM" => (Memref.whole main_v1_scv : Memref sig .scVector .hbm S819200x128 .f32)

/-- After the copy-out of a row buffer that holds chunk `c`'s looked-up rows, the result agrees with the lookup on
    chunk `c`: a row of the chunk is the slice's index `y` placed at row `off 0 + y 0`, column `y 1`, where the write
    through the whole slice leaves the payload's entry at `y`. -/
theorem chunk_fact (off : Fin 2 → Nat) (inb : ∀ a, off a + S128x128.size a ≤ S819200x128.size a) (c : ℕ)
    (h0 : off 0 = base (cV L) (jV L) + 128 * c) (h1 : off 1 = 0)
    (r : S128x128.Idx → Elt F .f32) (hr : GatherFact fi ft d L c r) (f : Buf (Elt F) (outLoc d))
    (P : (Rect.whole (Rect.unit (s := S819200x128) off S128x128.size inb).shape).shape.Idx → Elt F .f32) (hP : ∀ y, P y = r y) :
    ChunkFact fi ft d L c (((oM).slice (Rect.unit (s := S819200x128) off S128x128.size inb) (fun _ => rfl)).view.writes (Elt F) f [⟨Rect.whole _, P⟩]) := by
  intro i hi
  -- the row is one of the slice's: i is the slice's index y placed in the result
  have hi' : i ∈ (((oM).slice (Rect.unit (s := S819200x128) off S128x128.size inb) (fun _ => rfl)).view.set : Finset S819200x128.Idx) := by
    rw [set_out_slice off h1 inb, h0]; exact hi
  obtain ⟨y, -, rfl⟩ := Finset.mem_map.mp hi'
  -- there the write left its payload
  have hw := View.read_writes_cons_emb ((oM).slice (Rect.unit (s := S819200x128) off S128x128.size inb) (fun _ => rfl)).view f
    (Rect.whole _) P [] y
  rw [Rect.emb_whole_apply, View.read_apply, cast_eq] at hw
  rw [hw, hP]
  -- and the payload's entry at y is the lookup at row off 0 + y 0, column y 1
  refine hr y _ ?_ ?_
  · show off 0 + 1 * (y 0).val = base (cV L) (jV L) + 128 * c + (y 0).val
    omega
  · show off 1 + 1 * (y 1).val = (y 1).val
    omega

omit [FloatOps F] in
/-- A transfer that moves its source as it is, out of a whole buffer at contents `rr`, moves `rr`. -/
theorem same_read_whole (b : Ref sig .scVector) (rr : b.ty.Contents (Elt F)) :
    (ReadAs.same : ReadAs (Elt F) _ _ _ _).apply ((Memref.whole b).view.read (Elt F) rr) = rr := rfl

omit [FloatOps F] in
/-- The same at an index. -/
theorem same_read_whole_apply (b : Ref sig .scVector) (rr : b.ty.Contents (Elt F)) (y : b.ty.shape.Idx) :
    (ReadAs.same : ReadAs (Elt F) _ _ _ _).apply ((Memref.whole b).view.read (Elt F) rr) y = rr y := rfl

end Tile

end Cert.Proof.BitsSide

end
-- ==== Proof.BitsTripLemmas.lean ====
/-
  One trip of the tile's pipeline: the arithmetic of its chunks and windows and the ownership lemmas it uses.

  Trip k (k = 0 … 39) gathers chunks 5k … 5k+4 into the five row buffers and stores chunks 5k−2 … 5k+2; the
  store of chunk c writes rows base + 128 c … base + 128 c + 127 of the result, the gather of chunk c reads
  entries 128 c … 128 c + 127 of the tile's index list. A chunk whose store has been waited for joins the
  rows already written, a window whose gather has been waited for joins the entries back in hand; subcore 0's
  shared memory, once the table is copied in, holds the table.
-/
import proofs.«203224_g2765958938866_cont_9to1_225_22_alg».proof.Proof.BitsTileDefs
import proofs.«203224_g2765958938866_cont_9to1_225_22_alg».proof.Proof.BitsGatherValue
import proofs.«203224_g2765958938866_cont_9to1_225_22_alg».proof.Proof.BitsStoreValue

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (fi : (d : Dev nD) → Buf (Elt F) (idxLoc d)) (ft : (d : Dev nD) → Buf (Elt F) (tabLoc d)) (fo : (d : Dev nD) → Buf (Elt F) (outLoc d))
variable [FloatOps F]

section Tile

variable (d : Dev nD) (L : grid0.Coords)

set_option quotPrecheck false
local notation "THR" => (V d (cV L) (jV L))
local notation "ixM" => (Memref.whole cc0_scratch0 : Memref sig .scVector .vmem S25600 .i32)
local notation "shM" => (Memref.whole cc0_scratch1 : Memref sig .scVector .shared S64x128 .f32)
local notation "oM" => (Memref.whole main_v1_scv : Memref sig .scVector .hbm S819200x128 .f32)
local notation "shSl" => ((Memref.whole cc0_scratch1 : Memref sig .scVector .shared S64x128 .f32).slice (Rect.unit (s := S64x128) ![0, 0] S64x128.size inb_S64x128_S64x128_0_0) (fun _ => rfl))

theorem rowsSet_zero (lo : ℕ) : rowsSet lo 0 = ∅ := by
  ext i; simp only [rowsSet, Finset.mem_filter, Finset.mem_univ, true_and, Finset.notMem_empty, iff_false]; omega

/-- The chunks two back of the first two slots of a trip: from the second trip on. -/
theorem off4_eq : ∀ (i : grid0.Coords) (k : Fin k0_t1_loop.trips), 0 < k.val → k0_off4 i k = ![51200 * (i 1).val + 25600 * (i 0).val + 640 * k.val - 256, 0] := by decide +kernel
theorem off6_eq : ∀ (i : grid0.Coords) (k : Fin k0_t1_loop.trips), 0 < k.val → k0_off6 i k = ![51200 * (i 1).val + 25600 * (i 0).val + 640 * k.val - 128, 0] := by decide +kernel

theorem inv_of_succ (O W f0 f1 f2 f3 f4) (k kp : Fin k0_t1_loop.trips) (h : kp.val + 1 = k.val) (u : PUnit) :
    inv fi ft fo d L O W f0 f1 f2 f3 f4 k.val u = Steady fi ft fo d L O W kp := by
  rw [← h]; exact inv_succ fi ft fo d L O W f0 f1 f2 f3 f4 kp u

theorem inv_succ' (O W f0 f1 f2 f3 f4) (k : Fin k0_t1_loop.trips) :
    inv fi ft fo d L O W f0 f1 f2 f3 f4 (k.val + 1) = fun _ => Steady fi ft fo d L O W k :=
  funext fun u => inv_succ fi ft fo d L O W f0 f1 f2 f3 f4 k u

/-- A window of the index list as the body slices it, held by exactly its own entries. -/
theorem pts_ixwin (off : Fin 1 → Nat) (inb : ∀ a, off a + S128.size a ≤ S25600.size a) (c : ℕ) (h0 : off 0 = 128 * c) (f : Buf (Elt F) (ixLoc d L)) :
    ((((Memref.whole cc0_scratch0 : Memref sig .scVector .vmem S25600 .i32).slice (Rect.unit (s := S25600) off S128.size inb) (fun _ => rfl)).view).loc (V d (cV L) (jV L))
        ↦[((Memref.whole cc0_scratch0 : Memref sig .scVector .vmem S25600 .i32).slice (Rect.unit (s := S25600) off S128.size inb) (fun _ => rfl)).view.set]{fullShare} f : sProp 𝕄)
      = ixLoc d L ↦[ixWinSet c]{fullShare} f := by
  rw [set_ix_slice off inb, h0]

theorem ix_whole (f : Buf (Elt F) (ixLoc d L)) : (ixLoc d L ↦{fullShare} f : sProp 𝕄) = ixLoc d L ↦[ixTodo 0]{fullShare} f := by
  rw [show ixTodo 0 = Finset.univ from ixSet_all]

theorem off3b (k : Fin k0_t1_loop.trips) (b : ℕ) (hb : b < 5) : (k0_off3 k (BitVec.ofNat 32 b)) 0 = 128 * (5 * k.val + b) := by
  have h := k0_off3_eq k ⟨b, hb⟩
  simp only at h
  rw [h]; show 640 * k.val + 128 * b = _; omega

theorem wf_ins {W W' : Waits sig (HIx 1)} (sm : SemLoc sig) (h : ∀ q ∈ W', q ∈ W ∨ q.2 = none ∨ q.2 = some (0 : Fin 1)) :
    ∀ q ∈ insert (sm, (default : HIx 1)) W', q ∈ W ∨ q.2 = none ∨ q.2 = some (0 : Fin 1) := by
  intro q hq
  rcases Finset.mem_insert.mp hq with rfl | hq
  · exact .inr (.inl rfl)
  · exact h q hq

theorem ixdone_nil (f : Buf (Elt F) (ixLoc d L)) (c : ℕ) (hc : c = 0) : (iprop(emp) : sProp 𝕄) ⊢ ixLoc d L ↦[ixDone c]{fullShare} f := by
  subst hc
  rw [show ixDone 0 = ∅ from ixSet_zero 0, pointsTo_empty]

theorem done_nil (f : Buf (Elt F) (outLoc d)) (c : ℕ) (hc : c = 0) : (iprop(emp) : sProp 𝕄) ⊢ outLoc d ↦[doneSet L c]{fullShare} f := by
  subst hc
  rw [show doneSet L 0 = ∅ from rowsSet_zero _, pointsTo_empty]

/-- A chunk at contents that agree with the lookup on it joins the written rows. -/
theorem done_join_any (c : ℕ) :
    iprop((outLoc d ↦[doneSet L c]{fullShare} outG fi ft d) ∗ ∃ g, ⌜ChunkFact fi ft d L c g⌝ ∗ outLoc d ↦[chunkSet L c]{fullShare} g)
      ⊢ (outLoc d ↦[doneSet L (c + 1)]{fullShare} outG fi ft d : sProp 𝕄) := by
  iintro ⟨H1, %g, %hg, H2⟩
  iapply (done_join (F := F) d L (outG fi ft d) g c hg)
  isplitl [H1] <;> iassumption

/-- A window of the index list handed back by a gather's wait: the same entries, named at the whole list. -/
theorem pts_ixwin' (off : Fin 1 → Nat) (inb : ∀ a, off a + S128.size a ≤ S25600.size a) (c : ℕ) (h0 : off 0 = 128 * c) (f : Buf (Elt F) (ixLoc d L)) :
    (ixLoc d L ↦[((Memref.whole cc0_scratch0 : Memref sig .scVector .vmem S25600 .i32).slice (Rect.unit (s := S25600) off S128.size inb) (fun _ => rfl)).view.set]{fullShare} f : sProp 𝕄)
      = ixLoc d L ↦[ixWinSet c]{fullShare} f := by
  rw [set_ix_slice off inb, h0]

/-- A window handed back by the wait of a gather issued in an earlier trip, as the invariant names it. -/
theorem pts_ixwin'' (p : Fin k0_t1_loop.trips) (r : Fin 5) (c : ℕ) (h0 : (k0_off3 p (BitVec.ofNat 32 r.val)) 0 = 128 * c) (f : Buf (Elt F) (ixLoc d L)) :
    ((Memref.whole cc0_scratch0 : Memref sig .scVector .vmem S25600 .i32).view.loc (V d (cV L) (jV L)) ↦[(ixWin p r).view.set]{fullShare} f : sProp 𝕄)
      = ixLoc d L ↦[ixWinSet c]{fullShare} f := by
  rw [set_ix_slice _ (k0_off3_inb p r), h0]

theorem pts_tab (q : PosShare TreeShare) (f : Buf (Elt F) (tabLoc d)) :
    ((Memref.whole main_arg1_scv).view.loc (V d (cV L) (jV L)) ↦{q} f : sProp 𝕄) = tabLoc d ↦{q} f := rfl

/-- The shared memory after the table's copy holds the table. -/
theorem sh_norm : iprop(∃ g : Buf (Elt F) (shLoc d (cV L)), ⌜∀ i, g i = ft d i⌝ ∗ (Memref.whole cc0_scratch1).view.loc (V d (cV L) (jV L)) ↦{fullShare} g)
    ⊢ (shLoc d (cV L) ↦{fullShare} shT ft d (cV L) : sProp 𝕄) := by
  iintro ⟨%g, %hg, H⟩
  have e : g = shT ft d (cV L) := funext hg
  subst e
  iexact H

end Tile

end Cert.Proof.BitsSide

end
-- ==== Proof.BitsBodyOther.lean ====
/-
  The task on a vector subcore other than subcore 0: the whole body, from what the launch hands it to what it
  brings back.

  It copies its 25600 indices in, hands nothing over at the barrier and receives its read share of the shared
  copy of the table there. Before the first trip everything is at rest; a trip starts from the state the trip
  before left (two gathers and three stores in flight), waits each slot's store before gathering into the slot
  again and each gather before storing its slot, and leaves the same state five chunks further on; after the
  fortieth trip the last two chunks are stored and all five stores waited for, so that every chunk of the
  tile's part of the result holds the looked-up rows and every buffer, share and semaphore is back.
-/
import proofs.«203224_g2765958938866_cont_9to1_225_22_alg».proof.Proof.BitsTripLemmas

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (fi : (d : Dev nD) → Buf (Elt F) (idxLoc d)) (ft : (d : Dev nD) → Buf (Elt F) (tabLoc d)) (fo : (d : Dev nD) → Buf (Elt F) (outLoc d))
variable [FloatOps F]

section Tile

variable (d : Dev nD) (L : grid0.Coords)

set_option quotPrecheck false
local notation "THR" => (V d (cV L) (jV L))
local notation "ixM" => (Memref.whole cc0_scratch0 : Memref sig .scVector .vmem S25600 .i32)
local notation "shM" => (Memref.whole cc0_scratch1 : Memref sig .scVector .shared S64x128 .f32)
local notation "oM" => (Memref.whole main_v1_scv : Memref sig .scVector .hbm S819200x128 .f32)
local notation "shSl" => ((Memref.whole cc0_scratch1 : Memref sig .scVector .shared S64x128 .f32).slice (Rect.unit (s := S64x128) ![0, 0] S64x128.size inb_S64x128_S64x128_0_0) (fun _ => rfl))

set_option maxHeartbeats 4000000 in
theorem tile_body_other (hin : ∀ d j, (fi d j).toNat < 64) (hj : (jV L).val ≠ 0) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit ft d (cV L) (jV L) ∗ goRes fi ft fo d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_body L (Memref.whole main_v0_scv) (Memref.isWhole_whole _) (Memref.whole main_arg1_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _)
            cc0_scratch7 cc0_scratch8 cc0_scratch9 cc0_scratch10 cc0_scratch11 cc0_scratch12 cc0_scratch13 cc0_scratch14 cc0_scratch15 cc0_scratch16 cc0_scoped0 cc0_scoped1)
          fun _ => iprop(tdRes fi ft d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__emb_body_eq_skeleton]; unfold cc0__emb_body_skel
  rw [(K (F := F)).scopedBufs_V hF d (cV L) (jV L), SparseCore.Cfg.scopedSems0_V (Val := Elt F) d (cV L) (jV L), ownSems0_V', ownBufs_V]
  rw [show (Finset.univ : Finset (Fin 6)) = {0, 1, 2, 3, 4, 5} by decide,
    SparseCore.bigSep_insert' (by decide), SparseCore.bigSep_insert' (by decide), SparseCore.bigSep_insert' (by decide), SparseCore.bigSep_insert' (by decide),
    SparseCore.bigSep_insert' (by decide), bigSep_singleton]
  unfold bkit goRes
  rw [if_neg hj]
  iintro ⟨#Hlv, ⟨⟨%κ, #Hinv⟩, Htoks, #Hrch, Hat, Hcred⟩, ⟨Hidx, Hout, -⟩, ⟨⟨⟨%fx, Hx⟩, ⟨%f0, H0⟩, ⟨%f1, H1⟩, ⟨%f2, H2⟩, ⟨%f3, H3⟩, ⟨%f4, H4⟩⟩, Hbufs⟩,
    ⟨Hg0, Hg1, Hg2, Hg3, Hg4, Hs0, Hs1, Hs2, Hs3, Hs4, HsA, HsB⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hidx' := (Entails.of_eq (pts_idxK (F := F) d L _).symm) $$ Hidx
  ihave Hx' := (Entails.of_eq (pts_ix (F := F) d L _).symm) $$ Hx
  ihave H0' := (Entails.of_eq (pts_r0 (F := F) d L _).symm) $$ H0
  ihave H1' := (Entails.of_eq (pts_r1 (F := F) d L _).symm) $$ H1
  ihave H2' := (Entails.of_eq (pts_r2 (F := F) d L _).symm) $$ H2
  ihave H3' := (Entails.of_eq (pts_r3 (F := F) d L _).symm) $$ H3
  ihave H4' := (Entails.of_eq (pts_r4 (F := F) d L _).symm) $$ H4
  sl_exec
  have hv5 : ¬ tile_body_other.sl.v5 L = 1#1 := fun h => hj ((when_s0 (L 1)).mp h)
  sl_exec
  -- the barrier: nothing handed over, the tile's read share of the shared copy received
  ihave Hpays := (pays_intro_other (F := F) ft d L hj) $$ []
  · iempintro
  iapply (SparseCore.wp_subcoreBarrier 𝒱₀ none EB (bRd (F := F) ft) d (sc := cV L) (i := jV L) sc_bar0 (grid0.bound 1) hsub0 (L 1) rfl κ (fun _ => 0) (jV L).val
      (fun j => bRd_mem₀ ft d _ _ _) (fun _ => rfl) (bRd_expect ft d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hsh := (pays_elim (F := F) ft d L) $$ Hgot
  unfold shTok at ⊢
  ihave Hsh' := (sh_toks (F := F) d L _).1 $$ Hsh
  icases Hsh' with ⟨Hshr, Ht0, Ht1, Ht2, Ht3, Ht4⟩
  rw [View.write_whole_univ]
  have hdm : tile_body_other.sl.dma0 fi d L = ixc fi d L := rfl
  rw [hdm]
  have hall : ∀ (off : Fin 1 → Nat) (inb : ∀ a, off a + S128.size a ≤ S25600.size a) (j : S128.Idx),
      ((((Memref.whole cc0_scratch0 : Memref sig .scVector .vmem S25600 .i32).slice (Rect.unit (s := S25600) off S128.size inb) (fun _ => rfl)).view.read (Elt F) (ixc fi d L) j : Elt F .i32) : BitVec 32).toNat < 64 := by
    intro off inb j; rw [View.read_apply]; exact ixc_lt fi d L hin _
  sl_exec
  sl_for (inv fi ft fo d L O W f0 f1 f2 f3 f4) $$ [Hmw2 Hx' Ht0 Ht1 Ht2 Ht3 Ht4 H0' H1' H2' H3' H4' Hg0 Hg1 Hg2 Hg3 Hg4 Hs0 Hs1 Hs2 Hs3 Hs4 Hout HO]
  case region =>
    intro k u
    rw [inv_succ']
    obtain ⟨c2, c3, c4, c5, c6, c7, c8, c9, c10, c11⟩ := conds k
    by_cases hk : 0 < k.val
    ·
      obtain ⟨kp, hkp⟩ : ∃ kp : Fin k0_t1_loop.trips, kp.val + 1 = k.val := ⟨⟨k.val - 1, lt_of_le_of_lt (Nat.sub_le _ _) k.isLt⟩, Nat.sub_add_cancel hk⟩
      have hk40 : k.val < 40 := lt_of_lt_of_le k.isLt k0_t1_abs.2.1
      rw [inv_of_succ fi ft fo d L O W f0 f1 f2 f3 f4 k kp hkp]
      unfold Steady
      iintro ⟨%r0, %r1, %r2, %r3, %r4, %oc0, %oc1, %oc2, %W', %hf, Hmw, Hxd, Hxt, Ht0, Ht1, Ht2, Ht3, Ht4, Hg0, Hg1, Hg2, Hs3, Hs4, Fg3, Fg4, Fs0, Fs1, Fs2, H0, H1, H2, Hdone, Hout, HO⟩
      obtain ⟨hr3, hr4, hc0, hc1, hc2, hW'⟩ := hf
      have p2 : k0_cond2 k = 1#1 := c2.mpr hk
      have p3 : k0_cond3 k = 1#1 := c3.mpr hk
      have p4 : k0_cond4 k = 1#1 := c4.mpr hk
      have p5 : k0_cond5 k = 1#1 := c5.mpr hk
      have p6 : k0_cond6 k = 1#1 := c6.mpr hk
      have p8 : k0_cond8 k = 1#1 := c8.mpr hk
      have p10 : k0_cond10 k = 1#1 := c10.mpr hk
      -- the five chunks this trip stores, carved off the rows still to be written
      ihave Hc := (todo_carve (F := F) d L (fo d) (5 * kp.val + 3) (by omega)) $$ Hout
      icases Hc with ⟨Hc3, Hout⟩
      ihave Hc := (todo_carve (F := F) d L (fo d) (5 * kp.val + 4) (by omega)) $$ Hout
      icases Hc with ⟨Hc4, Hout⟩
      ihave Hc := (todo_carve (F := F) d L (fo d) (5 * kp.val + 5) (by omega)) $$ Hout
      icases Hc with ⟨Hc5, Hout⟩
      ihave Hc := (todo_carve (F := F) d L (fo d) (5 * kp.val + 6) (by omega)) $$ Hout
      icases Hc with ⟨Hc6, Hout⟩
      ihave Hc := (todo_carve (F := F) d L (fo d) (5 * kp.val + 7) (by omega)) $$ Hout
      icases Hc with ⟨Hc7, Hout⟩
      have e4 : (k0_off4 L k) 0 = base (cV L) (jV L) + 128 * (5 * kp.val + 3) := by
        rw [off4_eq L k hk]; show 51200 * (L 1).val + 25600 * (L 0).val + 640 * k.val - 256 = 25600 * (2 * (L 1).val + (L 0).val) + 128 * (5 * kp.val + 3); omega
      have e6 : (k0_off6 L k) 0 = base (cV L) (jV L) + 128 * (5 * kp.val + 4) := by
        rw [off6_eq L k hk]; show 51200 * (L 1).val + 25600 * (L 0).val + 640 * k.val - 128 = 25600 * (2 * (L 1).val + (L 0).val) + 128 * (5 * kp.val + 4); omega
      have e8 : (k0_off8 L k) 0 = base (cV L) (jV L) + 128 * (5 * kp.val + 5) := (off8_0 L k).trans (by omega)
      have e10 : (k0_off10 L k) 0 = base (cV L) (jV L) + 128 * (5 * kp.val + 6) := (off10_0 L k).trans (by omega)
      have e12 : (k0_off12 L k) 0 = base (cV L) (jV L) + 128 * (5 * kp.val + 7) := (off12_0 L k).trans (by omega)
      ihave Hc3 := (Entails.of_eq (pts_chunk (F := F) d L (k0_off4 L k) (k0_off4_inb L k p3) _ e4 (by rw [off4_eq L k hk]; rfl) (fo d)).symm) $$ Hc3
      ihave Hc4 := (Entails.of_eq (pts_chunk (F := F) d L (k0_off6 L k) (k0_off6_inb L k p5) _ e6 (by rw [off6_eq L k hk]; rfl) (fo d)).symm) $$ Hc4
      ihave Hc5 := (Entails.of_eq (pts_chunk (F := F) d L (k0_off8 L k) (k0_off8_inb L k c7) _ e8 (off8_1 L k) (fo d)).symm) $$ Hc5
      ihave Hc6 := (Entails.of_eq (pts_chunk (F := F) d L (k0_off10 L k) (k0_off10_inb L k c9) _ e10 (off10_1 L k) (fo d)).symm) $$ Hc6
      ihave Hc7 := (Entails.of_eq (pts_chunk (F := F) d L (k0_off12 L k) (k0_off12_inb L k c11) _ e12 (off12_1 L k) (fo d)).symm) $$ Hc7
      -- the five windows of the index list this trip gathers from
      ihave Hc := (ixtodo_carve (F := F) d L (ixc fi d L) (5 * kp.val + 5) (by omega)) $$ Hxt
      icases Hc with ⟨Hw0, Hxt⟩
      ihave Hc := (ixtodo_carve (F := F) d L (ixc fi d L) (5 * kp.val + 6) (by omega)) $$ Hxt
      icases Hc with ⟨Hw1, Hxt⟩
      ihave Hc := (ixtodo_carve (F := F) d L (ixc fi d L) (5 * kp.val + 7) (by omega)) $$ Hxt
      icases Hc with ⟨Hw2, Hxt⟩
      ihave Hc := (ixtodo_carve (F := F) d L (ixc fi d L) (5 * kp.val + 8) (by omega)) $$ Hxt
      icases Hc with ⟨Hw3, Hxt⟩
      ihave Hc := (ixtodo_carve (F := F) d L (ixc fi d L) (5 * kp.val + 9) (by omega)) $$ Hxt
      icases Hc with ⟨Hw4, Hxt⟩
      ihave Hw0 := (Entails.of_eq (pts_ixwin (F := F) d L (k0_off3 k 0#32) (k0_off3_inb k 0) (5 * kp.val + 5) ((off3b k 0 (by decide)).trans (by omega)) (ixc fi d L)).symm) $$ Hw0
      ihave Hw1 := (Entails.of_eq (pts_ixwin (F := F) d L (k0_off3 k 1#32) (k0_off3_inb k 1) (5 * kp.val + 6) ((off3b k 1 (by decide)).trans (by omega)) (ixc fi d L)).symm) $$ Hw1
      ihave Hw2 := (Entails.of_eq (pts_ixwin (F := F) d L (k0_off3 k 2#32) (k0_off3_inb k 2) (5 * kp.val + 7) ((off3b k 2 (by decide)).trans (by omega)) (ixc fi d L)).symm) $$ Hw2
      ihave Hw3 := (Entails.of_eq (pts_ixwin (F := F) d L (k0_off3 k 3#32) (k0_off3_inb k 3) (5 * kp.val + 8) ((off3b k 3 (by decide)).trans (by omega)) (ixc fi d L)).symm) $$ Hw3
      ihave Hw4 := (Entails.of_eq (pts_ixwin (F := F) d L (k0_off3 k 4#32) (k0_off3_inb k 4) (5 * kp.val + 9) ((off3b k 4 (by decide)).trans (by omega)) (ixc fi d L)).symm) $$ Hw4
      sl_exec
      sl_step
      -- the chunks whose stores were waited for join the written rows
      ihave Fs0_dst := (Entails.of_eq (pts_chunk (F := F) d L (k0_off8 L kp) (k0_off8_inb L kp (conds kp).2.2.2.2.2.1) _ (off8_0 L kp) (off8_1 L kp) oc0)) $$ Fs0_dst
      ihave Hdone := (done_join (F := F) d L (outG fi ft d) oc0 (5 * kp.val) hc0) $$ [Hdone Fs0_dst]
      · isplitl [Hdone] <;> iassumption
      ihave Fs1_dst := (Entails.of_eq (pts_chunk (F := F) d L (k0_off10 L kp) (k0_off10_inb L kp (conds kp).2.2.2.2.2.2.2.1) _ (off10_0 L kp) (off10_1 L kp) oc1)) $$ Fs1_dst
      ihave Hdone := (done_join (F := F) d L (outG fi ft d) oc1 (5 * kp.val + 1) hc1) $$ [Hdone Fs1_dst]
      · isplitl [Hdone] <;> iassumption
      ihave Fs2_dst := (Entails.of_eq (pts_chunk (F := F) d L (k0_off12 L kp) (k0_off12_inb L kp (conds kp).2.2.2.2.2.2.2.2.2) _ (off12_0 L kp) (off12_1 L kp) oc2)) $$ Fs2_dst
      ihave Hdone := (done_join (F := F) d L (outG fi ft d) oc2 (5 * kp.val + 2) hc2) $$ [Hdone Fs2_dst]
      · isplitl [Hdone] <;> iassumption
      have h41 : (k0_off4 L k) 1 = 0 := by rw [off4_eq L k hk]; rfl
      have h61 : (k0_off6 L k) 1 = 0 := by rw [off6_eq L k hk]; rfl
      ihave Hc3 := (Entails.of_eq (pts_chunk (F := F) d L (k0_off4 L k) (k0_off4_inb L k p3) _ e4 h41 _)) $$ Hc3
      ihave Hdone := (done_join_any (F := F) fi ft d L (5 * kp.val + 3)) $$ [Hdone Hc3]
      · isplitl [Hdone]; · iexact Hdone
        iexists _; isplitr; swap; · iexact Hc3
        ipureintro
        exact chunk_fact fi ft d L (k0_off4 L k) (k0_off4_inb L k p3) (5 * kp.val + 3) e4 h41 r3 hr3 (fo d) _ (fun _ => rfl)
      ihave Hc4 := (Entails.of_eq (pts_chunk (F := F) d L (k0_off6 L k) (k0_off6_inb L k p5) _ e6 h61 _)) $$ Hc4
      ihave Hdone := (done_join_any (F := F) fi ft d L (5 * kp.val + 4)) $$ [Hdone Hc4]
      · isplitl [Hdone]; · iexact Hdone
        iexists _; isplitr; swap; · iexact Hc4
        ipureintro
        exact chunk_fact fi ft d L (k0_off6 L k) (k0_off6_inb L k p5) (5 * kp.val + 4) e6 h61 r4 hr4 (fo d) _ (fun _ => rfl)
      -- the windows whose gathers were waited for join the entries back in hand
      ihave Fg3_dst_and := (Entails.of_eq (pts_ixwin'' (F := F) d L kp 3 (5 * kp.val + 3) ((off3b kp 3 (by decide)).trans (by omega)) (ixc fi d L))) $$ Fg3_dst_and
      ihave Hxd := (ixdone_join (F := F) d L (ixc fi d L) (5 * kp.val + 3)) $$ [Hxd Fg3_dst_and]
      · isplitl [Hxd] <;> iassumption
      ihave Fg4_dst_and := (Entails.of_eq (pts_ixwin'' (F := F) d L kp 4 (5 * kp.val + 4) ((off3b kp 4 (by decide)).trans (by omega)) (ixc fi d L))) $$ Fg4_dst_and
      ihave Hxd := (ixdone_join (F := F) d L (ixc fi d L) (5 * kp.val + 4)) $$ [Hxd Fg4_dst_and]
      · isplitl [Hxd] <;> iassumption
      ihave Hw0 := (Entails.of_eq (pts_ixwin (F := F) d L (k0_off3 k 0#32) (k0_off3_inb k 0) (5 * kp.val + 5) ((off3b k 0 (by decide)).trans (by omega)) (ixc fi d L))) $$ Hw0
      ihave Hxd := (ixdone_join (F := F) d L (ixc fi d L) (5 * kp.val + 5)) $$ [Hxd Hw0]
      · isplitl [Hxd] <;> iassumption
      ihave Hw1 := (Entails.of_eq (pts_ixwin (F := F) d L (k0_off3 k 1#32) (k0_off3_inb k 1) (5 * kp.val + 6) ((off3b k 1 (by decide)).trans (by omega)) (ixc fi d L))) $$ Hw1
      ihave Hxd := (ixdone_join (F := F) d L (ixc fi d L) (5 * kp.val + 6)) $$ [Hxd Hw1]
      · isplitl [Hxd] <;> iassumption
      ihave Hw2 := (Entails.of_eq (pts_ixwin (F := F) d L (k0_off3 k 2#32) (k0_off3_inb k 2) (5 * kp.val + 7) ((off3b k 2 (by decide)).trans (by omega)) (ixc fi d L))) $$ Hw2
      ihave Hxd := (ixdone_join (F := F) d L (ixc fi d L) (5 * kp.val + 7)) $$ [Hxd Hw2]
      · isplitl [Hxd] <;> iassumption
      have q1 : 5 * kp.val + 4 + 1 = 5 * k.val := by omega
      have q2 : 5 * kp.val + 7 + 1 = 5 * k.val + 3 := by omega
      have q3 : 5 * kp.val + 9 + 1 = 5 * k.val + 5 := by omega
      rw [q1, q2, q3]
      unfold gFlight sFlight
      iexists _, _, _, _, _, _, _, _, _
      isplitr; swap
      ·
        isplitl [Hmw]; · iexact Hmw
        isplitl [Hxd]; · iexact Hxd
        isplitl [Hxt]; · iexact Hxt
        isplitl [Ht0]; · iexact Ht0
        isplitl [Ht1]; · iexact Ht1
        isplitl [Ht2]; · iexact Ht2
        isplitl [Ht3]; · iexact Ht3
        isplitl [Ht4]; · iexact Ht4
        isplitl [Hg0]; · iexact Hg0
        isplitl [Hg1]; · iexact Hg1
        isplitl [Hg2]; · iexact Hg2
        isplitl [Hs3]; · iexact Hs3
        isplitl [Hs4]; · iexact Hs4
        isplitl [Fg3]; · iexact Fg3
        isplitl [Fg4]; · iexact Fg4
        isplitl [Fs0]; · iexact Fs0
        isplitl [Fs1]; · iexact Fs1
        isplitl [Fs2]; · iexact Fs2
        isplitl [H0]; · iexact H0
        isplitl [H1]; · iexact H1
        isplitl [H2]; · iexact H2
        isplitl [Hdone]; · iexact Hdone
        isplitl [Hout]; · iexact Hout
        iexact HO
      ·
        ipureintro
        refine ⟨?_, ?_, ?_, ?_, ?_, ?_⟩
        · exact GatherFact_writes5 fi ft d L _ _ _ (gather_fact fi ft d L hin k 3 _ _)
        · exact GatherFact_writes6 fi ft d L _ _ _ (gather_fact fi ft d L hin k 4 _ _)
        · exact chunk_fact fi ft d L (k0_off8 L k) _ (5 * k.val) (off8_0 L k) (off8_1 L k) _ (GatherFact_writes2 fi ft d L _ _ _ (gather_fact fi ft d L hin k 0 _ _)) (fo d) _ (fun _ => rfl)
        · exact chunk_fact fi ft d L (k0_off10 L k) _ (5 * k.val + 1) (off10_0 L k) (off10_1 L k) _ (GatherFact_writes3 fi ft d L _ _ _ (gather_fact fi ft d L hin k 1 _ _)) (fo d) _ (fun _ => rfl)
        · exact chunk_fact fi ft d L (k0_off12 L k) _ (5 * k.val + 2) (off12_0 L k) (off12_1 L k) _ (GatherFact_writes4 fi ft d L _ _ _ (gather_fact fi ft d L hin k 2 _ _)) (fo d) _ (fun _ => rfl)
        · exact wf_ins _ (wf_ins _ (wf_ins _ (wf_ins _ (wf_ins _ (wf_ins _ (wf_ins _ (wf_ins _ (wf_ins _ (wf_ins _ (hW'))))))))))
    ·
      have n2 : ¬ k0_cond2 k = 1#1 := fun h => hk (c2.mp h)
      have n3 : ¬ k0_cond3 k = 1#1 := fun h => hk (c3.mp h)
      have n4 : ¬ k0_cond4 k = 1#1 := fun h => hk (c4.mp h)
      have n5 : ¬ k0_cond5 k = 1#1 := fun h => hk (c5.mp h)
      have n6 : ¬ k0_cond6 k = 1#1 := fun h => hk (c6.mp h)
      have n8 : ¬ k0_cond8 k = 1#1 := fun h => hk (c8.mp h)
      have n10 : ¬ k0_cond10 k = 1#1 := fun h => hk (c10.mp h)
      have hk0 : k.val = 0 := by omega
      unfold inv; rw [if_pos hk0]; unfold invX
      iintro ⟨Hmw, Hx, Ht0, Ht1, Ht2, Ht3, Ht4, H0, H1, H2, H3, H4, Hg0, Hg1, Hg2, Hg3, Hg4, Hs0, Hs1, Hs2, Hs3, Hs4, Hout, %W', %hW', HO⟩
      ihave Hout := (Entails.of_eq (show (outLoc d ↦[rowsSet (base (cV L) (jV L)) 25600]{fullShare} fo d : sProp 𝕄) = outLoc d ↦[todoSet L (5 * k.val)]{fullShare} fo d by
        rw [hk0]; rfl)) $$ Hout
      ihave Hc := (todo_carve (F := F) d L (fo d) (5 * k.val + 0) (by omega)) $$ Hout
      icases Hc with ⟨Hc0, Hout⟩
      ihave Hc := (todo_carve (F := F) d L (fo d) (5 * k.val + 1) (by omega)) $$ Hout
      icases Hc with ⟨Hc1, Hout⟩
      ihave Hc := (todo_carve (F := F) d L (fo d) (5 * k.val + 2) (by omega)) $$ Hout
      icases Hc with ⟨Hc2, Hout⟩
      ihave Hc0 := (Entails.of_eq (pts_chunk (F := F) d L (k0_off8 L k) (k0_off8_inb L k c7) _ (off8_0 L k) (off8_1 L k) (fo d)).symm) $$ Hc0
      ihave Hc1 := (Entails.of_eq (pts_chunk (F := F) d L (k0_off10 L k) (k0_off10_inb L k c9) _ (off10_0 L k) (off10_1 L k) (fo d)).symm) $$ Hc1
      ihave Hc2 := (Entails.of_eq (pts_chunk (F := F) d L (k0_off12 L k) (k0_off12_inb L k c11) _ (off12_0 L k) (off12_1 L k) (fo d)).symm) $$ Hc2
      ihave Hxt := (Entails.of_eq (ix_whole (F := F) d L _)) $$ Hx
      ihave Hxt := (Entails.of_eq (show (ixLoc d L ↦[ixTodo 0]{fullShare} ixc fi d L : sProp 𝕄) = ixLoc d L ↦[ixTodo (5 * k.val)]{fullShare} ixc fi d L by rw [hk0])) $$ Hxt
      ihave Hc := (ixtodo_carve (F := F) d L (ixc fi d L) (5 * k.val + 0) (by omega)) $$ Hxt
      icases Hc with ⟨Hw0, Hxt⟩
      ihave Hc := (ixtodo_carve (F := F) d L (ixc fi d L) (5 * k.val + 1) (by omega)) $$ Hxt
      icases Hc with ⟨Hw1, Hxt⟩
      ihave Hc := (ixtodo_carve (F := F) d L (ixc fi d L) (5 * k.val + 2) (by omega)) $$ Hxt
      icases Hc with ⟨Hw2, Hxt⟩
      ihave Hc := (ixtodo_carve (F := F) d L (ixc fi d L) (5 * k.val + 3) (by omega)) $$ Hxt
      icases Hc with ⟨Hw3, Hxt⟩
      ihave Hc := (ixtodo_carve (F := F) d L (ixc fi d L) (5 * k.val + 4) (by omega)) $$ Hxt
      icases Hc with ⟨Hw4, Hxt⟩
      ihave Hw0 := (Entails.of_eq (pts_ixwin (F := F) d L (k0_off3 k 0#32) (k0_off3_inb k 0) (5 * k.val + 0) (off3b k 0 (by decide)) (ixc fi d L)).symm) $$ Hw0
      ihave Hw1 := (Entails.of_eq (pts_ixwin (F := F) d L (k0_off3 k 1#32) (k0_off3_inb k 1) (5 * k.val + 1) (off3b k 1 (by decide)) (ixc fi d L)).symm) $$ Hw1
      ihave Hw2 := (Entails.of_eq (pts_ixwin (F := F) d L (k0_off3 k 2#32) (k0_off3_inb k 2) (5 * k.val + 2) (off3b k 2 (by decide)) (ixc fi d L)).symm) $$ Hw2
      ihave Hw3 := (Entails.of_eq (pts_ixwin (F := F) d L (k0_off3 k 3#32) (k0_off3_inb k 3) (5 * k.val + 3) (off3b k 3 (by decide)) (ixc fi d L)).symm) $$ Hw3
      ihave Hw4 := (Entails.of_eq (pts_ixwin (F := F) d L (k0_off3 k 4#32) (k0_off3_inb k 4) (5 * k.val + 4) (off3b k 4 (by decide)) (ixc fi d L)).symm) $$ Hw4
      sl_exec
      sl_step
      ihave Hxd := (ixdone_nil (F := F) d L (ixc fi d L) (5 * k.val) (by omega)) $$ []
      · iempintro
      ihave Hw0 := (Entails.of_eq (pts_ixwin (F := F) d L (k0_off3 k 0#32) (k0_off3_inb k 0) (5 * k.val) ((off3b k 0 (by decide)).trans (by omega)) (ixc fi d L))) $$ Hw0
      ihave Hxd := (ixdone_join (F := F) d L (ixc fi d L) (5 * k.val)) $$ [Hxd Hw0]
      · isplitl [Hxd] <;> iassumption
      ihave Hw1 := (Entails.of_eq (pts_ixwin (F := F) d L (k0_off3 k 1#32) (k0_off3_inb k 1) (5 * k.val + 1) ((off3b k 1 (by decide)).trans (by omega)) (ixc fi d L))) $$ Hw1
      ihave Hxd := (ixdone_join (F := F) d L (ixc fi d L) (5 * k.val + 1)) $$ [Hxd Hw1]
      · isplitl [Hxd] <;> iassumption
      ihave Hw2 := (Entails.of_eq (pts_ixwin (F := F) d L (k0_off3 k 2#32) (k0_off3_inb k 2) (5 * k.val + 2) ((off3b k 2 (by decide)).trans (by omega)) (ixc fi d L))) $$ Hw2
      ihave Hxd := (ixdone_join (F := F) d L (ixc fi d L) (5 * k.val + 2)) $$ [Hxd Hw2]
      · isplitl [Hxd] <;> iassumption
      ihave Hdone := (done_nil (F := F) d L (outG fi ft d) (5 * k.val) (by omega)) $$ []
      · iempintro
      unfold Steady gFlight sFlight
      iexists _, _, _, _, _, _, _, _, _
      isplitr; swap
      ·
        isplitl [Hmw]; · iexact Hmw
        isplitl [Hxd]; · iexact Hxd
        isplitl [Hxt]; · iexact Hxt
        isplitl [Ht0]; · iexact Ht0
        isplitl [Ht1]; · iexact Ht1
        isplitl [Ht2]; · iexact Ht2
        isplitl [Ht3]; · iexact Ht3
        isplitl [Ht4]; · iexact Ht4
        isplitl [Hg0]; · iexact Hg0
        isplitl [Hg1]; · iexact Hg1
        isplitl [Hg2]; · iexact Hg2
        isplitl [Hs3]; · iexact Hs3
        isplitl [Hs4]; · iexact Hs4
        isplitl [Hg3]; · iexact Hg3
        isplitl [Hg4]; · iexact Hg4
        isplitl [Hs0]; · iexact Hs0
        isplitl [Hs1]; · iexact Hs1
        isplitl [Hs2]; · iexact Hs2
        isplitl [H0]; · iexact H0
        isplitl [H1]; · iexact H1
        isplitl [H2]; · iexact H2
        isplitl [Hdone]; · iexact Hdone
        isplitl [Hout]; · iexact Hout
        iexact HO
      ·
        ipureintro
        refine ⟨?_, ?_, ?_, ?_, ?_, ?_⟩
        · exact GatherFact_writes5 fi ft d L _ _ _ (gather_fact fi ft d L hin k 3 _ _)
        · exact GatherFact_writes6 fi ft d L _ _ _ (gather_fact fi ft d L hin k 4 _ _)
        · exact chunk_fact fi ft d L (k0_off8 L k) _ (5 * k.val) (off8_0 L k) (off8_1 L k) _ (GatherFact_writes2 fi ft d L _ _ _ (gather_fact fi ft d L hin k 0 _ _)) (fo d) _ (fun _ => rfl)
        · exact chunk_fact fi ft d L (k0_off10 L k) _ (5 * k.val + 1) (off10_0 L k) (off10_1 L k) _ (GatherFact_writes3 fi ft d L _ _ _ (gather_fact fi ft d L hin k 1 _ _)) (fo d) _ (fun _ => rfl)
        · exact chunk_fact fi ft d L (k0_off12 L k) _ (5 * k.val + 2) (off12_0 L k) (off12_1 L k) _ (GatherFact_writes4 fi ft d L _ _ _ (gather_fact fi ft d L hin k 2 _ _)) (fo d) _ (fun _ => rfl)
        · exact wf_ins _ (wf_ins _ (wf_ins _ (hW')))
  · unfold inv; rw [if_pos rfl]; unfold invX
    isplitl [Hmw2]; · iexact Hmw2
    isplitl [Hx']; · iexact Hx'
    isplitl [Ht0]; · iexact Ht0
    isplitl [Ht1]; · iexact Ht1
    isplitl [Ht2]; · iexact Ht2
    isplitl [Ht3]; · iexact Ht3
    isplitl [Ht4]; · iexact Ht4
    isplitl [H0']; · iexact H0'
    isplitl [H1']; · iexact H1'
    isplitl [H2']; · iexact H2'
    isplitl [H3']; · iexact H3'
    isplitl [H4']; · iexact H4'
    isplitl [Hg0]; · iexact Hg0
    isplitl [Hg1]; · iexact Hg1
    isplitl [Hg2]; · iexact Hg2
    isplitl [Hg3]; · iexact Hg3
    isplitl [Hg4]; · iexact Hg4
    isplitl [Hs0]; · iexact Hs0
    isplitl [Hs1]; · iexact Hs1
    isplitl [Hs2]; · iexact Hs2
    isplitl [Hs3]; · iexact Hs3
    isplitl [Hs4]; · iexact Hs4
    isplitl [Hout]; · iexact Hout
    iexists _; isplitr
    swap; · iexact HO
    ipureintro; intro p hp
    rcases Finset.mem_insert.mp hp with hp | hp; · exact .inr (.inr (hp ▸ rfl))
    rcases Finset.mem_insert.mp hp with hp | hp; · exact .inr (.inl (hp ▸ rfl))
    exact .inl hp
  iintro %u HI
  obtain ⟨kl, hkl'⟩ : ∃ kl : Fin k0_t1_loop.trips, kl.val = 39 := ⟨⟨39, by decide⟩, rfl⟩
  have e40 : Scf.trips k0_t1_loop.lb k0_t1_loop.ub k0_t1_loop.st = kl.val + 1 := by rw [hkl']; decide
  have hlast : inv fi ft fo d L O W f0 f1 f2 f3 f4 (Scf.trips k0_t1_loop.lb k0_t1_loop.ub k0_t1_loop.st) u = Steady fi ft fo d L O W kl := by
    rw [e40]; exact inv_succ fi ft fo d L O W f0 f1 f2 f3 f4 kl u
  ihave HI := (Entails.of_eq hlast) $$ HI
  unfold Steady
  icases HI with ⟨%r0, %r1, %r2, %r3, %r4, %oc0, %oc1, %oc2, %W', %hf, Hmw, Hxd, Hxt, Ht0, Ht1, Ht2, Ht3, Ht4, Hg0, Hg1, Hg2, Hs3, Hs4, Fg3, Fg4, Fs0, Fs1, Fs2, H0, H1, H2, Hdone, Hout, HO⟩
  obtain ⟨hr3, hr4, hc0, hc1, hc2, hW'⟩ := hf
  -- the last two chunks, carved off the rows still to be written
  ihave Hc := (todo_carve (F := F) d L (fo d) (5 * kl.val + 3) (by omega)) $$ Hout
  icases Hc with ⟨Hc3, Hout⟩
  ihave Hc := (todo_carve (F := F) d L (fo d) (5 * kl.val + 4) (by omega)) $$ Hout
  icases Hc with ⟨Hc4, Hout⟩
  have e13a : (k0_off13 L 25344#32) 0 = base (cV L) (jV L) + 128 * (5 * kl.val + 3) := by
    have h := k0_off13_eq L ⟨0, by decide⟩
    simp only at h
    rw [h]; show 51200 * (L 1).val + 25600 * (L 0).val + 128 * 0 + 25344 = 25600 * (2 * (L 1).val + (L 0).val) + 128 * (5 * kl.val + 3); omega
  have e13b : (k0_off13 L 25472#32) 0 = base (cV L) (jV L) + 128 * (5 * kl.val + 4) := by
    have h := k0_off13_eq L ⟨1, by decide⟩
    simp only at h
    rw [h]; show 51200 * (L 1).val + 25600 * (L 0).val + 128 * 1 + 25344 = 25600 * (2 * (L 1).val + (L 0).val) + 128 * (5 * kl.val + 4); omega
  have h13a : (k0_off13 L 25344#32) 1 = 0 := by
    have h := k0_off13_eq L ⟨0, by decide⟩
    simp only at h
    rw [h]; rfl
  have h13b : (k0_off13 L 25472#32) 1 = 0 := by
    have h := k0_off13_eq L ⟨1, by decide⟩
    simp only at h
    rw [h]; rfl
  ihave Hc3 := (Entails.of_eq (pts_chunk (F := F) d L (k0_off13 L 25344#32) (k0_off13_inb L 0) _ e13a h13a (fo d)).symm) $$ Hc3
  ihave Hc4 := (Entails.of_eq (pts_chunk (F := F) d L (k0_off13 L 25472#32) (k0_off13_inb L 1) _ e13b h13b (fo d)).symm) $$ Hc4
  sl_exec
  sl_step
  -- the last five chunks join the written rows
  ihave Fs0_dst := (Entails.of_eq (pts_chunk (F := F) d L (k0_off8 L kl) (k0_off8_inb L kl (conds kl).2.2.2.2.2.1) _ (off8_0 L kl) (off8_1 L kl) oc0)) $$ Fs0_dst
  ihave Hdone := (done_join (F := F) d L (outG fi ft d) oc0 (5 * kl.val) hc0) $$ [Hdone Fs0_dst]
  · isplitl [Hdone] <;> iassumption
  ihave Fs1_dst := (Entails.of_eq (pts_chunk (F := F) d L (k0_off10 L kl) (k0_off10_inb L kl (conds kl).2.2.2.2.2.2.2.1) _ (off10_0 L kl) (off10_1 L kl) oc1)) $$ Fs1_dst
  ihave Hdone := (done_join (F := F) d L (outG fi ft d) oc1 (5 * kl.val + 1) hc1) $$ [Hdone Fs1_dst]
  · isplitl [Hdone] <;> iassumption
  ihave Fs2_dst := (Entails.of_eq (pts_chunk (F := F) d L (k0_off12 L kl) (k0_off12_inb L kl (conds kl).2.2.2.2.2.2.2.2.2) _ (off12_0 L kl) (off12_1 L kl) oc2)) $$ Fs2_dst
  ihave Hdone := (done_join (F := F) d L (outG fi ft d) oc2 (5 * kl.val + 2) hc2) $$ [Hdone Fs2_dst]
  · isplitl [Hdone] <;> iassumption
  ihave Hc3 := (Entails.of_eq (pts_chunk (F := F) d L (k0_off13 L 25344#32) (k0_off13_inb L 0) _ e13a h13a _)) $$ Hc3
  ihave Hdone := (done_join_any (F := F) fi ft d L (5 * kl.val + 3)) $$ [Hdone Hc3]
  · isplitl [Hdone]; · iexact Hdone
    iexists _; isplitr; swap; · iexact Hc3
    ipureintro
    exact chunk_fact fi ft d L (k0_off13 L 25344#32) (k0_off13_inb L 0) (5 * kl.val + 3) e13a h13a r3 hr3 (fo d) _ (fun _ => rfl)
  ihave Hc4 := (Entails.of_eq (pts_chunk (F := F) d L (k0_off13 L 25472#32) (k0_off13_inb L 1) _ e13b h13b _)) $$ Hc4
  ihave Hdone := (done_join_any (F := F) fi ft d L (5 * kl.val + 4)) $$ [Hdone Hc4]
  · isplitl [Hdone]; · iexact Hdone
    iexists _; isplitr; swap; · iexact Hc4
    ipureintro
    exact chunk_fact fi ft d L (k0_off13 L 25472#32) (k0_off13_inb L 1) (5 * kl.val + 4) e13b h13b r4 hr4 (fo d) _ (fun _ => rfl)
  -- the last two windows join the index list
  ihave Fg3_dst_and := (Entails.of_eq (pts_ixwin'' (F := F) d L kl 3 (5 * kl.val + 3) ((off3b kl 3 (by decide)).trans (by omega)) (ixc fi d L))) $$ Fg3_dst_and
  ihave Hxd := (ixdone_join (F := F) d L (ixc fi d L) (5 * kl.val + 3)) $$ [Hxd Fg3_dst_and]
  · isplitl [Hxd] <;> iassumption
  ihave Fg4_dst_and := (Entails.of_eq (pts_ixwin'' (F := F) d L kl 4 (5 * kl.val + 4) ((off3b kl 4 (by decide)).trans (by omega)) (ixc fi d L))) $$ Fg4_dst_and
  ihave Hxd := (ixdone_join (F := F) d L (ixc fi d L) (5 * kl.val + 4)) $$ [Hxd Fg4_dst_and]
  · isplitl [Hxd] <;> iassumption
  unfold tdRes
  rw [if_neg hj]
  isplitl [Hidx' Hdone Hshr Ht0 Ht1 Ht2 Ht3 Ht4]
  · isplitl [Hidx']; · iapply (Entails.of_eq (pts_idxK (F := F) d L _)); iexact Hidx'
    isplitl [Hdone]
    · iapply (Entails.of_eq (show (outLoc d ↦[doneSet L (5 * kl.val + 4 + 1)]{fullShare} outG fi ft d : sProp 𝕄)
          = outLoc d ↦[rowsSet (base (cV L) (jV L)) 25600]{fullShare} outG fi ft d by rw [hkl']))
      iexact Hdone
    isplitl [Hshr Ht0 Ht1 Ht2 Ht3 Ht4]
    · unfold shTok
      iapply (sh_toks (F := F) d L _).2
      isplitl [Hshr]; · iexact Hshr
      isplitl [Ht0]; · iexact Ht0
      isplitl [Ht1]; · iexact Ht1
      isplitl [Ht2]; · iexact Ht2
      isplitl [Ht3]; · iexact Ht3
      iexact Ht4
    iempintro
  isplitl [Hxd H0 H1 H2 Fg3_dst Fg4_dst Hbufs]
  · isplitl [Hxd H0 H1 H2 Fg3_dst Fg4_dst]
    · isplitl [Hxd]
      · iexists _
        iapply (Entails.of_eq (show (ixLoc d L ↦[ixDone (5 * kl.val + 4 + 1)]{fullShare} ixc fi d L : sProp 𝕄)
            = ((d, vb L 0) : Loc nD τ sig) ↦{fullShare} ixc fi d L by rw [hkl', show ixDone (5 * 39 + 4 + 1) = Finset.univ from ixSet_all]))
        iexact Hxd
      isplitl [H0]; · iexists _; iapply (Entails.of_eq (pts_r0 (F := F) d L _)); iexact H0
      isplitl [H1]; · iexists _; iapply (Entails.of_eq (pts_r1 (F := F) d L _)); iexact H1
      isplitl [H2]; · iexists _; iapply (Entails.of_eq (pts_r2 (F := F) d L _)); iexact H2
      isplitl [Fg3_dst]; · iexists _; iapply (Entails.of_eq (pts_r3 (F := F) d L _)); iexact Fg3_dst
      iexists _; iapply (Entails.of_eq (pts_r4 (F := F) d L _)); iexact Fg4_dst
    · iexact Hbufs
  isplitl [Hg0 Hg1 Hg2 Fg3 Fg4 Fs0 Fs1 Fs2 Hs3 Hs4 HsA HsB]
  ·
    isplitl [Hg0]; · iexact Hg0
    isplitl [Hg1]; · iexact Hg1
    isplitl [Hg2]; · iexact Hg2
    isplitl [Fg3]; · iexact Fg3
    isplitl [Fg4]; · iexact Fg4
    isplitl [Fs0]; · iexact Fs0
    isplitl [Fs1]; · iexact Fs1
    isplitl [Fs2]; · iexact Fs2
    isplitl [Hs3]; · iexact Hs3
    isplitl [Hs4]; · iexact Hs4
    isplitl [HsA]; · iexact HsA
    iexact HsB
  iexists _; isplitr
  swap; · iexact HO
  ipureintro
  exact wf_ins _ (wf_ins _ (wf_ins _ (wf_ins _ (wf_ins _ (wf_ins _ (wf_ins _ (hW')))))))

end Tile

end Cert.Proof.BitsSide

end
-- ==== Proof.BitsBodyZero.lean ====
/-
  The task on subcore 0 of a SparseCore: as on the other subcores, and before the barrier the table is copied
  into the SparseCore's shared memory; at the barrier subcore 0 hands each subcore of the SparseCore (itself
  included) its read share of that copy and keeps the remainder, which it brings back with the table's share.
-/
import proofs.«203224_g2765958938866_cont_9to1_225_22_alg».proof.Proof.BitsTripLemmas

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (fi : (d : Dev nD) → Buf (Elt F) (idxLoc d)) (ft : (d : Dev nD) → Buf (Elt F) (tabLoc d)) (fo : (d : Dev nD) → Buf (Elt F) (outLoc d))
variable [FloatOps F]

section Tile

variable (d : Dev nD) (L : grid0.Coords)

set_option quotPrecheck false
local notation "THR" => (V d (cV L) (jV L))
local notation "ixM" => (Memref.whole cc0_scratch0 : Memref sig .scVector .vmem S25600 .i32)
local notation "shM" => (Memref.whole cc0_scratch1 : Memref sig .scVector .shared S64x128 .f32)
local notation "oM" => (Memref.whole main_v1_scv : Memref sig .scVector .hbm S819200x128 .f32)
local notation "shSl" => ((Memref.whole cc0_scratch1 : Memref sig .scVector .shared S64x128 .f32).slice (Rect.unit (s := S64x128) ![0, 0] S64x128.size inb_S64x128_S64x128_0_0) (fun _ => rfl))

set_option maxHeartbeats 4000000 in
theorem tile_body_zero (hin : ∀ d j, (fi d j).toNat < 64) (hj : (jV L).val = 0) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit ft d (cV L) (jV L) ∗ goRes fi ft fo d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__emb_body L (Memref.whole main_v0_scv) (Memref.isWhole_whole _) (Memref.whole main_arg1_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _)
            cc0_scratch7 cc0_scratch8 cc0_scratch9 cc0_scratch10 cc0_scratch11 cc0_scratch12 cc0_scratch13 cc0_scratch14 cc0_scratch15 cc0_scratch16 cc0_scoped0 cc0_scoped1)
          fun _ => iprop(tdRes fi ft d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__emb_body_eq_skeleton]; unfold cc0__emb_body_skel
  rw [(K (F := F)).scopedBufs_V hF d (cV L) (jV L), SparseCore.Cfg.scopedSems0_V (Val := Elt F) d (cV L) (jV L), ownSems0_V', ownBufs_V]
  rw [show (Finset.univ : Finset (Fin 6)) = {0, 1, 2, 3, 4, 5} by decide,
    SparseCore.bigSep_insert' (by decide), SparseCore.bigSep_insert' (by decide), SparseCore.bigSep_insert' (by decide), SparseCore.bigSep_insert' (by decide),
    SparseCore.bigSep_insert' (by decide), bigSep_singleton]
  unfold bkit goRes
  rw [if_pos hj]
  iintro ⟨#Hlv, ⟨⟨%κ, #Hinv⟩, Htoks, #Hrch, Hat, Hcred⟩, ⟨Hidx, Hout, Htab, %fsh, Hshw⟩, ⟨⟨⟨%fx, Hx⟩, ⟨%f0, H0⟩, ⟨%f1, H1⟩, ⟨%f2, H2⟩, ⟨%f3, H3⟩, ⟨%f4, H4⟩⟩, Hbufs⟩,
    ⟨Hg0, Hg1, Hg2, Hg3, Hg4, Hs0, Hs1, Hs2, Hs3, Hs4, HsA, HsB⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hidx' := (Entails.of_eq (pts_idxK (F := F) d L _).symm) $$ Hidx
  ihave Hx' := (Entails.of_eq (pts_ix (F := F) d L _).symm) $$ Hx
  ihave H0' := (Entails.of_eq (pts_r0 (F := F) d L _).symm) $$ H0
  ihave H1' := (Entails.of_eq (pts_r1 (F := F) d L _).symm) $$ H1
  ihave H2' := (Entails.of_eq (pts_r2 (F := F) d L _).symm) $$ H2
  ihave H3' := (Entails.of_eq (pts_r3 (F := F) d L _).symm) $$ H3
  ihave H4' := (Entails.of_eq (pts_r4 (F := F) d L _).symm) $$ H4
  sl_exec
  have hv5 : tile_body_zero.sl.v5 L = 1#1 := (when_s0 (L 1)).mpr hj
  ihave Htab' := (Entails.of_eq (pts_tab (F := F) d L _ _).symm) $$ Htab
  ihave Hshw' := (Entails.of_eq (pts_sh (F := F) d L fullShare fsh).symm) $$ Hshw
  sl_exec
  rw [View.write_whole_univ, View.write_whole_univ]
  ihave Hshw := (sh_norm (F := F) ft d L) $$ [Hshw']
  · iexists _; isplitr; swap; · iexact Hshw'
    ipureintro; intro i; rfl
  ihave Hp := (pays_intro_zero ft d (cV L)) $$ Hshw
  icases Hp with ⟨Hpays, Hshrem⟩
  ihave Hpays := (Entails.of_eq (show (bigSep Finset.univ fun j : Fin (grid0.bound 1) => (bRd (F := F) ft).payload (bcell d (cV L) (j.castLE hsub0)) 0 0 : sProp 𝕄)
      = bigSep Finset.univ fun j : Fin (grid0.bound 1) => (bRd (F := F) ft).payload (bcell d (cV L) (j.castLE hsub0)) 0 (jV L).val by rw [hj])) $$ Hpays
  -- the barrier: nothing handed over, the tile's read share of the shared copy received
  iapply (SparseCore.wp_subcoreBarrier 𝒱₀ none EB (bRd (F := F) ft) d (sc := cV L) (i := jV L) sc_bar0 (grid0.bound 1) hsub0 (L 1) rfl κ (fun _ => 0) (jV L).val
      (fun j => bRd_mem₀ ft d _ _ _) (fun _ => rfl) (bRd_expect ft d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hsh := (pays_elim (F := F) ft d L) $$ Hgot
  unfold shTok at ⊢
  ihave Hsh' := (sh_toks (F := F) d L _).1 $$ Hsh
  icases Hsh' with ⟨Hshr, Ht0, Ht1, Ht2, Ht3, Ht4⟩
  have hdm : tile_body_zero.sl.dma0 fi d L = ixc fi d L := rfl
  rw [hdm]
  have hall : ∀ (off : Fin 1 → Nat) (inb : ∀ a, off a + S128.size a ≤ S25600.size a) (j : S128.Idx),
      ((((Memref.whole cc0_scratch0 : Memref sig .scVector .vmem S25600 .i32).slice (Rect.unit (s := S25600) off S128.size inb) (fun _ => rfl)).view.read (Elt F) (ixc fi d L) j : Elt F .i32) : BitVec 32).toNat < 64 := by
    intro off inb j; rw [View.read_apply]; exact ixc_lt fi d L hin _
  sl_exec
  sl_for (inv fi ft fo d L O W f0 f1 f2 f3 f4) $$ [Hmw2 Hx' Ht0 Ht1 Ht2 Ht3 Ht4 H0' H1' H2' H3' H4' Hg0 Hg1 Hg2 Hg3 Hg4 Hs0 Hs1 Hs2 Hs3 Hs4 Hout HO]
  case region =>
    intro k u
    rw [inv_succ']
    obtain ⟨c2, c3, c4, c5, c6, c7, c8, c9, c10, c11⟩ := conds k
    by_cases hk : 0 < k.val
    ·
      obtain ⟨kp, hkp⟩ : ∃ kp : Fin k0_t1_loop.trips, kp.val + 1 = k.val := ⟨⟨k.val - 1, lt_of_le_of_lt (Nat.sub_le _ _) k.isLt⟩, Nat.sub_add_cancel hk⟩
      have hk40 : k.val < 40 := lt_of_lt_of_le k.isLt k0_t1_abs.2.1
      rw [inv_of_succ fi ft fo d L O W f0 f1 f2 f3 f4 k kp hkp]
      unfold Steady
      iintro ⟨%r0, %r1, %r2, %r3, %r4, %oc0, %oc1, %oc2, %W', %hf, Hmw, Hxd, Hxt, Ht0, Ht1, Ht2, Ht3, Ht4, Hg0, Hg1, Hg2, Hs3, Hs4, Fg3, Fg4, Fs0, Fs1, Fs2, H0, H1, H2, Hdone, Hout, HO⟩
      obtain ⟨hr3, hr4, hc0, hc1, hc2, hW'⟩ := hf
      have p2 : k0_cond2 k = 1#1 := c2.mpr hk
      have p3 : k0_cond3 k = 1#1 := c3.mpr hk
      have p4 : k0_cond4 k = 1#1 := c4.mpr hk
      have p5 : k0_cond5 k = 1#1 := c5.mpr hk
      have p6 : k0_cond6 k = 1#1 := c6.mpr hk
      have p8 : k0_cond8 k = 1#1 := c8.mpr hk
      have p10 : k0_cond10 k = 1#1 := c10.mpr hk
      -- the five chunks this trip stores, carved off the rows still to be written
      ihave Hc := (todo_carve (F := F) d L (fo d) (5 * kp.val + 3) (by omega)) $$ Hout
      icases Hc with ⟨Hc3, Hout⟩
      ihave Hc := (todo_carve (F := F) d L (fo d) (5 * kp.val + 4) (by omega)) $$ Hout
      icases Hc with ⟨Hc4, Hout⟩
      ihave Hc := (todo_carve (F := F) d L (fo d) (5 * kp.val + 5) (by omega)) $$ Hout
      icases Hc with ⟨Hc5, Hout⟩
      ihave Hc := (todo_carve (F := F) d L (fo d) (5 * kp.val + 6) (by omega)) $$ Hout
      icases Hc with ⟨Hc6, Hout⟩
      ihave Hc := (todo_carve (F := F) d L (fo d) (5 * kp.val + 7) (by omega)) $$ Hout
      icases Hc with ⟨Hc7, Hout⟩
      have e4 : (k0_off4 L k) 0 = base (cV L) (jV L) + 128 * (5 * kp.val + 3) := by
        rw [off4_eq L k hk]; show 51200 * (L 1).val + 25600 * (L 0).val + 640 * k.val - 256 = 25600 * (2 * (L 1).val + (L 0).val) + 128 * (5 * kp.val + 3); omega
      have e6 : (k0_off6 L k) 0 = base (cV L) (jV L) + 128 * (5 * kp.val + 4) := by
        rw [off6_eq L k hk]; show 51200 * (L 1).val + 25600 * (L 0).val + 640 * k.val - 128 = 25600 * (2 * (L 1).val + (L 0).val) + 128 * (5 * kp.val + 4); omega
      have e8 : (k0_off8 L k) 0 = base (cV L) (jV L) + 128 * (5 * kp.val + 5) := (off8_0 L k).trans (by omega)
      have e10 : (k0_off10 L k) 0 = base (cV L) (jV L) + 128 * (5 * kp.val + 6) := (off10_0 L k).trans (by omega)
      have e12 : (k0_off12 L k) 0 = base (cV L) (jV L) + 128 * (5 * kp.val + 7) := (off12_0 L k).trans (by omega)
      ihave Hc3 := (Entails.of_eq (pts_chunk (F := F) d L (k0_off4 L k) (k0_off4_inb L k p3) _ e4 (by rw [off4_eq L k hk]; rfl) (fo d)).symm) $$ Hc3
      ihave Hc4 := (Entails.of_eq (pts_chunk (F := F) d L (k0_off6 L k) (k0_off6_inb L k p5) _ e6 (by rw [off6_eq L k hk]; rfl) (fo d)).symm) $$ Hc4
      ihave Hc5 := (Entails.of_eq (pts_chunk (F := F) d L (k0_off8 L k) (k0_off8_inb L k c7) _ e8 (off8_1 L k) (fo d)).symm) $$ Hc5
      ihave Hc6 := (Entails.of_eq (pts_chunk (F := F) d L (k0_off10 L k) (k0_off10_inb L k c9) _ e10 (off10_1 L k) (fo d)).symm) $$ Hc6
      ihave Hc7 := (Entails.of_eq (pts_chunk (F := F) d L (k0_off12 L k) (k0_off12_inb L k c11) _ e12 (off12_1 L k) (fo d)).symm) $$ Hc7
      -- the five windows of the index list this trip gathers from
      ihave Hc := (ixtodo_carve (F := F) d L (ixc fi d L) (5 * kp.val + 5) (by omega)) $$ Hxt
      icases Hc with ⟨Hw0, Hxt⟩
      ihave Hc := (ixtodo_carve (F := F) d L (ixc fi d L) (5 * kp.val + 6) (by omega)) $$ Hxt
      icases Hc with ⟨Hw1, Hxt⟩
      ihave Hc := (ixtodo_carve (F := F) d L (ixc fi d L) (5 * kp.val + 7) (by omega)) $$ Hxt
      icases Hc with ⟨Hw2, Hxt⟩
      ihave Hc := (ixtodo_carve (F := F) d L (ixc fi d L) (5 * kp.val + 8) (by omega)) $$ Hxt
      icases Hc with ⟨Hw3, Hxt⟩
      ihave Hc := (ixtodo_carve (F := F) d L (ixc fi d L) (5 * kp.val + 9) (by omega)) $$ Hxt
      icases Hc with ⟨Hw4, Hxt⟩
      ihave Hw0 := (Entails.of_eq (pts_ixwin (F := F) d L (k0_off3 k 0#32) (k0_off3_inb k 0) (5 * kp.val + 5) ((off3b k 0 (by decide)).trans (by omega)) (ixc fi d L)).symm) $$ Hw0
      ihave Hw1 := (Entails.of_eq (pts_ixwin (F := F) d L (k0_off3 k 1#32) (k0_off3_inb k 1) (5 * kp.val + 6) ((off3b k 1 (by decide)).trans (by omega)) (ixc fi d L)).symm) $$ Hw1
      ihave Hw2 := (Entails.of_eq (pts_ixwin (F := F) d L (k0_off3 k 2#32) (k0_off3_inb k 2) (5 * kp.val + 7) ((off3b k 2 (by decide)).trans (by omega)) (ixc fi d L)).symm) $$ Hw2
      ihave Hw3 := (Entails.of_eq (pts_ixwin (F := F) d L (k0_off3 k 3#32) (k0_off3_inb k 3) (5 * kp.val + 8) ((off3b k 3 (by decide)).trans (by omega)) (ixc fi d L)).symm) $$ Hw3
      ihave Hw4 := (Entails.of_eq (pts_ixwin (F := F) d L (k0_off3 k 4#32) (k0_off3_inb k 4) (5 * kp.val + 9) ((off3b k 4 (by decide)).trans (by omega)) (ixc fi d L)).symm) $$ Hw4
      sl_exec
      sl_step
      -- the chunks whose stores were waited for join the written rows
      ihave Fs0_dst := (Entails.of_eq (pts_chunk (F := F) d L (k0_off8 L kp) (k0_off8_inb L kp (conds kp).2.2.2.2.2.1) _ (off8_0 L kp) (off8_1 L kp) oc0)) $$ Fs0_dst
      ihave Hdone := (done_join (F := F) d L (outG fi ft d) oc0 (5 * kp.val) hc0) $$ [Hdone Fs0_dst]
      · isplitl [Hdone] <;> iassumption
      ihave Fs1_dst := (Entails.of_eq (pts_chunk (F := F) d L (k0_off10 L kp) (k0_off10_inb L kp (conds kp).2.2.2.2.2.2.2.1) _ (off10_0 L kp) (off10_1 L kp) oc1)) $$ Fs1_dst
      ihave Hdone := (done_join (F := F) d L (outG fi ft d) oc1 (5 * kp.val + 1) hc1) $$ [Hdone Fs1_dst]
      · isplitl [Hdone] <;> iassumption
      ihave Fs2_dst := (Entails.of_eq (pts_chunk (F := F) d L (k0_off12 L kp) (k0_off12_inb L kp (conds kp).2.2.2.2.2.2.2.2.2) _ (off12_0 L kp) (off12_1 L kp) oc2)) $$ Fs2_dst
      ihave Hdone := (done_join (F := F) d L (outG fi ft d) oc2 (5 * kp.val + 2) hc2) $$ [Hdone Fs2_dst]
      · isplitl [Hdone] <;> iassumption
      have h41 : (k0_off4 L k) 1 = 0 := by rw [off4_eq L k hk]; rfl
      have h61 : (k0_off6 L k) 1 = 0 := by rw [off6_eq L k hk]; rfl
      ihave Hc3 := (Entails.of_eq (pts_chunk (F := F) d L (k0_off4 L k) (k0_off4_inb L k p3) _ e4 h41 _)) $$ Hc3
      ihave Hdone := (done_join_any (F := F) fi ft d L (5 * kp.val + 3)) $$ [Hdone Hc3]
      · isplitl [Hdone]; · iexact Hdone
        iexists _; isplitr; swap; · iexact Hc3
        ipureintro
        exact chunk_fact fi ft d L (k0_off4 L k) (k0_off4_inb L k p3) (5 * kp.val + 3) e4 h41 r3 hr3 (fo d) _ (fun _ => rfl)
      ihave Hc4 := (Entails.of_eq (pts_chunk (F := F) d L (k0_off6 L k) (k0_off6_inb L k p5) _ e6 h61 _)) $$ Hc4
      ihave Hdone := (done_join_any (F := F) fi ft d L (5 * kp.val + 4)) $$ [Hdone Hc4]
      · isplitl [Hdone]; · iexact Hdone
        iexists _; isplitr; swap; · iexact Hc4
        ipureintro
        exact chunk_fact fi ft d L (k0_off6 L k) (k0_off6_inb L k p5) (5 * kp.val + 4) e6 h61 r4 hr4 (fo d) _ (fun _ => rfl)
      -- the windows whose gathers were waited for join the entries back in hand
      ihave Fg3_dst_and := (Entails.of_eq (pts_ixwin'' (F := F) d L kp 3 (5 * kp.val + 3) ((off3b kp 3 (by decide)).trans (by omega)) (ixc fi d L))) $$ Fg3_dst_and
      ihave Hxd := (ixdone_join (F := F) d L (ixc fi d L) (5 * kp.val + 3)) $$ [Hxd Fg3_dst_and]
      · isplitl [Hxd] <;> iassumption
      ihave Fg4_dst_and := (Entails.of_eq (pts_ixwin'' (F := F) d L kp 4 (5 * kp.val + 4) ((off3b kp 4 (by decide)).trans (by omega)) (ixc fi d L))) $$ Fg4_dst_and
      ihave Hxd := (ixdone_join (F := F) d L (ixc fi d L) (5 * kp.val + 4)) $$ [Hxd Fg4_dst_and]
      · isplitl [Hxd] <;> iassumption
      ihave Hw0 := (Entails.of_eq (pts_ixwin (F := F) d L (k0_off3 k 0#32) (k0_off3_inb k 0) (5 * kp.val + 5) ((off3b k 0 (by decide)).trans (by omega)) (ixc fi d L))) $$ Hw0
      ihave Hxd := (ixdone_join (F := F) d L (ixc fi d L) (5 * kp.val + 5)) $$ [Hxd Hw0]
      · isplitl [Hxd] <;> iassumption
      ihave Hw1 := (Entails.of_eq (pts_ixwin (F := F) d L (k0_off3 k 1#32) (k0_off3_inb k 1) (5 * kp.val + 6) ((off3b k 1 (by decide)).trans (by omega)) (ixc fi d L))) $$ Hw1
      ihave Hxd := (ixdone_join (F := F) d L (ixc fi d L) (5 * kp.val + 6)) $$ [Hxd Hw1]
      · isplitl [Hxd] <;> iassumption
      ihave Hw2 := (Entails.of_eq (pts_ixwin (F := F) d L (k0_off3 k 2#32) (k0_off3_inb k 2) (5 * kp.val + 7) ((off3b k 2 (by decide)).trans (by omega)) (ixc fi d L))) $$ Hw2
      ihave Hxd := (ixdone_join (F := F) d L (ixc fi d L) (5 * kp.val + 7)) $$ [Hxd Hw2]
      · isplitl [Hxd] <;> iassumption
      have q1 : 5 * kp.val + 4 + 1 = 5 * k.val := by omega
      have q2 : 5 * kp.val + 7 + 1 = 5 * k.val + 3 := by omega
      have q3 : 5 * kp.val + 9 + 1 = 5 * k.val + 5 := by omega
      rw [q1, q2, q3]
      unfold gFlight sFlight
      iexists _, _, _, _, _, _, _, _, _
      isplitr; swap
      ·
        isplitl [Hmw]; · iexact Hmw
        isplitl [Hxd]; · iexact Hxd
        isplitl [Hxt]; · iexact Hxt
        isplitl [Ht0]; · iexact Ht0
        isplitl [Ht1]; · iexact Ht1
        isplitl [Ht2]; · iexact Ht2
        isplitl [Ht3]; · iexact Ht3
        isplitl [Ht4]; · iexact Ht4
        isplitl [Hg0]; · iexact Hg0
        isplitl [Hg1]; · iexact Hg1
        isplitl [Hg2]; · iexact Hg2
        isplitl [Hs3]; · iexact Hs3
        isplitl [Hs4]; · iexact Hs4
        isplitl [Fg3]; · iexact Fg3
        isplitl [Fg4]; · iexact Fg4
        isplitl [Fs0]; · iexact Fs0
        isplitl [Fs1]; · iexact Fs1
        isplitl [Fs2]; · iexact Fs2
        isplitl [H0]; · iexact H0
        isplitl [H1]; · iexact H1
        isplitl [H2]; · iexact H2
        isplitl [Hdone]; · iexact Hdone
        isplitl [Hout]; · iexact Hout
        iexact HO
      ·
        ipureintro
        refine ⟨?_, ?_, ?_, ?_, ?_, ?_⟩
        · exact GatherFact_writes5 fi ft d L _ _ _ (gather_fact fi ft d L hin k 3 _ _)
        · exact GatherFact_writes6 fi ft d L _ _ _ (gather_fact fi ft d L hin k 4 _ _)
        · exact chunk_fact fi ft d L (k0_off8 L k) _ (5 * k.val) (off8_0 L k) (off8_1 L k) _ (GatherFact_writes2 fi ft d L _ _ _ (gather_fact fi ft d L hin k 0 _ _)) (fo d) _ (fun _ => rfl)
        · exact chunk_fact fi ft d L (k0_off10 L k) _ (5 * k.val + 1) (off10_0 L k) (off10_1 L k) _ (GatherFact_writes3 fi ft d L _ _ _ (gather_fact fi ft d L hin k 1 _ _)) (fo d) _ (fun _ => rfl)
        · exact chunk_fact fi ft d L (k0_off12 L k) _ (5 * k.val + 2) (off12_0 L k) (off12_1 L k) _ (GatherFact_writes4 fi ft d L _ _ _ (gather_fact fi ft d L hin k 2 _ _)) (fo d) _ (fun _ => rfl)
        · exact wf_ins _ (wf_ins _ (wf_ins _ (wf_ins _ (wf_ins _ (wf_ins _ (wf_ins _ (wf_ins _ (wf_ins _ (wf_ins _ (hW'))))))))))
    ·
      have n2 : ¬ k0_cond2 k = 1#1 := fun h => hk (c2.mp h)
      have n3 : ¬ k0_cond3 k = 1#1 := fun h => hk (c3.mp h)
      have n4 : ¬ k0_cond4 k = 1#1 := fun h => hk (c4.mp h)
      have n5 : ¬ k0_cond5 k = 1#1 := fun h => hk (c5.mp h)
      have n6 : ¬ k0_cond6 k = 1#1 := fun h => hk (c6.mp h)
      have n8 : ¬ k0_cond8 k = 1#1 := fun h => hk (c8.mp h)
      have n10 : ¬ k0_cond10 k = 1#1 := fun h => hk (c10.mp h)
      have hk0 : k.val = 0 := by omega
      unfold inv; rw [if_pos hk0]; unfold invX
      iintro ⟨Hmw, Hx, Ht0, Ht1, Ht2, Ht3, Ht4, H0, H1, H2, H3, H4, Hg0, Hg1, Hg2, Hg3, Hg4, Hs0, Hs1, Hs2, Hs3, Hs4, Hout, %W', %hW', HO⟩
      ihave Hout := (Entails.of_eq (show (outLoc d ↦[rowsSet (base (cV L) (jV L)) 25600]{fullShare} fo d : sProp 𝕄) = outLoc d ↦[todoSet L (5 * k.val)]{fullShare} fo d by
        rw [hk0]; rfl)) $$ Hout
      ihave Hc := (todo_carve (F := F) d L (fo d) (5 * k.val + 0) (by omega)) $$ Hout
      icases Hc with ⟨Hc0, Hout⟩
      ihave Hc := (todo_carve (F := F) d L (fo d) (5 * k.val + 1) (by omega)) $$ Hout
      icases Hc with ⟨Hc1, Hout⟩
      ihave Hc := (todo_carve (F := F) d L (fo d) (5 * k.val + 2) (by omega)) $$ Hout
      icases Hc with ⟨Hc2, Hout⟩
      ihave Hc0 := (Entails.of_eq (pts_chunk (F := F) d L (k0_off8 L k) (k0_off8_inb L k c7) _ (off8_0 L k) (off8_1 L k) (fo d)).symm) $$ Hc0
      ihave Hc1 := (Entails.of_eq (pts_chunk (F := F) d L (k0_off10 L k) (k0_off10_inb L k c9) _ (off10_0 L k) (off10_1 L k) (fo d)).symm) $$ Hc1
      ihave Hc2 := (Entails.of_eq (pts_chunk (F := F) d L (k0_off12 L k) (k0_off12_inb L k c11) _ (off12_0 L k) (off12_1 L k) (fo d)).symm) $$ Hc2
      ihave Hxt := (Entails.of_eq (ix_whole (F := F) d L _)) $$ Hx
      ihave Hxt := (Entails.of_eq (show (ixLoc d L ↦[ixTodo 0]{fullShare} ixc fi d L : sProp 𝕄) = ixLoc d L ↦[ixTodo (5 * k.val)]{fullShare} ixc fi d L by rw [hk0])) $$ Hxt
      ihave Hc := (ixtodo_carve (F := F) d L (ixc fi d L) (5 * k.val + 0) (by omega)) $$ Hxt
      icases Hc with ⟨Hw0, Hxt⟩
      ihave Hc := (ixtodo_carve (F := F) d L (ixc fi d L) (5 * k.val + 1) (by omega)) $$ Hxt
      icases Hc with ⟨Hw1, Hxt⟩
      ihave Hc := (ixtodo_carve (F := F) d L (ixc fi d L) (5 * k.val + 2) (by omega)) $$ Hxt
      icases Hc with ⟨Hw2, Hxt⟩
      ihave Hc := (ixtodo_carve (F := F) d L (ixc fi d L) (5 * k.val + 3) (by omega)) $$ Hxt
      icases Hc with ⟨Hw3, Hxt⟩
      ihave Hc := (ixtodo_carve (F := F) d L (ixc fi d L) (5 * k.val + 4) (by omega)) $$ Hxt
      icases Hc with ⟨Hw4, Hxt⟩
      ihave Hw0 := (Entails.of_eq (pts_ixwin (F := F) d L (k0_off3 k 0#32) (k0_off3_inb k 0) (5 * k.val + 0) (off3b k 0 (by decide)) (ixc fi d L)).symm) $$ Hw0
      ihave Hw1 := (Entails.of_eq (pts_ixwin (F := F) d L (k0_off3 k 1#32) (k0_off3_inb k 1) (5 * k.val + 1) (off3b k 1 (by decide)) (ixc fi d L)).symm) $$ Hw1
      ihave Hw2 := (Entails.of_eq (pts_ixwin (F := F) d L (k0_off3 k 2#32) (k0_off3_inb k 2) (5 * k.val + 2) (off3b k 2 (by decide)) (ixc fi d L)).symm) $$ Hw2
      ihave Hw3 := (Entails.of_eq (pts_ixwin (F := F) d L (k0_off3 k 3#32) (k0_off3_inb k 3) (5 * k.val + 3) (off3b k 3 (by decide)) (ixc fi d L)).symm) $$ Hw3
      ihave Hw4 := (Entails.of_eq (pts_ixwin (F := F) d L (k0_off3 k 4#32) (k0_off3_inb k 4) (5 * k.val + 4) (off3b k 4 (by decide)) (ixc fi d L)).symm) $$ Hw4
      sl_exec
      sl_step
      ihave Hxd := (ixdone_nil (F := F) d L (ixc fi d L) (5 * k.val) (by omega)) $$ []
      · iempintro
      ihave Hw0 := (Entails.of_eq (pts_ixwin (F := F) d L (k0_off3 k 0#32) (k0_off3_inb k 0) (5 * k.val) ((off3b k 0 (by decide)).trans (by omega)) (ixc fi d L))) $$ Hw0
      ihave Hxd := (ixdone_join (F := F) d L (ixc fi d L) (5 * k.val)) $$ [Hxd Hw0]
      · isplitl [Hxd] <;> iassumption
      ihave Hw1 := (Entails.of_eq (pts_ixwin (F := F) d L (k0_off3 k 1#32) (k0_off3_inb k 1) (5 * k.val + 1) ((off3b k 1 (by decide)).trans (by omega)) (ixc fi d L))) $$ Hw1
      ihave Hxd := (ixdone_join (F := F) d L (ixc fi d L) (5 * k.val + 1)) $$ [Hxd Hw1]
      · isplitl [Hxd] <;> iassumption
      ihave Hw2 := (Entails.of_eq (pts_ixwin (F := F) d L (k0_off3 k 2#32) (k0_off3_inb k 2) (5 * k.val + 2) ((off3b k 2 (by decide)).trans (by omega)) (ixc fi d L))) $$ Hw2
      ihave Hxd := (ixdone_join (F := F) d L (ixc fi d L) (5 * k.val + 2)) $$ [Hxd Hw2]
      · isplitl [Hxd] <;> iassumption
      ihave Hdone := (done_nil (F := F) d L (outG fi ft d) (5 * k.val) (by omega)) $$ []
      · iempintro
      unfold Steady gFlight sFlight
      iexists _, _, _, _, _, _, _, _, _
      isplitr; swap
      ·
        isplitl [Hmw]; · iexact Hmw
        isplitl [Hxd]; · iexact Hxd
        isplitl [Hxt]; · iexact Hxt
        isplitl [Ht0]; · iexact Ht0
        isplitl [Ht1]; · iexact Ht1
        isplitl [Ht2]; · iexact Ht2
        isplitl [Ht3]; · iexact Ht3
        isplitl [Ht4]; · iexact Ht4
        isplitl [Hg0]; · iexact Hg0
        isplitl [Hg1]; · iexact Hg1
        isplitl [Hg2]; · iexact Hg2
        isplitl [Hs3]; · iexact Hs3
        isplitl [Hs4]; · iexact Hs4
        isplitl [Hg3]; · iexact Hg3
        isplitl [Hg4]; · iexact Hg4
        isplitl [Hs0]; · iexact Hs0
        isplitl [Hs1]; · iexact Hs1
        isplitl [Hs2]; · iexact Hs2
        isplitl [H0]; · iexact H0
        isplitl [H1]; · iexact H1
        isplitl [H2]; · iexact H2
        isplitl [Hdone]; · iexact Hdone
        isplitl [Hout]; · iexact Hout
        iexact HO
      ·
        ipureintro
        refine ⟨?_, ?_, ?_, ?_, ?_, ?_⟩
        · exact GatherFact_writes5 fi ft d L _ _ _ (gather_fact fi ft d L hin k 3 _ _)
        · exact GatherFact_writes6 fi ft d L _ _ _ (gather_fact fi ft d L hin k 4 _ _)
        · exact chunk_fact fi ft d L (k0_off8 L k) _ (5 * k.val) (off8_0 L k) (off8_1 L k) _ (GatherFact_writes2 fi ft d L _ _ _ (gather_fact fi ft d L hin k 0 _ _)) (fo d) _ (fun _ => rfl)
        · exact chunk_fact fi ft d L (k0_off10 L k) _ (5 * k.val + 1) (off10_0 L k) (off10_1 L k) _ (GatherFact_writes3 fi ft d L _ _ _ (gather_fact fi ft d L hin k 1 _ _)) (fo d) _ (fun _ => rfl)
        · exact chunk_fact fi ft d L (k0_off12 L k) _ (5 * k.val + 2) (off12_0 L k) (off12_1 L k) _ (GatherFact_writes4 fi ft d L _ _ _ (gather_fact fi ft d L hin k 2 _ _)) (fo d) _ (fun _ => rfl)
        · exact wf_ins _ (wf_ins _ (wf_ins _ (hW')))
  · unfold inv; rw [if_pos rfl]; unfold invX
    isplitl [Hmw2]; · iexact Hmw2
    isplitl [Hx']; · iexact Hx'
    isplitl [Ht0]; · iexact Ht0
    isplitl [Ht1]; · iexact Ht1
    isplitl [Ht2]; · iexact Ht2
    isplitl [Ht3]; · iexact Ht3
    isplitl [Ht4]; · iexact Ht4
    isplitl [H0']; · iexact H0'
    isplitl [H1']; · iexact H1'
    isplitl [H2']; · iexact H2'
    isplitl [H3']; · iexact H3'
    isplitl [H4']; · iexact H4'
    isplitl [Hg0]; · iexact Hg0
    isplitl [Hg1]; · iexact Hg1
    isplitl [Hg2]; · iexact Hg2
    isplitl [Hg3]; · iexact Hg3
    isplitl [Hg4]; · iexact Hg4
    isplitl [Hs0]; · iexact Hs0
    isplitl [Hs1]; · iexact Hs1
    isplitl [Hs2]; · iexact Hs2
    isplitl [Hs3]; · iexact Hs3
    isplitl [Hs4]; · iexact Hs4
    isplitl [Hout]; · iexact Hout
    iexists _; isplitr
    swap; · iexact HO
    ipureintro; intro p hp
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    exact .inl hp
  iintro %u HI
  obtain ⟨kl, hkl'⟩ : ∃ kl : Fin k0_t1_loop.trips, kl.val = 39 := ⟨⟨39, by decide⟩, rfl⟩
  have e40 : Scf.trips k0_t1_loop.lb k0_t1_loop.ub k0_t1_loop.st = kl.val + 1 := by rw [hkl']; decide
  have hlast : inv fi ft fo d L O W f0 f1 f2 f3 f4 (Scf.trips k0_t1_loop.lb k0_t1_loop.ub k0_t1_loop.st) u = Steady fi ft fo d L O W kl := by
    rw [e40]; exact inv_succ fi ft fo d L O W f0 f1 f2 f3 f4 kl u
  ihave HI := (Entails.of_eq hlast) $$ HI
  unfold Steady
  icases HI with ⟨%r0, %r1, %r2, %r3, %r4, %oc0, %oc1, %oc2, %W', %hf, Hmw, Hxd, Hxt, Ht0, Ht1, Ht2, Ht3, Ht4, Hg0, Hg1, Hg2, Hs3, Hs4, Fg3, Fg4, Fs0, Fs1, Fs2, H0, H1, H2, Hdone, Hout, HO⟩
  obtain ⟨hr3, hr4, hc0, hc1, hc2, hW'⟩ := hf
  -- the last two chunks, carved off the rows still to be written
  ihave Hc := (todo_carve (F := F) d L (fo d) (5 * kl.val + 3) (by omega)) $$ Hout
  icases Hc with ⟨Hc3, Hout⟩
  ihave Hc := (todo_carve (F := F) d L (fo d) (5 * kl.val + 4) (by omega)) $$ Hout
  icases Hc with ⟨Hc4, Hout⟩
  have e13a : (k0_off13 L 25344#32) 0 = base (cV L) (jV L) + 128 * (5 * kl.val + 3) := by
    have h := k0_off13_eq L ⟨0, by decide⟩
    simp only at h
    rw [h]; show 51200 * (L 1).val + 25600 * (L 0).val + 128 * 0 + 25344 = 25600 * (2 * (L 1).val + (L 0).val) + 128 * (5 * kl.val + 3); omega
  have e13b : (k0_off13 L 25472#32) 0 = base (cV L) (jV L) + 128 * (5 * kl.val + 4) := by
    have h := k0_off13_eq L ⟨1, by decide⟩
    simp only at h
    rw [h]; show 51200 * (L 1).val + 25600 * (L 0).val + 128 * 1 + 25344 = 25600 * (2 * (L 1).val + (L 0).val) + 128 * (5 * kl.val + 4); omega
  have h13a : (k0_off13 L 25344#32) 1 = 0 := by
    have h := k0_off13_eq L ⟨0, by decide⟩
    simp only at h
    rw [h]; rfl
  have h13b : (k0_off13 L 25472#32) 1 = 0 := by
    have h := k0_off13_eq L ⟨1, by decide⟩
    simp only at h
    rw [h]; rfl
  ihave Hc3 := (Entails.of_eq (pts_chunk (F := F) d L (k0_off13 L 25344#32) (k0_off13_inb L 0) _ e13a h13a (fo d)).symm) $$ Hc3
  ihave Hc4 := (Entails.of_eq (pts_chunk (F := F) d L (k0_off13 L 25472#32) (k0_off13_inb L 1) _ e13b h13b (fo d)).symm) $$ Hc4
  sl_exec
  sl_step
  -- the last five chunks join the written rows
  ihave Fs0_dst := (Entails.of_eq (pts_chunk (F := F) d L (k0_off8 L kl) (k0_off8_inb L kl (conds kl).2.2.2.2.2.1) _ (off8_0 L kl) (off8_1 L kl) oc0)) $$ Fs0_dst
  ihave Hdone := (done_join (F := F) d L (outG fi ft d) oc0 (5 * kl.val) hc0) $$ [Hdone Fs0_dst]
  · isplitl [Hdone] <;> iassumption
  ihave Fs1_dst := (Entails.of_eq (pts_chunk (F := F) d L (k0_off10 L kl) (k0_off10_inb L kl (conds kl).2.2.2.2.2.2.2.1) _ (off10_0 L kl) (off10_1 L kl) oc1)) $$ Fs1_dst
  ihave Hdone := (done_join (F := F) d L (outG fi ft d) oc1 (5 * kl.val + 1) hc1) $$ [Hdone Fs1_dst]
  · isplitl [Hdone] <;> iassumption
  ihave Fs2_dst := (Entails.of_eq (pts_chunk (F := F) d L (k0_off12 L kl) (k0_off12_inb L kl (conds kl).2.2.2.2.2.2.2.2.2) _ (off12_0 L kl) (off12_1 L kl) oc2)) $$ Fs2_dst
  ihave Hdone := (done_join (F := F) d L (outG fi ft d) oc2 (5 * kl.val + 2) hc2) $$ [Hdone Fs2_dst]
  · isplitl [Hdone] <;> iassumption
  ihave Hc3 := (Entails.of_eq (pts_chunk (F := F) d L (k0_off13 L 25344#32) (k0_off13_inb L 0) _ e13a h13a _)) $$ Hc3
  ihave Hdone := (done_join_any (F := F) fi ft d L (5 * kl.val + 3)) $$ [Hdone Hc3]
  · isplitl [Hdone]; · iexact Hdone
    iexists _; isplitr; swap; · iexact Hc3
    ipureintro
    exact chunk_fact fi ft d L (k0_off13 L 25344#32) (k0_off13_inb L 0) (5 * kl.val + 3) e13a h13a r3 hr3 (fo d) _ (fun _ => rfl)
  ihave Hc4 := (Entails.of_eq (pts_chunk (F := F) d L (k0_off13 L 25472#32) (k0_off13_inb L 1) _ e13b h13b _)) $$ Hc4
  ihave Hdone := (done_join_any (F := F) fi ft d L (5 * kl.val + 4)) $$ [Hdone Hc4]
  · isplitl [Hdone]; · iexact Hdone
    iexists _; isplitr; swap; · iexact Hc4
    ipureintro
    exact chunk_fact fi ft d L (k0_off13 L 25472#32) (k0_off13_inb L 1) (5 * kl.val + 4) e13b h13b r4 hr4 (fo d) _ (fun _ => rfl)
  -- the last two windows join the index list
  ihave Fg3_dst_and := (Entails.of_eq (pts_ixwin'' (F := F) d L kl 3 (5 * kl.val + 3) ((off3b kl 3 (by decide)).trans (by omega)) (ixc fi d L))) $$ Fg3_dst_and
  ihave Hxd := (ixdone_join (F := F) d L (ixc fi d L) (5 * kl.val + 3)) $$ [Hxd Fg3_dst_and]
  · isplitl [Hxd] <;> iassumption
  ihave Fg4_dst_and := (Entails.of_eq (pts_ixwin'' (F := F) d L kl 4 (5 * kl.val + 4) ((off3b kl 4 (by decide)).trans (by omega)) (ixc fi d L))) $$ Fg4_dst_and
  ihave Hxd := (ixdone_join (F := F) d L (ixc fi d L) (5 * kl.val + 4)) $$ [Hxd Fg4_dst_and]
  · isplitl [Hxd] <;> iassumption
  unfold tdRes
  rw [if_pos hj]
  isplitl [Hidx' Hdone Hshr Ht0 Ht1 Ht2 Ht3 Ht4 Htab' Hshrem]
  · isplitl [Hidx']; · iapply (Entails.of_eq (pts_idxK (F := F) d L _)); iexact Hidx'
    isplitl [Hdone]
    · iapply (Entails.of_eq (show (outLoc d ↦[doneSet L (5 * kl.val + 4 + 1)]{fullShare} outG fi ft d : sProp 𝕄)
          = outLoc d ↦[rowsSet (base (cV L) (jV L)) 25600]{fullShare} outG fi ft d by rw [hkl']))
      iexact Hdone
    isplitl [Hshr Ht0 Ht1 Ht2 Ht3 Ht4]
    · unfold shTok
      iapply (sh_toks (F := F) d L _).2
      isplitl [Hshr]; · iexact Hshr
      isplitl [Ht0]; · iexact Ht0
      isplitl [Ht1]; · iexact Ht1
      isplitl [Ht2]; · iexact Ht2
      isplitl [Ht3]; · iexact Ht3
      iexact Ht4
    isplitl [Htab']; · iapply (Entails.of_eq (pts_tab (F := F) d L _ _)); iexact Htab'
    iexact Hshrem
  isplitl [Hxd H0 H1 H2 Fg3_dst Fg4_dst Hbufs]
  · isplitl [Hxd H0 H1 H2 Fg3_dst Fg4_dst]
    · isplitl [Hxd]
      · iexists _
        iapply (Entails.of_eq (show (ixLoc d L ↦[ixDone (5 * kl.val + 4 + 1)]{fullShare} ixc fi d L : sProp 𝕄)
            = ((d, vb L 0) : Loc nD τ sig) ↦{fullShare} ixc fi d L by rw [hkl', show ixDone (5 * 39 + 4 + 1) = Finset.univ from ixSet_all]))
        iexact Hxd
      isplitl [H0]; · iexists _; iapply (Entails.of_eq (pts_r0 (F := F) d L _)); iexact H0
      isplitl [H1]; · iexists _; iapply (Entails.of_eq (pts_r1 (F := F) d L _)); iexact H1
      isplitl [H2]; · iexists _; iapply (Entails.of_eq (pts_r2 (F := F) d L _)); iexact H2
      isplitl [Fg3_dst]; · iexists _; iapply (Entails.of_eq (pts_r3 (F := F) d L _)); iexact Fg3_dst
      iexists _; iapply (Entails.of_eq (pts_r4 (F := F) d L _)); iexact Fg4_dst
    · iexact Hbufs
  isplitl [Hg0 Hg1 Hg2 Fg3 Fg4 Fs0 Fs1 Fs2 Hs3 Hs4 HsA HsB]
  ·
    isplitl [Hg0]; · iexact Hg0
    isplitl [Hg1]; · iexact Hg1
    isplitl [Hg2]; · iexact Hg2
    isplitl [Fg3]; · iexact Fg3
    isplitl [Fg4]; · iexact Fg4
    isplitl [Fs0]; · iexact Fs0
    isplitl [Fs1]; · iexact Fs1
    isplitl [Fs2]; · iexact Fs2
    isplitl [Hs3]; · iexact Hs3
    isplitl [Hs4]; · iexact Hs4
    isplitl [HsA]; · iexact HsA
    iexact HsB
  iexists _; isplitr
  swap; · iexact HO
  ipureintro
  exact wf_ins _ (wf_ins _ (wf_ins _ (wf_ins _ (wf_ins _ (wf_ins _ (wf_ins _ (hW')))))))

end Tile

end Cert.Proof.BitsSide

end
-- ==== Proof.BitsBody.lean ====
/-
  The task on any vector subcore of the lookup kernel: the statement the launch asks for, by cases on whether the
  subcore is subcore 0 (which also fills the shared copy of the table) or another.
-/
import proofs.«203224_g2765958938866_cont_9to1_225_22_alg».proof.Proof.BitsBodyOther
import proofs.«203224_g2765958938866_cont_9to1_225_22_alg».proof.Proof.BitsBodyZero

noncomputable section

namespace Cert.Proof.BitsSide

open Cert.Kernel Cert.Kernel.Gen
open Idealize.ShloMosaic

variable {F : FTy → Type}

/-- Every tile's task runs to its end and brings back its part of the result at the looked-up rows. -/
theorem tile_body [FloatOps F] (fi : (d : Dev nD) → Buf (Elt F) (idxLoc d)) (ft : (d : Dev nD) → Buf (Elt F) (tabLoc d)) (fo : (d : Dev nD) → Buf (Elt F) (outLoc d))
    (hin : ∀ d j, (fi d j).toNat < 64) : TileBody fi ft fo := by
  intro hF d L O W hO hOlev
  by_cases hj : (jV L).val = 0
  · exact tile_body_zero fi ft fo d L hin hj hF O W hO hOlev
  · exact tile_body_other fi ft fo d L hin hj hF O W hO hOlev

end Cert.Proof.BitsSide

end
-- ==== Proof.lean ====
/- The proof of `Cert.Claim`: the embedding lookup on the SparseCores against the table lookup in fill mode.

   Both programs compute, for an index array idx of shape [4096, 200] whose words lie in [0, 63] and a table of
   shape [64, 128], the array G with G[b, s, d] = table[idx[b, s], d].
   The reference moves negative indices up by 64, gathers with the index clamped into the table, and replaces
   the entries whose index is out of range; on the claim's domain none of the three does anything, and its result
   is G. The kernel flattens the indices to [819200], cuts them into 32 consecutive parts, one per vector subcore;
   subcore 0 of each SparseCore copies the table into the SparseCore's shared memory, a barrier hands a read share
   of the copy to every subcore, and each subcore gathers its rows out of the copy, tile by tile, into its part of
   the row-major result [819200, 128]; read at the shape [4096, 200, 128] that result is G again, since row-major
   position 200 b + s of the flattened indices is entry (b, s).
   The frames are the same runs with the statement about the result dropped. -/
import proofs.«203224_g2765958938866_cont_9to1_225_22_alg».proof.Defs
import proofs.«203224_g2765958938866_cont_9to1_225_22_alg».proof.Proof.Gen.Kernel
import proofs.«203224_g2765958938866_cont_9to1_225_22_alg».proof.Proof.Gen.Kernel.Skeleton
import proofs.«203224_g2765958938866_cont_9to1_225_22_alg».proof.Proof.Gen.KernelIdeal
import proofs.«203224_g2765958938866_cont_9to1_225_22_alg».proof.Proof.Gen.KernelIdeal.Skeleton
import proofs.«203224_g2765958938866_cont_9to1_225_22_alg».proof.Proof.Gen.ReferenceIdeal
import proofs.«203224_g2765958938866_cont_9to1_225_22_alg».proof.Proof.Gen.Pre_input_domain
import Idealize.ShloMosaic.Adequacy
import Idealize.ShloMosaic.Init
import proofs.«203224_g2765958938866_cont_9to1_225_22_alg».proof.Proof.Spec
import proofs.«203224_g2765958938866_cont_9to1_225_22_alg».proof.Proof.RefRange
import proofs.«203224_g2765958938866_cont_9to1_225_22_alg».proof.Proof.RefRun
import proofs.«203224_g2765958938866_cont_9to1_225_22_alg».proof.Proof.RefFrame
import proofs.«203224_g2765958938866_cont_9to1_225_22_alg».proof.Proof.ReshapeG
import proofs.«203224_g2765958938866_cont_9to1_225_22_alg».proof.Proof.ReshapeRange
import proofs.«203224_g2765958938866_cont_9to1_225_22_alg».proof.Proof.IdealLaunch
import proofs.«203224_g2765958938866_cont_9to1_225_22_alg».proof.Proof.BitsLaunch
import proofs.«203224_g2765958938866_cont_9to1_225_22_alg».proof.Proof.IdealBody
import proofs.«203224_g2765958938866_cont_9to1_225_22_alg».proof.Proof.BitsBody

noncomputable section

namespace Cert.Proof

open Idealize.ShloMosaic Idealize.SL.Sem Idealize.ShloMosaic.TcCoe

/-- Under the precondition every word of the flattened index array is below 64 (the kernel as printed). -/
theorem flat_lt_Bits (m : (ℓ : Loc Cert.Kernel.nD Cert.Kernel.τ Cert.Kernel.sig) → Buf (Elt Bits) ℓ) (hpre : Cert.Pre_Kernel m) :
    ∀ d j, (BitsSide.idxV m d j).toNat < 64 := fun d j =>
  Cert.Lookup.shapeCast_lt _ _ (Cert.RefSide.range_of_pre _ _ (hpre d)) j

/-- The same for the idealized kernel. -/
theorem flat_lt_Ideal (m : (ℓ : Loc Cert.KernelIdeal.nD Cert.KernelIdeal.τ Cert.KernelIdeal.sig) → Buf (Elt Ideal) ℓ) (hpre : Cert.Pre_KernelIdeal m) :
    ∀ d j, (IdealSide.idxV m d j).toNat < 64 := fun d j =>
  Cert.Lookup.shapeCast_lt _ _ (Cert.RefSide.range_of_pre _ _ (hpre d)) j

theorem frame_Kernel : Cert.frame_Kernel := fun m ρ hpre =>
  (θ_run _ _ _).mono (fun _ h c => ⟨(h c).2.1, (h c).2.2⟩)
    (BitsSide.run_main (F := Bits) m ρ (BitsSide.tile_body _ _ _ (flat_lt_Bits m hpre)))

theorem frame_KernelIdeal : Cert.frame_KernelIdeal := fun m ρ hpre =>
  (θ_run _ _ _).mono (fun _ h c => ⟨(h c).2.1, (h c).2.2⟩)
    (IdealSide.run_main (F := Ideal) m ρ (IdealSide.tile_body _ _ _ (flat_lt_Ideal m hpre)))

theorem algebraic : Cert.algebraic_KernelIdeal_ReferenceIdeal := fun m g m' g' hpre hagree =>
  have hpre' : Cert.Pre_ReferenceIdeal m' := fun c => by
    rw [(hagree c).1, (hagree c).2]; exact hpre c
  ⟨fun c => Cert.Lookup.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run _ _ _).mono (fun _ h c => ⟨(h c).1.trans (Cert.Lookup.reshape_Gflat _ _ _ _), (h c).2⟩)
      (IdealSide.run_main (F := Ideal) m g (IdealSide.tile_body _ _ _ (flat_lt_Ideal m hpre))),
    (θ_run _ _ _).mono (fun _ h c => ⟨(h c).1.trans (by rw [(hagree c).1, (hagree c).2]), (h c).2⟩)
      (Cert.RefSide.run m' g' hpre')⟩

theorem claim : Cert.Claim := ⟨Cert.Kernel.Gen.facts, Cert.KernelIdeal.Gen.facts, Cert.ReferenceIdeal.Gen.facts, Cert.Pre_input_domain.Gen.facts,
  frame_Kernel, frame_KernelIdeal, Cert.RefSide.frame, trivial, algebraic⟩

end Cert.Proof

end
